-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S5x128x128 : Shape := ⟨3, ![5, 128, 128]⟩
abbrev S5x128 : Shape := ⟨2, ![5, 128]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_
  slices_S2x600000_S1x600000_1_0 : S2x600000.Slices ![1, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part1 {F : FTy → Type} [FloatOps F] (main_arg1 : IVec S2x600000 32) (main_v13 : IVec S_ 1) (main_v15 : IVec S600000 32) (main_v16 : IVec S600000 32) : IVec S_ 1 :=
  let main_v17 : IVec S600000 1 := cmpi .sge main_v15 main_v16
  let main_v18 : IVec S1x600000 32 := (extractStridedSlice S1x600000 ![1, 0] · slices_S2x600000_S1x600000_1_0) main_arg1
  let main_v19 : IVec S600000 32 := shapeCast S600000 main_v18 shapeCasts_S1x600000_S600000
  let main_c_5 : IVec S_ 32 := constantI S_ 32 50000#32
  let main_v20 : IVec S600000 32 := broadcastInDim S600000 ![] bcast_S_S600000 main_c_5
  let main_v21 : IVec S600000 1 := cmpi .slt main_v19 main_v20
  let main_v22 : IVec S600000 1 := andi main_v17 main_v21
  let main_c_6 : IVec S_ 1 := constantI S_ 1 1#1
  let main_v23 : IVec S_ 1 := (fun x v => Host.reduce IntOp.andi x v reducesTo_S600000_S_d0 h_S_) main_v22 main_c_6
  let main_v24 : IVec S_ 1 := andi main_v13 main_v23
  main_v24

def fn {F : FTy → Type} [FloatOps F] (main_arg0 : FVec F S50000x128 .f32) (main_arg1 : IVec S2x600000 32) (main_arg2 : IVec S50000 32) (main_arg3 : FVec F S5x128x128 .f32) (main_arg4 : FVec F S5x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S5x128x128 .f32 := Host.absf main_arg3
  let main_cst_0 : FVec F S_ .f32 := constant S_ .f32 0x7F800000#32
  let main_v5 : FVec F S5x128x128 .f32 := broadcastInDim S5x128x128 ![] bcast_S_S5x128x128 main_cst_0
  let main_v6 : IVec S5x128x128 1 := cmpf .olt main_v4 main_v5
  let main_c_1 : IVec S_ 1 := constantI S_ 1 1#1
  let main_v7 : IVec S_ 1 := (fun x v => Host.reduce IntOp.andi x v reducesTo_S5x128x128_S_d0_1_2 h_S_) main_v6 main_c_1
  let main_v8 : IVec S_ 1 := andi main_v3 main_v7
  let main_v9 : FVec F S5x128 .f32 := Host.absf main_arg4
  let main_cst_2 : FVec F S_ .f32 := constant S_ .f32 0x7F800000#32
  let main_v10 : FVec F S5x128 .f32 := broadcastInDim S5x128 ![] bcast_S_S5x128 main_cst_2
  let main_v11 : IVec S5x128 1 := cmpf .olt main_v9 main_v10
  let main_c_3 : IVec S_ 1 := constantI S_ 1 1#1
  let main_v12 : IVec S_ 1 := (fun x v => Host.reduce IntOp.andi x v reducesTo_S5x128_S_d0_1 h_S_) main_v11 main_c_3
  let main_v13 : IVec S_ 1 := andi main_v8 main_v12
  let main_v14 : IVec S1x600000 32 := (extractStridedSlice S1x600000 ![1, 0] · slices_S2x600000_S1x600000_1_0) main_arg1
  let main_v15 : IVec S600000 32 := shapeCast S600000 main_v14 shapeCasts_S1x600000_S600000
  let main_c_4 : IVec S_ 32 := constantI S_ 32 0#32
  let main_v16 : IVec S600000 32 := broadcastInDim S600000 ![] bcast_S_S600000 main_c_4
  fn_part1 (F := F) main_arg1 main_v13 main_v15 main_v16
-- ==== Kernel.lean ====
abbrev S50000x128 : Shape := ⟨2, ![50000, 128]⟩
abbrev S2x600000 : Shape := ⟨2, ![2, 600000]⟩
abbrev S50000 : Shape := ⟨1, ![50000]⟩
abbrev S5x128x128 : Shape := ⟨3, ![5, 128, 128]⟩
abbrev S5x128 : Shape := ⟨2, ![5, 128]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S1x128x128 : Shape := ⟨3, ![1, 128, 128]⟩
abbrev S128x128 : Shape := ⟨2, ![128, 128]⟩
abbrev S5000x128 : Shape := ⟨2, ![5000, 128]⟩
abbrev S5000x1 : Shape := ⟨2, ![5000, 1]⟩
abbrev S650000x128 : Shape := ⟨2, ![650000, 128]⟩
abbrev S1x128 : Shape := ⟨2, ![1, 128]⟩
abbrev S128 : Shape := ⟨1, ![128]⟩
abbrev S50000x640 : Shape := ⟨2, ![50000, 640]⟩
abbrev S512x640 : Shape := ⟨2, ![512, 640]⟩

abbrev nBuf : Space → Nat
  | .hbm => 131
  | .vmem => 70
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S5x128x128, .f32⟩
  | 4 => ⟨S5x128, .f32⟩
  | 5 => ⟨S50000, .i32⟩
  | 6 => ⟨S1x600000, .i32⟩
  | 7 => ⟨S600000, .i32⟩
  | 8 => ⟨S650000, .i32⟩
  | 9 => ⟨S1x600000, .i32⟩
  | 10 => ⟨S600000, .i32⟩
  | 11 => ⟨S650000, .i32⟩
  | 12 => ⟨S_, .f32⟩
  | 13 => ⟨S650000, .f32⟩
  | 14 => ⟨S_, .f32⟩
  | 15 => ⟨S50000, .f32⟩
  | 16 => ⟨S650000x1, .i32⟩
  | 17 => ⟨S50000, .f32⟩
  | 18 => ⟨S50000, .f32⟩
  | 19 => ⟨S50000x1, .f32⟩
  | 20 => ⟨S5x128x128, .bf16⟩
  | 21 => ⟨S1x128x128, .bf16⟩
  | 22 => ⟨S128x128, .bf16⟩
  | 23 => ⟨S50000x128, .bf16⟩
  | 24 => ⟨S_, .i32⟩
  | 25 => ⟨S650000, .i32⟩
  | 26 => ⟨S650000, .i1⟩
  | 27 => ⟨S_, .i32⟩
  | 28 => ⟨S650000, .i32⟩
  | 29 => ⟨S650000, .i32⟩
  | 30 => ⟨S650000, .i32⟩
  | 31 => ⟨S650000x1, .i32⟩
  | 32 => ⟨S650000x128, .bf16⟩
  | 33 => ⟨S650000x128, .f32⟩
  | 34 => ⟨S_, .f32⟩
  | 35 => ⟨S50000x128, .f32⟩
  | 36 => ⟨S650000x1, .i32⟩
  | 37 => ⟨S50000x128, .f32⟩
  | 38 => ⟨S1x128, .f32⟩
  | 39 => ⟨S128, .f32⟩
  | 40 => ⟨S1x128, .f32⟩
  | 41 => ⟨S50000x128, .f32⟩
  | 42 => ⟨S1x128x128, .bf16⟩
  | 43 => ⟨S128x128, .bf16⟩
  | 44 => ⟨S50000x128, .bf16⟩
  | 45 => ⟨S_, .i32⟩
  | 46 => ⟨S650000, .i32⟩
  | 47 => ⟨S650000, .i1⟩
  | 48 => ⟨S_, .i32⟩
  | 49 => ⟨S650000, .i32⟩
  | 50 => ⟨S650000, .i32⟩
  | 51 => ⟨S650000, .i32⟩
  | 52 => ⟨S650000x1, .i32⟩
  | 53 => ⟨S650000x128, .bf16⟩
  | 54 => ⟨S650000x128, .f32⟩
  | 55 => ⟨S_, .f32⟩
  | 56 => ⟨S50000x128, .f32⟩
  | 57 => ⟨S650000x1, .i32⟩
  | 58 => ⟨S50000x128, .f32⟩
  | 59 => ⟨S1x128, .f32⟩
  | 60 => ⟨S128, .f32⟩
  | 61 => ⟨S1x128, .f32⟩
  | 62 => ⟨S50000x128, .f32⟩
  | 63 => ⟨S1x128x128, .bf16⟩
  | 64 => ⟨S128x128, .bf16⟩
  | 65 => ⟨S50000x128, .bf16⟩
  | 66 => ⟨S_, .i32⟩
  | 67 => ⟨S650000, .i32⟩
  | 68 => ⟨S650000, .i1⟩
  | 69 => ⟨S_, .i32⟩
  | 70 => ⟨S650000, .i32⟩
  | 71 => ⟨S650000, .i32⟩
  | 72 => ⟨S650000, .i32⟩
  | 73 => ⟨S650000x1, .i32⟩
  | 74 => ⟨S650000x128, .bf16⟩
  | 75 => ⟨S650000x128, .f32⟩
  | 76 => ⟨S_, .f32⟩
  | 77 => ⟨S50000x128, .f32⟩
  | 78 => ⟨S650000x1, .i32⟩
  | 79 => ⟨S50000x128, .f32⟩
  | 80 => ⟨S1x128, .f32⟩
  | 81 => ⟨S128, .f32⟩
  | 82 => ⟨S1x128, .f32⟩
  | 83 => ⟨S50000x128, .f32⟩
  | 84 => ⟨S1x128x128, .bf16⟩
  | 85 => ⟨S128x128, .bf16⟩
  | 86 => ⟨S50000x128, .bf16⟩
  | 87 => ⟨S_, .i32⟩
  | 88 => ⟨S650000, .i32⟩
  | 89 => ⟨S650000, .i1⟩
  | 90 => ⟨S_, .i32⟩
  | 91 => ⟨S650000, .i32⟩
  | 92 => ⟨S650000, .i32⟩
  | 93 => ⟨S650000, .i32⟩
  | 94 => ⟨S650000x1, .i32⟩
  | 95 => ⟨S650000x128, .bf16⟩
  | 96 => ⟨S650000x128, .f32⟩
  | 97 => ⟨S_, .f32⟩
  | 98 => ⟨S50000x128, .f32⟩
  | 99 => ⟨S650000x1, .i32⟩
  | 100 => ⟨S50000x128, .f32⟩
  | 101 => ⟨S1x128, .f32⟩
  | 102 => ⟨S128, .f32⟩
  | 103 => ⟨S1x128, .f32⟩
  | 104 => ⟨S50000x128, .f32⟩
  | 105 => ⟨S1x128x128, .bf16⟩
  | 106 => ⟨S128x128, .bf16⟩
  | 107 => ⟨S50000x128, .bf16⟩
  | 108 => ⟨S_, .i32⟩
  | 109 => ⟨S650000, .i32⟩
  | 110 => ⟨S650000, .i1⟩
  | 111 => ⟨S_, .i32⟩
  | 112 => ⟨S650000, .i32⟩
  | 113 => ⟨S650000, .i32⟩
  | 114 => ⟨S650000, .i32⟩
  | 115 => ⟨S650000x1, .i32⟩
  | 116 => ⟨S650000x128, .bf16⟩
  | 117 => ⟨S650000x128, .f32⟩
  | 118 => ⟨S_, .f32⟩
  | 119 => ⟨S50000x128, .f32⟩
  | 120 => ⟨S650000x1, .i32⟩
  | 121 => ⟨S50000x128, .f32⟩
  | 122 => ⟨S1x128, .f32⟩
  | 123 => ⟨S128, .f32⟩
  | 124 => ⟨S1x128, .f32⟩
  | 125 => ⟨S50000x128, .f32⟩
  | 126 => ⟨S50000x640, .f32⟩
  | 127 => ⟨S_, .f32⟩
  | _ => ⟨S50000x128, .f32⟩

abbrev hbmTy0_1 (i : Nat) : BufTy := match i % 128 with
  | 0 => ⟨S512x640, .f32⟩
  | 1 => ⟨S50000x1, .i32⟩
  | 2 => ⟨S512x640, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .bf16⟩
  | .local _ .vmem, ⟨17, _⟩ => ⟨S5000x1, .f32⟩
  | .local _ .vmem, ⟨18, _⟩ => ⟨S5000x1, .f32⟩
  | .local _ .vmem, ⟨19, _⟩ => ⟨S5000x128, .bf16⟩
  | .local _ .vmem, ⟨20, _⟩ => ⟨S5000x128, .bf16⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .bf16⟩
  | .local _ .vmem, ⟨31, _⟩ => ⟨S5000x1, .f32⟩
  | .local _ .vmem, ⟨32, _⟩ => ⟨S5000x1, .f32⟩
  | .local _ .vmem, ⟨33, _⟩ => ⟨S5000x128, .bf16⟩
  | .local _ .vmem, ⟨34, _⟩ => ⟨S5000x128, .bf16⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .bf16⟩
  | .local _ .vmem, ⟨45, _⟩ => ⟨S5000x1, .f32⟩
  | .local _ .vmem, ⟨46, _⟩ => ⟨S5000x1, .f32⟩
  | .local _ .vmem, ⟨47, _⟩ => ⟨S5000x128, .bf16⟩
  | .local _ .vmem, ⟨48, _⟩ => ⟨S5000x128, .bf16⟩
  | .local _ .vmem, ⟨49, _⟩ => ⟨S5000x128, .f32⟩
  | .local _ .vmem, ⟨50, _⟩ => ⟨S5000x128, .f32⟩
  | .local _ .vmem, ⟨51, _⟩ => ⟨S5000x1, .f32⟩
  | .local _ .vmem, ⟨52, _⟩ => ⟨S5000x1, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S128x128, .bf16⟩
  | .local _ .vmem, ⟨59, _⟩ => ⟨S5000x1, .f32⟩
  | .local _ .vmem, ⟨60, _⟩ => ⟨S5000x1, .f32⟩
  | .local _ .vmem, ⟨61, _⟩ => ⟨S5000x128, .bf16⟩
  | .local _ .vmem, ⟨62, _⟩ => ⟨S5000x128, .bf16⟩
  | .local _ .vmem, ⟨63, _⟩ => ⟨S5000x128, .f32⟩
  | .local _ .vmem, ⟨64, _⟩ => ⟨S5000x128, .f32⟩
  | .local _ .vmem, ⟨65, _⟩ => ⟨S5000x1, .f32⟩
  | .local _ .vmem, ⟨66, _⟩ => ⟨S5000x1, .f32⟩
  | .local _ .vmem, ⟨67, _⟩ => ⟨S1x128, .f32⟩
  | .local _ .vmem, ⟨68, _⟩ => ⟨S5000x128, .f32⟩
  | .local _ .vmem, ⟨69, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_3 : Ref sig .tc := ⟨.hbm, 45, rfl⟩
abbrev main_v35 : Ref sig .tc := ⟨.hbm, 46, rfl⟩
abbrev main_v36 : Ref sig .tc := ⟨.hbm, 47, rfl⟩
abbrev main_c_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_c_6 : Ref sig .tc := ⟨.hbm, 66, rfl⟩
abbrev main_v53 : Ref sig .tc := ⟨.hbm, 67, rfl⟩
abbrev main_v54 : Ref sig .tc := ⟨.hbm, 68, rfl⟩
abbrev main_c_7 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_c_9 : Ref sig .tc := ⟨.hbm, 87, rfl⟩
abbrev main_v71 : Ref sig .tc := ⟨.hbm, 88, rfl⟩
abbrev main_v72 : Ref sig .tc := ⟨.hbm, 89, rfl⟩
abbrev main_c_10 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_11 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_c_12 : Ref sig .tc := ⟨.hbm, 108, rfl⟩
abbrev main_v89 : Ref sig .tc := ⟨.hbm, 109, rfl⟩
abbrev main_v90 : Ref sig .tc := ⟨.hbm, 110, rfl⟩
abbrev main_c_13 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_cst_14 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_cst_15 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc6_stg3_0 : Ref sig .tc := ⟨.vmem, 47, rfl⟩
abbrev cc6_stg3_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg3_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg2_1 : Ref sig .tc := ⟨.vmem, 60, rfl⟩
abbrev cc8_stg3_0 : Ref sig .tc := ⟨.vmem, 61, rfl⟩
abbrev cc8_stg3_1 : Ref sig .tc := ⟨.vmem, 62, rfl⟩
abbrev cc9_stg0_0 : Ref sig .tc := ⟨.vmem, 63, rfl⟩
abbrev cc9_stg0_1 : Ref sig .tc := ⟨.vmem, 64, rfl⟩
abbrev cc9_stg1_0 : Ref sig .tc := ⟨.vmem, 65, rfl⟩
abbrev cc9_stg1_1 : Ref sig .tc := ⟨.vmem, 66, rfl⟩
abbrev cc9_stg2_0 : Ref sig .tc := ⟨.vmem, 67, rfl⟩
abbrev cc9_stg3_0 : Ref sig .tc := ⟨.vmem, 68, rfl⟩
abbrev cc9_stg3_1 : Ref sig .tc := ⟨.vmem, 69, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc6_sem3_0 : DmaSem sig := 47
abbrev cc6_sem3_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem3_0 : DmaSem sig := 54
abbrev cc7_sem3_1 : DmaSem sig := 55
abbrev cc8_sem0_0 : DmaSem sig := 56
abbrev cc8_sem0_1 : DmaSem sig := 57
abbrev cc8_sem1_0 : DmaSem sig := 58
abbrev cc8_sem2_0 : DmaSem sig := 59
abbrev cc8_sem2_1 : DmaSem sig := 60
abbrev cc8_sem3_0 : DmaSem sig := 61
abbrev cc8_sem3_1 : DmaSem sig := 62
abbrev cc9_sem0_0 : DmaSem sig := 63
abbrev cc9_sem0_1 : DmaSem sig := 64
abbrev cc9_sem1_0 : DmaSem sig := 65
abbrev cc9_sem1_1 : DmaSem sig := 66
abbrev cc9_sem2_0 : DmaSem sig := 67
abbrev cc9_sem3_0 : DmaSem sig := 68
abbrev cc9_sem3_1 : DmaSem sig := 69

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x128 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S5000x128 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  shapeCasts_S50000_S50000x1 : S50000.ShapeCasts S50000x1
  bitsLt_bf16_f32 : FTy.bits .bf16 < FTy.bits .f32
  slices_S5x128x128_S1x128x128_0_0_0 : S5x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  slices_S5x128_S1x128_0_0 : S5x128.Slices ![0, 0] S1x128
  shapeCasts_S1x128_S128 : S1x128.ShapeCasts S128
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  concatenates_S50000x128_S50000x128_S50000x128_S50000x128_S50000x128_S50000x640_d1 : Shape.Concatenates [S50000x128, S50000x128, S50000x128, S50000x128, S50000x128] S50000x640 1
  bcast_S_S512x640 : S_.BroadcastsInDim S512x640 (![] : Fin 0 → Fin S512x640.rank)
  bcast_S50000_S50000x1_0 : S50000.BroadcastsInDim S50000x1 (![0] : Fin 1 → Fin S50000x1.rank)
  scatter_S50000_S650000x1_S650000_n_0_0_1_wf : ScatterDims.WF S50000 S650000x1 S650000 [] [0] [0] 1
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S512x640_S50000x1_S50000x640_1_0_0_1_wf : ScatterDims.WF S512x640 S50000x1 S50000x640 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .bf16 = 32 ∨ (Rect.block (s := S50000x128) S5000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .bf16 = 32 ∨ (Rect.block (s := S128x128) S128x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .bf16 = 32 ∨ (Rect.block (s := S50000x128) S5000x128.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .bf16 = 32 ∨ (Rect.block (s := S128x128) S128x128.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S50000x1.size a
  hwx6_2 : ∀ i : grid6.Coords, EltTy.bits .f32 = 32 ∨ (Rect.block (s := S50000x1) S5000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .bf16 = 32 ∨ (Rect.block (s := S50000x128) S5000x128.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S50000x1.size a
  hwx7_1 : ∀ i : grid7.Coords, EltTy.bits .f32 = 32 ∨ (Rect.block (s := S50000x1) S5000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S50000x128.size a
  hwx7_3 : ∀ i : grid7.Coords, EltTy.bits .f32 = 32 ∨ (Rect.block (s := S50000x128) S5000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .bf16 = 32 ∨ (Rect.block (s := S128x128) S128x128.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x1.size a ≤ S50000x1.size a
  hwx8_2 : ∀ i : grid8.Coords, EltTy.bits .f32 = 32 ∨ (Rect.block (s := S50000x1) S5000x1.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x128.size a ≤ S50000x128.size a
  hwx8_3 : ∀ i : grid8.Coords, EltTy.bits .bf16 = 32 ∨ (Rect.block (s := S50000x128) S5000x128.size (cc8_transform_3 i) (hinb8_3 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x1.size a ≤ S50000x1.size a
  hwx9_1 : ∀ i : grid9.Coords, EltTy.bits .f32 = 32 ∨ (Rect.block (s := S50000x1) S5000x1.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x128.size a ≤ S50000x128.size a
  hwx9_3 : ∀ i : grid9.Coords, EltTy.bits .f32 = 32 ∨ (Rect.block (s := S50000x128) S5000x128.size (cc9_transform_3 i) (hinb9_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S512x640_S50000x1_S50000x640_1_0_0_1 : ScatterDims S512x640 S50000x1 S50000x640 where
  updateWindowDims := [1]
  insertedWindowDims := [0]
  scatterDimsToOperandDims := [0]
  indexVectorDim := 1
  wf := scatter_S512x640_S50000x1_S50000x640_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v34) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v45) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v48) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v49) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v12) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v52) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v63) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v12) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v66) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v67) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v67) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v69) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v12) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v70) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v81) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v12) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v84) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v85) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v85) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v87) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v12) S5000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v88) S5000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v99) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v12) S5000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v102) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v103) S5000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S5x128x128 : Shape := ⟨3, ![5, 128, 128]⟩
abbrev S5x128 : Shape := ⟨2, ![5, 128]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S1x128x128 : Shape := ⟨3, ![1, 128, 128]⟩
abbrev S128x128 : Shape := ⟨2, ![128, 128]⟩
abbrev S650000x128 : Shape := ⟨2, ![650000, 128]⟩
abbrev S1x128 : Shape := ⟨2, ![1, 128]⟩
abbrev S128 : Shape := ⟨1, ![128]⟩
abbrev S512x128 : Shape := ⟨2, ![512, 128]⟩
abbrev S50000x1 : Shape := ⟨2, ![50000, 1]⟩
abbrev S512x640 : Shape := ⟨2, ![512, 640]⟩

abbrev nBuf : Space → Nat
  | .hbm => 197
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S5x128x128, .f32⟩
  | 4 => ⟨S5x128, .f32⟩
  | 5 => ⟨S50000, .i32⟩
  | 6 => ⟨S1x600000, .i32⟩
  | 7 => ⟨S600000, .i32⟩
  | 8 => ⟨S650000, .i32⟩
  | 9 => ⟨S1x600000, .i32⟩
  | 10 => ⟨S600000, .i32⟩
  | 11 => ⟨S650000, .i32⟩
  | 12 => ⟨S_, .f32⟩
  | 13 => ⟨S50000, .f32⟩
  | 14 => ⟨S_, .i32⟩
  | 15 => ⟨S650000, .i32⟩
  | 16 => ⟨S650000, .i1⟩
  | 17 => ⟨S_, .i32⟩
  | 18 => ⟨S650000, .i32⟩
  | 19 => ⟨S650000, .i32⟩
  | 20 => ⟨S650000, .i32⟩
  | 21 => ⟨S650000x1, .i32⟩
  | 22 => ⟨S_, .f32⟩
  | 23 => ⟨S650000, .f32⟩
  | 24 => ⟨S50000, .f32⟩
  | 25 => ⟨S50000, .f32⟩
  | 26 => ⟨S_, .i32⟩
  | 27 => ⟨S650000, .i32⟩
  | 28 => ⟨S650000, .i1⟩
  | 29 => ⟨S_, .i32⟩
  | 30 => ⟨S650000, .i32⟩
  | 31 => ⟨S650000, .i32⟩
  | 32 => ⟨S650000, .i32⟩
  | 33 => ⟨S650000x1, .i32⟩
  | 34 => ⟨S650000, .f32⟩
  | 35 => ⟨S_, .i32⟩
  | 36 => ⟨S650000, .i32⟩
  | 37 => ⟨S650000, .i1⟩
  | 38 => ⟨S_, .i32⟩
  | 39 => ⟨S650000, .i32⟩
  | 40 => ⟨S650000, .i32⟩
  | 41 => ⟨S650000, .i32⟩
  | 42 => ⟨S650000x1, .i32⟩
  | 43 => ⟨S650000, .f32⟩
  | 44 => ⟨S650000, .f32⟩
  | 45 => ⟨S650000x1, .f32⟩
  | 46 => ⟨S1x128x128, .f32⟩
  | 47 => ⟨S128x128, .f32⟩
  | 48 => ⟨S50000x128, .f32⟩
  | 49 => ⟨S_, .i32⟩
  | 50 => ⟨S650000, .i32⟩
  | 51 => ⟨S650000, .i1⟩
  | 52 => ⟨S_, .i32⟩
  | 53 => ⟨S650000, .i32⟩
  | 54 => ⟨S650000, .i32⟩
  | 55 => ⟨S650000, .i32⟩
  | 56 => ⟨S650000x1, .i32⟩
  | 57 => ⟨S650000x128, .f32⟩
  | 58 => ⟨S650000x128, .f32⟩
  | 59 => ⟨S650000x128, .f32⟩
  | 60 => ⟨S_, .f32⟩
  | 61 => ⟨S50000x128, .f32⟩
  | 62 => ⟨S650000x1, .i32⟩
  | 63 => ⟨S50000x128, .f32⟩
  | 64 => ⟨S1x128, .f32⟩
  | 65 => ⟨S128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S1x128x128, .f32⟩
  | 73 => ⟨S128x128, .f32⟩
  | 74 => ⟨S50000x128, .f32⟩
  | 75 => ⟨S_, .i32⟩
  | 76 => ⟨S650000, .i32⟩
  | 77 => ⟨S650000, .i1⟩
  | 78 => ⟨S_, .i32⟩
  | 79 => ⟨S650000, .i32⟩
  | 80 => ⟨S650000, .i32⟩
  | 81 => ⟨S650000, .i32⟩
  | 82 => ⟨S650000x1, .i32⟩
  | 83 => ⟨S650000x128, .f32⟩
  | 84 => ⟨S650000x128, .f32⟩
  | 85 => ⟨S650000x128, .f32⟩
  | 86 => ⟨S_, .f32⟩
  | 87 => ⟨S50000x128, .f32⟩
  | 88 => ⟨S650000x1, .i32⟩
  | 89 => ⟨S50000x128, .f32⟩
  | 90 => ⟨S1x128, .f32⟩
  | 91 => ⟨S128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S1x128x128, .f32⟩
  | 99 => ⟨S128x128, .f32⟩
  | 100 => ⟨S50000x128, .f32⟩
  | 101 => ⟨S_, .i32⟩
  | 102 => ⟨S650000, .i32⟩
  | 103 => ⟨S650000, .i1⟩
  | 104 => ⟨S_, .i32⟩
  | 105 => ⟨S650000, .i32⟩
  | 106 => ⟨S650000, .i32⟩
  | 107 => ⟨S650000, .i32⟩
  | 108 => ⟨S650000x1, .i32⟩
  | 109 => ⟨S650000x128, .f32⟩
  | 110 => ⟨S650000x128, .f32⟩
  | 111 => ⟨S650000x128, .f32⟩
  | 112 => ⟨S_, .f32⟩
  | 113 => ⟨S50000x128, .f32⟩
  | 114 => ⟨S650000x1, .i32⟩
  | 115 => ⟨S50000x128, .f32⟩
  | 116 => ⟨S1x128, .f32⟩
  | 117 => ⟨S128, .f32⟩
  | 118 => ⟨S1x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S1x128x128, .f32⟩
  | 125 => ⟨S128x128, .f32⟩
  | 126 => ⟨S50000x128, .f32⟩
  | 127 => ⟨S_, .i32⟩
  | _ => ⟨S50000x128, .f32⟩

abbrev hbmTy0_1 (i : Nat) : BufTy := match i % 128 with
  | 0 => ⟨S650000, .i32⟩
  | 1 => ⟨S650000, .i1⟩
  | 2 => ⟨S_, .i32⟩
  | 3 => ⟨S650000, .i32⟩
  | 4 => ⟨S650000, .i32⟩
  | 5 => ⟨S650000, .i32⟩
  | 6 => ⟨S650000x1, .i32⟩
  | 7 => ⟨S650000x128, .f32⟩
  | 8 => ⟨S650000x128, .f32⟩
  | 9 => ⟨S650000x128, .f32⟩
  | 10 => ⟨S_, .f32⟩
  | 11 => ⟨S50000x128, .f32⟩
  | 12 => ⟨S650000x1, .i32⟩
  | 13 => ⟨S50000x128, .f32⟩
  | 14 => ⟨S1x128, .f32⟩
  | 15 => ⟨S128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S1x128x128, .f32⟩
  | 23 => ⟨S128x128, .f32⟩
  | 24 => ⟨S50000x128, .f32⟩
  | 25 => ⟨S_, .i32⟩
  | 26 => ⟨S650000, .i32⟩
  | 27 => ⟨S650000, .i1⟩
  | 28 => ⟨S_, .i32⟩
  | 29 => ⟨S650000, .i32⟩
  | 30 => ⟨S650000, .i32⟩
  | 31 => ⟨S650000, .i32⟩
  | 32 => ⟨S650000x1, .i32⟩
  | 33 => ⟨S650000x128, .f32⟩
  | 34 => ⟨S650000x128, .f32⟩
  | 35 => ⟨S650000x128, .f32⟩
  | 36 => ⟨S_, .f32⟩
  | 37 => ⟨S50000x128, .f32⟩
  | 38 => ⟨S650000x1, .i32⟩
  | 39 => ⟨S50000x128, .f32⟩
  | 40 => ⟨S1x128, .f32⟩
  | 41 => ⟨S128, .f32⟩
  | 42 => ⟨S1x128, .f32⟩
  | 43 => ⟨S50000x128, .f32⟩
  | 44 => ⟨S50000x128, .f32⟩
  | 45 => ⟨S_, .f32⟩
  | 46 => ⟨S50000x128, .f32⟩
  | 47 => ⟨S50000x128, .f32⟩
  | 48 => ⟨S_, .f32⟩
  | 49 => ⟨S512x128, .f32⟩
  | 50 => ⟨S50000x1, .i32⟩
  | 51 => ⟨S512x128, .f32⟩
  | 52 => ⟨S_, .f32⟩
  | 53 => ⟨S512x128, .f32⟩
  | 54 => ⟨S50000x1, .i32⟩
  | 55 => ⟨S512x128, .f32⟩
  | 56 => ⟨S_, .f32⟩
  | 57 => ⟨S512x128, .f32⟩
  | 58 => ⟨S50000x1, .i32⟩
  | 59 => ⟨S512x128, .f32⟩
  | 60 => ⟨S_, .f32⟩
  | 61 => ⟨S512x128, .f32⟩
  | 62 => ⟨S50000x1, .i32⟩
  | 63 => ⟨S512x128, .f32⟩
  | 64 => ⟨S_, .f32⟩
  | 65 => ⟨S512x128, .f32⟩
  | 66 => ⟨S50000x1, .i32⟩
  | 67 => ⟨S512x128, .f32⟩
  | 68 => ⟨S512x640, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_v36 : Ref sig .tc := ⟨.hbm, 50, rfl⟩
abbrev main_v37 : Ref sig .tc := ⟨.hbm, 51, rfl⟩
abbrev main_c_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_call0_cst : Ref sig .tc := ⟨.hbm, 69, rfl⟩
abbrev main_call0_v0 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c_9 : Ref sig .tc := ⟨.hbm, 75, rfl⟩
abbrev main_v57 : Ref sig .tc := ⟨.hbm, 76, rfl⟩
abbrev main_v58 : Ref sig .tc := ⟨.hbm, 77, rfl⟩
abbrev main_c_10 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_call1_cst : Ref sig .tc := ⟨.hbm, 95, rfl⟩
abbrev main_call1_v0 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_c_12 : Ref sig .tc := ⟨.hbm, 101, rfl⟩
abbrev main_v78 : Ref sig .tc := ⟨.hbm, 102, rfl⟩
abbrev main_v79 : Ref sig .tc := ⟨.hbm, 103, rfl⟩
abbrev main_c_13 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_14 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_call2_cst : Ref sig .tc := ⟨.hbm, 121, rfl⟩
abbrev main_call2_v0 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_c_15 : Ref sig .tc := ⟨.hbm, 127, rfl⟩
abbrev main_v99 : Ref sig .tc := ⟨.hbm, 128, rfl⟩
abbrev main_v100 : Ref sig .tc := ⟨.hbm, 129, rfl⟩
abbrev main_c_16 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_17 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_call3_cst : Ref sig .tc := ⟨.hbm, 147, rfl⟩
abbrev main_call3_v0 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_c_18 : Ref sig .tc := ⟨.hbm, 153, rfl⟩
abbrev main_v120 : Ref sig .tc := ⟨.hbm, 154, rfl⟩
abbrev main_v121 : Ref sig .tc := ⟨.hbm, 155, rfl⟩
abbrev main_c_19 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_cst_20 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_call4_cst : Ref sig .tc := ⟨.hbm, 173, rfl⟩
abbrev main_call4_v0 : Ref sig .tc := ⟨.hbm, 174, rfl⟩
abbrev main_v137 : Ref sig .tc := ⟨.hbm, 175, rfl⟩
abbrev main_cst_21 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_cst_22 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_cst_23 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_cst_24 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_cst_25 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S_S650000 : S_.BroadcastsInDim S650000 (![] : Fin 0 → Fin S650000.rank)
  bcast_S650000_S650000x1_0 : S650000.BroadcastsInDim S650000x1 (![0] : Fin 1 → Fin S650000x1.rank)
  slices_S5x128x128_S1x128x128_0_0_0 : S5x128x128.Slices ![0, 0, 0] S1x128x128
  shapeCasts_S1x128x128_S128x128 : S1x128x128.ShapeCasts S128x128
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S_S512x128 : S_.BroadcastsInDim S512x128 (![] : Fin 0 → Fin S512x128.rank)
  bcast_S50000_S50000x1_0 : S50000.BroadcastsInDim S50000x1 (![0] : Fin 1 → Fin S50000x1.rank)
  concatenates_S512x128_S512x128_S512x128_S512x128_S512x128_S512x640_d1 : Shape.Concatenates [S512x128, S512x128, S512x128, S512x128, S512x128] S512x640 1
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S512x128_S50000x1_S50000x128_1_0_0_1_wf : ScatterDims.WF S512x128 S50000x1 S50000x128 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf

class Facts : Prop extends Facts₀ where

variable [Facts]
-- ==== Proof.KB.Reg0.lean ====
import proofs.«156050_j29892972380736_2_alg».proof.Proof.Gen.Kernel.Launch
import proofs.«156050_j29892972380736_2_alg».proof.Proof.Gen.Kernel.Skeleton
import proofs.«156050_j29892972380736_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # REGION 0 of @main: custom_call 0, the row-scaled product `(h · W) * dinv` on blocks of 5000 rows (pipeline 0),
    at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): where the window is not
    fetched its block index has not moved since the point before, so the block left there is this point's; the
    window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): where the window is not
    fetched its block index has not moved since the point before, so the block left there is this point's; the
    window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): where the window is not
    fetched its block index has not moved since the point before, so the block left there is this point's; the
    window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 5000x128 buffer (read of the features, and the one store). -/
abbrev r0_0 : Rect S5000x128 := Rect.unit (s := S5000x128) ![0, 0] S5000x128.size inb_S5000x128_S5000x128_0_0
/-- The whole 128x128 buffer (read of the weights). -/
abbrev r0_1 : Rect S128x128 := Rect.unit (s := S128x128) ![0, 0] S128x128.size inb_S128x128_S128x128_0_0
/-- The whole 5000x1 buffer (read of the row scales). -/
abbrev r0_2 : Rect S5000x1 := Rect.unit (s := S5000x1) ![0, 0] S5000x1.size inb_S5000x1_S5000x1_0_0

/-! ## What the body leaves in the output window's buffer -/

/-- Window 3's staging buffer after the body, from the three input windows' blocks: its one store, of the payload
    `(x0 · x1) * x2` rounded to bf16, over the whole buffer. -/
def out0_3 (x0 : Vec F S5000x128 .f32) (x1 : Vec F S128x128 .bf16) (x2 : Vec F S5000x1 .f32) : Vec F S5000x128 .bf16 :=
  View.canon [⟨r0_0, k0_pay1 (View.ld x0 r0_0) (View.ld x1 r0_1) (View.ld x2 r0_2)⟩]

/-- Its one store is of the whole buffer, so it covers it. -/
theorem cover0_3 (p0 : Vec F S5000x128 .bf16) (y : S5000x128.Idx) :
    ∃ pc ∈ ([⟨r0_0, p0⟩] : List (View.Piece (Elt F) S5000x128 .bf16)), y ∈ pc.1.set :=
  View.cover_of_tiled [⟨r0_0, p0⟩] S5000x128.size (by rfl) y

/-! ## The body's triple -/

set_option maxHeartbeats 1000000 in
/-- The kernel body on whole staging memrefs, the inputs' at read contents `x0 x1 x2` and the output's at anything, runs
    to the continuation holding the inputs' as they were and the output's at `out0_3` of the inputs': the printed
    function is its sequence of three loads, one (unused) load of the output buffer and one store of the payload. -/
theorem sound_kernel0 (c : Dev nD) (E : Set ℕ) (i : grid0.Coords) (arg1 : Memref sig .tc .vmem S5000x128 .f32) (harg1 : arg1.IsWhole) (arg2 : Memref sig .tc .vmem S128x128 .bf16) (harg2 : arg2.IsWhole) (arg3 : Memref sig .tc .vmem S5000x1 .f32) (harg3 : arg3.IsWhole) (arg4 : Memref sig .tc .vmem S5000x128 .bf16) (harg4 : arg4.IsWhole)
    (x0 : Vec F S5000x128 .f32) (x1 : Vec F S128x128 .bf16) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's case split reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.KB.Reg1.lean ====
import proofs.«156050_j29892972380736_2_alg».proof.Proof.Gen.Kernel.Launch
import proofs.«156050_j29892972380736_2_alg».proof.Proof.Gen.Kernel.Skeleton
import proofs.«156050_j29892972380736_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The class-A half of one bias-and-rectify region of the graph convolution, at a parameter `V` (the
    TensorCore's buffer contents when the region is entered): each window's block at a grid point, the contents
    the body leaves in the output window's buffer, the body's triple, the pipeline's proof data and its body
    obligation. The region computes, block by block of 5000 rows, `max (agg * dinv + bias) 0`: window 0 is
    the aggregate block, window 1 the inverse-degree column block, window 2 the bias row (one block, fetched
    once), window 3 the output block. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): at a point where it is fetched the buffer holds the fetched block; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): as for window 0. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): the bias row is fetched at the first point only, and its block index is the same at every point, so at a later point the buffer still holds what the body left at the point before, which is that point's block and therefore this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S5000x128 := Rect.unit (s := S5000x128) ![0, 0] S5000x128.size inb_S5000x128_S5000x128_0_0
abbrev r1_1 : Rect S5000x1 := Rect.unit (s := S5000x1) ![0, 0] S5000x1.size inb_S5000x1_S5000x1_0_0
abbrev r1_2 : Rect S1x128 := Rect.unit (s := S1x128) ![0, 0] S1x128.size inb_S1x128_S1x128_0_0

/-! ## What the body leaves in the output window's buffer -/

/-- Window 3's staging buffer after the body, from the three input windows' blocks: its one store, of the
    payload `max (x0 * x1 + x2) 0` (the column `x1` and the row `x2` broadcast), over the whole buffer. -/
def out1_3 (x0 : Vec F S5000x128 .f32) (x1 : Vec F S5000x1 .f32) (x2 : Vec F S1x128 .f32) : Vec F S5000x128 .f32 :=
  View.canon [⟨r1_0, k1_pay1 (View.ld x0 r1_0) (View.ld x1 r1_1) (View.ld x2 r1_2)⟩]

/-- The one store is the whole buffer, so it covers it. -/
theorem cover1_3 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the inputs' at contents `x0 x1 x2` and the output's at anything,
    runs to the continuation holding the inputs' as they were and the output's at `out1_3 x0 x1 x2`: the
    printed function is its skeleton of three loads, a load of the output buffer whose value is unused, and one
    store of the payload over the whole output buffer. -/
theorem sound_kernel1 (c : Dev nD) (E : Set ℕ) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S5000x1 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__bias_relu_kernel i arg1 harg1 arg2 harg2 arg3 harg3 arg4 harg4) K := by
  simp only [cc1__bias_relu_kernel_eq_skeleton]; unfold cc1__bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this region's pipeline on core `c`: the arrays as the region finds them (`V`); after the
    body at point `t` each input's buffer at its block and the output's at `out1_3` of the input blocks; the
    invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's owed transfers pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Reg2.lean ====
import proofs.«156050_j29892972380736_2_alg».proof.Proof.Gen.Kernel.Launch
import proofs.«156050_j29892972380736_2_alg».proof.Proof.Gen.Kernel.Skeleton
import proofs.«156050_j29892972380736_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # REGION 2 of @main: custom_call 2, the row-scaled product `(h · W) * dinv` on blocks of 5000 rows (pipeline 2),
    at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): where the window is not
    fetched its block index has not moved since the point before, so the block left there is this point's; the
    window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): where the window is not
    fetched its block index has not moved since the point before, so the block left there is this point's; the
    window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): where the window is not
    fetched its block index has not moved since the point before, so the block left there is this point's; the
    window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 5000x128 buffer (read of the features, and the one store). -/
abbrev r2_0 : Rect S5000x128 := Rect.unit (s := S5000x128) ![0, 0] S5000x128.size inb_S5000x128_S5000x128_0_0
/-- The whole 128x128 buffer (read of the weights). -/
abbrev r2_1 : Rect S128x128 := Rect.unit (s := S128x128) ![0, 0] S128x128.size inb_S128x128_S128x128_0_0
/-- The whole 5000x1 buffer (read of the row scales). -/
abbrev r2_2 : Rect S5000x1 := Rect.unit (s := S5000x1) ![0, 0] S5000x1.size inb_S5000x1_S5000x1_0_0

/-! ## What the body leaves in the output window's buffer -/

/-- Window 3's staging buffer after the body, from the three input windows' blocks: its one store, of the payload
    `(x0 · x1) * x2` rounded to bf16, over the whole buffer. -/
def out2_3 (x0 : Vec F S5000x128 .f32) (x1 : Vec F S128x128 .bf16) (x2 : Vec F S5000x1 .f32) : Vec F S5000x128 .bf16 :=
  View.canon [⟨r2_0, k2_pay1 (View.ld x0 r2_0) (View.ld x1 r2_1) (View.ld x2 r2_2)⟩]

/-- Its one store is of the whole buffer, so it covers it. -/
theorem cover2_3 (p0 : Vec F S5000x128 .bf16) (y : S5000x128.Idx) :
    ∃ pc ∈ ([⟨r2_0, p0⟩] : List (View.Piece (Elt F) S5000x128 .bf16)), y ∈ pc.1.set :=
  View.cover_of_tiled [⟨r2_0, p0⟩] S5000x128.size (by rfl) y

/-! ## The body's triple -/

set_option maxHeartbeats 1000000 in
/-- The kernel body on whole staging memrefs, the inputs' at read contents `x0 x1 x2` and the output's at anything, runs
    to the continuation holding the inputs' as they were and the output's at `out2_3` of the inputs': the printed
    function is its sequence of three loads, one (unused) load of the output buffer and one store of the payload. -/
theorem sound_kernel2 (c : Dev nD) (E : Set ℕ) (i : grid2.Coords) (arg1 : Memref sig .tc .vmem S5000x128 .f32) (harg1 : arg1.IsWhole) (arg2 : Memref sig .tc .vmem S128x128 .bf16) (harg2 : arg2.IsWhole) (arg3 : Memref sig .tc .vmem S5000x1 .f32) (harg3 : arg3.IsWhole) (arg4 : Memref sig .tc .vmem S5000x128 .bf16) (harg4 : arg4.IsWhole)
    (x0 : Vec F S5000x128 .f32) (x1 : Vec F S128x128 .bf16) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__matmul_kernel i arg1 harg1 arg2 harg2 arg3 harg3 arg4 harg4) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point `t`
    each input's buffer at its block and the output's at `out2_3` of the input blocks; the invariant is the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the definition's case split reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's owed count pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.KB.Reg3.lean ====
import proofs.«156050_j29892972380736_2_alg».proof.Proof.Gen.Kernel.Launch
import proofs.«156050_j29892972380736_2_alg».proof.Proof.Gen.Kernel.Skeleton
import proofs.«156050_j29892972380736_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The class-A half of one bias-and-rectify region of the graph convolution, at a parameter `V` (the
    TensorCore's buffer contents when the region is entered): each window's block at a grid point, the contents
    the body leaves in the output window's buffer, the body's triple, the pipeline's proof data and its body
    obligation. The region computes, block by block of 5000 rows, `max (agg * dinv + bias) 0`: window 0 is
    the aggregate block, window 1 the inverse-degree column block, window 2 the bias row (one block, fetched
    once), window 3 the output block. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): at a point where it is fetched the buffer holds the fetched block; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): as for window 0. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): the bias row is fetched at the first point only, and its block index is the same at every point, so at a later point the buffer still holds what the body left at the point before, which is that point's block and therefore this point's. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S5000x128 := Rect.unit (s := S5000x128) ![0, 0] S5000x128.size inb_S5000x128_S5000x128_0_0
abbrev r3_1 : Rect S5000x1 := Rect.unit (s := S5000x1) ![0, 0] S5000x1.size inb_S5000x1_S5000x1_0_0
abbrev r3_2 : Rect S1x128 := Rect.unit (s := S1x128) ![0, 0] S1x128.size inb_S1x128_S1x128_0_0

/-! ## What the body leaves in the output window's buffer -/

/-- Window 3's staging buffer after the body, from the three input windows' blocks: its one store, of the
    payload `max (x0 * x1 + x2) 0` (the column `x1` and the row `x2` broadcast), over the whole buffer. -/
def out3_3 (x0 : Vec F S5000x128 .f32) (x1 : Vec F S5000x1 .f32) (x2 : Vec F S1x128 .f32) : Vec F S5000x128 .f32 :=
  View.canon [⟨r3_0, k3_pay1 (View.ld x0 r3_0) (View.ld x1 r3_1) (View.ld x2 r3_2)⟩]

/-- The one store is the whole buffer, so it covers it. -/
theorem cover3_3 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The kernel body on whole staging memrefs, the inputs' at contents `x0 x1 x2` and the output's at anything,
    runs to the continuation holding the inputs' as they were and the output's at `out3_3 x0 x1 x2`: the
    printed function is its skeleton of three loads, a load of the output buffer whose value is unused, and one
    store of the payload over the whole output buffer. -/
theorem sound_kernel3 (c : Dev nD) (E : Set ℕ) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S5000x1 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__bias_relu_kernel i arg1 harg1 arg2 harg2 arg3 harg3 arg4 harg4) K := by
  simp only [cc3__bias_relu_kernel_eq_skeleton]; unfold cc3__bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of this region's pipeline on core `c`: the arrays as the region finds them (`V`); after the
    body at point `t` each input's buffer at its block and the output's at `out3_3` of the input blocks; the
    invariant the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and
    the core's owed transfers pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Reg4.lean ====
import proofs.«156050_j29892972380736_2_alg».proof.Proof.Gen.Kernel.Launch
import proofs.«156050_j29892972380736_2_alg».proof.Proof.Gen.Kernel.Skeleton
import proofs.«156050_j29892972380736_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # REGION 4 of @main: custom_call 4, the row-scaled product `(h · W) * dinv` on blocks of 5000 rows (pipeline 4),
    at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): where the window is not
    fetched its block index has not moved since the point before, so the block left there is this point's; the
    window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for ANY proof
    data whose array is `V`'s (`hA`) and whose body leaves the block in place (`hafter`): where the window is not
    fetched its block index has not moved since the point before, so the block left there is this point's; the
    window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not, for ANY proof
    data whose array is `V`'s (`hA`) and whose body leaves the block in place (`hafter`): where the window is not
    fetched its block index has not moved since the point before, so the block left there is this point's; the
    window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole 5000x128 buffer (read of the features, and the one store). -/
abbrev r4_0 : Rect S5000x128 := Rect.unit (s := S5000x128) ![0, 0] S5000x128.size inb_S5000x128_S5000x128_0_0
/-- The whole 128x128 buffer (read of the weights). -/
abbrev r4_1 : Rect S128x128 := Rect.unit (s := S128x128) ![0, 0] S128x128.size inb_S128x128_S128x128_0_0
/-- The whole 5000x1 buffer (read of the row scales). -/
abbrev r4_2 : Rect S5000x1 := Rect.unit (s := S5000x1) ![0, 0] S5000x1.size inb_S5000x1_S5000x1_0_0

/-! ## What the body leaves in the output window's buffer -/

/-- Window 3's staging buffer after the body, from the three input windows' blocks: its one store, of the payload
    `(x0 · x1) * x2` rounded to bf16, over the whole buffer. -/
def out4_3 (x0 : Vec F S5000x128 .f32) (x1 : Vec F S128x128 .bf16) (x2 : Vec F S5000x1 .f32) : Vec F S5000x128 .bf16 :=
  View.canon [⟨r4_0, k4_pay1 (View.ld x0 r4_0) (View.ld x1 r4_1) (View.ld x2 r4_2)⟩]

/-- Its one store is of the whole buffer, so it covers it. -/
theorem cover4_3 (p0 : Vec F S5000x128 .bf16) (y : S5000x128.Idx) :
    ∃ pc ∈ ([⟨r4_0, p0⟩] : List (View.Piece (Elt F) S5000x128 .bf16)), y ∈ pc.1.set :=
  View.cover_of_tiled [⟨r4_0, p0⟩] S5000x128.size (by rfl) y

/-! ## The body's triple -/

set_option maxHeartbeats 1000000 in
/-- The kernel body on whole staging memrefs, the inputs' at read contents `x0 x1 x2` and the output's at anything, runs
    to the continuation holding the inputs' as they were and the output's at `out4_3` of the inputs': the printed
    function is its sequence of three loads, one (unused) load of the output buffer and one store of the payload. -/
theorem sound_kernel4 (c : Dev nD) (E : Set ℕ) (i : grid4.Coords) (arg1 : Memref sig .tc .vmem S5000x128 .f32) (harg1 : arg1.IsWhole) (arg2 : Memref sig .tc .vmem S128x128 .bf16) (harg2 : arg2.IsWhole) (arg3 : Memref sig .tc .vmem S5000x1 .f32) (harg3 : arg3.IsWhole) (arg4 : Memref sig .tc .vmem S5000x128 .bf16) (harg4 : arg4.IsWhole)
    (x0 : Vec F S5000x128 .f32) (x1 : Vec F S128x128 .bf16) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__matmul_kernel i arg1 harg1 arg2 harg2 arg3 harg3 arg4 harg4) K := by
  simp only [cc4__matmul_kernel_eq_skeleton]; unfold cc4__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them (`V`); after the body at point `t`
    each input's buffer at its block and the output's at `out4_3` of the input blocks; the invariant is the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the definition's case split reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t` (the obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks (`before4_W`), so `sound_kernel4` applies; the
    invariant and the core's owed count pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand
-- ==== Proof.KB.Reg5.lean ====
import proofs.«156050_j29892972380736_2_alg».proof.Proof.Gen.Kernel.Launch
import proofs.«156050_j29892972380736_2_alg».proof.Proof.Gen.Kernel.Skeleton
import proofs.«156050_j29892972380736_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The class-A half of one bias-and-rectify region of the graph convolution, at a parameter `V` (the
    TensorCore's buffer contents when the region is entered): each window's block at a grid point, the contents
    the body leaves in the output window's buffer, the body's triple, the pipeline's proof data and its body
    obligation. The region computes, block by block of 5000 rows, `max (agg * dinv + bias) 0`: window 0 is
    the aggregate block, window 1 the inverse-degree column block, window 2 the bias row (one block, fetched
    once), window 3 the output block. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): at a point where it is fetched the buffer holds the fetched block; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): as for window 0. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): the bias row is fetched at the first point only, and its block index is the same at every point, so at a later point the buffer still holds what the body left at the point before, which is that point's block and therefore this point's. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S5000x128 := Rect.unit (s := S5000x128) ![0, 0] S5000x128.size inb_S5000x128_S5000x128_0_0
abbrev r5_1 : Rect S5000x1 := Rect.unit (s := S5000x1) ![0, 0] S5000x1.size inb_S5000x1_S5000x1_0_0
abbrev r5_2 : Rect S1x128 := Rect.unit (s := S1x128) ![0, 0] S1x128.size inb_S1x128_S1x128_0_0

/-! ## What the body leaves in the output window's buffer -/

/-- Window 3's staging buffer after the body, from the three input windows' blocks: its one store, of the
    payload `max (x0 * x1 + x2) 0` (the column `x1` and the row `x2` broadcast), over the whole buffer. -/
def out5_3 (x0 : Vec F S5000x128 .f32) (x1 : Vec F S5000x1 .f32) (x2 : Vec F S1x128 .f32) : Vec F S5000x128 .f32 :=
  View.canon [⟨r5_0, k5_pay1 (View.ld x0 r5_0) (View.ld x1 r5_1) (View.ld x2 r5_2)⟩]

/-- The one store is the whole buffer, so it covers it. -/
theorem cover5_3 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel body on whole staging memrefs, the inputs' at contents `x0 x1 x2` and the output's at anything,
    runs to the continuation holding the inputs' as they were and the output's at `out5_3 x0 x1 x2`: the
    printed function is its skeleton of three loads, a load of the output buffer whose value is unused, and one
    store of the payload over the whole output buffer. -/
theorem sound_kernel5 (c : Dev nD) (E : Set ℕ) (i : grid5.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S5000x1 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__bias_relu_kernel i arg1 harg1 arg2 harg2 arg3 harg3 arg4 harg4) K := by
  simp only [cc5__bias_relu_kernel_eq_skeleton]; unfold cc5__bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of this region's pipeline on core `c`: the arrays as the region finds them (`V`); after the
    body at point `t` each input's buffer at its block and the output's at `out5_3` of the input blocks; the
    invariant the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the body's triple applies; the invariant and
    the core's owed transfers pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KB.Reg6.lean ====
import proofs.«156050_j29892972380736_2_alg».proof.Proof.Gen.Kernel.Launch
import proofs.«156050_j29892972380736_2_alg».proof.Proof.Gen.Kernel.Skeleton
import proofs.«156050_j29892972380736_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # REGION 6 of @main: custom_call 6, the row-scaled product `(h · W) * dinv` on blocks of 5000 rows (pipeline 6),
    at the entry contents `V` -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for ANY proof
    data whose array is `V`'s (`hA`) and whose body leaves the block in place (`hafter`): where the window is not
    fetched its block index has not moved since the point before, so the block left there is this point's; the
    window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, fetched there or not, for ANY proof
    data whose array is `V`'s (`hA`) and whose body leaves the block in place (`hafter`): where the window is not
    fetched its block index has not moved since the point before, so the block left there is this point's; the
    window is uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, fetched there or not, for ANY proof
    data whose array is `V`'s (`hA`) and whose body leaves the block in place (`hafter`): where the window is not
    fetched its block index has not moved since the point before, so the block left there is this point's; the
    window is uncut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The whole 5000x128 buffer (read of the features, and the one store). -/
abbrev r6_0 : Rect S5000x128 := Rect.unit (s := S5000x128) ![0, 0] S5000x128.size inb_S5000x128_S5000x128_0_0
/-- The whole 128x128 buffer (read of the weights). -/
abbrev r6_1 : Rect S128x128 := Rect.unit (s := S128x128) ![0, 0] S128x128.size inb_S128x128_S128x128_0_0
/-- The whole 5000x1 buffer (read of the row scales). -/
abbrev r6_2 : Rect S5000x1 := Rect.unit (s := S5000x1) ![0, 0] S5000x1.size inb_S5000x1_S5000x1_0_0

/-! ## What the body leaves in the output window's buffer -/

/-- Window 3's staging buffer after the body, from the three input windows' blocks: its one store, of the payload
    `(x0 · x1) * x2` rounded to bf16, over the whole buffer. -/
def out6_3 (x0 : Vec F S5000x128 .f32) (x1 : Vec F S128x128 .bf16) (x2 : Vec F S5000x1 .f32) : Vec F S5000x128 .bf16 :=
  View.canon [⟨r6_0, k6_pay1 (View.ld x0 r6_0) (View.ld x1 r6_1) (View.ld x2 r6_2)⟩]

/-- Its one store is of the whole buffer, so it covers it. -/
theorem cover6_3 (p0 : Vec F S5000x128 .bf16) (y : S5000x128.Idx) :
    ∃ pc ∈ ([⟨r6_0, p0⟩] : List (View.Piece (Elt F) S5000x128 .bf16)), y ∈ pc.1.set :=
  View.cover_of_tiled [⟨r6_0, p0⟩] S5000x128.size (by rfl) y

/-! ## The body's triple -/

set_option maxHeartbeats 1000000 in
/-- The kernel body on whole staging memrefs, the inputs' at read contents `x0 x1 x2` and the output's at anything, runs
    to the continuation holding the inputs' as they were and the output's at `out6_3` of the inputs': the printed
    function is its sequence of three loads, one (unused) load of the output buffer and one store of the payload. -/
theorem sound_kernel6 (c : Dev nD) (E : Set ℕ) (i : grid6.Coords) (arg1 : Memref sig .tc .vmem S5000x128 .f32) (harg1 : arg1.IsWhole) (arg2 : Memref sig .tc .vmem S128x128 .bf16) (harg2 : arg2.IsWhole) (arg3 : Memref sig .tc .vmem S5000x1 .f32) (harg3 : arg3.IsWhole) (arg4 : Memref sig .tc .vmem S5000x128 .bf16) (harg4 : arg4.IsWhole)
    (x0 : Vec F S5000x128 .f32) (x1 : Vec F S128x128 .bf16) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__matmul_kernel i arg1 harg1 arg2 harg2 arg3 harg3 arg4 harg4) K := by
  simp only [cc6__matmul_kernel_eq_skeleton]; unfold cc6__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of pipeline 6 on core `c`: the arrays as the region finds them (`V`); after the body at point `t`
    each input's buffer at its block and the output's at `out6_3` of the input blocks; the invariant is the scoped rest
    and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents (the definition projected). -/
theorem A_eq6 (c : Dev nD) (w : Fin cfg6.W) : (dat6 V c).A w = V c (Pipeline.arrRef spec6 w) := by
  dsimp only [dat6]

/-- What the body leaves, window by window (the definition's case split reduced). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t` (the obligation's precondition, the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks (`before6_W`), so `sound_kernel6` applies; the
    invariant and the core's owed count pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.KB.Reg7.lean ====
import proofs.«156050_j29892972380736_2_alg».proof.Proof.Gen.Kernel.Launch
import proofs.«156050_j29892972380736_2_alg».proof.Proof.Gen.Kernel.Skeleton
import proofs.«156050_j29892972380736_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The class-A half of one bias-and-rectify region of the graph convolution, at a parameter `V` (the
    TensorCore's buffer contents when the region is entered): each window's block at a grid point, the contents
    the body leaves in the output window's buffer, the body's triple, the pipeline's proof data and its body
    obligation. The region computes, block by block of 5000 rows, `max (agg * dinv + bias) 0`: window 0 is
    the aggregate block, window 1 the inverse-degree column block, window 2 the bias row (one block, fetched
    once), window 3 the output block. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s (`hA`) and whose body leaves the block in place (`hafter`): at a point where it is fetched the buffer holds the fetched block; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof
    data whose array is `V`'s (`hA`) and whose body leaves the block in place (`hafter`): as for window 0. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof
    data whose array is `V`'s (`hA`) and whose body leaves the block in place (`hafter`): the bias row is fetched at the first point only, and its block index is the same at every point, so at a later point the buffer still holds what the body left at the point before, which is that point's block and therefore this point's. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

abbrev r7_0 : Rect S5000x128 := Rect.unit (s := S5000x128) ![0, 0] S5000x128.size inb_S5000x128_S5000x128_0_0
abbrev r7_1 : Rect S5000x1 := Rect.unit (s := S5000x1) ![0, 0] S5000x1.size inb_S5000x1_S5000x1_0_0
abbrev r7_2 : Rect S1x128 := Rect.unit (s := S1x128) ![0, 0] S1x128.size inb_S1x128_S1x128_0_0

/-! ## What the body leaves in the output window's buffer -/

/-- Window 3's staging buffer after the body, from the three input windows' blocks: its one store, of the
    payload `max (x0 * x1 + x2) 0` (the column `x1` and the row `x2` broadcast), over the whole buffer. -/
def out7_3 (x0 : Vec F S5000x128 .f32) (x1 : Vec F S5000x1 .f32) (x2 : Vec F S1x128 .f32) : Vec F S5000x128 .f32 :=
  View.canon [⟨r7_0, k7_pay1 (View.ld x0 r7_0) (View.ld x1 r7_1) (View.ld x2 r7_2)⟩]

/-- The one store is the whole buffer, so it covers it. -/
theorem cover7_3 (p0 : Vec F S5000x128 .f32) (y : S5000x128.Idx) :
    ∃ pc ∈ ([⟨r7_0, p0⟩] : List (View.Piece (Elt F) S5000x128 .f32)), y ∈ pc.1.set :=
  View.cover_of_tiled [⟨r7_0, p0⟩] S5000x128.size (by rfl) y

/-! ## The body's triple -/

set_option maxHeartbeats 1000000 in
/-- The kernel body on whole staging memrefs, the inputs' at contents `x0 x1 x2` and the output's at anything,
    runs to the continuation holding the inputs' as they were and the output's at `out7_3 x0 x1 x2`: the
    printed function is its skeleton of three loads, a load of the output buffer whose value is unused, and one
    store of the payload over the whole output buffer. -/
theorem sound_kernel7 (c : Dev nD) (E : Set ℕ) (i : grid7.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S5000x1 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7__bias_relu_kernel i arg1 harg1 arg2 harg2 arg3 harg3 arg4 harg4) K := by
  simp only [cc7__bias_relu_kernel_eq_skeleton]; unfold cc7__bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The pipeline's proof data -/

/-- The proof data of this region's pipeline on core `c`: the arrays as the region finds them (`V`); after the
    body at point `t` each input's buffer at its block and the output's at `out7_3` of the input blocks; the
    invariant the scoped rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks, so the body's triple applies; the invariant and
    the core's owed transfers pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.KB.Reg8.lean ====
import proofs.«156050_j29892972380736_2_alg».proof.Proof.Gen.Kernel.Launch
import proofs.«156050_j29892972380736_2_alg».proof.Proof.Gen.Kernel.Skeleton
import proofs.«156050_j29892972380736_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # REGION 8 of @main: custom_call 8, the row-scaled product `(h · W) * dinv` on blocks of 5000 rows (pipeline 8),
    at the entry contents `V` -/

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for ANY proof
    data whose array is `V`'s (`hA`) and whose body leaves the block in place (`hafter`): where the window is not
    fetched its block index has not moved since the point before, so the block left there is this point's; the
    window is uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's current staging buffer holds its block at every point, fetched there or not, for ANY proof
    data whose array is `V`'s (`hA`) and whose body leaves the block in place (`hafter`): where the window is not
    fetched its block index has not moved since the point before, so the block left there is this point's; the
    window is uncut and never idle. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's current staging buffer holds its block at every point, fetched there or not, for ANY proof
    data whose array is `V`'s (`hA`) and whose body leaves the block in place (`hafter`): where the window is not
    fetched its block index has not moved since the point before, so the block left there is this point's; the
    window is uncut and never idle. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole 5000x128 buffer (read of the features, and the one store). -/
abbrev r8_0 : Rect S5000x128 := Rect.unit (s := S5000x128) ![0, 0] S5000x128.size inb_S5000x128_S5000x128_0_0
/-- The whole 128x128 buffer (read of the weights). -/
abbrev r8_1 : Rect S128x128 := Rect.unit (s := S128x128) ![0, 0] S128x128.size inb_S128x128_S128x128_0_0
/-- The whole 5000x1 buffer (read of the row scales). -/
abbrev r8_2 : Rect S5000x1 := Rect.unit (s := S5000x1) ![0, 0] S5000x1.size inb_S5000x1_S5000x1_0_0

/-! ## What the body leaves in the output window's buffer -/

/-- Window 3's staging buffer after the body, from the three input windows' blocks: its one store, of the payload
    `(x0 · x1) * x2` rounded to bf16, over the whole buffer. -/
def out8_3 (x0 : Vec F S5000x128 .f32) (x1 : Vec F S128x128 .bf16) (x2 : Vec F S5000x1 .f32) : Vec F S5000x128 .bf16 :=
  View.canon [⟨r8_0, k8_pay1 (View.ld x0 r8_0) (View.ld x1 r8_1) (View.ld x2 r8_2)⟩]

/-- Its one store is of the whole buffer, so it covers it. -/
theorem cover8_3 (p0 : Vec F S5000x128 .bf16) (y : S5000x128.Idx) :
    ∃ pc ∈ ([⟨r8_0, p0⟩] : List (View.Piece (Elt F) S5000x128 .bf16)), y ∈ pc.1.set :=
  View.cover_of_tiled [⟨r8_0, p0⟩] S5000x128.size (by rfl) y

/-! ## The body's triple -/

set_option maxHeartbeats 1000000 in
/-- The kernel body on whole staging memrefs, the inputs' at read contents `x0 x1 x2` and the output's at anything, runs
    to the continuation holding the inputs' as they were and the output's at `out8_3` of the inputs': the printed
    function is its sequence of three loads, one (unused) load of the output buffer and one store of the payload. -/
theorem sound_kernel8 (c : Dev nD) (E : Set ℕ) (i : grid8.Coords) (arg1 : Memref sig .tc .vmem S5000x128 .f32) (harg1 : arg1.IsWhole) (arg2 : Memref sig .tc .vmem S128x128 .bf16) (harg2 : arg2.IsWhole) (arg3 : Memref sig .tc .vmem S5000x1 .f32) (harg3 : arg3.IsWhole) (arg4 : Memref sig .tc .vmem S5000x128 .bf16) (harg4 : arg4.IsWhole)
    (x0 : Vec F S5000x128 .f32) (x1 : Vec F S128x128 .bf16) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__matmul_kernel i arg1 harg1 arg2 harg2 arg3 harg3 arg4 harg4) K := by
  simp only [cc8__matmul_kernel_eq_skeleton]; unfold cc8__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The pipeline's proof data -/

/-- The proof data of pipeline 8 on core `c`: the arrays as the region finds them (`V`); after the body at point `t`
    each input's buffer at its block and the output's at `out8_3` of the input blocks; the invariant is the scoped rest
    and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the region-entry contents (the definition projected). -/
theorem A_eq8 (c : Dev nD) (w : Fin cfg8.W) : (dat8 V c).A w = V c (Pipeline.arrRef spec8 w) := by
  dsimp only [dat8]

/-- What the body leaves, window by window (the definition's case split reduced). -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- What the body is called with at point `t` (the obligation's precondition, the windows one by one), -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks (`before8_W`), so `sound_kernel8` applies; the
    invariant and the core's owed count pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand
-- ==== Proof.KB.Reg9.lean ====
import proofs.«156050_j29892972380736_2_alg».proof.Proof.Gen.Kernel.Launch
import proofs.«156050_j29892972380736_2_alg».proof.Proof.Gen.Kernel.Skeleton
import proofs.«156050_j29892972380736_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The class-A half of one bias-and-rectify region of the graph convolution, at a parameter `V` (the
    TensorCore's buffer contents when the region is entered): each window's block at a grid point, the contents
    the body leaves in the output window's buffer, the body's triple, the pipeline's proof data and its body
    obligation. The region computes, block by block of 5000 rows, `max (agg * dinv + bias) 0`: window 0 is
    the aggregate block, window 1 the inverse-degree column block, window 2 the bias row (one block, fetched
    once), window 3 the output block. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s (`hA`) and whose body leaves the block in place (`hafter`): at a point where it is fetched the buffer holds the fetched block; the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for any proof
    data whose array is `V`'s (`hA`) and whose body leaves the block in place (`hafter`): as for window 0. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for any proof
    data whose array is `V`'s (`hA`) and whose body leaves the block in place (`hafter`): the bias row is fetched at the first point only, and its block index is the same at every point, so at a later point the buffer still holds what the body left at the point before, which is that point's block and therefore this point's. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

abbrev r9_0 : Rect S5000x128 := Rect.unit (s := S5000x128) ![0, 0] S5000x128.size inb_S5000x128_S5000x128_0_0
abbrev r9_1 : Rect S5000x1 := Rect.unit (s := S5000x1) ![0, 0] S5000x1.size inb_S5000x1_S5000x1_0_0
abbrev r9_2 : Rect S1x128 := Rect.unit (s := S1x128) ![0, 0] S1x128.size inb_S1x128_S1x128_0_0

/-! ## What the body leaves in the output window's buffer -/

/-- Window 3's staging buffer after the body, from the three input windows' blocks: its one store, of the
    payload `max (x0 * x1 + x2) 0` (the column `x1` and the row `x2` broadcast), over the whole buffer. -/
def out9_3 (x0 : Vec F S5000x128 .f32) (x1 : Vec F S5000x1 .f32) (x2 : Vec F S1x128 .f32) : Vec F S5000x128 .f32 :=
  View.canon [⟨r9_0, k9_pay1 (View.ld x0 r9_0) (View.ld x1 r9_1) (View.ld x2 r9_2)⟩]

/-- The one store is the whole buffer, so it covers it. -/
theorem cover9_3 (p0 : Vec F S5000x128 .f32) (y : S5000x128.Idx) :
    ∃ pc ∈ ([⟨r9_0, p0⟩] : List (View.Piece (Elt F) S5000x128 .f32)), y ∈ pc.1.set :=
  View.cover_of_tiled [⟨r9_0, p0⟩] S5000x128.size (by rfl) y

/-! ## The body's triple -/

set_option maxHeartbeats 1000000 in
/-- The kernel body on whole staging memrefs, the inputs' at contents `x0 x1 x2` and the output's at anything,
    runs to the continuation holding the inputs' as they were and the output's at `out9_3 x0 x1 x2`: the
    printed function is its skeleton of three loads, a load of the output buffer whose value is unused, and one
    store of the payload over the whole output buffer. -/
theorem sound_kernel9 (c : Dev nD) (E : Set ℕ) (i : grid9.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S5000x1 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out9_3 x0 x1 x2)) -∗ K ⟨⟩))
      ⊢ wp frame (wpE (defs₀ (F := F)) Variants.none c none) E (cc9__bias_relu_kernel i arg1 harg1 arg2 harg2 arg3 harg3 arg4 harg4) K := by
  simp only [cc9__bias_relu_kernel_eq_skeleton]; unfold cc9__bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The pipeline's proof data -/

/-- The proof data of this region's pipeline on core `c`: the arrays as the region finds them (`V`); after the
    body at point `t` each input's buffer at its block and the output's at `out9_3` of the input blocks; the
    invariant the scoped rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' memrefs hold their blocks, so the body's triple applies; the invariant and
    the core's owed transfers pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ (grid9.coords t) _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.KB.Run.lean ====
/- The run of @main from the launch to the return, over its 21 segments (11 stretches of host operations, 10 kernel
   regions): the buffers' contents at every segment boundary as a fold from the launch memory, every region's proof data
   at its entry contents, the regions as segments over the thread state "every unscoped buffer at the boundary's
   contents, the generator register at some state, nothing owed", and the launch: every weakly fair execution
   terminates, the final memory holds every unscoped buffer at the last boundary's contents, and in particular every
   argument array as launched. Stated at any float interpretation. -/
import proofs.«156050_j29892972380736_2_alg».proof.Proof.Gen.Kernel.Launch
import proofs.«156050_j29892972380736_2_alg».proof.Proof.Gen.Kernel.Skeleton
import proofs.«156050_j29892972380736_2_alg».proof.Proof.Gen.Kernel.Points
import proofs.«156050_j29892972380736_2_alg».proof.Proof.Gen.Kernel.Regions
import proofs.«156050_j29892972380736_2_alg».proof.Proof.KB.Reg0
import proofs.«156050_j29892972380736_2_alg».proof.Proof.KB.Reg1
import proofs.«156050_j29892972380736_2_alg».proof.Proof.KB.Reg2
import proofs.«156050_j29892972380736_2_alg».proof.Proof.KB.Reg3
import proofs.«156050_j29892972380736_2_alg».proof.Proof.KB.Reg4
import proofs.«156050_j29892972380736_2_alg».proof.Proof.KB.Reg5
import proofs.«156050_j29892972380736_2_alg».proof.Proof.KB.Reg6
import proofs.«156050_j29892972380736_2_alg».proof.Proof.KB.Reg7
import proofs.«156050_j29892972380736_2_alg».proof.Proof.KB.Reg8
import proofs.«156050_j29892972380736_2_alg».proof.Proof.KB.Reg9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary: a fold through @main -/

/-- Core c's buffers at launch. -/
abbrev W0 : Dev nD → Valuation τ sig (Elt F) := fun c b => (s₀ m ρ).mem ((c : Dev nD), b)

/-- After the host stretch hostOps0 (region 0's entry). -/
abbrev W1 : Dev nD → Valuation τ sig (Elt F) := fun c => StableHlo.after hostOps0 (W0 m ρ c)
/-- A buffer no operation of hostOps0 writes is as before the stretch. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch hostOps1 (region 1's entry). -/
abbrev W3 : Dev nD → Valuation τ sig (Elt F) := fun c => StableHlo.after hostOps1 (W2 m ρ c)
/-- A buffer no operation of hostOps1 writes is as before the stretch. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, the output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch hostOps2 (region 2's entry). -/
abbrev W5 : Dev nD → Valuation τ sig (Elt F) := fun c => StableHlo.after hostOps2 (W4 m ρ c)
/-- A buffer no operation of hostOps2 writes is as before the stretch. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, the output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch hostOps3 (region 3's entry). -/
abbrev W7 : Dev nD → Valuation τ sig (Elt F) := fun c => StableHlo.after hostOps3 (W6 m ρ c)
/-- A buffer no operation of hostOps3 writes is as before the stretch. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, the output's write-backs
    folded), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch hostOps4 (region 4's entry). -/
abbrev W9 : Dev nD → Valuation τ sig (Elt F) := fun c => StableHlo.after hostOps4 (W8 m ρ c)
/-- A buffer no operation of hostOps4 writes is as before the stretch. -/
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h
/-- The same read at the TensorCore's references (what region 4's proof data take). -/
abbrev V9 : (c : Dev nD) → (b : Ref sig .tc) → Buf (Elt F) ((c : Thread nD τ).loc b) := fun c b => W9 m ρ c b
/-- At region 4's exit: its arrays at what the pipeline leaves (the inputs as entered, the output's write-backs
    folded), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves, and every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the host stretch hostOps5 (region 5's entry). -/
abbrev W11 : Dev nD → Valuation τ sig (Elt F) := fun c => StableHlo.after hostOps5 (W10 m ρ c)
/-- A buffer no operation of hostOps5 writes is as before the stretch. -/
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h
/-- The same read at the TensorCore's references (what region 5's proof data take). -/
abbrev V11 : (c : Dev nD) → (b : Ref sig .tc) → Buf (Elt F) ((c : Thread nD τ).loc b) := fun c b => W11 m ρ c b
/-- At region 5's exit: its arrays at what the pipeline leaves (the inputs as entered, the output's write-backs
    folded), every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m ρ c b
/-- At region 5's exit each of its arrays holds what the pipeline leaves, and every other buffer what it held at entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After the host stretch hostOps6 (region 6's entry). -/
abbrev W13 : Dev nD → Valuation τ sig (Elt F) := fun c => StableHlo.after hostOps6 (W12 m ρ c)
/-- A buffer no operation of hostOps6 writes is as before the stretch. -/
theorem W13_of (c : Dev nD) (r : Ref sig .tc) (h : r ∉ hostOps6_W) :
    W13 m ρ c (Proc.devRef .tc r) = W12 m ρ c (Proc.devRef .tc r) :=
  StableHlo.after_of_writes_sub hostOps6 _ hostOps6_writes h
/-- The same read at the TensorCore's references (what region 6's proof data take). -/
abbrev V13 : (c : Dev nD) → (b : Ref sig .tc) → Buf (Elt F) ((c : Thread nD τ).loc b) := fun c b => W13 m ρ c b
/-- At region 6's exit: its arrays at what the pipeline leaves (the inputs as entered, the output's write-backs
    folded), every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references (region 6's exit contents). -/
abbrev V14 : (c : Dev nD) → (b : Ref sig .tc) → Buf (Elt F) ((c : Thread nD τ).loc b) := fun c b => W14 m ρ c b
/-- At region 6's exit each of its arrays holds what the pipeline leaves, and every other buffer what it held at entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After the host stretch hostOps7 (region 7's entry). -/
abbrev W15 : Dev nD → Valuation τ sig (Elt F) := fun c => StableHlo.after hostOps7 (W14 m ρ c)
/-- A buffer no operation of hostOps7 writes is as before the stretch. -/
theorem W15_of (c : Dev nD) (r : Ref sig .tc) (h : r ∉ hostOps7_W) :
    W15 m ρ c (Proc.devRef .tc r) = W14 m ρ c (Proc.devRef .tc r) :=
  StableHlo.after_of_writes_sub hostOps7 _ hostOps7_writes h
/-- The same read at the TensorCore's references (what region 7's proof data take). -/
abbrev V15 : (c : Dev nD) → (b : Ref sig .tc) → Buf (Elt F) ((c : Thread nD τ).loc b) := fun c b => W15 m ρ c b
/-- At region 7's exit: its arrays at what the pipeline leaves (the inputs as entered, the output's write-backs
    folded), every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the TensorCore's references (region 7's exit contents). -/
abbrev V16 : (c : Dev nD) → (b : Ref sig .tc) → Buf (Elt F) ((c : Thread nD τ).loc b) := fun c b => W16 m ρ c b
/-- At region 7's exit each of its arrays holds what the pipeline leaves, and every other buffer what it held at entry. -/
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After the host stretch hostOps8 (region 8's entry). -/
abbrev W17 : Dev nD → Valuation τ sig (Elt F) := fun c => StableHlo.after hostOps8 (W16 m ρ c)
/-- A buffer no operation of hostOps8 writes is as before the stretch. -/
theorem W17_of (c : Dev nD) (r : Ref sig .tc) (h : r ∉ hostOps8_W) :
    W17 m ρ c (Proc.devRef .tc r) = W16 m ρ c (Proc.devRef .tc r) :=
  StableHlo.after_of_writes_sub hostOps8 _ hostOps8_writes h
/-- The same read at the TensorCore's references (what region 8's proof data take). -/
abbrev V17 : (c : Dev nD) → (b : Ref sig .tc) → Buf (Elt F) ((c : Thread nD τ).loc b) := fun c b => W17 m ρ c b
/-- At region 8's exit: its arrays at what the pipeline leaves (the inputs as entered, the output's write-backs
    folded), every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- The same read at the TensorCore's references (region 8's exit contents). -/
abbrev V18 : (c : Dev nD) → (b : Ref sig .tc) → Buf (Elt F) ((c : Thread nD τ).loc b) := fun c b => W18 m ρ c b
/-- At region 8's exit each of its arrays holds what the pipeline leaves, and every other buffer what it held at entry. -/
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-- After the host stretch hostOps9 (region 9's entry). -/
abbrev W19 : Dev nD → Valuation τ sig (Elt F) := fun c => StableHlo.after hostOps9 (W18 m ρ c)
/-- A buffer no operation of hostOps9 writes is as before the stretch. -/
theorem W19_of (c : Dev nD) (r : Ref sig .tc) (h : r ∉ hostOps9_W) :
    W19 m ρ c (Proc.devRef .tc r) = W18 m ρ c (Proc.devRef .tc r) :=
  StableHlo.after_of_writes_sub hostOps9 _ hostOps9_writes h
/-- The same read at the TensorCore's references (what region 9's proof data take). -/
abbrev V19 : (c : Dev nD) → (b : Ref sig .tc) → Buf (Elt F) ((c : Thread nD τ).loc b) := fun c b => W19 m ρ c b
/-- At region 9's exit: its arrays at what the pipeline leaves (the inputs as entered, the output's write-backs
    folded), every other buffer as entered. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
/-- The same read at the TensorCore's references (region 9's exit contents). -/
abbrev V20 : (c : Dev nD) → (b : Ref sig .tc) → Buf (Elt F) ((c : Thread nD τ).loc b) := fun c b => W20 m ρ c b
/-- At region 9's exit each of its arrays holds what the pipeline leaves, and every other buffer what it held at entry. -/
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)

/-- After the host stretch hostOps10 (the return). -/
abbrev W21 : Dev nD → Valuation τ sig (Elt F) := fun c => StableHlo.after hostOps10 (W20 m ρ c)
/-- A buffer no operation of hostOps10 writes is as before the stretch. -/
theorem W21_of (c : Dev nD) (r : Ref sig .tc) (h : r ∉ hostOps10_W) :
    W21 m ρ c (Proc.devRef .tc r) = W20 m ρ c (Proc.devRef .tc r) :=
  StableHlo.after_of_writes_sub hostOps10 _ hostOps10_writes h
/-- The same read at the TensorCore's references. -/
abbrev V21 : (c : Dev nD) → (b : Ref sig .tc) → Buf (Elt F) ((c : Thread nD τ).loc b) := fun c b => W21 m ρ c b

/-! ### The arguments end as launched: no host operation writes one; region 0 reads the first through an input window
    (an input window's array is never written back), and no other region has an argument among its arrays -/

theorem W21_main_arg0 (c : Dev nD) : W21 m ρ c (Proc.devRef .tc main_arg0) = m ((c : Thread nD τ).loc main_arg0) :=
  calc W21 m ρ c (Proc.devRef .tc main_arg0)
    _ = W20 m ρ c (Proc.devRef .tc main_arg0) := W21_of m ρ c main_arg0 (by decide)
    _ = W19 m ρ c (Proc.devRef .tc main_arg0) := W20_of_ne m ρ c main_arg0 (by decide)
    _ = W18 m ρ c (Proc.devRef .tc main_arg0) := W19_of m ρ c main_arg0 (by decide)
    _ = W17 m ρ c (Proc.devRef .tc main_arg0) := W18_of_ne m ρ c main_arg0 (by decide)
    _ = W16 m ρ c (Proc.devRef .tc main_arg0) := W17_of m ρ c main_arg0 (by decide)
    _ = W15 m ρ c (Proc.devRef .tc main_arg0) := W16_of_ne m ρ c main_arg0 (by decide)
    _ = W14 m ρ c (Proc.devRef .tc main_arg0) := W15_of m ρ c main_arg0 (by decide)
    _ = W13 m ρ c (Proc.devRef .tc main_arg0) := W14_of_ne m ρ c main_arg0 (by decide)
    _ = W12 m ρ c (Proc.devRef .tc main_arg0) := W13_of m ρ c main_arg0 (by decide)
    _ = W11 m ρ c (Proc.devRef .tc main_arg0) := W12_of_ne m ρ c main_arg0 (by decide)
    _ = W10 m ρ c (Proc.devRef .tc main_arg0) := W11_of m ρ c main_arg0 (by decide)
    _ = W9 m ρ c (Proc.devRef .tc main_arg0) := W10_of_ne m ρ c main_arg0 (by decide)
    _ = W8 m ρ c (Proc.devRef .tc main_arg0) := W9_of m ρ c main_arg0 (by decide)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

theorem W21_main_arg1 (c : Dev nD) : W21 m ρ c (Proc.devRef .tc main_arg1) = m ((c : Thread nD τ).loc main_arg1) :=
  calc W21 m ρ c (Proc.devRef .tc main_arg1)
    _ = W20 m ρ c (Proc.devRef .tc main_arg1) := W21_of m ρ c main_arg1 (by decide)
    _ = W19 m ρ c (Proc.devRef .tc main_arg1) := W20_of_ne m ρ c main_arg1 (by decide)
    _ = W18 m ρ c (Proc.devRef .tc main_arg1) := W19_of m ρ c main_arg1 (by decide)
    _ = W17 m ρ c (Proc.devRef .tc main_arg1) := W18_of_ne m ρ c main_arg1 (by decide)
    _ = W16 m ρ c (Proc.devRef .tc main_arg1) := W17_of m ρ c main_arg1 (by decide)
    _ = W15 m ρ c (Proc.devRef .tc main_arg1) := W16_of_ne m ρ c main_arg1 (by decide)
    _ = W14 m ρ c (Proc.devRef .tc main_arg1) := W15_of m ρ c main_arg1 (by decide)
    _ = W13 m ρ c (Proc.devRef .tc main_arg1) := W14_of_ne m ρ c main_arg1 (by decide)
    _ = W12 m ρ c (Proc.devRef .tc main_arg1) := W13_of m ρ c main_arg1 (by decide)
    _ = W11 m ρ c (Proc.devRef .tc main_arg1) := W12_of_ne m ρ c main_arg1 (by decide)
    _ = W10 m ρ c (Proc.devRef .tc main_arg1) := W11_of m ρ c main_arg1 (by decide)
    _ = W9 m ρ c (Proc.devRef .tc main_arg1) := W10_of_ne m ρ c main_arg1 (by decide)
    _ = W8 m ρ c (Proc.devRef .tc main_arg1) := W9_of m ρ c main_arg1 (by decide)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W21_main_arg2 (c : Dev nD) : W21 m ρ c (Proc.devRef .tc main_arg2) = m ((c : Thread nD τ).loc main_arg2) :=
  calc W21 m ρ c (Proc.devRef .tc main_arg2)
    _ = W20 m ρ c (Proc.devRef .tc main_arg2) := W21_of m ρ c main_arg2 (by decide)
    _ = W19 m ρ c (Proc.devRef .tc main_arg2) := W20_of_ne m ρ c main_arg2 (by decide)
    _ = W18 m ρ c (Proc.devRef .tc main_arg2) := W19_of m ρ c main_arg2 (by decide)
    _ = W17 m ρ c (Proc.devRef .tc main_arg2) := W18_of_ne m ρ c main_arg2 (by decide)
    _ = W16 m ρ c (Proc.devRef .tc main_arg2) := W17_of m ρ c main_arg2 (by decide)
    _ = W15 m ρ c (Proc.devRef .tc main_arg2) := W16_of_ne m ρ c main_arg2 (by decide)
    _ = W14 m ρ c (Proc.devRef .tc main_arg2) := W15_of m ρ c main_arg2 (by decide)
    _ = W13 m ρ c (Proc.devRef .tc main_arg2) := W14_of_ne m ρ c main_arg2 (by decide)
    _ = W12 m ρ c (Proc.devRef .tc main_arg2) := W13_of m ρ c main_arg2 (by decide)
    _ = W11 m ρ c (Proc.devRef .tc main_arg2) := W12_of_ne m ρ c main_arg2 (by decide)
    _ = W10 m ρ c (Proc.devRef .tc main_arg2) := W11_of m ρ c main_arg2 (by decide)
    _ = W9 m ρ c (Proc.devRef .tc main_arg2) := W10_of_ne m ρ c main_arg2 (by decide)
    _ = W8 m ρ c (Proc.devRef .tc main_arg2) := W9_of m ρ c main_arg2 (by decide)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W21_main_arg3 (c : Dev nD) : W21 m ρ c (Proc.devRef .tc main_arg3) = m ((c : Thread nD τ).loc main_arg3) :=
  calc W21 m ρ c (Proc.devRef .tc main_arg3)
    _ = W20 m ρ c (Proc.devRef .tc main_arg3) := W21_of m ρ c main_arg3 (by decide)
    _ = W19 m ρ c (Proc.devRef .tc main_arg3) := W20_of_ne m ρ c main_arg3 (by decide)
    _ = W18 m ρ c (Proc.devRef .tc main_arg3) := W19_of m ρ c main_arg3 (by decide)
    _ = W17 m ρ c (Proc.devRef .tc main_arg3) := W18_of_ne m ρ c main_arg3 (by decide)
    _ = W16 m ρ c (Proc.devRef .tc main_arg3) := W17_of m ρ c main_arg3 (by decide)
    _ = W15 m ρ c (Proc.devRef .tc main_arg3) := W16_of_ne m ρ c main_arg3 (by decide)
    _ = W14 m ρ c (Proc.devRef .tc main_arg3) := W15_of m ρ c main_arg3 (by decide)
    _ = W13 m ρ c (Proc.devRef .tc main_arg3) := W14_of_ne m ρ c main_arg3 (by decide)
    _ = W12 m ρ c (Proc.devRef .tc main_arg3) := W13_of m ρ c main_arg3 (by decide)
    _ = W11 m ρ c (Proc.devRef .tc main_arg3) := W12_of_ne m ρ c main_arg3 (by decide)
    _ = W10 m ρ c (Proc.devRef .tc main_arg3) := W11_of m ρ c main_arg3 (by decide)
    _ = W9 m ρ c (Proc.devRef .tc main_arg3) := W10_of_ne m ρ c main_arg3 (by decide)
    _ = W8 m ρ c (Proc.devRef .tc main_arg3) := W9_of m ρ c main_arg3 (by decide)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W21_main_arg4 (c : Dev nD) : W21 m ρ c (Proc.devRef .tc main_arg4) = m ((c : Thread nD τ).loc main_arg4) :=
  calc W21 m ρ c (Proc.devRef .tc main_arg4)
    _ = W20 m ρ c (Proc.devRef .tc main_arg4) := W21_of m ρ c main_arg4 (by decide)
    _ = W19 m ρ c (Proc.devRef .tc main_arg4) := W20_of_ne m ρ c main_arg4 (by decide)
    _ = W18 m ρ c (Proc.devRef .tc main_arg4) := W19_of m ρ c main_arg4 (by decide)
    _ = W17 m ρ c (Proc.devRef .tc main_arg4) := W18_of_ne m ρ c main_arg4 (by decide)
    _ = W16 m ρ c (Proc.devRef .tc main_arg4) := W17_of m ρ c main_arg4 (by decide)
    _ = W15 m ρ c (Proc.devRef .tc main_arg4) := W16_of_ne m ρ c main_arg4 (by decide)
    _ = W14 m ρ c (Proc.devRef .tc main_arg4) := W15_of m ρ c main_arg4 (by decide)
    _ = W13 m ρ c (Proc.devRef .tc main_arg4) := W14_of_ne m ρ c main_arg4 (by decide)
    _ = W12 m ρ c (Proc.devRef .tc main_arg4) := W13_of m ρ c main_arg4 (by decide)
    _ = W11 m ρ c (Proc.devRef .tc main_arg4) := W12_of_ne m ρ c main_arg4 (by decide)
    _ = W10 m ρ c (Proc.devRef .tc main_arg4) := W11_of m ρ c main_arg4 (by decide)
    _ = W9 m ρ c (Proc.devRef .tc main_arg4) := W10_of_ne m ρ c main_arg4 (by decide)
    _ = W8 m ρ c (Proc.devRef .tc main_arg4) := W9_of m ρ c main_arg4 (by decide)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-! ## The proof data family and the thread state -/

/-- The prefetched tables' admissible contents: no pipeline has a table. -/
abbrev adm : (p : Fin 10) → (pcfgs (F := F) p).Adm := fun p => (cfgs p).toPCfg_adm
/-- Every pipeline's proof data, each at its region's entry contents: a literal match on the pipeline's index. -/
def pdats : (p : Fin 10) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents W, with R riding along: it ends with
    those references at the contents after the stretch's operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (W21 m ρ c) ∗ ∃ r, prngReg c r)

/-! ## The regions as segments -/

set_option backward.isDefEq.respectTransparency.types false in
/-- Region 0 over the thread state: entered from every unscoped buffer at W1, left at W2. Its arrays are split
    out of the unscoped buffers and put back at the exit contents; the generator register goes into the pipeline's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. Its arrays are split
    out of the unscoped buffers and put back at the exit contents; the generator register goes into the pipeline's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W5, left at W6. Its arrays are split
    out of the unscoped buffers and put back at the exit contents; the generator register goes into the pipeline's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at W7, left at W8. Its arrays are split
    out of the unscoped buffers and put back at the exit contents; the generator register goes into the pipeline's
    invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at W9, left at W10. Its arrays are split
    out of the unscoped buffers and put back at the exit contents; the generator register goes into the pipeline's
    invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at W11, left at W12. Its arrays are split
    out of the unscoped buffers and put back at the exit contents; the generator register goes into the pipeline's
    invariant and comes out; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at W13, left at W14. Its arrays are split
    out of the unscoped buffers and put back at the exit contents; the generator register goes into the pipeline's
    invariant and comes out; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at W15, left at W16. Its arrays are split
    out of the unscoped buffers and put back at the exit contents; the generator register goes into the pipeline's
    invariant and comes out; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at W17, left at W18. Its arrays are split
    out of the unscoped buffers and put back at the exit contents; the generator register goes into the pipeline's
    invariant and comes out; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at W19, left at W20. Its arrays are split
    out of the unscoped buffers and put back at the exit contents; the generator register goes into the pipeline's
    invariant and comes out; nothing is owed; the kernel has no semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 21 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)) ]

/-- @main is the run of the segments: both are the chain of the same 21 fragments. -/
theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()),
      StableHlo.seq hostOps5,
      Prog.lift (.customCall (Pipeline.entry 5) ()),
      StableHlo.seq hostOps6,
      Prog.lift (.customCall (Pipeline.entry 6) ()),
      StableHlo.seq hostOps7,
      Prog.lift (.customCall (Pipeline.entry 7) ()),
      StableHlo.seq hostOps8,
      Prog.lift (.customCall (Pipeline.entry 8) ()),
      StableHlo.seq hostOps9,
      Prog.lift (.customCall (Pipeline.entry 9) ()),
      StableHlo.seq hostOps10 ] from rfl]
  rfl

/-- The last stretch's thread state is the last thread state beside the core owing nothing (the separating
    conjunction reassociated). -/
theorem last_chain (c : Dev nD) :
    (iprop(StableHlo.held (c : Thread nD τ) (Pipeline.ucRefs τ sig) (W21 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- THE RUN: from any memory with zero counters, every weakly fair execution of @main on the TensorCores terminates,
    nothing faulting, and every final memory holds every unscoped buffer at the last boundary's contents W21. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W21 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => last_chain m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h => h)

/-- THE FRAME: every weakly fair execution of @main terminates, nothing faulting, and every final memory has the five
    argument arrays as launched: each is unscoped, so the final memory holds it at W21, which at an argument is the
    launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W21_main_arg0 m ρ c),
     (h c _ (mem_uc main_arg1 (by decide))).trans (W21_main_arg1 m ρ c),
     (h c _ (mem_uc main_arg2 (by decide))).trans (W21_main_arg2 m ρ c),
     (h c _ (mem_uc main_arg3 (by decide))).trans (W21_main_arg3 m ρ c),
     (h c _ (mem_uc main_arg4 (by decide))).trans (W21_main_arg4 m ρ c)⟩) (run_all m ρ)

end Cert.Kernel.Hand

end
-- ==== Proof.KI.Reg0.lean ====
import proofs.«156050_j29892972380736_2_alg».proof.Proof.Gen.KernelIdeal.Launch
import proofs.«156050_j29892972380736_2_alg».proof.Proof.Gen.KernelIdeal.Skeleton
import proofs.«156050_j29892972380736_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # REGION 0 of @main: custom_call 0, the row-scaled product `(h · W) * dinv` on blocks of 5000 rows (pipeline 0),
    at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): where the window is not
    fetched its block index has not moved since the point before, so the block left there is this point's; the
    window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): where the window is not
    fetched its block index has not moved since the point before, so the block left there is this point's; the
    window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): where the window is not
    fetched its block index has not moved since the point before, so the block left there is this point's; the
    window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 5000x128 buffer (read of the features, and the one store). -/
abbrev r0_0 : Rect S5000x128 := Rect.unit (s := S5000x128) ![0, 0] S5000x128.size inb_S5000x128_S5000x128_0_0
/-- The whole 128x128 buffer (read of the weights). -/
abbrev r0_1 : Rect S128x128 := Rect.unit (s := S128x128) ![0, 0] S128x128.size inb_S128x128_S128x128_0_0
/-- The whole 5000x1 buffer (read of the row scales). -/
abbrev r0_2 : Rect S5000x1 := Rect.unit (s := S5000x1) ![0, 0] S5000x1.size inb_S5000x1_S5000x1_0_0

/-! ## What the body leaves in the output window's buffer -/

/-- Window 3's staging buffer after the body, from the three input windows' blocks: its one store, of the payload
    `(x0 · x1) * x2` rounded to bf16, over the whole buffer. -/
def out0_3 (x0 : Vec F S5000x128 .f32) (x1 : Vec F S128x128 .bf16) (x2 : Vec F S5000x1 .f32) : Vec F S5000x128 .bf16 :=
  View.canon [⟨r0_0, k0_pay1 (View.ld x0 r0_0) (View.ld x1 r0_1) (View.ld x2 r0_2)⟩]

/-- Its one store is of the whole buffer, so it covers it. -/
theorem cover0_3 (p0 : Vec F S5000x128 .bf16) (y : S5000x128.Idx) :
    ∃ pc ∈ ([⟨r0_0, p0⟩] : List (View.Piece (Elt F) S5000x128 .bf16)), y ∈ pc.1.set :=
  View.cover_of_tiled [⟨r0_0, p0⟩] S5000x128.size (by rfl) y

/-! ## The body's triple -/

set_option maxHeartbeats 1000000 in
/-- The kernel body on whole staging memrefs, the inputs' at read contents `x0 x1 x2` and the output's at anything, runs
    to the continuation holding the inputs' as they were and the output's at `out0_3` of the inputs': the printed
    function is its sequence of three loads, one (unused) load of the output buffer and one store of the payload. -/
theorem sound_kernel0 (c : Dev nD) (E : Set ℕ) (i : grid0.Coords) (arg1 : Memref sig .tc .vmem S5000x128 .f32) (harg1 : arg1.IsWhole) (arg2 : Memref sig .tc .vmem S128x128 .bf16) (harg2 : arg2.IsWhole) (arg3 : Memref sig .tc .vmem S5000x1 .f32) (harg3 : arg3.IsWhole) (arg4 : Memref sig .tc .vmem S5000x128 .bf16) (harg4 : arg4.IsWhole)
    (x0 : Vec F S5000x128 .f32) (x1 : Vec F S128x128 .bf16) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's case split reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.Reg1.lean ====
import proofs.«156050_j29892972380736_2_alg».proof.Proof.Gen.KernelIdeal.Launch
import proofs.«156050_j29892972380736_2_alg».proof.Proof.Gen.KernelIdeal.Skeleton
import proofs.«156050_j29892972380736_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The class-A half of one bias-and-rectify region of the graph convolution, at a parameter `V` (the
    TensorCore's buffer contents when the region is entered): each window's block at a grid point, the contents
    the body leaves in the output window's buffer, the body's triple, the pipeline's proof data and its body
    obligation. The region computes, block by block of 5000 rows, `max (agg * dinv + bias) 0`: window 0 is
    the aggregate block, window 1 the inverse-degree column block, window 2 the bias row (one block, fetched
    once), window 3 the output block. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): at a point where it is fetched the buffer holds the fetched block; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): as for window 0. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): the bias row is fetched at the first point only, and its block index is the same at every point, so at a later point the buffer still holds what the body left at the point before, which is that point's block and therefore this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S5000x128 := Rect.unit (s := S5000x128) ![0, 0] S5000x128.size inb_S5000x128_S5000x128_0_0
abbrev r1_1 : Rect S5000x1 := Rect.unit (s := S5000x1) ![0, 0] S5000x1.size inb_S5000x1_S5000x1_0_0
abbrev r1_2 : Rect S1x128 := Rect.unit (s := S1x128) ![0, 0] S1x128.size inb_S1x128_S1x128_0_0

/-! ## What the body leaves in the output window's buffer -/

/-- Window 3's staging buffer after the body, from the three input windows' blocks: its one store, of the
    payload `max (x0 * x1 + x2) 0` (the column `x1` and the row `x2` broadcast), over the whole buffer. -/
def out1_3 (x0 : Vec F S5000x128 .f32) (x1 : Vec F S5000x1 .f32) (x2 : Vec F S1x128 .f32) : Vec F S5000x128 .f32 :=
  View.canon [⟨r1_0, k1_pay1 (View.ld x0 r1_0) (View.ld x1 r1_1) (View.ld x2 r1_2)⟩]

/-- The one store is the whole buffer, so it covers it. -/
theorem cover1_3 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the inputs' at contents `x0 x1 x2` and the output's at anything,
    runs to the continuation holding the inputs' as they were and the output's at `out1_3 x0 x1 x2`: the
    printed function is its skeleton of three loads, a load of the output buffer whose value is unused, and one
    store of the payload over the whole output buffer. -/
theorem sound_kernel1 (c : Dev nD) (E : Set ℕ) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S5000x1 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__bias_relu_kernel i arg1 harg1 arg2 harg2 arg3 harg3 arg4 harg4) K := by
  simp only [cc1__bias_relu_kernel_eq_skeleton]; unfold cc1__bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this region's pipeline on core `c`: the arrays as the region finds them (`V`); after the
    body at point `t` each input's buffer at its block and the output's at `out1_3` of the input blocks; the
    invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's owed transfers pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«156050_j29892972380736_2_alg».proof.Proof.Gen.KernelIdeal.Launch
import proofs.«156050_j29892972380736_2_alg».proof.Proof.Gen.KernelIdeal.Skeleton
import proofs.«156050_j29892972380736_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # REGION 2 of @main: custom_call 2, the row-scaled product `(h · W) * dinv` on blocks of 5000 rows (pipeline 2),
    at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): where the window is not
    fetched its block index has not moved since the point before, so the block left there is this point's; the
    window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): where the window is not
    fetched its block index has not moved since the point before, so the block left there is this point's; the
    window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): where the window is not
    fetched its block index has not moved since the point before, so the block left there is this point's; the
    window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 5000x128 buffer (read of the features, and the one store). -/
abbrev r2_0 : Rect S5000x128 := Rect.unit (s := S5000x128) ![0, 0] S5000x128.size inb_S5000x128_S5000x128_0_0
/-- The whole 128x128 buffer (read of the weights). -/
abbrev r2_1 : Rect S128x128 := Rect.unit (s := S128x128) ![0, 0] S128x128.size inb_S128x128_S128x128_0_0
/-- The whole 5000x1 buffer (read of the row scales). -/
abbrev r2_2 : Rect S5000x1 := Rect.unit (s := S5000x1) ![0, 0] S5000x1.size inb_S5000x1_S5000x1_0_0

/-! ## What the body leaves in the output window's buffer -/

/-- Window 3's staging buffer after the body, from the three input windows' blocks: its one store, of the payload
    `(x0 · x1) * x2` rounded to bf16, over the whole buffer. -/
def out2_3 (x0 : Vec F S5000x128 .f32) (x1 : Vec F S128x128 .bf16) (x2 : Vec F S5000x1 .f32) : Vec F S5000x128 .bf16 :=
  View.canon [⟨r2_0, k2_pay1 (View.ld x0 r2_0) (View.ld x1 r2_1) (View.ld x2 r2_2)⟩]

/-- Its one store is of the whole buffer, so it covers it. -/
theorem cover2_3 (p0 : Vec F S5000x128 .bf16) (y : S5000x128.Idx) :
    ∃ pc ∈ ([⟨r2_0, p0⟩] : List (View.Piece (Elt F) S5000x128 .bf16)), y ∈ pc.1.set :=
  View.cover_of_tiled [⟨r2_0, p0⟩] S5000x128.size (by rfl) y

/-! ## The body's triple -/

set_option maxHeartbeats 1000000 in
/-- The kernel body on whole staging memrefs, the inputs' at read contents `x0 x1 x2` and the output's at anything, runs
    to the continuation holding the inputs' as they were and the output's at `out2_3` of the inputs': the printed
    function is its sequence of three loads, one (unused) load of the output buffer and one store of the payload. -/
theorem sound_kernel2 (c : Dev nD) (E : Set ℕ) (i : grid2.Coords) (arg1 : Memref sig .tc .vmem S5000x128 .f32) (harg1 : arg1.IsWhole) (arg2 : Memref sig .tc .vmem S128x128 .bf16) (harg2 : arg2.IsWhole) (arg3 : Memref sig .tc .vmem S5000x1 .f32) (harg3 : arg3.IsWhole) (arg4 : Memref sig .tc .vmem S5000x128 .bf16) (harg4 : arg4.IsWhole)
    (x0 : Vec F S5000x128 .f32) (x1 : Vec F S128x128 .bf16) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__matmul_kernel i arg1 harg1 arg2 harg2 arg3 harg3 arg4 harg4) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point `t`
    each input's buffer at its block and the output's at `out2_3` of the input blocks; the invariant is the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the definition's case split reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's owed count pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KI.Reg3.lean ====
import proofs.«156050_j29892972380736_2_alg».proof.Proof.Gen.KernelIdeal.Launch
import proofs.«156050_j29892972380736_2_alg».proof.Proof.Gen.KernelIdeal.Skeleton
import proofs.«156050_j29892972380736_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The class-A half of one bias-and-rectify region of the graph convolution, at a parameter `V` (the
    TensorCore's buffer contents when the region is entered): each window's block at a grid point, the contents
    the body leaves in the output window's buffer, the body's triple, the pipeline's proof data and its body
    obligation. The region computes, block by block of 5000 rows, `max (agg * dinv + bias) 0`: window 0 is
    the aggregate block, window 1 the inverse-degree column block, window 2 the bias row (one block, fetched
    once), window 3 the output block. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): at a point where it is fetched the buffer holds the fetched block; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): as for window 0. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): the bias row is fetched at the first point only, and its block index is the same at every point, so at a later point the buffer still holds what the body left at the point before, which is that point's block and therefore this point's. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S5000x128 := Rect.unit (s := S5000x128) ![0, 0] S5000x128.size inb_S5000x128_S5000x128_0_0
abbrev r3_1 : Rect S5000x1 := Rect.unit (s := S5000x1) ![0, 0] S5000x1.size inb_S5000x1_S5000x1_0_0
abbrev r3_2 : Rect S1x128 := Rect.unit (s := S1x128) ![0, 0] S1x128.size inb_S1x128_S1x128_0_0

/-! ## What the body leaves in the output window's buffer -/

/-- Window 3's staging buffer after the body, from the three input windows' blocks: its one store, of the
    payload `max (x0 * x1 + x2) 0` (the column `x1` and the row `x2` broadcast), over the whole buffer. -/
def out3_3 (x0 : Vec F S5000x128 .f32) (x1 : Vec F S5000x1 .f32) (x2 : Vec F S1x128 .f32) : Vec F S5000x128 .f32 :=
  View.canon [⟨r3_0, k3_pay1 (View.ld x0 r3_0) (View.ld x1 r3_1) (View.ld x2 r3_2)⟩]

/-- The one store is the whole buffer, so it covers it. -/
theorem cover3_3 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The kernel body on whole staging memrefs, the inputs' at contents `x0 x1 x2` and the output's at anything,
    runs to the continuation holding the inputs' as they were and the output's at `out3_3 x0 x1 x2`: the
    printed function is its skeleton of three loads, a load of the output buffer whose value is unused, and one
    store of the payload over the whole output buffer. -/
theorem sound_kernel3 (c : Dev nD) (E : Set ℕ) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S5000x1 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__bias_relu_kernel i arg1 harg1 arg2 harg2 arg3 harg3 arg4 harg4) K := by
  simp only [cc3__bias_relu_kernel_eq_skeleton]; unfold cc3__bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of this region's pipeline on core `c`: the arrays as the region finds them (`V`); after the
    body at point `t` each input's buffer at its block and the output's at `out3_3` of the input blocks; the
    invariant the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and
    the core's owed transfers pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
import proofs.«156050_j29892972380736_2_alg».proof.Proof.Gen.KernelIdeal.Launch
import proofs.«156050_j29892972380736_2_alg».proof.Proof.Gen.KernelIdeal.Skeleton
import proofs.«156050_j29892972380736_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # REGION 4 of @main: custom_call 4, the row-scaled product `(h · W) * dinv` on blocks of 5000 rows (pipeline 4),
    at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): where the window is not
    fetched its block index has not moved since the point before, so the block left there is this point's; the
    window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for ANY proof
    data whose array is `V`'s (`hA`) and whose body leaves the block in place (`hafter`): where the window is not
    fetched its block index has not moved since the point before, so the block left there is this point's; the
    window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not, for ANY proof
    data whose array is `V`'s (`hA`) and whose body leaves the block in place (`hafter`): where the window is not
    fetched its block index has not moved since the point before, so the block left there is this point's; the
    window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole 5000x128 buffer (read of the features, and the one store). -/
abbrev r4_0 : Rect S5000x128 := Rect.unit (s := S5000x128) ![0, 0] S5000x128.size inb_S5000x128_S5000x128_0_0
/-- The whole 128x128 buffer (read of the weights). -/
abbrev r4_1 : Rect S128x128 := Rect.unit (s := S128x128) ![0, 0] S128x128.size inb_S128x128_S128x128_0_0
/-- The whole 5000x1 buffer (read of the row scales). -/
abbrev r4_2 : Rect S5000x1 := Rect.unit (s := S5000x1) ![0, 0] S5000x1.size inb_S5000x1_S5000x1_0_0

/-! ## What the body leaves in the output window's buffer -/

/-- Window 3's staging buffer after the body, from the three input windows' blocks: its one store, of the payload
    `(x0 · x1) * x2` rounded to bf16, over the whole buffer. -/
def out4_3 (x0 : Vec F S5000x128 .f32) (x1 : Vec F S128x128 .bf16) (x2 : Vec F S5000x1 .f32) : Vec F S5000x128 .bf16 :=
  View.canon [⟨r4_0, k4_pay1 (View.ld x0 r4_0) (View.ld x1 r4_1) (View.ld x2 r4_2)⟩]

/-- Its one store is of the whole buffer, so it covers it. -/
theorem cover4_3 (p0 : Vec F S5000x128 .bf16) (y : S5000x128.Idx) :
    ∃ pc ∈ ([⟨r4_0, p0⟩] : List (View.Piece (Elt F) S5000x128 .bf16)), y ∈ pc.1.set :=
  View.cover_of_tiled [⟨r4_0, p0⟩] S5000x128.size (by rfl) y

/-! ## The body's triple -/

set_option maxHeartbeats 1000000 in
/-- The kernel body on whole staging memrefs, the inputs' at read contents `x0 x1 x2` and the output's at anything, runs
    to the continuation holding the inputs' as they were and the output's at `out4_3` of the inputs': the printed
    function is its sequence of three loads, one (unused) load of the output buffer and one store of the payload. -/
theorem sound_kernel4 (c : Dev nD) (E : Set ℕ) (i : grid4.Coords) (arg1 : Memref sig .tc .vmem S5000x128 .f32) (harg1 : arg1.IsWhole) (arg2 : Memref sig .tc .vmem S128x128 .bf16) (harg2 : arg2.IsWhole) (arg3 : Memref sig .tc .vmem S5000x1 .f32) (harg3 : arg3.IsWhole) (arg4 : Memref sig .tc .vmem S5000x128 .bf16) (harg4 : arg4.IsWhole)
    (x0 : Vec F S5000x128 .f32) (x1 : Vec F S128x128 .bf16) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__matmul_kernel i arg1 harg1 arg2 harg2 arg3 harg3 arg4 harg4) K := by
  simp only [cc4__matmul_kernel_eq_skeleton]; unfold cc4__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them (`V`); after the body at point `t`
    each input's buffer at its block and the output's at `out4_3` of the input blocks; the invariant is the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the definition's case split reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t` (the obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks (`before4_W`), so `sound_kernel4` applies; the
    invariant and the core's owed count pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand
-- ==== Proof.KI.Reg5.lean ====
import proofs.«156050_j29892972380736_2_alg».proof.Proof.Gen.KernelIdeal.Launch
import proofs.«156050_j29892972380736_2_alg».proof.Proof.Gen.KernelIdeal.Skeleton
import proofs.«156050_j29892972380736_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The class-A half of one bias-and-rectify region of the graph convolution, at a parameter `V` (the
    TensorCore's buffer contents when the region is entered): each window's block at a grid point, the contents
    the body leaves in the output window's buffer, the body's triple, the pipeline's proof data and its body
    obligation. The region computes, block by block of 5000 rows, `max (agg * dinv + bias) 0`: window 0 is
    the aggregate block, window 1 the inverse-degree column block, window 2 the bias row (one block, fetched
    once), window 3 the output block. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): at a point where it is fetched the buffer holds the fetched block; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): as for window 0. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): the bias row is fetched at the first point only, and its block index is the same at every point, so at a later point the buffer still holds what the body left at the point before, which is that point's block and therefore this point's. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S5000x128 := Rect.unit (s := S5000x128) ![0, 0] S5000x128.size inb_S5000x128_S5000x128_0_0
abbrev r5_1 : Rect S5000x1 := Rect.unit (s := S5000x1) ![0, 0] S5000x1.size inb_S5000x1_S5000x1_0_0
abbrev r5_2 : Rect S1x128 := Rect.unit (s := S1x128) ![0, 0] S1x128.size inb_S1x128_S1x128_0_0

/-! ## What the body leaves in the output window's buffer -/

/-- Window 3's staging buffer after the body, from the three input windows' blocks: its one store, of the
    payload `max (x0 * x1 + x2) 0` (the column `x1` and the row `x2` broadcast), over the whole buffer. -/
def out5_3 (x0 : Vec F S5000x128 .f32) (x1 : Vec F S5000x1 .f32) (x2 : Vec F S1x128 .f32) : Vec F S5000x128 .f32 :=
  View.canon [⟨r5_0, k5_pay1 (View.ld x0 r5_0) (View.ld x1 r5_1) (View.ld x2 r5_2)⟩]

/-- The one store is the whole buffer, so it covers it. -/
theorem cover5_3 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel body on whole staging memrefs, the inputs' at contents `x0 x1 x2` and the output's at anything,
    runs to the continuation holding the inputs' as they were and the output's at `out5_3 x0 x1 x2`: the
    printed function is its skeleton of three loads, a load of the output buffer whose value is unused, and one
    store of the payload over the whole output buffer. -/
theorem sound_kernel5 (c : Dev nD) (E : Set ℕ) (i : grid5.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S5000x1 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__bias_relu_kernel i arg1 harg1 arg2 harg2 arg3 harg3 arg4 harg4) K := by
  simp only [cc5__bias_relu_kernel_eq_skeleton]; unfold cc5__bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of this region's pipeline on core `c`: the arrays as the region finds them (`V`); after the
    body at point `t` each input's buffer at its block and the output's at `out5_3` of the input blocks; the
    invariant the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the body's triple applies; the invariant and
    the core's owed transfers pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
import proofs.«156050_j29892972380736_2_alg».proof.Proof.Gen.KernelIdeal.Launch
import proofs.«156050_j29892972380736_2_alg».proof.Proof.Gen.KernelIdeal.Skeleton
import proofs.«156050_j29892972380736_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # REGION 6 of @main: custom_call 6, the row-scaled product `(h · W) * dinv` on blocks of 5000 rows (pipeline 6),
    at the entry contents `V` -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for ANY proof
    data whose array is `V`'s (`hA`) and whose body leaves the block in place (`hafter`): where the window is not
    fetched its block index has not moved since the point before, so the block left there is this point's; the
    window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, fetched there or not, for ANY proof
    data whose array is `V`'s (`hA`) and whose body leaves the block in place (`hafter`): where the window is not
    fetched its block index has not moved since the point before, so the block left there is this point's; the
    window is uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, fetched there or not, for ANY proof
    data whose array is `V`'s (`hA`) and whose body leaves the block in place (`hafter`): where the window is not
    fetched its block index has not moved since the point before, so the block left there is this point's; the
    window is uncut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The whole 5000x128 buffer (read of the features, and the one store). -/
abbrev r6_0 : Rect S5000x128 := Rect.unit (s := S5000x128) ![0, 0] S5000x128.size inb_S5000x128_S5000x128_0_0
/-- The whole 128x128 buffer (read of the weights). -/
abbrev r6_1 : Rect S128x128 := Rect.unit (s := S128x128) ![0, 0] S128x128.size inb_S128x128_S128x128_0_0
/-- The whole 5000x1 buffer (read of the row scales). -/
abbrev r6_2 : Rect S5000x1 := Rect.unit (s := S5000x1) ![0, 0] S5000x1.size inb_S5000x1_S5000x1_0_0

/-! ## What the body leaves in the output window's buffer -/

/-- Window 3's staging buffer after the body, from the three input windows' blocks: its one store, of the payload
    `(x0 · x1) * x2` rounded to bf16, over the whole buffer. -/
def out6_3 (x0 : Vec F S5000x128 .f32) (x1 : Vec F S128x128 .bf16) (x2 : Vec F S5000x1 .f32) : Vec F S5000x128 .bf16 :=
  View.canon [⟨r6_0, k6_pay1 (View.ld x0 r6_0) (View.ld x1 r6_1) (View.ld x2 r6_2)⟩]

/-- Its one store is of the whole buffer, so it covers it. -/
theorem cover6_3 (p0 : Vec F S5000x128 .bf16) (y : S5000x128.Idx) :
    ∃ pc ∈ ([⟨r6_0, p0⟩] : List (View.Piece (Elt F) S5000x128 .bf16)), y ∈ pc.1.set :=
  View.cover_of_tiled [⟨r6_0, p0⟩] S5000x128.size (by rfl) y

/-! ## The body's triple -/

set_option maxHeartbeats 1000000 in
/-- The kernel body on whole staging memrefs, the inputs' at read contents `x0 x1 x2` and the output's at anything, runs
    to the continuation holding the inputs' as they were and the output's at `out6_3` of the inputs': the printed
    function is its sequence of three loads, one (unused) load of the output buffer and one store of the payload. -/
theorem sound_kernel6 (c : Dev nD) (E : Set ℕ) (i : grid6.Coords) (arg1 : Memref sig .tc .vmem S5000x128 .f32) (harg1 : arg1.IsWhole) (arg2 : Memref sig .tc .vmem S128x128 .bf16) (harg2 : arg2.IsWhole) (arg3 : Memref sig .tc .vmem S5000x1 .f32) (harg3 : arg3.IsWhole) (arg4 : Memref sig .tc .vmem S5000x128 .bf16) (harg4 : arg4.IsWhole)
    (x0 : Vec F S5000x128 .f32) (x1 : Vec F S128x128 .bf16) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__matmul_kernel i arg1 harg1 arg2 harg2 arg3 harg3 arg4 harg4) K := by
  simp only [cc6__matmul_kernel_eq_skeleton]; unfold cc6__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of pipeline 6 on core `c`: the arrays as the region finds them (`V`); after the body at point `t`
    each input's buffer at its block and the output's at `out6_3` of the input blocks; the invariant is the scoped rest
    and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents (the definition projected). -/
theorem A_eq6 (c : Dev nD) (w : Fin cfg6.W) : (dat6 V c).A w = V c (Pipeline.arrRef spec6 w) := by
  dsimp only [dat6]

/-- What the body leaves, window by window (the definition's case split reduced). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t` (the obligation's precondition, the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks (`before6_W`), so `sound_kernel6` applies; the
    invariant and the core's owed count pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.KI.Reg7.lean ====
import proofs.«156050_j29892972380736_2_alg».proof.Proof.Gen.KernelIdeal.Launch
import proofs.«156050_j29892972380736_2_alg».proof.Proof.Gen.KernelIdeal.Skeleton
import proofs.«156050_j29892972380736_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The class-A half of one bias-and-rectify region of the graph convolution, at a parameter `V` (the
    TensorCore's buffer contents when the region is entered): each window's block at a grid point, the contents
    the body leaves in the output window's buffer, the body's triple, the pipeline's proof data and its body
    obligation. The region computes, block by block of 5000 rows, `max (agg * dinv + bias) 0`: window 0 is
    the aggregate block, window 1 the inverse-degree column block, window 2 the bias row (one block, fetched
    once), window 3 the output block. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s (`hA`) and whose body leaves the block in place (`hafter`): at a point where it is fetched the buffer holds the fetched block; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof
    data whose array is `V`'s (`hA`) and whose body leaves the block in place (`hafter`): as for window 0. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof
    data whose array is `V`'s (`hA`) and whose body leaves the block in place (`hafter`): the bias row is fetched at the first point only, and its block index is the same at every point, so at a later point the buffer still holds what the body left at the point before, which is that point's block and therefore this point's. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

abbrev r7_0 : Rect S5000x128 := Rect.unit (s := S5000x128) ![0, 0] S5000x128.size inb_S5000x128_S5000x128_0_0
abbrev r7_1 : Rect S5000x1 := Rect.unit (s := S5000x1) ![0, 0] S5000x1.size inb_S5000x1_S5000x1_0_0
abbrev r7_2 : Rect S1x128 := Rect.unit (s := S1x128) ![0, 0] S1x128.size inb_S1x128_S1x128_0_0

/-! ## What the body leaves in the output window's buffer -/

/-- Window 3's staging buffer after the body, from the three input windows' blocks: its one store, of the
    payload `max (x0 * x1 + x2) 0` (the column `x1` and the row `x2` broadcast), over the whole buffer. -/
def out7_3 (x0 : Vec F S5000x128 .f32) (x1 : Vec F S5000x1 .f32) (x2 : Vec F S1x128 .f32) : Vec F S5000x128 .f32 :=
  View.canon [⟨r7_0, k7_pay1 (View.ld x0 r7_0) (View.ld x1 r7_1) (View.ld x2 r7_2)⟩]

/-- The one store is the whole buffer, so it covers it. -/
theorem cover7_3 (p0 : Vec F S5000x128 .f32) (y : S5000x128.Idx) :
    ∃ pc ∈ ([⟨r7_0, p0⟩] : List (View.Piece (Elt F) S5000x128 .f32)), y ∈ pc.1.set :=
  View.cover_of_tiled [⟨r7_0, p0⟩] S5000x128.size (by rfl) y

/-! ## The body's triple -/

set_option maxHeartbeats 1000000 in
/-- The kernel body on whole staging memrefs, the inputs' at contents `x0 x1 x2` and the output's at anything,
    runs to the continuation holding the inputs' as they were and the output's at `out7_3 x0 x1 x2`: the
    printed function is its skeleton of three loads, a load of the output buffer whose value is unused, and one
    store of the payload over the whole output buffer. -/
theorem sound_kernel7 (c : Dev nD) (E : Set ℕ) (i : grid7.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S5000x1 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7__bias_relu_kernel i arg1 harg1 arg2 harg2 arg3 harg3 arg4 harg4) K := by
  simp only [cc7__bias_relu_kernel_eq_skeleton]; unfold cc7__bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The pipeline's proof data -/

/-- The proof data of this region's pipeline on core `c`: the arrays as the region finds them (`V`); after the
    body at point `t` each input's buffer at its block and the output's at `out7_3` of the input blocks; the
    invariant the scoped rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks, so the body's triple applies; the invariant and
    the core's owed transfers pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Reg8.lean ====
import proofs.«156050_j29892972380736_2_alg».proof.Proof.Gen.KernelIdeal.Launch
import proofs.«156050_j29892972380736_2_alg».proof.Proof.Gen.KernelIdeal.Skeleton
import proofs.«156050_j29892972380736_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # REGION 8 of @main: custom_call 8, the row-scaled product `(h · W) * dinv` on blocks of 5000 rows (pipeline 8),
    at the entry contents `V` -/

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for ANY proof
    data whose array is `V`'s (`hA`) and whose body leaves the block in place (`hafter`): where the window is not
    fetched its block index has not moved since the point before, so the block left there is this point's; the
    window is uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's current staging buffer holds its block at every point, fetched there or not, for ANY proof
    data whose array is `V`'s (`hA`) and whose body leaves the block in place (`hafter`): where the window is not
    fetched its block index has not moved since the point before, so the block left there is this point's; the
    window is uncut and never idle. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's current staging buffer holds its block at every point, fetched there or not, for ANY proof
    data whose array is `V`'s (`hA`) and whose body leaves the block in place (`hafter`): where the window is not
    fetched its block index has not moved since the point before, so the block left there is this point's; the
    window is uncut and never idle. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole 5000x128 buffer (read of the features, and the one store). -/
abbrev r8_0 : Rect S5000x128 := Rect.unit (s := S5000x128) ![0, 0] S5000x128.size inb_S5000x128_S5000x128_0_0
/-- The whole 128x128 buffer (read of the weights). -/
abbrev r8_1 : Rect S128x128 := Rect.unit (s := S128x128) ![0, 0] S128x128.size inb_S128x128_S128x128_0_0
/-- The whole 5000x1 buffer (read of the row scales). -/
abbrev r8_2 : Rect S5000x1 := Rect.unit (s := S5000x1) ![0, 0] S5000x1.size inb_S5000x1_S5000x1_0_0

/-! ## What the body leaves in the output window's buffer -/

/-- Window 3's staging buffer after the body, from the three input windows' blocks: its one store, of the payload
    `(x0 · x1) * x2` rounded to bf16, over the whole buffer. -/
def out8_3 (x0 : Vec F S5000x128 .f32) (x1 : Vec F S128x128 .bf16) (x2 : Vec F S5000x1 .f32) : Vec F S5000x128 .bf16 :=
  View.canon [⟨r8_0, k8_pay1 (View.ld x0 r8_0) (View.ld x1 r8_1) (View.ld x2 r8_2)⟩]

/-- Its one store is of the whole buffer, so it covers it. -/
theorem cover8_3 (p0 : Vec F S5000x128 .bf16) (y : S5000x128.Idx) :
    ∃ pc ∈ ([⟨r8_0, p0⟩] : List (View.Piece (Elt F) S5000x128 .bf16)), y ∈ pc.1.set :=
  View.cover_of_tiled [⟨r8_0, p0⟩] S5000x128.size (by rfl) y

/-! ## The body's triple -/

set_option maxHeartbeats 1000000 in
/-- The kernel body on whole staging memrefs, the inputs' at read contents `x0 x1 x2` and the output's at anything, runs
    to the continuation holding the inputs' as they were and the output's at `out8_3` of the inputs': the printed
    function is its sequence of three loads, one (unused) load of the output buffer and one store of the payload. -/
theorem sound_kernel8 (c : Dev nD) (E : Set ℕ) (i : grid8.Coords) (arg1 : Memref sig .tc .vmem S5000x128 .f32) (harg1 : arg1.IsWhole) (arg2 : Memref sig .tc .vmem S128x128 .bf16) (harg2 : arg2.IsWhole) (arg3 : Memref sig .tc .vmem S5000x1 .f32) (harg3 : arg3.IsWhole) (arg4 : Memref sig .tc .vmem S5000x128 .bf16) (harg4 : arg4.IsWhole)
    (x0 : Vec F S5000x128 .f32) (x1 : Vec F S128x128 .bf16) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__matmul_kernel i arg1 harg1 arg2 harg2 arg3 harg3 arg4 harg4) K := by
  simp only [cc8__matmul_kernel_eq_skeleton]; unfold cc8__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The pipeline's proof data -/

/-- The proof data of pipeline 8 on core `c`: the arrays as the region finds them (`V`); after the body at point `t`
    each input's buffer at its block and the output's at `out8_3` of the input blocks; the invariant is the scoped rest
    and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the region-entry contents (the definition projected). -/
theorem A_eq8 (c : Dev nD) (w : Fin cfg8.W) : (dat8 V c).A w = V c (Pipeline.arrRef spec8 w) := by
  dsimp only [dat8]

/-- What the body leaves, window by window (the definition's case split reduced). -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- What the body is called with at point `t` (the obligation's precondition, the windows one by one), -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks (`before8_W`), so `sound_kernel8` applies; the
    invariant and the core's owed count pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand
-- ==== Proof.KI.Reg9.lean ====
import proofs.«156050_j29892972380736_2_alg».proof.Proof.Gen.KernelIdeal.Launch
import proofs.«156050_j29892972380736_2_alg».proof.Proof.Gen.KernelIdeal.Skeleton
import proofs.«156050_j29892972380736_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The class-A half of one bias-and-rectify region of the graph convolution, at a parameter `V` (the
    TensorCore's buffer contents when the region is entered): each window's block at a grid point, the contents
    the body leaves in the output window's buffer, the body's triple, the pipeline's proof data and its body
    obligation. The region computes, block by block of 5000 rows, `max (agg * dinv + bias) 0`: window 0 is
    the aggregate block, window 1 the inverse-degree column block, window 2 the bias row (one block, fetched
    once), window 3 the output block. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s (`hA`) and whose body leaves the block in place (`hafter`): at a point where it is fetched the buffer holds the fetched block; the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for any proof
    data whose array is `V`'s (`hA`) and whose body leaves the block in place (`hafter`): as for window 0. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for any proof
    data whose array is `V`'s (`hA`) and whose body leaves the block in place (`hafter`): the bias row is fetched at the first point only, and its block index is the same at every point, so at a later point the buffer still holds what the body left at the point before, which is that point's block and therefore this point's. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

abbrev r9_0 : Rect S5000x128 := Rect.unit (s := S5000x128) ![0, 0] S5000x128.size inb_S5000x128_S5000x128_0_0
abbrev r9_1 : Rect S5000x1 := Rect.unit (s := S5000x1) ![0, 0] S5000x1.size inb_S5000x1_S5000x1_0_0
abbrev r9_2 : Rect S1x128 := Rect.unit (s := S1x128) ![0, 0] S1x128.size inb_S1x128_S1x128_0_0

/-! ## What the body leaves in the output window's buffer -/

/-- Window 3's staging buffer after the body, from the three input windows' blocks: its one store, of the
    payload `max (x0 * x1 + x2) 0` (the column `x1` and the row `x2` broadcast), over the whole buffer. -/
def out9_3 (x0 : Vec F S5000x128 .f32) (x1 : Vec F S5000x1 .f32) (x2 : Vec F S1x128 .f32) : Vec F S5000x128 .f32 :=
  View.canon [⟨r9_0, k9_pay1 (View.ld x0 r9_0) (View.ld x1 r9_1) (View.ld x2 r9_2)⟩]

/-- The one store is the whole buffer, so it covers it. -/
theorem cover9_3 (p0 : Vec F S5000x128 .f32) (y : S5000x128.Idx) :
    ∃ pc ∈ ([⟨r9_0, p0⟩] : List (View.Piece (Elt F) S5000x128 .f32)), y ∈ pc.1.set :=
  View.cover_of_tiled [⟨r9_0, p0⟩] S5000x128.size (by rfl) y

/-! ## The body's triple -/

set_option maxHeartbeats 1000000 in
/-- The kernel body on whole staging memrefs, the inputs' at contents `x0 x1 x2` and the output's at anything,
    runs to the continuation holding the inputs' as they were and the output's at `out9_3 x0 x1 x2`: the
    printed function is its skeleton of three loads, a load of the output buffer whose value is unused, and one
    store of the payload over the whole output buffer. -/
theorem sound_kernel9 (c : Dev nD) (E : Set ℕ) (i : grid9.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S5000x1 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out9_3 x0 x1 x2)) -∗ K ⟨⟩))
      ⊢ wp frame (wpE (defs₀ (F := F)) Variants.none c none) E (cc9__bias_relu_kernel i arg1 harg1 arg2 harg2 arg3 harg3 arg4 harg4) K := by
  simp only [cc9__bias_relu_kernel_eq_skeleton]; unfold cc9__bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The pipeline's proof data -/

/-- The proof data of this region's pipeline on core `c`: the arrays as the region finds them (`V`); after the
    body at point `t` each input's buffer at its block and the output's at `out9_3` of the input blocks; the
    invariant the scoped rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' memrefs hold their blocks, so the body's triple applies; the invariant and
    the core's owed transfers pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ (grid9.coords t) _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.Run.lean ====
/- The run of @main from the launch to the return, over its 21 segments (11 stretches of host operations, 10 kernel
   regions): the buffers' contents at every segment boundary as a fold from the launch memory, every region's proof data
   at its entry contents, the regions as segments over the thread state "every unscoped buffer at the boundary's
   contents, the generator register at some state, nothing owed", and the launch: every weakly fair execution
   terminates, the final memory holds every unscoped buffer at the last boundary's contents, and in particular every
   argument array as launched. Stated at any float interpretation. -/
import proofs.«156050_j29892972380736_2_alg».proof.Proof.Gen.KernelIdeal.Launch
import proofs.«156050_j29892972380736_2_alg».proof.Proof.Gen.KernelIdeal.Skeleton
import proofs.«156050_j29892972380736_2_alg».proof.Proof.Gen.KernelIdeal.Points
import proofs.«156050_j29892972380736_2_alg».proof.Proof.Gen.KernelIdeal.Regions
import proofs.«156050_j29892972380736_2_alg».proof.Proof.KI.Reg0
import proofs.«156050_j29892972380736_2_alg».proof.Proof.KI.Reg1
import proofs.«156050_j29892972380736_2_alg».proof.Proof.KI.Reg2
import proofs.«156050_j29892972380736_2_alg».proof.Proof.KI.Reg3
import proofs.«156050_j29892972380736_2_alg».proof.Proof.KI.Reg4
import proofs.«156050_j29892972380736_2_alg».proof.Proof.KI.Reg5
import proofs.«156050_j29892972380736_2_alg».proof.Proof.KI.Reg6
import proofs.«156050_j29892972380736_2_alg».proof.Proof.KI.Reg7
import proofs.«156050_j29892972380736_2_alg».proof.Proof.KI.Reg8
import proofs.«156050_j29892972380736_2_alg».proof.Proof.KI.Reg9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary: a fold through @main -/

/-- Core c's buffers at launch. -/
abbrev W0 : Dev nD → Valuation τ sig (Elt F) := fun c b => (s₀ m ρ).mem ((c : Dev nD), b)

/-- After the host stretch hostOps0 (region 0's entry). -/
abbrev W1 : Dev nD → Valuation τ sig (Elt F) := fun c => StableHlo.after hostOps0 (W0 m ρ c)
/-- A buffer no operation of hostOps0 writes is as before the stretch. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch hostOps1 (region 1's entry). -/
abbrev W3 : Dev nD → Valuation τ sig (Elt F) := fun c => StableHlo.after hostOps1 (W2 m ρ c)
/-- A buffer no operation of hostOps1 writes is as before the stretch. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, the output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch hostOps2 (region 2's entry). -/
abbrev W5 : Dev nD → Valuation τ sig (Elt F) := fun c => StableHlo.after hostOps2 (W4 m ρ c)
/-- A buffer no operation of hostOps2 writes is as before the stretch. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, the output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch hostOps3 (region 3's entry). -/
abbrev W7 : Dev nD → Valuation τ sig (Elt F) := fun c => StableHlo.after hostOps3 (W6 m ρ c)
/-- A buffer no operation of hostOps3 writes is as before the stretch. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, the output's write-backs
    folded), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch hostOps4 (region 4's entry). -/
abbrev W9 : Dev nD → Valuation τ sig (Elt F) := fun c => StableHlo.after hostOps4 (W8 m ρ c)
/-- A buffer no operation of hostOps4 writes is as before the stretch. -/
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h
/-- The same read at the TensorCore's references (what region 4's proof data take). -/
abbrev V9 : (c : Dev nD) → (b : Ref sig .tc) → Buf (Elt F) ((c : Thread nD τ).loc b) := fun c b => W9 m ρ c b
/-- At region 4's exit: its arrays at what the pipeline leaves (the inputs as entered, the output's write-backs
    folded), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves, and every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the host stretch hostOps5 (region 5's entry). -/
abbrev W11 : Dev nD → Valuation τ sig (Elt F) := fun c => StableHlo.after hostOps5 (W10 m ρ c)
/-- A buffer no operation of hostOps5 writes is as before the stretch. -/
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h
/-- The same read at the TensorCore's references (what region 5's proof data take). -/
abbrev V11 : (c : Dev nD) → (b : Ref sig .tc) → Buf (Elt F) ((c : Thread nD τ).loc b) := fun c b => W11 m ρ c b
/-- At region 5's exit: its arrays at what the pipeline leaves (the inputs as entered, the output's write-backs
    folded), every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m ρ c b
/-- At region 5's exit each of its arrays holds what the pipeline leaves, and every other buffer what it held at entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After the host stretch hostOps6 (region 6's entry). -/
abbrev W13 : Dev nD → Valuation τ sig (Elt F) := fun c => StableHlo.after hostOps6 (W12 m ρ c)
/-- A buffer no operation of hostOps6 writes is as before the stretch. -/
theorem W13_of (c : Dev nD) (r : Ref sig .tc) (h : r ∉ hostOps6_W) :
    W13 m ρ c (Proc.devRef .tc r) = W12 m ρ c (Proc.devRef .tc r) :=
  StableHlo.after_of_writes_sub hostOps6 _ hostOps6_writes h
/-- The same read at the TensorCore's references (what region 6's proof data take). -/
abbrev V13 : (c : Dev nD) → (b : Ref sig .tc) → Buf (Elt F) ((c : Thread nD τ).loc b) := fun c b => W13 m ρ c b
/-- At region 6's exit: its arrays at what the pipeline leaves (the inputs as entered, the output's write-backs
    folded), every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references (region 6's exit contents). -/
abbrev V14 : (c : Dev nD) → (b : Ref sig .tc) → Buf (Elt F) ((c : Thread nD τ).loc b) := fun c b => W14 m ρ c b
/-- At region 6's exit each of its arrays holds what the pipeline leaves, and every other buffer what it held at entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After the host stretch hostOps7 (region 7's entry). -/
abbrev W15 : Dev nD → Valuation τ sig (Elt F) := fun c => StableHlo.after hostOps7 (W14 m ρ c)
/-- A buffer no operation of hostOps7 writes is as before the stretch. -/
theorem W15_of (c : Dev nD) (r : Ref sig .tc) (h : r ∉ hostOps7_W) :
    W15 m ρ c (Proc.devRef .tc r) = W14 m ρ c (Proc.devRef .tc r) :=
  StableHlo.after_of_writes_sub hostOps7 _ hostOps7_writes h
/-- The same read at the TensorCore's references (what region 7's proof data take). -/
abbrev V15 : (c : Dev nD) → (b : Ref sig .tc) → Buf (Elt F) ((c : Thread nD τ).loc b) := fun c b => W15 m ρ c b
/-- At region 7's exit: its arrays at what the pipeline leaves (the inputs as entered, the output's write-backs
    folded), every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the TensorCore's references (region 7's exit contents). -/
abbrev V16 : (c : Dev nD) → (b : Ref sig .tc) → Buf (Elt F) ((c : Thread nD τ).loc b) := fun c b => W16 m ρ c b
/-- At region 7's exit each of its arrays holds what the pipeline leaves, and every other buffer what it held at entry. -/
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After the host stretch hostOps8 (region 8's entry). -/
abbrev W17 : Dev nD → Valuation τ sig (Elt F) := fun c => StableHlo.after hostOps8 (W16 m ρ c)
/-- A buffer no operation of hostOps8 writes is as before the stretch. -/
theorem W17_of (c : Dev nD) (r : Ref sig .tc) (h : r ∉ hostOps8_W) :
    W17 m ρ c (Proc.devRef .tc r) = W16 m ρ c (Proc.devRef .tc r) :=
  StableHlo.after_of_writes_sub hostOps8 _ hostOps8_writes h
/-- The same read at the TensorCore's references (what region 8's proof data take). -/
abbrev V17 : (c : Dev nD) → (b : Ref sig .tc) → Buf (Elt F) ((c : Thread nD τ).loc b) := fun c b => W17 m ρ c b
/-- At region 8's exit: its arrays at what the pipeline leaves (the inputs as entered, the output's write-backs
    folded), every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- The same read at the TensorCore's references (region 8's exit contents). -/
abbrev V18 : (c : Dev nD) → (b : Ref sig .tc) → Buf (Elt F) ((c : Thread nD τ).loc b) := fun c b => W18 m ρ c b
/-- At region 8's exit each of its arrays holds what the pipeline leaves, and every other buffer what it held at entry. -/
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-- After the host stretch hostOps9 (region 9's entry). -/
abbrev W19 : Dev nD → Valuation τ sig (Elt F) := fun c => StableHlo.after hostOps9 (W18 m ρ c)
/-- A buffer no operation of hostOps9 writes is as before the stretch. -/
theorem W19_of (c : Dev nD) (r : Ref sig .tc) (h : r ∉ hostOps9_W) :
    W19 m ρ c (Proc.devRef .tc r) = W18 m ρ c (Proc.devRef .tc r) :=
  StableHlo.after_of_writes_sub hostOps9 _ hostOps9_writes h
/-- The same read at the TensorCore's references (what region 9's proof data take). -/
abbrev V19 : (c : Dev nD) → (b : Ref sig .tc) → Buf (Elt F) ((c : Thread nD τ).loc b) := fun c b => W19 m ρ c b
/-- At region 9's exit: its arrays at what the pipeline leaves (the inputs as entered, the output's write-backs
    folded), every other buffer as entered. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
/-- The same read at the TensorCore's references (region 9's exit contents). -/
abbrev V20 : (c : Dev nD) → (b : Ref sig .tc) → Buf (Elt F) ((c : Thread nD τ).loc b) := fun c b => W20 m ρ c b
/-- At region 9's exit each of its arrays holds what the pipeline leaves, and every other buffer what it held at entry. -/
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)

/-- After the host stretch hostOps10 (the return). -/
abbrev W21 : Dev nD → Valuation τ sig (Elt F) := fun c => StableHlo.after hostOps10 (W20 m ρ c)
/-- A buffer no operation of hostOps10 writes is as before the stretch. -/
theorem W21_of (c : Dev nD) (r : Ref sig .tc) (h : r ∉ hostOps10_W) :
    W21 m ρ c (Proc.devRef .tc r) = W20 m ρ c (Proc.devRef .tc r) :=
  StableHlo.after_of_writes_sub hostOps10 _ hostOps10_writes h
/-- The same read at the TensorCore's references. -/
abbrev V21 : (c : Dev nD) → (b : Ref sig .tc) → Buf (Elt F) ((c : Thread nD τ).loc b) := fun c b => W21 m ρ c b

/-! ### The arguments end as launched: no host operation writes one; region 0 reads the first through an input window
    (an input window's array is never written back), and no other region has an argument among its arrays -/

theorem W21_main_arg0 (c : Dev nD) : W21 m ρ c (Proc.devRef .tc main_arg0) = m ((c : Thread nD τ).loc main_arg0) :=
  calc W21 m ρ c (Proc.devRef .tc main_arg0)
    _ = W20 m ρ c (Proc.devRef .tc main_arg0) := W21_of m ρ c main_arg0 (by decide)
    _ = W19 m ρ c (Proc.devRef .tc main_arg0) := W20_of_ne m ρ c main_arg0 (by decide)
    _ = W18 m ρ c (Proc.devRef .tc main_arg0) := W19_of m ρ c main_arg0 (by decide)
    _ = W17 m ρ c (Proc.devRef .tc main_arg0) := W18_of_ne m ρ c main_arg0 (by decide)
    _ = W16 m ρ c (Proc.devRef .tc main_arg0) := W17_of m ρ c main_arg0 (by decide)
    _ = W15 m ρ c (Proc.devRef .tc main_arg0) := W16_of_ne m ρ c main_arg0 (by decide)
    _ = W14 m ρ c (Proc.devRef .tc main_arg0) := W15_of m ρ c main_arg0 (by decide)
    _ = W13 m ρ c (Proc.devRef .tc main_arg0) := W14_of_ne m ρ c main_arg0 (by decide)
    _ = W12 m ρ c (Proc.devRef .tc main_arg0) := W13_of m ρ c main_arg0 (by decide)
    _ = W11 m ρ c (Proc.devRef .tc main_arg0) := W12_of_ne m ρ c main_arg0 (by decide)
    _ = W10 m ρ c (Proc.devRef .tc main_arg0) := W11_of m ρ c main_arg0 (by decide)
    _ = W9 m ρ c (Proc.devRef .tc main_arg0) := W10_of_ne m ρ c main_arg0 (by decide)
    _ = W8 m ρ c (Proc.devRef .tc main_arg0) := W9_of m ρ c main_arg0 (by decide)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

theorem W21_main_arg1 (c : Dev nD) : W21 m ρ c (Proc.devRef .tc main_arg1) = m ((c : Thread nD τ).loc main_arg1) :=
  calc W21 m ρ c (Proc.devRef .tc main_arg1)
    _ = W20 m ρ c (Proc.devRef .tc main_arg1) := W21_of m ρ c main_arg1 (by decide)
    _ = W19 m ρ c (Proc.devRef .tc main_arg1) := W20_of_ne m ρ c main_arg1 (by decide)
    _ = W18 m ρ c (Proc.devRef .tc main_arg1) := W19_of m ρ c main_arg1 (by decide)
    _ = W17 m ρ c (Proc.devRef .tc main_arg1) := W18_of_ne m ρ c main_arg1 (by decide)
    _ = W16 m ρ c (Proc.devRef .tc main_arg1) := W17_of m ρ c main_arg1 (by decide)
    _ = W15 m ρ c (Proc.devRef .tc main_arg1) := W16_of_ne m ρ c main_arg1 (by decide)
    _ = W14 m ρ c (Proc.devRef .tc main_arg1) := W15_of m ρ c main_arg1 (by decide)
    _ = W13 m ρ c (Proc.devRef .tc main_arg1) := W14_of_ne m ρ c main_arg1 (by decide)
    _ = W12 m ρ c (Proc.devRef .tc main_arg1) := W13_of m ρ c main_arg1 (by decide)
    _ = W11 m ρ c (Proc.devRef .tc main_arg1) := W12_of_ne m ρ c main_arg1 (by decide)
    _ = W10 m ρ c (Proc.devRef .tc main_arg1) := W11_of m ρ c main_arg1 (by decide)
    _ = W9 m ρ c (Proc.devRef .tc main_arg1) := W10_of_ne m ρ c main_arg1 (by decide)
    _ = W8 m ρ c (Proc.devRef .tc main_arg1) := W9_of m ρ c main_arg1 (by decide)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W21_main_arg2 (c : Dev nD) : W21 m ρ c (Proc.devRef .tc main_arg2) = m ((c : Thread nD τ).loc main_arg2) :=
  calc W21 m ρ c (Proc.devRef .tc main_arg2)
    _ = W20 m ρ c (Proc.devRef .tc main_arg2) := W21_of m ρ c main_arg2 (by decide)
    _ = W19 m ρ c (Proc.devRef .tc main_arg2) := W20_of_ne m ρ c main_arg2 (by decide)
    _ = W18 m ρ c (Proc.devRef .tc main_arg2) := W19_of m ρ c main_arg2 (by decide)
    _ = W17 m ρ c (Proc.devRef .tc main_arg2) := W18_of_ne m ρ c main_arg2 (by decide)
    _ = W16 m ρ c (Proc.devRef .tc main_arg2) := W17_of m ρ c main_arg2 (by decide)
    _ = W15 m ρ c (Proc.devRef .tc main_arg2) := W16_of_ne m ρ c main_arg2 (by decide)
    _ = W14 m ρ c (Proc.devRef .tc main_arg2) := W15_of m ρ c main_arg2 (by decide)
    _ = W13 m ρ c (Proc.devRef .tc main_arg2) := W14_of_ne m ρ c main_arg2 (by decide)
    _ = W12 m ρ c (Proc.devRef .tc main_arg2) := W13_of m ρ c main_arg2 (by decide)
    _ = W11 m ρ c (Proc.devRef .tc main_arg2) := W12_of_ne m ρ c main_arg2 (by decide)
    _ = W10 m ρ c (Proc.devRef .tc main_arg2) := W11_of m ρ c main_arg2 (by decide)
    _ = W9 m ρ c (Proc.devRef .tc main_arg2) := W10_of_ne m ρ c main_arg2 (by decide)
    _ = W8 m ρ c (Proc.devRef .tc main_arg2) := W9_of m ρ c main_arg2 (by decide)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W21_main_arg3 (c : Dev nD) : W21 m ρ c (Proc.devRef .tc main_arg3) = m ((c : Thread nD τ).loc main_arg3) :=
  calc W21 m ρ c (Proc.devRef .tc main_arg3)
    _ = W20 m ρ c (Proc.devRef .tc main_arg3) := W21_of m ρ c main_arg3 (by decide)
    _ = W19 m ρ c (Proc.devRef .tc main_arg3) := W20_of_ne m ρ c main_arg3 (by decide)
    _ = W18 m ρ c (Proc.devRef .tc main_arg3) := W19_of m ρ c main_arg3 (by decide)
    _ = W17 m ρ c (Proc.devRef .tc main_arg3) := W18_of_ne m ρ c main_arg3 (by decide)
    _ = W16 m ρ c (Proc.devRef .tc main_arg3) := W17_of m ρ c main_arg3 (by decide)
    _ = W15 m ρ c (Proc.devRef .tc main_arg3) := W16_of_ne m ρ c main_arg3 (by decide)
    _ = W14 m ρ c (Proc.devRef .tc main_arg3) := W15_of m ρ c main_arg3 (by decide)
    _ = W13 m ρ c (Proc.devRef .tc main_arg3) := W14_of_ne m ρ c main_arg3 (by decide)
    _ = W12 m ρ c (Proc.devRef .tc main_arg3) := W13_of m ρ c main_arg3 (by decide)
    _ = W11 m ρ c (Proc.devRef .tc main_arg3) := W12_of_ne m ρ c main_arg3 (by decide)
    _ = W10 m ρ c (Proc.devRef .tc main_arg3) := W11_of m ρ c main_arg3 (by decide)
    _ = W9 m ρ c (Proc.devRef .tc main_arg3) := W10_of_ne m ρ c main_arg3 (by decide)
    _ = W8 m ρ c (Proc.devRef .tc main_arg3) := W9_of m ρ c main_arg3 (by decide)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W21_main_arg4 (c : Dev nD) : W21 m ρ c (Proc.devRef .tc main_arg4) = m ((c : Thread nD τ).loc main_arg4) :=
  calc W21 m ρ c (Proc.devRef .tc main_arg4)
    _ = W20 m ρ c (Proc.devRef .tc main_arg4) := W21_of m ρ c main_arg4 (by decide)
    _ = W19 m ρ c (Proc.devRef .tc main_arg4) := W20_of_ne m ρ c main_arg4 (by decide)
    _ = W18 m ρ c (Proc.devRef .tc main_arg4) := W19_of m ρ c main_arg4 (by decide)
    _ = W17 m ρ c (Proc.devRef .tc main_arg4) := W18_of_ne m ρ c main_arg4 (by decide)
    _ = W16 m ρ c (Proc.devRef .tc main_arg4) := W17_of m ρ c main_arg4 (by decide)
    _ = W15 m ρ c (Proc.devRef .tc main_arg4) := W16_of_ne m ρ c main_arg4 (by decide)
    _ = W14 m ρ c (Proc.devRef .tc main_arg4) := W15_of m ρ c main_arg4 (by decide)
    _ = W13 m ρ c (Proc.devRef .tc main_arg4) := W14_of_ne m ρ c main_arg4 (by decide)
    _ = W12 m ρ c (Proc.devRef .tc main_arg4) := W13_of m ρ c main_arg4 (by decide)
    _ = W11 m ρ c (Proc.devRef .tc main_arg4) := W12_of_ne m ρ c main_arg4 (by decide)
    _ = W10 m ρ c (Proc.devRef .tc main_arg4) := W11_of m ρ c main_arg4 (by decide)
    _ = W9 m ρ c (Proc.devRef .tc main_arg4) := W10_of_ne m ρ c main_arg4 (by decide)
    _ = W8 m ρ c (Proc.devRef .tc main_arg4) := W9_of m ρ c main_arg4 (by decide)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-! ## The proof data family and the thread state -/

/-- The prefetched tables' admissible contents: no pipeline has a table. -/
abbrev adm : (p : Fin 10) → (pcfgs (F := F) p).Adm := fun p => (cfgs p).toPCfg_adm
/-- Every pipeline's proof data, each at its region's entry contents: a literal match on the pipeline's index. -/
def pdats : (p : Fin 10) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents W, with R riding along: it ends with
    those references at the contents after the stretch's operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (W21 m ρ c) ∗ ∃ r, prngReg c r)

/-! ## The regions as segments -/

set_option backward.isDefEq.respectTransparency.types false in
/-- Region 0 over the thread state: entered from every unscoped buffer at W1, left at W2. Its arrays are split
    out of the unscoped buffers and put back at the exit contents; the generator register goes into the pipeline's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. Its arrays are split
    out of the unscoped buffers and put back at the exit contents; the generator register goes into the pipeline's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W5, left at W6. Its arrays are split
    out of the unscoped buffers and put back at the exit contents; the generator register goes into the pipeline's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at W7, left at W8. Its arrays are split
    out of the unscoped buffers and put back at the exit contents; the generator register goes into the pipeline's
    invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at W9, left at W10. Its arrays are split
    out of the unscoped buffers and put back at the exit contents; the generator register goes into the pipeline's
    invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at W11, left at W12. Its arrays are split
    out of the unscoped buffers and put back at the exit contents; the generator register goes into the pipeline's
    invariant and comes out; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at W13, left at W14. Its arrays are split
    out of the unscoped buffers and put back at the exit contents; the generator register goes into the pipeline's
    invariant and comes out; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at W15, left at W16. Its arrays are split
    out of the unscoped buffers and put back at the exit contents; the generator register goes into the pipeline's
    invariant and comes out; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at W17, left at W18. Its arrays are split
    out of the unscoped buffers and put back at the exit contents; the generator register goes into the pipeline's
    invariant and comes out; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at W19, left at W20. Its arrays are split
    out of the unscoped buffers and put back at the exit contents; the generator register goes into the pipeline's
    invariant and comes out; nothing is owed; the kernel has no semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 21 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)) ]

/-- @main is the run of the segments: both are the chain of the same 21 fragments. -/
theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()),
      StableHlo.seq hostOps5,
      Prog.lift (.customCall (Pipeline.entry 5) ()),
      StableHlo.seq hostOps6,
      Prog.lift (.customCall (Pipeline.entry 6) ()),
      StableHlo.seq hostOps7,
      Prog.lift (.customCall (Pipeline.entry 7) ()),
      StableHlo.seq hostOps8,
      Prog.lift (.customCall (Pipeline.entry 8) ()),
      StableHlo.seq hostOps9,
      Prog.lift (.customCall (Pipeline.entry 9) ()),
      StableHlo.seq hostOps10 ] from rfl]
  rfl

/-- The last stretch's thread state is the last thread state beside the core owing nothing (the separating
    conjunction reassociated). -/
theorem last_chain (c : Dev nD) :
    (iprop(StableHlo.held (c : Thread nD τ) (Pipeline.ucRefs τ sig) (W21 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- THE RUN: from any memory with zero counters, every weakly fair execution of @main on the TensorCores terminates,
    nothing faulting, and every final memory holds every unscoped buffer at the last boundary's contents W21. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W21 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => last_chain m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h => h)

/-- THE FRAME: every weakly fair execution of @main terminates, nothing faulting, and every final memory has the five
    argument arrays as launched: each is unscoped, so the final memory holds it at W21, which at an argument is the
    launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W21_main_arg0 m ρ c),
     (h c _ (mem_uc main_arg1 (by decide))).trans (W21_main_arg1 m ρ c),
     (h c _ (mem_uc main_arg2 (by decide))).trans (W21_main_arg2 m ρ c),
     (h c _ (mem_uc main_arg3 (by decide))).trans (W21_main_arg3 m ρ c),
     (h c _ (mem_uc main_arg4 (by decide))).trans (W21_main_arg4 m ρ c)⟩) (run_all m ρ)

end Cert.KernelIdeal.Hand

end
-- ==== Proof.KernelFn.lean ====
/-
  The kernel program's result at the ideal instance, written as ONE function of its five argument arrays: the
  host operations of its @main as printed, composed with what its two kinds of kernel region compute.

  A product region scales every row of  h · W  by the row's normaliser:  (h·W)[r, c] · dinv[r].
  A bias region scales every row of the aggregate by its normaliser, adds the bias row and clips below at zero:
  max (agg[r, c] · dinv[r] + b[c], 0).
  A layer gathers the product rows at the edges' source nodes, adds them up at the edges' target nodes, and feeds
  the sums to the bias region. Five layers follow one another, each from the previous layer's output; the result adds
  up, per graph, the five outputs laid side by side.
-/
import proofs.«156050_j29892972380736_2_alg».proof.KernelIdeal
import proofs.«156050_j29892972380736_2_alg».proof.Proof.Gen.KernelIdeal
import Idealize.ShloMosaic.Lib.ValueIdx
import Idealize.ShloMosaic.PureOps.Ideal

noncomputable section

namespace Cert.KernelIdeal.Hand

open scoped BigOperators
open Cert.KernelIdeal Cert.KernelIdeal.Gen Idealize.ShloMosaic Idealize.ShloMosaic.ValueIdx

/-- What a product region leaves in its output array: the rows of `h · w`, each scaled by its row's normaliser. -/
def mmFn (h : FVec Ideal S50000x128 .f32) (w : FVec Ideal S128x128 .bf16) (dinv : FVec Ideal S50000x1 .f32) :
    FVec Ideal S50000x128 .bf16 :=
  fun i => (∑ k : Fin 128, h (ix2 (n0 := 50000) (n1 := 128) (i 0) k) * w (ix2 (n0 := 128) (n1 := 128) k (i 1)))
    * dinv (ix2 (n0 := 50000) (n1 := 1) (i 0) 0)

/-- What a bias region leaves in its output array: the aggregate's rows scaled by their normalisers, plus the bias
    row, clipped below at zero. -/
def brFn (agg : FVec Ideal S50000x128 .f32) (dinv : FVec Ideal S50000x1 .f32) (bias : FVec Ideal S1x128 .f32) :
    FVec Ideal S50000x128 .f32 :=
  fun i => max (agg i * dinv (ix2 (n0 := 50000) (n1 := 1) (i 0) 0) + bias (ix2 (n0 := 1) (n1 := 128) 0 (i 1))) 0

section
variable (x0 : FVec Ideal S50000x128 .f32) (x1 : IVec S2x600000 32) (x2 : IVec S50000 32)
  (x3 : FVec Ideal S5x128x128 .f32) (x4 : FVec Ideal S5x128 .f32)

/-- The edges' source nodes: row 0 of the edge array, then every node once (the self-loops). -/
def srcV : IVec S650000 32 :=
  concatenate S650000 0 [⟨S600000, shapeCast S600000 ((extractStridedSlice S1x600000 ![0, 0] · slices_S2x600000_S1x600000_0_0) x1) shapeCasts_S1x600000_S600000⟩,
    ⟨S50000, iotaInDim S50000 32 0⟩] concatenates_S600000_S50000_S650000_d0

/-- The edges' target nodes: row 1 of the edge array, then every node once. -/
def dstV : IVec S650000 32 :=
  concatenate S650000 0 [⟨S600000, shapeCast S600000 ((extractStridedSlice S1x600000 ![1, 0] · slices_S2x600000_S1x600000_1_0) x1) shapeCasts_S1x600000_S600000⟩,
    ⟨S50000, iotaInDim S50000 32 0⟩] concatenates_S600000_S50000_S650000_d0

/-- The source nodes as a gather's start indices: negative words wrapped by the node count, as a column. -/
def srcB : IVec S650000x1 32 :=
  broadcastInDim S650000x1 ![0] bcast_S650000_S650000x1_0
    (select (cmpi .slt (srcV x1) (broadcastInDim S650000 ![] bcast_S_S650000 (constantI S_ 32 0#32)))
      (addi (srcV x1) (broadcastInDim S650000 ![] bcast_S_S650000 (constantI S_ 32 50000#32))) (srcV x1))

/-- The target nodes as a scatter's indices: the words as they are, as a column. -/
def dstB : IVec S650000x1 32 := broadcastInDim S650000x1 ![0] bcast_S650000_S650000x1_0 (dstV x1)

/-- The degrees: one added at every edge's target node. -/
def degV : FVec Ideal S50000 .f32 :=
  Host.scatterAdd scatter_S50000_S650000x1_S650000_n_0_0_1
    (broadcastInDim S50000 ![] bcast_S_S50000 (constant (F := Ideal) S_ .f32 0x00000000#32)) (dstB x1)
    (broadcastInDim S650000 ![] bcast_S_S650000 (constant (F := Ideal) S_ .f32 0x3F800000#32))

/-- The normalisers, as a column: the reciprocal square roots of the degrees. -/
def dinvC : FVec Ideal S50000x1 .f32 := shapeCast S50000x1 (Host.rsqrt (degV x1)) shapeCasts_S50000_S50000x1

/-- The weights in the narrower format (the same numbers at this instance). -/
def wsN : FVec Ideal S5x128x128 .bf16 := (truncf .bf16 · bitsLt_bf16_f32) x3

def w0 : FVec Ideal S128x128 .bf16 := shapeCast S128x128 ((extractStridedSlice S1x128x128 ![0, 0, 0] · slices_S5x128x128_S1x128x128_0_0_0) (wsN x3)) shapeCasts_S1x128x128_S128x128
def w1 : FVec Ideal S128x128 .bf16 := shapeCast S128x128 ((extractStridedSlice S1x128x128 ![1, 0, 0] · slices_S5x128x128_S1x128x128_1_0_0) (wsN x3)) shapeCasts_S1x128x128_S128x128
def w2 : FVec Ideal S128x128 .bf16 := shapeCast S128x128 ((extractStridedSlice S1x128x128 ![2, 0, 0] · slices_S5x128x128_S1x128x128_2_0_0) (wsN x3)) shapeCasts_S1x128x128_S128x128
def w3 : FVec Ideal S128x128 .bf16 := shapeCast S128x128 ((extractStridedSlice S1x128x128 ![3, 0, 0] · slices_S5x128x128_S1x128x128_3_0_0) (wsN x3)) shapeCasts_S1x128x128_S128x128
def w4 : FVec Ideal S128x128 .bf16 := shapeCast S128x128 ((extractStridedSlice S1x128x128 ![4, 0, 0] · slices_S5x128x128_S1x128x128_4_0_0) (wsN x3)) shapeCasts_S1x128x128_S128x128

def b0 : FVec Ideal S1x128 .f32 := shapeCast S1x128 (shapeCast S128 ((extractStridedSlice S1x128 ![0, 0] · slices_S5x128_S1x128_0_0) x4) shapeCasts_S1x128_S128) shapeCasts_S128_S1x128
def b1 : FVec Ideal S1x128 .f32 := shapeCast S1x128 (shapeCast S128 ((extractStridedSlice S1x128 ![1, 0] · slices_S5x128_S1x128_1_0) x4) shapeCasts_S1x128_S128) shapeCasts_S128_S1x128
def b2 : FVec Ideal S1x128 .f32 := shapeCast S1x128 (shapeCast S128 ((extractStridedSlice S1x128 ![2, 0] · slices_S5x128_S1x128_2_0) x4) shapeCasts_S1x128_S128) shapeCasts_S128_S1x128
def b3 : FVec Ideal S1x128 .f32 := shapeCast S1x128 (shapeCast S128 ((extractStridedSlice S1x128 ![3, 0] · slices_S5x128_S1x128_3_0) x4) shapeCasts_S1x128_S128) shapeCasts_S128_S1x128
def b4 : FVec Ideal S1x128 .f32 := shapeCast S1x128 (shapeCast S128 ((extractStridedSlice S1x128 ![4, 0] · slices_S5x128_S1x128_4_0) x4) shapeCasts_S1x128_S128) shapeCasts_S128_S1x128

/-- The aggregate a layer feeds its bias region: the product region's rows gathered at the source nodes, widened,
    and added up at the target nodes from zero. -/
def aggK (t : FVec Ideal S50000x128 .bf16) : FVec Ideal S50000x128 .f32 :=
  Host.scatterAdd scatter_S50000x128_S650000x1_S650000x128_1_0_0_1
    (broadcastInDim S50000x128 ![] bcast_S_S50000x128 (constant (F := Ideal) S_ .f32 0x00000000#32)) (dstB x1)
    ((extf .f32 · bitsLt_bf16_f32) (Host.gather gather_S50000x128_S650000x1_S650000x128_1_0_n_n_0_1_1128 t (srcB x1)))

/-- One layer: from the incoming features, the layer's weights and its bias row. -/
def layerK (h : FVec Ideal S50000x128 .f32) (w : FVec Ideal S128x128 .bf16) (b : FVec Ideal S1x128 .f32) :
    FVec Ideal S50000x128 .f32 :=
  brFn (aggK x1 (mmFn h w (dinvC x1))) (dinvC x1) b

def h1 : FVec Ideal S50000x128 .f32 := layerK x1 x0 (w0 x3) (b0 x4)
def h2 : FVec Ideal S50000x128 .f32 := layerK x1 (h1 x0 x1 x3 x4) (w1 x3) (b1 x4)
def h3 : FVec Ideal S50000x128 .f32 := layerK x1 (h2 x0 x1 x3 x4) (w2 x3) (b2 x4)
def h4 : FVec Ideal S50000x128 .f32 := layerK x1 (h3 x0 x1 x3 x4) (w3 x3) (b3 x4)
def h5 : FVec Ideal S50000x128 .f32 := layerK x1 (h4 x0 x1 x3 x4) (w4 x3) (b4 x4)

/-- THE RESULT: per graph, the sum of the five layers' outputs laid side by side. -/
def result : FVec Ideal S512x640 .f32 :=
  Host.scatterAdd scatter_S512x640_S50000x1_S50000x640_1_0_0_1
    (broadcastInDim S512x640 ![] bcast_S_S512x640 (constant (F := Ideal) S_ .f32 0x00000000#32))
    (broadcastInDim S50000x1 ![0] bcast_S50000_S50000x1_0 x2)
    (concatenate S50000x640 1 [⟨S50000x128, h1 x0 x1 x3 x4⟩, ⟨S50000x128, h2 x0 x1 x3 x4⟩, ⟨S50000x128, h3 x0 x1 x3 x4⟩,
      ⟨S50000x128, h4 x0 x1 x3 x4⟩, ⟨S50000x128, h5 x0 x1 x3 x4⟩]
      concatenates_S50000x128_S50000x128_S50000x128_S50000x128_S50000x128_S50000x640_d1)

end

end Cert.KernelIdeal.Hand

end
-- ==== Proof.PreDst.lean ====
/-
  The added domain conjunct of the precondition, read back: every target-node index of the given edge list —
  row 1 of the [2, 600000] edge array, as the [600000] vector the programs slice out of it — is a non-negative
  word (and below 50000). The predicate ends in a conjunction of `all`-reductions; the last one is over the
  pointwise test  0 ≤ v ∧ v < 50000  (signed), so each element of the test is 1.
-/
import proofs.«156050_j29892972380736_2_alg».proof.Pre_finite_inputs
import Idealize.ShloMosaic.Lib.ReduceAll
import Idealize.ShloMosaic.Lib.Affine
import Idealize.ShloMosaic.Lib.ValueIdx

noncomputable section

namespace Cert.Hand.PreDst

open Idealize.ShloMosaic Cert.Pre_finite_inputs

variable [Cert.Pre_finite_inputs.Facts]

instance : Subsingleton S_.Idx := ⟨fun a b => funext fun d => d.elim0⟩

/-- Row 1 of the edge array as a vector of 600000 words: the slice and the reshape the predicate (and both
    programs) apply to it. -/
def dstRow (ei : IVec S2x600000 32) : IVec S600000 32 :=
  shapeCast S600000 ((extractStridedSlice S1x600000 ![1, 0] · Facts.slices_S2x600000_S1x600000_1_0) ei) Facts.shapeCasts_S1x600000_S600000

/-- Under the precondition every word of that vector is, read signed, in [0, 50000). -/
theorem dstRow_range {F : FTy → Type} [FloatOps F] (a0 : FVec F S50000x128 .f32) (ei : IVec S2x600000 32) (a2 : IVec S50000 32)
    (a3 : FVec F S5x128x128 .f32) (a4 : FVec F S5x128 .f32)
    (h : Cert.Pre_finite_inputs.fn (F := F) a0 ei a2 a3 a4 = fun _ => 1#1) (e : S600000.Idx) :
    0 ≤ (dstRow ei e).toInt ∧ (dstRow ei e).toInt < 50000 := by
  have h0 := congrFun h ValueIdx.ix0
  unfold Cert.Pre_finite_inputs.fn Cert.Pre_finite_inputs.fn_part1 at h0
  dsimp only at h0
  simp only [andi, IntOp.andi_eq_one] at h0
  have hall := Host.reduce_andi_all _ _ _ _ ValueIdx.ix0 h0.2 e
  simp only [andi, cmpi, IntOp.andi_eq_one, IntOp.cmpi_sge, IntOp.cmpi_slt, broadcastInDim, constantI] at hall
  obtain ⟨hge, hlt⟩ := hall
  unfold dstRow
  refine ⟨?_, ?_⟩
  · simpa using hge
  · have : (50000#32 : BitVec 32).toInt = 50000 := by decide
    rw [this] at hlt; exact hlt

end Cert.Hand.PreDst

end
-- ==== Proof.LibPlainDot.lean ====
/-
  A plain matrix product — rows × contraction times contraction × columns, one contracted axis, no batch axis — read at
  an index, for arbitrary extents and any record of dimension numbers of that form (the form is a hypothesis,
  `IsPlain`, which a literal record meets by `rfl`s). At the exact values both the host's product and a tile product
  accumulated into zero are the plain sum over the contracted coordinate, `∑ k, x (r, k) · w (k, c)`. Consequence: a
  block of rows of a product is the product of that block of rows (`matmul_rows_eq_dotGeneral`).
-/
import Idealize.ShloMosaic.Lib.ValueIdx
import Idealize.ShloMosaic.PureOps.Ideal.Laws

noncomputable section

open scoped BigOperators

namespace Cert.Gcn.PlainDot

open Idealize.ShloMosaic Idealize.ShloMosaic.ValueIdx

variable {M K N : ℕ}

/-- The dimension numbers of a plain product of an `[M, K]` by a `[K, N]` array: axis 1 of the left operand contracted
    with axis 0 of the right one, the rows and the columns kept in that order, no batch axis. -/
structure IsPlain (d : DotDims ⟨2, ![M, K]⟩ ⟨2, ![K, N]⟩ ⟨2, ![M, N]⟩) : Prop where
  lc : d.lhsContracting = [⟨1, Nat.one_lt_two⟩]
  rc : d.rhsContracting = [⟨0, Nat.zero_lt_two⟩]
  ln : d.lhsNonContracting = [⟨0, Nat.zero_lt_two⟩]
  rn : d.rhsNonContracting = [⟨1, Nat.one_lt_two⟩]
  lb : d.lhsBatch = []
  rb : d.rhsBatch = []
  cr : d.contr.rank = 1
  cs : d.contr.size ⟨0, by omega⟩ = K

variable {d : DotDims ⟨2, ![M, K]⟩ ⟨2, ![K, N]⟩ ⟨2, ![M, N]⟩}

private theorem coord_congr {s : Shape} (j : s.Idx) (p p' : ℕ) (hp : p < s.rank) (hp' : p' < s.rank) (h : p = p') :
    (j ⟨p, hp⟩).val = (j ⟨p', hp'⟩).val := by subst h; rfl

/-- The left operand's index at result index `j` and contraction position `q`: row `j 0`, column the position. -/
theorem lhsIdx_eq (hd : IsPlain d) (j : (⟨2, ![M, N]⟩ : Shape).Idx) (q : d.contr.Idx) (k : Fin K)
    (hq : (q ⟨0, by rw [hd.cr]; exact Nat.one_pos⟩).val = k.val) : d.lhsIdx j q = ix2 (j 0) k := by
  funext a
  apply Fin.ext
  match a with
  | ⟨0, h0⟩ =>
    have hb : (⟨0, h0⟩ : Fin (⟨2, ![M, K]⟩ : Shape).rank) ∉ d.lhsBatch := by rw [hd.lb]; exact List.not_mem_nil
    have hn : (⟨0, h0⟩ : Fin (⟨2, ![M, K]⟩ : Shape).rank) ∈ d.lhsNonContracting := by
      rw [hd.ln]; exact List.mem_singleton.mpr rfl
    unfold DotDims.lhsIdx
    rw [dif_neg hb, dif_pos hn]
    simp only [Fin.val_cast]
    exact coord_congr j _ _ _ _ (by rw [hd.lb, hd.ln]; rfl)
  | ⟨1, h1⟩ => exact (d.lhsIdx_val_of_single hd.lc j q).trans hq

/-- The right operand's index at result index `j` and contraction position `q`: row the position, column `j 1`. -/
theorem rhsIdx_eq (hd : IsPlain d) (j : (⟨2, ![M, N]⟩ : Shape).Idx) (q : d.contr.Idx) (k : Fin K)
    (hq : (q ⟨0, by rw [hd.cr]; exact Nat.one_pos⟩).val = k.val) : d.rhsIdx j q = ix2 k (j 1) := by
  funext a
  apply Fin.ext
  match a with
  | ⟨0, h0⟩ => exact (d.rhsIdx_val_of_single hd.rc j q).trans hq
  | ⟨1, h1⟩ =>
    have hb : (⟨1, h1⟩ : Fin (⟨2, ![K, N]⟩ : Shape).rank) ∉ d.rhsBatch := by rw [hd.rb]; exact List.not_mem_nil
    have hn : (⟨1, h1⟩ : Fin (⟨2, ![K, N]⟩ : Shape).rank) ∈ d.rhsNonContracting := by
      rw [hd.rn]; exact List.mem_singleton.mpr rfl
    unfold DotDims.rhsIdx
    rw [dif_neg hb, dif_pos hn]
    simp only [Fin.val_cast]
    exact coord_congr j _ _ _ _ (by rw [hd.lb, hd.ln, hd.rn]; rfl)

/-- The sum over the contraction positions of a plain product is the sum over the contracted coordinate. -/
theorem sum_contr (hd : IsPlain d) (j : (⟨2, ![M, N]⟩ : Shape).Idx) (x : (⟨2, ![M, K]⟩ : Shape).Idx → EReal)
    (w : (⟨2, ![K, N]⟩ : Shape).Idx → EReal) :
    ∑ q : d.contr.Idx, x (d.lhsIdx j q) * w (d.rhsIdx j q) = ∑ k : Fin K, x (ix2 (j 0) k) * w (ix2 k (j 1)) := by
  rw [← Equiv.sum_comp (contrEquiv1 d K hd.cr hd.cs).symm]
  refine Finset.sum_congr rfl fun k _ => ?_
  have hk := contrEquiv1_symm_val d K hd.cr hd.cs k
  rw [lhsIdx_eq hd j _ k hk, rhsIdx_eq hd j _ k hk]
  rfl

/-- The host's plain product at `(r, c)`, exactly: `∑ k, x (r, k) · w (k, c)`. -/
theorem dotGeneral_apply (hd : IsPlain d) {φ₁ φ₂ : FTy} (prec : Option ContractPrecision)
    (x : FVec Ideal ⟨2, ![M, K]⟩ φ₁) (w : FVec Ideal ⟨2, ![K, N]⟩ φ₂) (j : (⟨2, ![M, N]⟩ : Shape).Idx) :
    Host.dotGeneral d prec x w j = ∑ k : Fin K, (x (ix2 (j 0) k) : EReal) * (w (ix2 k (j 1)) : EReal) := by
  simp only [Host.dotGeneral]
  rw [Ideal.dotGeneral_apply]
  exact sum_contr hd j x w

/-- A tile product accumulated into the zero tile, at `(r, c)`, exactly: the same sum. -/
theorem matmul_zero_apply (hd : IsPlain d) {φ₁ φ₂ : FTy} (prec : Option ContractPrecision)
    (x : FVec Ideal ⟨2, ![M, K]⟩ φ₁) (w : FVec Ideal ⟨2, ![K, N]⟩ φ₂) (j : (⟨2, ![M, N]⟩ : Shape).Idx) :
    matmul d prec x w (constant ⟨2, ![M, N]⟩ .f32 0x00000000#32) j
      = ∑ k : Fin K, (x (ix2 (j 0) k) : EReal) * (w (ix2 k (j 1)) : EReal) := by
  simp only [matmul]
  rw [Ideal.matmul_constant_zero_apply]
  exact sum_contr hd j x w

/-- A BLOCK OF ROWS OF A PRODUCT IS THE PRODUCT OF THE BLOCK OF ROWS: if row `p` of the tile `xb` is row `r` of the
    array `x`, and the tile `wb` is the array `w`, then the tile product into zero at `(p, c)` is the host's product
    of the whole arrays at `(r, c)` — the contraction runs over the whole shared axis on both sides. -/
theorem matmul_rows_eq_dotGeneral {B : ℕ} {dB : DotDims ⟨2, ![B, K]⟩ ⟨2, ![K, N]⟩ ⟨2, ![B, N]⟩} (hB : IsPlain dB)
    (hd : IsPlain d) {φ₁ φ₂ ψ₁ ψ₂ : FTy} (prec prec' : Option ContractPrecision)
    (xb : FVec Ideal ⟨2, ![B, K]⟩ φ₁) (wb : FVec Ideal ⟨2, ![K, N]⟩ φ₂)
    (x : FVec Ideal ⟨2, ![M, K]⟩ ψ₁) (w : FVec Ideal ⟨2, ![K, N]⟩ ψ₂) (p : Fin B) (r : Fin M) (c : Fin N)
    (hx : ∀ k : Fin K, (xb (ix2 p k) : EReal) = x (ix2 r k)) (hw : ∀ k : Fin K, (wb (ix2 k c) : EReal) = w (ix2 k c)) :
    matmul dB prec xb wb (constant ⟨2, ![B, N]⟩ .f32 0x00000000#32) (ix2 p c) = Host.dotGeneral d prec' x w (ix2 r c) := by
  rw [matmul_zero_apply hB, dotGeneral_apply hd]
  exact Finset.sum_congr rfl fun k _ => by
    show (xb (ix2 p k) : EReal) * wb (ix2 k c) = x (ix2 r k) * w (ix2 k c)
    rw [hx k, hw k]

end Cert.Gcn.PlainDot
-- ==== Proof.LibColumnLayout.lean ====
/-
  Two layout readings of a column, for arrays of any extents: a vector `[a]` reshaped to a column `[a, 1]` holds the
  vector's entry `i` at `(i, 0)`, and a column `[a, 1]` broadcast along a second axis to `[a, b]` holds at `(p, c)` the
  column's entry of row `p`. (The row forms `[a] → [1, a]` and `[1, b] → [a, b]` are in the library's layout file.)
-/
import Idealize.ShloMosaic.Lib.ValueIdx
import Idealize.ShloMosaic.Lib.ValueLayout
import Idealize.ShloMosaic.Lib.Pipeline.Value

namespace Cert.Gcn.Layout

open Idealize.ShloMosaic Idealize.ShloMosaic.ValueIdx

/-- A column `[a, 1]` broadcast along the rows' features to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to a column `[a, 1]` reads, at `(i, u)`, the operand at `i`, whatever the unit coordinate. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Gcn.Layout
-- ==== Proof.KI.ValPay.lean ====
/-
  The ten kernel bodies' arithmetic read at one entry of the block, at the exact values.

  Even regions (the dense step of a layer): the `[5000, 128]` block of node features times the `[128, 128]` weights,
  accumulated from zero, every row then multiplied by that row's entry of the `[5000, 1]` column of scaling factors:
  entry `(p, q)` is `(∑ k, x (p, k) · w (k, q)) · s (p, 0)`.

  Odd regions (the closing step of a layer): the `[5000, 128]` block of aggregated features, every row multiplied by
  its scaling factor, the `[1, 128]` bias row added to every row, and the larger of the result and zero kept:
  entry `(p, q)` is `max (a (p, q) · s (p, 0) + b (0, q)) 0`.
-/
import proofs.«156050_j29892972380736_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«156050_j29892972380736_2_alg».proof.Proof.LibPlainDot
import proofs.«156050_j29892972380736_2_alg».proof.Proof.LibColumnLayout
import proofs.«156050_j29892972380736_2_alg».proof.Proof.KernelFn

noncomputable section

open scoped BigOperators

namespace Cert.KernelIdeal.Hand

open Cert.KernelIdeal Cert.KernelIdeal.Gen Idealize.ShloMosaic Idealize.ShloMosaic.ValueIdx
open Cert.Gcn.PlainDot Cert.Gcn.Layout

/-- The tile product contracts the block's features with the weights' rows, keeps rows then columns, and has no batch
    axis: a plain matrix product. -/
theorem plain_tile : IsPlain dot_S5000x128_S128x128_S5000x128_1_0_0_1_n_n :=
  ⟨rfl, rfl, rfl, rfl, rfl, rfl, rfl, rfl⟩

/-- Region 0's payload at entry `(p, q)`: row `p` of the block times column `q` of the weights, summed over the 128
    features, then scaled by the row's factor. The two changes of float format are the identity at the exact values. -/
theorem pay0_apply (x0 : Vec Ideal S5000x128 .f32) (x1 : Vec Ideal S128x128 .bf16) (x2 : Vec Ideal S5000x1 .f32)
    (p : Fin 5000) (q : Fin 128) :
    k0_pay1 x0 x1 x2 (ix2 p q)
      = (∑ k : Fin 128, (x0 (ix2 p k) : EReal) * (x1 (ix2 k q) : EReal)) * (x2 (ix2 p (0 : Fin 1)) : EReal) := by
  have h1 : matmul dot_S5000x128_S128x128_S5000x128_1_0_0_1_n_n none
      (truncf .bf16 x0 bitsLt_bf16_f32 : FVec Ideal S5000x128 .bf16)
      (shapeCast S128x128 x1 shapeCasts_S128x128_S128x128 : FVec Ideal S128x128 .bf16) (constant S5000x128 .f32 0x00000000#32) (ix2 p q)
        = ∑ k : Fin 128, (x0 (ix2 p k) : EReal) * (x1 (ix2 k q) : EReal) := by
    rw [shapeCast_self]
    exact matmul_zero_apply plain_tile none _ _ (ix2 p q)
  have h2 : broadcastTo S5000x128 (shapeCast S5000x1 x2 shapeCasts_S5000x1_S5000x1) broadcasts_S5000x1_S5000x128 (ix2 p q)
        = x2 (ix2 p (0 : Fin 1)) := by
    rw [shapeCast_self]
    exact broadcastTo_a1_ab_apply x2 broadcasts_S5000x1_S5000x128 p q
  exact congrArg₂ (fun a b : EReal => a * b) h1 h2

/-- Region 1's payload at entry `(p, q)`: the block's entry scaled by its row's factor, the bias of column `q` added,
    and the larger of that and zero taken. -/
theorem pay1_apply (x0 : Vec Ideal S5000x128 .f32) (x1 : Vec Ideal S5000x1 .f32) (x2 : Vec Ideal S1x128 .f32)
    (p : Fin 5000) (q : Fin 128) :
    k1_pay1 x0 x1 x2 (ix2 p q)
      = max ((x0 (ix2 p q) : EReal) * (x1 (ix2 p (0 : Fin 1)) : EReal) + (x2 (ix2 (0 : Fin 1) q) : EReal)) 0 := by
  have h0 : shapeCast S5000x128 x0 shapeCasts_S5000x128_S5000x128 (ix2 p q) = x0 (ix2 p q) := by rw [shapeCast_self]
  have h1 : broadcastTo S5000x128 (shapeCast S5000x1 x1 shapeCasts_S5000x1_S5000x1) broadcasts_S5000x1_S5000x128 (ix2 p q)
        = x1 (ix2 p (0 : Fin 1)) := by
    rw [shapeCast_self]
    exact broadcastTo_a1_ab_apply x1 broadcasts_S5000x1_S5000x128 p q
  have h2 : broadcastTo S5000x128 (shapeCast S1x128 x2 shapeCasts_S1x128_S1x128) broadcasts_S1x128_S5000x128 (ix2 p q)
        = x2 (ix2 (0 : Fin 1) q) := by
    rw [shapeCast_self]
    exact broadcastTo_1b_ab_apply x2 broadcasts_S1x128_S5000x128 p q
  have hz : (Scalar.ofBits (F := Ideal) .f32 0x00000000#32 : EReal) = 0 := Ideal.ofBits_zero_f32
  exact congrArg₂ (fun a b : EReal => max a b)
    (congrArg₂ (fun a b : EReal => a + b) (congrArg₂ (fun a b : EReal => a * b) h0 h1) h2) hz

/-- Region 2's payload at entry `(p, q)`: row `p` of the block times column `q` of the weights, summed over the 128
    features, then scaled by the row's factor. The two changes of float format are the identity at the exact values. -/
theorem pay2_apply (x0 : Vec Ideal S5000x128 .f32) (x1 : Vec Ideal S128x128 .bf16) (x2 : Vec Ideal S5000x1 .f32)
    (p : Fin 5000) (q : Fin 128) :
    k2_pay1 x0 x1 x2 (ix2 p q)
      = (∑ k : Fin 128, (x0 (ix2 p k) : EReal) * (x1 (ix2 k q) : EReal)) * (x2 (ix2 p (0 : Fin 1)) : EReal) := by
  have h1 : matmul dot_S5000x128_S128x128_S5000x128_1_0_0_1_n_n none
      (truncf .bf16 (shapeCast S5000x128 x0 shapeCasts_S5000x128_S5000x128) bitsLt_bf16_f32 : FVec Ideal S5000x128 .bf16)
      (shapeCast S128x128 x1 shapeCasts_S128x128_S128x128 : FVec Ideal S128x128 .bf16) (constant S5000x128 .f32 0x00000000#32) (ix2 p q)
        = ∑ k : Fin 128, (x0 (ix2 p k) : EReal) * (x1 (ix2 k q) : EReal) := by
    rw [shapeCast_self, shapeCast_self]
    exact matmul_zero_apply plain_tile none _ _ (ix2 p q)
  have h2 : broadcastTo S5000x128 (shapeCast S5000x1 x2 shapeCasts_S5000x1_S5000x1) broadcasts_S5000x1_S5000x128 (ix2 p q)
        = x2 (ix2 p (0 : Fin 1)) := by
    rw [shapeCast_self]
    exact broadcastTo_a1_ab_apply x2 broadcasts_S5000x1_S5000x128 p q
  exact congrArg₂ (fun a b : EReal => a * b) h1 h2

/-- Region 3's payload at entry `(p, q)`: the block's entry scaled by its row's factor, the bias of column `q` added,
    and the larger of that and zero taken. -/
theorem pay3_apply (x0 : Vec Ideal S5000x128 .f32) (x1 : Vec Ideal S5000x1 .f32) (x2 : Vec Ideal S1x128 .f32)
    (p : Fin 5000) (q : Fin 128) :
    k3_pay1 x0 x1 x2 (ix2 p q)
      = max ((x0 (ix2 p q) : EReal) * (x1 (ix2 p (0 : Fin 1)) : EReal) + (x2 (ix2 (0 : Fin 1) q) : EReal)) 0 := by
  have h0 : shapeCast S5000x128 x0 shapeCasts_S5000x128_S5000x128 (ix2 p q) = x0 (ix2 p q) := by rw [shapeCast_self]
  have h1 : broadcastTo S5000x128 (shapeCast S5000x1 x1 shapeCasts_S5000x1_S5000x1) broadcasts_S5000x1_S5000x128 (ix2 p q)
        = x1 (ix2 p (0 : Fin 1)) := by
    rw [shapeCast_self]
    exact broadcastTo_a1_ab_apply x1 broadcasts_S5000x1_S5000x128 p q
  have h2 : broadcastTo S5000x128 (shapeCast S1x128 x2 shapeCasts_S1x128_S1x128) broadcasts_S1x128_S5000x128 (ix2 p q)
        = x2 (ix2 (0 : Fin 1) q) := by
    rw [shapeCast_self]
    exact broadcastTo_1b_ab_apply x2 broadcasts_S1x128_S5000x128 p q
  have hz : (Scalar.ofBits (F := Ideal) .f32 0x00000000#32 : EReal) = 0 := Ideal.ofBits_zero_f32
  exact congrArg₂ (fun a b : EReal => max a b)
    (congrArg₂ (fun a b : EReal => a + b) (congrArg₂ (fun a b : EReal => a * b) h0 h1) h2) hz

/-- Region 4's payload at entry `(p, q)`: row `p` of the block times column `q` of the weights, summed over the 128
    features, then scaled by the row's factor. The two changes of float format are the identity at the exact values. -/
theorem pay4_apply (x0 : Vec Ideal S5000x128 .f32) (x1 : Vec Ideal S128x128 .bf16) (x2 : Vec Ideal S5000x1 .f32)
    (p : Fin 5000) (q : Fin 128) :
    k4_pay1 x0 x1 x2 (ix2 p q)
      = (∑ k : Fin 128, (x0 (ix2 p k) : EReal) * (x1 (ix2 k q) : EReal)) * (x2 (ix2 p (0 : Fin 1)) : EReal) := by
  have h1 : matmul dot_S5000x128_S128x128_S5000x128_1_0_0_1_n_n none
      (truncf .bf16 (shapeCast S5000x128 x0 shapeCasts_S5000x128_S5000x128) bitsLt_bf16_f32 : FVec Ideal S5000x128 .bf16)
      (shapeCast S128x128 x1 shapeCasts_S128x128_S128x128 : FVec Ideal S128x128 .bf16) (constant S5000x128 .f32 0x00000000#32) (ix2 p q)
        = ∑ k : Fin 128, (x0 (ix2 p k) : EReal) * (x1 (ix2 k q) : EReal) := by
    rw [shapeCast_self, shapeCast_self]
    exact matmul_zero_apply plain_tile none _ _ (ix2 p q)
  have h2 : broadcastTo S5000x128 (shapeCast S5000x1 x2 shapeCasts_S5000x1_S5000x1) broadcasts_S5000x1_S5000x128 (ix2 p q)
        = x2 (ix2 p (0 : Fin 1)) := by
    rw [shapeCast_self]
    exact broadcastTo_a1_ab_apply x2 broadcasts_S5000x1_S5000x128 p q
  exact congrArg₂ (fun a b : EReal => a * b) h1 h2

/-- Region 5's payload at entry `(p, q)`: the block's entry scaled by its row's factor, the bias of column `q` added,
    and the larger of that and zero taken. -/
theorem pay5_apply (x0 : Vec Ideal S5000x128 .f32) (x1 : Vec Ideal S5000x1 .f32) (x2 : Vec Ideal S1x128 .f32)
    (p : Fin 5000) (q : Fin 128) :
    k5_pay1 x0 x1 x2 (ix2 p q)
      = max ((x0 (ix2 p q) : EReal) * (x1 (ix2 p (0 : Fin 1)) : EReal) + (x2 (ix2 (0 : Fin 1) q) : EReal)) 0 := by
  have h0 : shapeCast S5000x128 x0 shapeCasts_S5000x128_S5000x128 (ix2 p q) = x0 (ix2 p q) := by rw [shapeCast_self]
  have h1 : broadcastTo S5000x128 (shapeCast S5000x1 x1 shapeCasts_S5000x1_S5000x1) broadcasts_S5000x1_S5000x128 (ix2 p q)
        = x1 (ix2 p (0 : Fin 1)) := by
    rw [shapeCast_self]
    exact broadcastTo_a1_ab_apply x1 broadcasts_S5000x1_S5000x128 p q
  have h2 : broadcastTo S5000x128 (shapeCast S1x128 x2 shapeCasts_S1x128_S1x128) broadcasts_S1x128_S5000x128 (ix2 p q)
        = x2 (ix2 (0 : Fin 1) q) := by
    rw [shapeCast_self]
    exact broadcastTo_1b_ab_apply x2 broadcasts_S1x128_S5000x128 p q
  have hz : (Scalar.ofBits (F := Ideal) .f32 0x00000000#32 : EReal) = 0 := Ideal.ofBits_zero_f32
  exact congrArg₂ (fun a b : EReal => max a b)
    (congrArg₂ (fun a b : EReal => a + b) (congrArg₂ (fun a b : EReal => a * b) h0 h1) h2) hz

/-- Region 6's payload at entry `(p, q)`: row `p` of the block times column `q` of the weights, summed over the 128
    features, then scaled by the row's factor. The two changes of float format are the identity at the exact values. -/
theorem pay6_apply (x0 : Vec Ideal S5000x128 .f32) (x1 : Vec Ideal S128x128 .bf16) (x2 : Vec Ideal S5000x1 .f32)
    (p : Fin 5000) (q : Fin 128) :
    k6_pay1 x0 x1 x2 (ix2 p q)
      = (∑ k : Fin 128, (x0 (ix2 p k) : EReal) * (x1 (ix2 k q) : EReal)) * (x2 (ix2 p (0 : Fin 1)) : EReal) := by
  have h1 : matmul dot_S5000x128_S128x128_S5000x128_1_0_0_1_n_n none
      (truncf .bf16 (shapeCast S5000x128 x0 shapeCasts_S5000x128_S5000x128) bitsLt_bf16_f32 : FVec Ideal S5000x128 .bf16)
      (shapeCast S128x128 x1 shapeCasts_S128x128_S128x128 : FVec Ideal S128x128 .bf16) (constant S5000x128 .f32 0x00000000#32) (ix2 p q)
        = ∑ k : Fin 128, (x0 (ix2 p k) : EReal) * (x1 (ix2 k q) : EReal) := by
    rw [shapeCast_self, shapeCast_self]
    exact matmul_zero_apply plain_tile none _ _ (ix2 p q)
  have h2 : broadcastTo S5000x128 (shapeCast S5000x1 x2 shapeCasts_S5000x1_S5000x1) broadcasts_S5000x1_S5000x128 (ix2 p q)
        = x2 (ix2 p (0 : Fin 1)) := by
    rw [shapeCast_self]
    exact broadcastTo_a1_ab_apply x2 broadcasts_S5000x1_S5000x128 p q
  exact congrArg₂ (fun a b : EReal => a * b) h1 h2

/-- Region 7's payload at entry `(p, q)`: the block's entry scaled by its row's factor, the bias of column `q` added,
    and the larger of that and zero taken. -/
theorem pay7_apply (x0 : Vec Ideal S5000x128 .f32) (x1 : Vec Ideal S5000x1 .f32) (x2 : Vec Ideal S1x128 .f32)
    (p : Fin 5000) (q : Fin 128) :
    k7_pay1 x0 x1 x2 (ix2 p q)
      = max ((x0 (ix2 p q) : EReal) * (x1 (ix2 p (0 : Fin 1)) : EReal) + (x2 (ix2 (0 : Fin 1) q) : EReal)) 0 := by
  have h0 : shapeCast S5000x128 x0 shapeCasts_S5000x128_S5000x128 (ix2 p q) = x0 (ix2 p q) := by rw [shapeCast_self]
  have h1 : broadcastTo S5000x128 (shapeCast S5000x1 x1 shapeCasts_S5000x1_S5000x1) broadcasts_S5000x1_S5000x128 (ix2 p q)
        = x1 (ix2 p (0 : Fin 1)) := by
    rw [shapeCast_self]
    exact broadcastTo_a1_ab_apply x1 broadcasts_S5000x1_S5000x128 p q
  have h2 : broadcastTo S5000x128 (shapeCast S1x128 x2 shapeCasts_S1x128_S1x128) broadcasts_S1x128_S5000x128 (ix2 p q)
        = x2 (ix2 (0 : Fin 1) q) := by
    rw [shapeCast_self]
    exact broadcastTo_1b_ab_apply x2 broadcasts_S1x128_S5000x128 p q
  have hz : (Scalar.ofBits (F := Ideal) .f32 0x00000000#32 : EReal) = 0 := Ideal.ofBits_zero_f32
  exact congrArg₂ (fun a b : EReal => max a b)
    (congrArg₂ (fun a b : EReal => a + b) (congrArg₂ (fun a b : EReal => a * b) h0 h1) h2) hz

/-- Region 8's payload at entry `(p, q)`: row `p` of the block times column `q` of the weights, summed over the 128
    features, then scaled by the row's factor. The two changes of float format are the identity at the exact values. -/
theorem pay8_apply (x0 : Vec Ideal S5000x128 .f32) (x1 : Vec Ideal S128x128 .bf16) (x2 : Vec Ideal S5000x1 .f32)
    (p : Fin 5000) (q : Fin 128) :
    k8_pay1 x0 x1 x2 (ix2 p q)
      = (∑ k : Fin 128, (x0 (ix2 p k) : EReal) * (x1 (ix2 k q) : EReal)) * (x2 (ix2 p (0 : Fin 1)) : EReal) := by
  have h1 : matmul dot_S5000x128_S128x128_S5000x128_1_0_0_1_n_n none
      (truncf .bf16 (shapeCast S5000x128 x0 shapeCasts_S5000x128_S5000x128) bitsLt_bf16_f32 : FVec Ideal S5000x128 .bf16)
      (shapeCast S128x128 x1 shapeCasts_S128x128_S128x128 : FVec Ideal S128x128 .bf16) (constant S5000x128 .f32 0x00000000#32) (ix2 p q)
        = ∑ k : Fin 128, (x0 (ix2 p k) : EReal) * (x1 (ix2 k q) : EReal) := by
    rw [shapeCast_self, shapeCast_self]
    exact matmul_zero_apply plain_tile none _ _ (ix2 p q)
  have h2 : broadcastTo S5000x128 (shapeCast S5000x1 x2 shapeCasts_S5000x1_S5000x1) broadcasts_S5000x1_S5000x128 (ix2 p q)
        = x2 (ix2 p (0 : Fin 1)) := by
    rw [shapeCast_self]
    exact broadcastTo_a1_ab_apply x2 broadcasts_S5000x1_S5000x128 p q
  exact congrArg₂ (fun a b : EReal => a * b) h1 h2

/-- Region 9's payload at entry `(p, q)`: the block's entry scaled by its row's factor, the bias of column `q` added,
    and the larger of that and zero taken. -/
theorem pay9_apply (x0 : Vec Ideal S5000x128 .f32) (x1 : Vec Ideal S5000x1 .f32) (x2 : Vec Ideal S1x128 .f32)
    (p : Fin 5000) (q : Fin 128) :
    k9_pay1 x0 x1 x2 (ix2 p q)
      = max ((x0 (ix2 p q) : EReal) * (x1 (ix2 p (0 : Fin 1)) : EReal) + (x2 (ix2 (0 : Fin 1) q) : EReal)) 0 := by
  have h0 : shapeCast S5000x128 x0 shapeCasts_S5000x128_S5000x128 (ix2 p q) = x0 (ix2 p q) := by rw [shapeCast_self]
  have h1 : broadcastTo S5000x128 (shapeCast S5000x1 x1 shapeCasts_S5000x1_S5000x1) broadcasts_S5000x1_S5000x128 (ix2 p q)
        = x1 (ix2 p (0 : Fin 1)) := by
    rw [shapeCast_self]
    exact broadcastTo_a1_ab_apply x1 broadcasts_S5000x1_S5000x128 p q
  have h2 : broadcastTo S5000x128 (shapeCast S1x128 x2 shapeCasts_S1x128_S1x128) broadcasts_S1x128_S5000x128 (ix2 p q)
        = x2 (ix2 (0 : Fin 1) q) := by
    rw [shapeCast_self]
    exact broadcastTo_1b_ab_apply x2 broadcasts_S1x128_S5000x128 p q
  have hz : (Scalar.ofBits (F := Ideal) .f32 0x00000000#32 : EReal) = 0 := Ideal.ofBits_zero_f32
  exact congrArg₂ (fun a b : EReal => max a b)
    (congrArg₂ (fun a b : EReal => a + b) (congrArg₂ (fun a b : EReal => a * b) h0 h1) h2) hz

/-! ## A block of rows of the payload is the same block of the whole-array function -/

/-- The dense step's function at `(r, q)`. -/
theorem mmFn_apply (h : FVec Ideal S50000x128 .f32) (w : FVec Ideal S128x128 .bf16) (s : FVec Ideal S50000x1 .f32)
    (r : Fin 50000) (q : Fin 128) :
    mmFn h w s (ix2 r q) = (∑ k : Fin 128, (h (ix2 r k) : EReal) * (w (ix2 k q) : EReal)) * (s (ix2 r (0 : Fin 1)) : EReal) := rfl

/-- The closing step's function at `(r, q)`. -/
theorem brFn_apply (a : FVec Ideal S50000x128 .f32) (s : FVec Ideal S50000x1 .f32) (b : FVec Ideal S1x128 .f32)
    (r : Fin 50000) (q : Fin 128) :
    brFn a s b (ix2 r q) = max ((a (ix2 r q) : EReal) * (s (ix2 r (0 : Fin 1)) : EReal) + (b (ix2 (0 : Fin 1) q) : EReal)) 0 := rfl

/-- Every access of the bodies is at offset zero on both axes. -/
theorem zero_offsets : (![0, 0] : Fin 2 → Nat) = fun _ => 0 := funext fun a => by fin_cases a <;> rfl

/-- Region 0's payload on a block of rows IS that block of `mmFn`: if the three loaded blocks are rows
    `5000 b … 5000 b + 4999` of the features `H`, the whole weights `Wt` and the same rows of the scaling column `Sc`,
    the payload at `j` is `mmFn H Wt Sc` at the array index `i` that `j` has in block `b`. -/
theorem dense_tile0 (H : S50000x128.Idx → EReal) (Wt : S128x128.Idx → EReal) (Sc : S50000x1.Idx → EReal)
    (x0 : Vec Ideal S5000x128 .f32) (x1 : Vec Ideal S128x128 .bf16) (x2 : Vec Ideal S5000x1 .f32) (b : ℕ)
    (h0 : ∀ (p : Fin 5000) (k : Fin 128) (r : Fin 50000), r.val = b * 5000 + p.val → (x0 (ix2 p k) : EReal) = H (ix2 r k))
    (h1 : ∀ (k q : Fin 128), (x1 (ix2 k q) : EReal) = Wt (ix2 k q))
    (h2 : ∀ (p : Fin 5000) (r : Fin 50000), r.val = b * 5000 + p.val → (x2 (ix2 p (0 : Fin 1)) : EReal) = Sc (ix2 r (0 : Fin 1)))
    (j : S5000x128.Idx) (i : S50000x128.Idx) (hi0 : (i 0).val = b * 5000 + (j 0).val) (hi1 : (i 1).val = (j 1).val) :
    k0_pay1 x0 x1 x2 j = mmFn H Wt Sc i := by
  obtain ⟨p, q, rfl⟩ : ∃ (p : Fin 5000) (q : Fin 128), j = ix2 p q := ⟨j 0, j 1, eq_ix2 j⟩
  obtain ⟨r, q', rfl⟩ : ∃ (r : Fin 50000) (q' : Fin 128), i = ix2 r q' := ⟨i 0, i 1, eq_ix2 i⟩
  have hr : r.val = b * 5000 + p.val := hi0
  obtain rfl : q = q' := (Fin.ext hi1).symm
  rw [pay0_apply, mmFn_apply, h2 p r hr]
  exact congrArg (· * Sc (ix2 r (0 : Fin 1))) (Finset.sum_congr rfl fun k _ => by rw [h0 p k r hr, h1 k q])

/-- Region 1's payload on a block of rows IS that block of `brFn`: if the loaded blocks are rows
    `5000 b … 5000 b + 4999` of the aggregated features `A` and of the scaling column `Sc`, and the whole bias row `Bs`,
    the payload at `j` is `brFn A Sc Bs` at the array index `i` that `j` has in block `b`. -/
theorem relu_tile1 (A : S50000x128.Idx → EReal) (Sc : S50000x1.Idx → EReal) (Bs : S1x128.Idx → EReal)
    (x0 : Vec Ideal S5000x128 .f32) (x1 : Vec Ideal S5000x1 .f32) (x2 : Vec Ideal S1x128 .f32) (b : ℕ)
    (h0 : ∀ (p : Fin 5000) (q : Fin 128) (r : Fin 50000), r.val = b * 5000 + p.val → (x0 (ix2 p q) : EReal) = A (ix2 r q))
    (h1 : ∀ (p : Fin 5000) (r : Fin 50000), r.val = b * 5000 + p.val → (x1 (ix2 p (0 : Fin 1)) : EReal) = Sc (ix2 r (0 : Fin 1)))
    (h2 : ∀ (q : Fin 128), (x2 (ix2 (0 : Fin 1) q) : EReal) = Bs (ix2 (0 : Fin 1) q))
    (j : S5000x128.Idx) (i : S50000x128.Idx) (hi0 : (i 0).val = b * 5000 + (j 0).val) (hi1 : (i 1).val = (j 1).val) :
    k1_pay1 x0 x1 x2 j = brFn A Sc Bs i := by
  obtain ⟨p, q, rfl⟩ : ∃ (p : Fin 5000) (q : Fin 128), j = ix2 p q := ⟨j 0, j 1, eq_ix2 j⟩
  obtain ⟨r, q', rfl⟩ : ∃ (r : Fin 50000) (q' : Fin 128), i = ix2 r q' := ⟨i 0, i 1, eq_ix2 i⟩
  have hr : r.val = b * 5000 + p.val := hi0
  obtain rfl : q = q' := (Fin.ext hi1).symm
  rw [pay1_apply, brFn_apply, h0 p q r hr, h1 p r hr, h2 q]

/-- Region 2's payload on a block of rows IS that block of `mmFn`: if the three loaded blocks are rows
    `5000 b … 5000 b + 4999` of the features `H`, the whole weights `Wt` and the same rows of the scaling column `Sc`,
    the payload at `j` is `mmFn H Wt Sc` at the array index `i` that `j` has in block `b`. -/
theorem dense_tile2 (H : S50000x128.Idx → EReal) (Wt : S128x128.Idx → EReal) (Sc : S50000x1.Idx → EReal)
    (x0 : Vec Ideal S5000x128 .f32) (x1 : Vec Ideal S128x128 .bf16) (x2 : Vec Ideal S5000x1 .f32) (b : ℕ)
    (h0 : ∀ (p : Fin 5000) (k : Fin 128) (r : Fin 50000), r.val = b * 5000 + p.val → (x0 (ix2 p k) : EReal) = H (ix2 r k))
    (h1 : ∀ (k q : Fin 128), (x1 (ix2 k q) : EReal) = Wt (ix2 k q))
    (h2 : ∀ (p : Fin 5000) (r : Fin 50000), r.val = b * 5000 + p.val → (x2 (ix2 p (0 : Fin 1)) : EReal) = Sc (ix2 r (0 : Fin 1)))
    (j : S5000x128.Idx) (i : S50000x128.Idx) (hi0 : (i 0).val = b * 5000 + (j 0).val) (hi1 : (i 1).val = (j 1).val) :
    k2_pay1 x0 x1 x2 j = mmFn H Wt Sc i := by
  obtain ⟨p, q, rfl⟩ : ∃ (p : Fin 5000) (q : Fin 128), j = ix2 p q := ⟨j 0, j 1, eq_ix2 j⟩
  obtain ⟨r, q', rfl⟩ : ∃ (r : Fin 50000) (q' : Fin 128), i = ix2 r q' := ⟨i 0, i 1, eq_ix2 i⟩
  have hr : r.val = b * 5000 + p.val := hi0
  obtain rfl : q = q' := (Fin.ext hi1).symm
  rw [pay2_apply, mmFn_apply, h2 p r hr]
  exact congrArg (· * Sc (ix2 r (0 : Fin 1))) (Finset.sum_congr rfl fun k _ => by rw [h0 p k r hr, h1 k q])

/-- Region 3's payload on a block of rows IS that block of `brFn`: if the loaded blocks are rows
    `5000 b … 5000 b + 4999` of the aggregated features `A` and of the scaling column `Sc`, and the whole bias row `Bs`,
    the payload at `j` is `brFn A Sc Bs` at the array index `i` that `j` has in block `b`. -/
theorem relu_tile3 (A : S50000x128.Idx → EReal) (Sc : S50000x1.Idx → EReal) (Bs : S1x128.Idx → EReal)
    (x0 : Vec Ideal S5000x128 .f32) (x1 : Vec Ideal S5000x1 .f32) (x2 : Vec Ideal S1x128 .f32) (b : ℕ)
    (h0 : ∀ (p : Fin 5000) (q : Fin 128) (r : Fin 50000), r.val = b * 5000 + p.val → (x0 (ix2 p q) : EReal) = A (ix2 r q))
    (h1 : ∀ (p : Fin 5000) (r : Fin 50000), r.val = b * 5000 + p.val → (x1 (ix2 p (0 : Fin 1)) : EReal) = Sc (ix2 r (0 : Fin 1)))
    (h2 : ∀ (q : Fin 128), (x2 (ix2 (0 : Fin 1) q) : EReal) = Bs (ix2 (0 : Fin 1) q))
    (j : S5000x128.Idx) (i : S50000x128.Idx) (hi0 : (i 0).val = b * 5000 + (j 0).val) (hi1 : (i 1).val = (j 1).val) :
    k3_pay1 x0 x1 x2 j = brFn A Sc Bs i := by
  obtain ⟨p, q, rfl⟩ : ∃ (p : Fin 5000) (q : Fin 128), j = ix2 p q := ⟨j 0, j 1, eq_ix2 j⟩
  obtain ⟨r, q', rfl⟩ : ∃ (r : Fin 50000) (q' : Fin 128), i = ix2 r q' := ⟨i 0, i 1, eq_ix2 i⟩
  have hr : r.val = b * 5000 + p.val := hi0
  obtain rfl : q = q' := (Fin.ext hi1).symm
  rw [pay3_apply, brFn_apply, h0 p q r hr, h1 p r hr, h2 q]

/-- Region 4's payload on a block of rows IS that block of `mmFn`: if the three loaded blocks are rows
    `5000 b … 5000 b + 4999` of the features `H`, the whole weights `Wt` and the same rows of the scaling column `Sc`,
    the payload at `j` is `mmFn H Wt Sc` at the array index `i` that `j` has in block `b`. -/
theorem dense_tile4 (H : S50000x128.Idx → EReal) (Wt : S128x128.Idx → EReal) (Sc : S50000x1.Idx → EReal)
    (x0 : Vec Ideal S5000x128 .f32) (x1 : Vec Ideal S128x128 .bf16) (x2 : Vec Ideal S5000x1 .f32) (b : ℕ)
    (h0 : ∀ (p : Fin 5000) (k : Fin 128) (r : Fin 50000), r.val = b * 5000 + p.val → (x0 (ix2 p k) : EReal) = H (ix2 r k))
    (h1 : ∀ (k q : Fin 128), (x1 (ix2 k q) : EReal) = Wt (ix2 k q))
    (h2 : ∀ (p : Fin 5000) (r : Fin 50000), r.val = b * 5000 + p.val → (x2 (ix2 p (0 : Fin 1)) : EReal) = Sc (ix2 r (0 : Fin 1)))
    (j : S5000x128.Idx) (i : S50000x128.Idx) (hi0 : (i 0).val = b * 5000 + (j 0).val) (hi1 : (i 1).val = (j 1).val) :
    k4_pay1 x0 x1 x2 j = mmFn H Wt Sc i := by
  obtain ⟨p, q, rfl⟩ : ∃ (p : Fin 5000) (q : Fin 128), j = ix2 p q := ⟨j 0, j 1, eq_ix2 j⟩
  obtain ⟨r, q', rfl⟩ : ∃ (r : Fin 50000) (q' : Fin 128), i = ix2 r q' := ⟨i 0, i 1, eq_ix2 i⟩
  have hr : r.val = b * 5000 + p.val := hi0
  obtain rfl : q = q' := (Fin.ext hi1).symm
  rw [pay4_apply, mmFn_apply, h2 p r hr]
  exact congrArg (· * Sc (ix2 r (0 : Fin 1))) (Finset.sum_congr rfl fun k _ => by rw [h0 p k r hr, h1 k q])

/-- Region 5's payload on a block of rows IS that block of `brFn`: if the loaded blocks are rows
    `5000 b … 5000 b + 4999` of the aggregated features `A` and of the scaling column `Sc`, and the whole bias row `Bs`,
    the payload at `j` is `brFn A Sc Bs` at the array index `i` that `j` has in block `b`. -/
theorem relu_tile5 (A : S50000x128.Idx → EReal) (Sc : S50000x1.Idx → EReal) (Bs : S1x128.Idx → EReal)
    (x0 : Vec Ideal S5000x128 .f32) (x1 : Vec Ideal S5000x1 .f32) (x2 : Vec Ideal S1x128 .f32) (b : ℕ)
    (h0 : ∀ (p : Fin 5000) (q : Fin 128) (r : Fin 50000), r.val = b * 5000 + p.val → (x0 (ix2 p q) : EReal) = A (ix2 r q))
    (h1 : ∀ (p : Fin 5000) (r : Fin 50000), r.val = b * 5000 + p.val → (x1 (ix2 p (0 : Fin 1)) : EReal) = Sc (ix2 r (0 : Fin 1)))
    (h2 : ∀ (q : Fin 128), (x2 (ix2 (0 : Fin 1) q) : EReal) = Bs (ix2 (0 : Fin 1) q))
    (j : S5000x128.Idx) (i : S50000x128.Idx) (hi0 : (i 0).val = b * 5000 + (j 0).val) (hi1 : (i 1).val = (j 1).val) :
    k5_pay1 x0 x1 x2 j = brFn A Sc Bs i := by
  obtain ⟨p, q, rfl⟩ : ∃ (p : Fin 5000) (q : Fin 128), j = ix2 p q := ⟨j 0, j 1, eq_ix2 j⟩
  obtain ⟨r, q', rfl⟩ : ∃ (r : Fin 50000) (q' : Fin 128), i = ix2 r q' := ⟨i 0, i 1, eq_ix2 i⟩
  have hr : r.val = b * 5000 + p.val := hi0
  obtain rfl : q = q' := (Fin.ext hi1).symm
  rw [pay5_apply, brFn_apply, h0 p q r hr, h1 p r hr, h2 q]

/-- Region 6's payload on a block of rows IS that block of `mmFn`: if the three loaded blocks are rows
    `5000 b … 5000 b + 4999` of the features `H`, the whole weights `Wt` and the same rows of the scaling column `Sc`,
    the payload at `j` is `mmFn H Wt Sc` at the array index `i` that `j` has in block `b`. -/
theorem dense_tile6 (H : S50000x128.Idx → EReal) (Wt : S128x128.Idx → EReal) (Sc : S50000x1.Idx → EReal)
    (x0 : Vec Ideal S5000x128 .f32) (x1 : Vec Ideal S128x128 .bf16) (x2 : Vec Ideal S5000x1 .f32) (b : ℕ)
    (h0 : ∀ (p : Fin 5000) (k : Fin 128) (r : Fin 50000), r.val = b * 5000 + p.val → (x0 (ix2 p k) : EReal) = H (ix2 r k))
    (h1 : ∀ (k q : Fin 128), (x1 (ix2 k q) : EReal) = Wt (ix2 k q))
    (h2 : ∀ (p : Fin 5000) (r : Fin 50000), r.val = b * 5000 + p.val → (x2 (ix2 p (0 : Fin 1)) : EReal) = Sc (ix2 r (0 : Fin 1)))
    (j : S5000x128.Idx) (i : S50000x128.Idx) (hi0 : (i 0).val = b * 5000 + (j 0).val) (hi1 : (i 1).val = (j 1).val) :
    k6_pay1 x0 x1 x2 j = mmFn H Wt Sc i := by
  obtain ⟨p, q, rfl⟩ : ∃ (p : Fin 5000) (q : Fin 128), j = ix2 p q := ⟨j 0, j 1, eq_ix2 j⟩
  obtain ⟨r, q', rfl⟩ : ∃ (r : Fin 50000) (q' : Fin 128), i = ix2 r q' := ⟨i 0, i 1, eq_ix2 i⟩
  have hr : r.val = b * 5000 + p.val := hi0
  obtain rfl : q = q' := (Fin.ext hi1).symm
  rw [pay6_apply, mmFn_apply, h2 p r hr]
  exact congrArg (· * Sc (ix2 r (0 : Fin 1))) (Finset.sum_congr rfl fun k _ => by rw [h0 p k r hr, h1 k q])

/-- Region 7's payload on a block of rows IS that block of `brFn`: if the loaded blocks are rows
    `5000 b … 5000 b + 4999` of the aggregated features `A` and of the scaling column `Sc`, and the whole bias row `Bs`,
    the payload at `j` is `brFn A Sc Bs` at the array index `i` that `j` has in block `b`. -/
theorem relu_tile7 (A : S50000x128.Idx → EReal) (Sc : S50000x1.Idx → EReal) (Bs : S1x128.Idx → EReal)
    (x0 : Vec Ideal S5000x128 .f32) (x1 : Vec Ideal S5000x1 .f32) (x2 : Vec Ideal S1x128 .f32) (b : ℕ)
    (h0 : ∀ (p : Fin 5000) (q : Fin 128) (r : Fin 50000), r.val = b * 5000 + p.val → (x0 (ix2 p q) : EReal) = A (ix2 r q))
    (h1 : ∀ (p : Fin 5000) (r : Fin 50000), r.val = b * 5000 + p.val → (x1 (ix2 p (0 : Fin 1)) : EReal) = Sc (ix2 r (0 : Fin 1)))
    (h2 : ∀ (q : Fin 128), (x2 (ix2 (0 : Fin 1) q) : EReal) = Bs (ix2 (0 : Fin 1) q))
    (j : S5000x128.Idx) (i : S50000x128.Idx) (hi0 : (i 0).val = b * 5000 + (j 0).val) (hi1 : (i 1).val = (j 1).val) :
    k7_pay1 x0 x1 x2 j = brFn A Sc Bs i := by
  obtain ⟨p, q, rfl⟩ : ∃ (p : Fin 5000) (q : Fin 128), j = ix2 p q := ⟨j 0, j 1, eq_ix2 j⟩
  obtain ⟨r, q', rfl⟩ : ∃ (r : Fin 50000) (q' : Fin 128), i = ix2 r q' := ⟨i 0, i 1, eq_ix2 i⟩
  have hr : r.val = b * 5000 + p.val := hi0
  obtain rfl : q = q' := (Fin.ext hi1).symm
  rw [pay7_apply, brFn_apply, h0 p q r hr, h1 p r hr, h2 q]

/-- Region 8's payload on a block of rows IS that block of `mmFn`: if the three loaded blocks are rows
    `5000 b … 5000 b + 4999` of the features `H`, the whole weights `Wt` and the same rows of the scaling column `Sc`,
    the payload at `j` is `mmFn H Wt Sc` at the array index `i` that `j` has in block `b`. -/
theorem dense_tile8 (H : S50000x128.Idx → EReal) (Wt : S128x128.Idx → EReal) (Sc : S50000x1.Idx → EReal)
    (x0 : Vec Ideal S5000x128 .f32) (x1 : Vec Ideal S128x128 .bf16) (x2 : Vec Ideal S5000x1 .f32) (b : ℕ)
    (h0 : ∀ (p : Fin 5000) (k : Fin 128) (r : Fin 50000), r.val = b * 5000 + p.val → (x0 (ix2 p k) : EReal) = H (ix2 r k))
    (h1 : ∀ (k q : Fin 128), (x1 (ix2 k q) : EReal) = Wt (ix2 k q))
    (h2 : ∀ (p : Fin 5000) (r : Fin 50000), r.val = b * 5000 + p.val → (x2 (ix2 p (0 : Fin 1)) : EReal) = Sc (ix2 r (0 : Fin 1)))
    (j : S5000x128.Idx) (i : S50000x128.Idx) (hi0 : (i 0).val = b * 5000 + (j 0).val) (hi1 : (i 1).val = (j 1).val) :
    k8_pay1 x0 x1 x2 j = mmFn H Wt Sc i := by
  obtain ⟨p, q, rfl⟩ : ∃ (p : Fin 5000) (q : Fin 128), j = ix2 p q := ⟨j 0, j 1, eq_ix2 j⟩
  obtain ⟨r, q', rfl⟩ : ∃ (r : Fin 50000) (q' : Fin 128), i = ix2 r q' := ⟨i 0, i 1, eq_ix2 i⟩
  have hr : r.val = b * 5000 + p.val := hi0
  obtain rfl : q = q' := (Fin.ext hi1).symm
  rw [pay8_apply, mmFn_apply, h2 p r hr]
  exact congrArg (· * Sc (ix2 r (0 : Fin 1))) (Finset.sum_congr rfl fun k _ => by rw [h0 p k r hr, h1 k q])

/-- Region 9's payload on a block of rows IS that block of `brFn`: if the loaded blocks are rows
    `5000 b … 5000 b + 4999` of the aggregated features `A` and of the scaling column `Sc`, and the whole bias row `Bs`,
    the payload at `j` is `brFn A Sc Bs` at the array index `i` that `j` has in block `b`. -/
theorem relu_tile9 (A : S50000x128.Idx → EReal) (Sc : S50000x1.Idx → EReal) (Bs : S1x128.Idx → EReal)
    (x0 : Vec Ideal S5000x128 .f32) (x1 : Vec Ideal S5000x1 .f32) (x2 : Vec Ideal S1x128 .f32) (b : ℕ)
    (h0 : ∀ (p : Fin 5000) (q : Fin 128) (r : Fin 50000), r.val = b * 5000 + p.val → (x0 (ix2 p q) : EReal) = A (ix2 r q))
    (h1 : ∀ (p : Fin 5000) (r : Fin 50000), r.val = b * 5000 + p.val → (x1 (ix2 p (0 : Fin 1)) : EReal) = Sc (ix2 r (0 : Fin 1)))
    (h2 : ∀ (q : Fin 128), (x2 (ix2 (0 : Fin 1) q) : EReal) = Bs (ix2 (0 : Fin 1) q))
    (j : S5000x128.Idx) (i : S50000x128.Idx) (hi0 : (i 0).val = b * 5000 + (j 0).val) (hi1 : (i 1).val = (j 1).val) :
    k9_pay1 x0 x1 x2 j = brFn A Sc Bs i := by
  obtain ⟨p, q, rfl⟩ : ∃ (p : Fin 5000) (q : Fin 128), j = ix2 p q := ⟨j 0, j 1, eq_ix2 j⟩
  obtain ⟨r, q', rfl⟩ : ∃ (r : Fin 50000) (q' : Fin 128), i = ix2 r q' := ⟨i 0, i 1, eq_ix2 i⟩
  have hr : r.val = b * 5000 + p.val := hi0
  obtain rfl : q = q' := (Fin.ext hi1).symm
  rw [pay9_apply, brFn_apply, h0 p q r hr, h1 p r hr, h2 q]

end Cert.KernelIdeal.Hand

end
-- ==== Proof.KI.ValReg0.lean ====
/-
  Region 0 (the dense step of a layer) as ONE function of its three input arrays: after the region its output array
  holds, at every entry `(r, q)`, row `r` of the features times column `q` of the weights scaled by node `r`'s factor
  (`mmFn`). Each of the ten grid points writes the block of 5000 rows it computed from the same 5000 rows of the
  features and of the scaling column and from the whole weights; row `r` lies in the block of point `r / 5000`, so the
  ten blocks cover the array.
-/
import proofs.«156050_j29892972380736_2_alg».proof.Proof.KI.Reg0
import proofs.«156050_j29892972380736_2_alg».proof.Proof.KI.ValPay
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The printed index maps over the ten points: the features, the scaling column and the output sit at block `t` of
    the rows; the weights at their one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of the features' block at point `t` is row `5000 t + p` of the features. -/
theorem iblk0_0_apply (c : Dev nD) (t : Fin cfg0.N) (p : Fin 5000) (k : Fin 128) (r : Fin 50000)
    (hr : r.val = t.val * 5000 + p.val) :
    (iblk0 V c 0 t : Vec Ideal S5000x128 .f32) (ix2 p k)
      = (V c (Pipeline.arrRef spec0 0) : S50000x128.Idx → EReal) (ix2 r k) := by
  obtain ⟨e0, e1, -⟩ := idx_facts0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weights' block at every point is the weights. -/
theorem iblk0_1_apply (c : Dev nD) (t : Fin cfg0.N) (k q : Fin 128) :
    (iblk0 V c 1 t : Vec Ideal S128x128 .bf16) (ix2 k q)
      = (V c (Pipeline.arrRef spec0 1) : S128x128.Idx → EReal) (ix2 k q) := by
  obtain ⟨-, -, e2, e3, -⟩ := idx_facts0 t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- Row `p` of the scaling column's block at point `t` is row `5000 t + p` of the column. -/
theorem iblk0_2_apply (c : Dev nD) (t : Fin cfg0.N) (p : Fin 5000) (r : Fin 50000)
    (hr : r.val = t.val * 5000 + p.val) :
    (iblk0 V c 2 t : Vec Ideal S5000x1 .f32) (ix2 p (0 : Fin 1))
      = (V c (Pipeline.arrRef spec0 2) : S50000x1.Idx → EReal) (ix2 r (0 : Fin 1)) := by
  obtain ⟨-, -, -, -, e4, e5, -⟩ := idx_facts0 t
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 5000 + 1 * p.val = r.val; rw [e4, hr]; omega
  | ⟨1, _⟩ => show win0_2.index t (1 : Fin 2) * 1 + 1 * 0 = 0; rw [e5]

/-- WHAT POINT `t` WRITES BACK is block `t` of `mmFn` of the three input arrays as the region finds them. -/
theorem flushed0_eq (c : Dev nD) (t : Fin cfg0.N) :
    (dat0 V c).flushed 3 t = ((cfg0.win 3).blk t).view.read (Elt Ideal)
      (mmFn (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x128) zero_offsets,
    View.ld_unit_zero (S := S5000x1) zero_offsets]
  obtain ⟨-, -, -, -, -, -, e6, e7⟩ := idx_facts0 t
  funext j
  rw [View.read_apply]
  refine dense_tile0 (V c (Pipeline.arrRef spec0 0)) (V c (Pipeline.arrRef spec0 1)) (V c (Pipeline.arrRef spec0 2))
    (iblk0 V c 0 t) (iblk0 V c 1 t) (iblk0 V c 2 t) t.val
    (fun p k r hr => iblk0_0_apply V c t p k r hr) (fun k q => iblk0_1_apply V c t k q)
    (fun p r hr => iblk0_2_apply V c t p r hr) j (((cfg0.win 3).blk t).view.emb j) ?_ ?_
  · show win0_3.index t (0 : Fin 2) * 5000 + 1 * (j 0).val = t.val * 5000 + (j 0).val; rw [e6]; omega
  · show win0_3.index t (1 : Fin 2) * 128 + 1 * (j 1).val = (j 1).val; rw [e7]; omega

/-- An index of the output array is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- Row `r` of the output lies in the block of point `r / 5000`: the ten blocks cover the array. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, e6, e7⟩ := idx_facts0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    rw [e6, ht]; omega
  | ⟨1, _⟩ =>
    show win0_3.index t (1 : Fin 2) * 128 ≤ (i 1).val ∧ (i 1).val < win0_3.index t (1 : Fin 2) * 128 + 128
    rw [e7]; omega

/-- THE OUTPUT ARRAY after region 0, whatever the buffers held when it was entered: `mmFn` of its three
    input arrays. -/
theorem reg_value_0 (c : Dev nD) :
    (dat0 (F := Ideal) V c).arrAt 3 cfg0.N
      = mmFn (V c (Pipeline.arrRef spec0 0)) (V c (Pipeline.arrRef spec0 1)) (V c (Pipeline.arrRef spec0 2)) :=
  (dat0 V c).arrAt_eq_of_cover 3 _ (fun t _ => flushed0_eq V c t) (cover0)

end Cert.KernelIdeal.Hand

end
-- ==== Proof.KI.ValReg1.lean ====
/-
  Region 1 (the closing step of a layer) as ONE function of its three input arrays: after the region its output
  array holds, at every entry `(r, q)`, the aggregated feature scaled by node `r`'s factor, plus the bias of column
  `q`, or zero if that is larger (`brFn`). Each of the ten grid points writes the block of 5000 rows it computed from
  the same 5000 rows of the aggregate and of the scaling column and from the whole bias row; row `r` lies in the block
  of point `r / 5000`, so the ten blocks cover the array.
-/
import proofs.«156050_j29892972380736_2_alg».proof.Proof.KI.Reg1
import proofs.«156050_j29892972380736_2_alg».proof.Proof.KI.ValPay
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The printed index maps over the ten points: the aggregate, the scaling column and the output sit at block `t` of
    the rows; the bias row at its one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the aggregate's block at point `t` is row `5000 t + p` of the aggregate. -/
theorem iblk1_0_apply (c : Dev nD) (t : Fin cfg1.N) (p : Fin 5000) (q : Fin 128) (r : Fin 50000)
    (hr : r.val = t.val * 5000 + p.val) :
    (iblk1 V c 0 t : Vec Ideal S5000x128 .f32) (ix2 p q)
      = (V c (Pipeline.arrRef spec1 0) : S50000x128.Idx → EReal) (ix2 r q) := by
  obtain ⟨e0, e1, -⟩ := idx_facts1 t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * q.val = q.val; rw [e1]; omega

/-- Row `p` of the scaling column's block at point `t` is row `5000 t + p` of the column. -/
theorem iblk1_1_apply (c : Dev nD) (t : Fin cfg1.N) (p : Fin 5000) (r : Fin 50000)
    (hr : r.val = t.val * 5000 + p.val) :
    (iblk1 V c 1 t : Vec Ideal S5000x1 .f32) (ix2 p (0 : Fin 1))
      = (V c (Pipeline.arrRef spec1 1) : S50000x1.Idx → EReal) (ix2 r (0 : Fin 1)) := by
  obtain ⟨-, -, e2, e3, -⟩ := idx_facts1 t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 5000 + 1 * p.val = r.val; rw [e2, hr]; omega
  | ⟨1, _⟩ => show win1_1.index t (1 : Fin 2) * 1 + 1 * 0 = 0; rw [e3]

/-- The bias row's block at every point is the bias row. -/
theorem iblk1_2_apply (c : Dev nD) (t : Fin cfg1.N) (q : Fin 128) :
    (iblk1 V c 2 t : Vec Ideal S1x128 .f32) (ix2 (0 : Fin 1) q)
      = (V c (Pipeline.arrRef spec1 2) : S1x128.Idx → EReal) (ix2 (0 : Fin 1) q) := by
  obtain ⟨-, -, -, -, e4, e5, -⟩ := idx_facts1 t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * 0 = 0; rw [e4]
  | ⟨1, _⟩ => show win1_2.index t (1 : Fin 2) * 128 + 1 * q.val = q.val; rw [e5]; omega

/-- WHAT POINT `t` WRITES BACK is block `t` of `brFn` of the three input arrays as the region finds them. -/
theorem flushed1_eq (c : Dev nD) (t : Fin cfg1.N) :
    (dat1 V c).flushed 3 t = ((cfg1.win 3).blk t).view.read (Elt Ideal)
      (brFn (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S5000x1) zero_offsets,
    View.ld_unit_zero (S := S1x128) zero_offsets]
  obtain ⟨-, -, -, -, -, -, e6, e7⟩ := idx_facts1 t
  funext j
  rw [View.read_apply]
  refine relu_tile1 (V c (Pipeline.arrRef spec1 0)) (V c (Pipeline.arrRef spec1 1)) (V c (Pipeline.arrRef spec1 2))
    (iblk1 V c 0 t) (iblk1 V c 1 t) (iblk1 V c 2 t) t.val
    (fun p q r hr => iblk1_0_apply V c t p q r hr) (fun p r hr => iblk1_1_apply V c t p r hr)
    (fun q => iblk1_2_apply V c t q) j (((cfg1.win 3).blk t).view.emb j) ?_ ?_
  · show win1_3.index t (0 : Fin 2) * 5000 + 1 * (j 0).val = t.val * 5000 + (j 0).val; rw [e6]; omega
  · show win1_3.index t (1 : Fin 2) * 128 + 1 * (j 1).val = (j 1).val; rw [e7]; omega

/-- An index of the output array is in point `t`'s block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v31).slice (win1_3.rect t)).set ↔ _
  rw [View.set_slice_whole, Rect.mem_set_unit]
  exact Iff.rfl

/-- Row `r` of the output lies in the block of point `r / 5000`: the ten blocks cover the array. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, e6, e7⟩ := idx_facts1 t
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    rw [e6, ht]; omega
  | ⟨1, _⟩ =>
    show win1_3.index t (1 : Fin 2) * 128 ≤ (i 1).val ∧ (i 1).val < win1_3.index t (1 : Fin 2) * 128 + 128
    rw [e7]; omega

/-- THE OUTPUT ARRAY after region 1, whatever the buffers held when it was entered: `brFn` of its three input
    arrays. -/
theorem reg_value_1 (c : Dev nD) :
    (dat1 (F := Ideal) V c).arrAt 3 cfg1.N
      = brFn (V c (Pipeline.arrRef spec1 0)) (V c (Pipeline.arrRef spec1 1)) (V c (Pipeline.arrRef spec1 2)) :=
  (dat1 V c).arrAt_eq_of_cover 3 _ (fun t _ => flushed1_eq V c t) (cover1)

end Cert.KernelIdeal.Hand

end
-- ==== Proof.KI.ValReg2.lean ====
/-
  region 2 (the dense step of a layer) as ONE function of its three input arrays: after the region its output array
  holds, at every entry `(r, q)`, row `r` of the features times column `q` of the weights scaled by node `r`'s factor
  (`mmFn`). Each of the ten grid points writes the block of 5000 rows it computed from the same 5000 rows of the
  features and of the scaling column and from the whole weights; row `r` lies in the block of point `r / 5000`, so the
  ten blocks cover the array.
-/
import proofs.«156050_j29892972380736_2_alg».proof.Proof.KI.Reg2
import proofs.«156050_j29892972380736_2_alg».proof.Proof.KI.ValPay
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The printed index maps over the ten points: the features, the scaling column and the output sit at block `t` of
    the rows; the weights at their one block. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Row `p` of the features' block at point `t` is row `5000 t + p` of the features. -/
theorem iblk2_0_apply (c : Dev nD) (t : Fin cfg2.N) (p : Fin 5000) (k : Fin 128) (r : Fin 50000)
    (hr : r.val = t.val * 5000 + p.val) :
    (iblk2 V c 0 t : Vec Ideal S5000x128 .f32) (ix2 p k)
      = (V c (Pipeline.arrRef spec2 0) : S50000x128.Idx → EReal) (ix2 r k) := by
  obtain ⟨e0, e1, -⟩ := idx_facts2 t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- The weights' block at every point is the weights. -/
theorem iblk2_1_apply (c : Dev nD) (t : Fin cfg2.N) (k q : Fin 128) :
    (iblk2 V c 1 t : Vec Ideal S128x128 .bf16) (ix2 k q)
      = (V c (Pipeline.arrRef spec2 1) : S128x128.Idx → EReal) (ix2 k q) := by
  obtain ⟨-, -, e2, e3, -⟩ := idx_facts2 t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-- Row `p` of the scaling column's block at point `t` is row `5000 t + p` of the column. -/
theorem iblk2_2_apply (c : Dev nD) (t : Fin cfg2.N) (p : Fin 5000) (r : Fin 50000)
    (hr : r.val = t.val * 5000 + p.val) :
    (iblk2 V c 2 t : Vec Ideal S5000x1 .f32) (ix2 p (0 : Fin 1))
      = (V c (Pipeline.arrRef spec2 2) : S50000x1.Idx → EReal) (ix2 r (0 : Fin 1)) := by
  obtain ⟨-, -, -, -, e4, e5, -⟩ := idx_facts2 t
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 5000 + 1 * p.val = r.val; rw [e4, hr]; omega
  | ⟨1, _⟩ => show win2_2.index t (1 : Fin 2) * 1 + 1 * 0 = 0; rw [e5]

/-- WHAT POINT `t` WRITES BACK is block `t` of `mmFn` of the three input arrays as the region finds them. -/
theorem flushed2_eq (c : Dev nD) (t : Fin cfg2.N) :
    (dat2 V c).flushed 3 t = ((cfg2.win 3).blk t).view.read (Elt Ideal)
      (mmFn (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero zero_offsets]
  simp only [View.ld_unit_zero (S := S5000x128) zero_offsets, View.ld_unit_zero (S := S128x128) zero_offsets,
    View.ld_unit_zero (S := S5000x1) zero_offsets]
  obtain ⟨-, -, -, -, -, -, e6, e7⟩ := idx_facts2 t
  funext j
  rw [View.read_apply]
  refine dense_tile2 (V c (Pipeline.arrRef spec2 0)) (V c (Pipeline.arrRef spec2 1)) (V c (Pipeline.arrRef spec2 2))
    (iblk2 V c 0 t) (iblk2 V c 1 t) (iblk2 V c 2 t) t.val
    (fun p k r hr => iblk2_0_apply V c t p k r hr) (fun k q => iblk2_1_apply V c t k q)
    (fun p r hr => iblk2_2_apply V c t p r hr) j (((cfg2.win 3).blk t).view.emb j) ?_ ?_
  · show win2_3.index t (0 : Fin 2) * 5000 + 1 * (j 0).val = t.val * 5000 + (j 0).val; rw [e6]; omega
  · show win2_3.index t (1 : Fin 2) * 128 + 1 * (j 1).val = (j 1).val; rw [e7]; omega

/-- An index of the output array is in point `t`'s block iff each coordinate is in the block's range on its axis. -/
theorem mem_blk2 (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v34).slice (win2_3.rect t)).set ↔ _
  rw [View.set_slice_whole, Rect.mem_set_unit]
  exact Iff.rfl

/-- Row `r` of the output lies in the block of point `r / 5000`: the ten blocks cover the array. -/
theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, by rw [show cfg2.N = 10 from N_2]; omega⟩, rfl⟩
  obtain ⟨-, -, -, -, -, -, e6, e7⟩ := idx_facts2 t
  refine ⟨t, flush2_3 t, ?_⟩
  rw [mem_blk2]
  intro a
  match a with
  | ⟨0, _⟩ =>
    show win2_3.index t (0 : Fin 2) * 5000 ≤ (i 0).val ∧ (i 0).val < win2_3.index t (0 : Fin 2) * 5000 + 5000
    rw [e6, ht]; omega
  | ⟨1, _⟩ =>
    show win2_3.index t (1 : Fin 2) * 128 ≤ (i 1).val ∧ (i 1).val < win2_3.index t (1 : Fin 2) * 128 + 128
    rw [e7]; omega

/-- THE OUTPUT ARRAY after region 2, whatever the buffers held when it was entered: `mmFn` of its three
    input arrays. -/
theorem reg_value_2 (c : Dev nD) :
    (dat2 (F := Ideal) V c).arrAt 3 cfg2.N
      = mmFn (V c (Pipeline.arrRef spec2 0)) (V c (Pipeline.arrRef spec2 1)) (V c (Pipeline.arrRef spec2 2)) :=
  (dat2 V c).arrAt_eq_of_cover 3 _ (fun t _ => flushed2_eq V c t) (cover2)

end Cert.KernelIdeal.Hand

end
-- ==== Proof.KI.ValReg3.lean ====
/-
  region 3 (the closing step of a layer) as ONE function of its three input arrays: after the region its output
  array holds, at every entry `(r, q)`, the aggregated feature scaled by node `r`'s factor, plus the bias of column
  `q`, or zero if that is larger (`brFn`). Each of the ten grid points writes the block of 5000 rows it computed from
  the same 5000 rows of the aggregate and of the scaling column and from the whole bias row; row `r` lies in the block
  of point `r / 5000`, so the ten blocks cover the array.
-/
import proofs.«156050_j29892972380736_2_alg».proof.Proof.KI.Reg3
import proofs.«156050_j29892972380736_2_alg».proof.Proof.KI.ValPay
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The printed index maps over the ten points: the aggregate, the scaling column and the output sit at block `t` of
    the rows; the bias row at its one block. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `p` of the aggregate's block at point `t` is row `5000 t + p` of the aggregate. -/
theorem iblk3_0_apply (c : Dev nD) (t : Fin cfg3.N) (p : Fin 5000) (q : Fin 128) (r : Fin 50000)
    (hr : r.val = t.val * 5000 + p.val) :
    (iblk3 V c 0 t : Vec Ideal S5000x128 .f32) (ix2 p q)
      = (V c (Pipeline.arrRef spec3 0) : S50000x128.Idx → EReal) (ix2 r q) := by
  obtain ⟨e0, e1, -⟩ := idx_facts3 t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 5000 + 1 * p.val = r.val; rw [e0, hr]; omega
  | ⟨1, _⟩ => show win3_0.index t (1 : Fin 2) * 128 + 1 * q.val = q.val; rw [e1]; omega

/-- Row `p` of the scaling column's block at point `t` is row `5000 t + p` of the column. -/
theorem iblk3_1_apply (c : Dev nD) (t : Fin cfg3.N) (p : Fin 5000) (r : Fin 50000)
    (hr : r.val = t.val * 5000 + p.val) :
    (iblk3 V c 1 t : Vec Ideal S5000x1 .f32) (ix2 p (0 : Fin 1))
      = (V c (Pipeline.arrRef spec3 1) : S50000x1.Idx → EReal) (ix2 r (0 : Fin 1)) := by
  obtain ⟨-, -, e2, e3, -⟩ := idx_facts3 t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 5000 + 1 * p.val = r.val; rw [e2, hr]; omega
  | ⟨1, _⟩ => show win3_1.index t (1 : Fin 2) * 1 + 1 * 0 = 0; rw [e3]

/-- The bias row's block at every point is the bias row. -/
theorem iblk3_2_apply (c : Dev nD) (t : Fin cfg3.N) (q : Fin 128) :
    (iblk3 V c 2 t : Vec Ideal S1x128 .f32) (ix2 (0 : Fin 1) q)
      = (V c (Pipeline.arrRef spec3 2) : S1x128.Idx → EReal) (ix2 (0 : Fin 1) q) := by
  obtain ⟨-, -, -, -, e4, e5, -⟩ := idx_facts3 t
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 1 + 1 * 0 = 0; rw [e4]
  | ⟨1, _⟩ => show win3_2.index t (1 : Fin 2) * 128 + 1 * q.val = q.val; rw [e5]; omega

/-- WHAT POINT `t` WRITES BACK is block `t` of `brFn` of the three input arrays as the region finds them. -/
theorem flushed3_eq (c : Dev nD) (t : Fin cfg3.N) :
    (dat3 V c).flushed 3 t = ((cfg3.win 3).blk t).view.read (Elt Ideal)
      (brFn (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero zero_offsets]
  simp only [View.ld_unit_zero (S := S5000x128) zero_offsets, View.ld_unit_zero (S := S5000x1) zero_offsets,
    View.ld_unit_zero (S := S1x128) zero_offsets]
  obtain ⟨-, -, -, -, -, -, e6, e7⟩ := idx_facts3 t
  funext j
  rw [View.read_apply]
  refine relu_tile3 (V c (Pipeline.arrRef spec3 0)) (V c (Pipeline.arrRef spec3 1)) (V c (Pipeline.arrRef spec3 2))
    (iblk3 V c 0 t) (iblk3 V c 1 t) (iblk3 V c 2 t) t.val
    (fun p q r hr => iblk3_0_apply V c t p q r hr) (fun p r hr => iblk3_1_apply V c t p r hr)
    (fun q => iblk3_2_apply V c t q) j (((cfg3.win 3).blk t).view.emb j) ?_ ?_
  · show win3_3.index t (0 : Fin 2) * 5000 + 1 * (j 0).val = t.val * 5000 + (j 0).val; rw [e6]; omega
  · show win3_3.index t (1 : Fin 2) * 128 + 1 * (j 1).val = (j 1).val; rw [e7]; omega

/-- An index of the output array is in point `t`'s block iff each coordinate is in the block's range on its axis. -/
theorem mem_blk3 (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v49).slice (win3_3.rect t)).set ↔ _
  rw [View.set_slice_whole, Rect.mem_set_unit]
  exact Iff.rfl

/-- Row `r` of the output lies in the block of point `r / 5000`: the ten blocks cover the array. -/
theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  obtain ⟨t, ht⟩ : ∃ t : Fin cfg3.N, t.val = (i 0).val / 5000 :=
    ⟨⟨(i 0).val / 5000, by rw [show cfg3.N = 10 from N_3]; omega⟩, rfl⟩
  obtain ⟨-, -, -, -, -, -, e6, e7⟩ := idx_facts3 t
  refine ⟨t, flush3_3 t, ?_⟩
  rw [mem_blk3]
  intro a
  match a with
  | ⟨0, _⟩ =>
    show win3_3.index t (0 : Fin 2) * 5000 ≤ (i 0).val ∧ (i 0).val < win3_3.index t (0 : Fin 2) * 5000 + 5000
    rw [e6, ht]; omega
  | ⟨1, _⟩ =>
    show win3_3.index t (1 : Fin 2) * 128 ≤ (i 1).val ∧ (i 1).val < win3_3.index t (1 : Fin 2) * 128 + 128
    rw [e7]; omega

/-- THE OUTPUT ARRAY after region 3, whatever the buffers held when it was entered: `brFn` of its three input
    arrays. -/
theorem reg_value_3 (c : Dev nD) :
    (dat3 (F := Ideal) V c).arrAt 3 cfg3.N
      = brFn (V c (Pipeline.arrRef spec3 0)) (V c (Pipeline.arrRef spec3 1)) (V c (Pipeline.arrRef spec3 2)) :=
  (dat3 V c).arrAt_eq_of_cover 3 _ (fun t _ => flushed3_eq V c t) (cover3)

end Cert.KernelIdeal.Hand

end
-- ==== Proof.KI.ValReg4.lean ====
/-
  region 4 (the dense step of a layer) as ONE function of its three input arrays: after the region its output array
  holds, at every entry `(r, q)`, row `r` of the features times column `q` of the weights scaled by node `r`'s factor
  (`mmFn`). Each of the ten grid points writes the block of 5000 rows it computed from the same 5000 rows of the
  features and of the scaling column and from the whole weights; row `r` lies in the block of point `r / 5000`, so the
  ten blocks cover the array.
-/
import proofs.«156050_j29892972380736_2_alg».proof.Proof.KI.Reg4
import proofs.«156050_j29892972380736_2_alg».proof.Proof.KI.ValPay
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The printed index maps over the ten points: the features, the scaling column and the output sit at block `t` of
    the rows; the weights at their one block. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- Row `p` of the features' block at point `t` is row `5000 t + p` of the features. -/
theorem iblk4_0_apply (c : Dev nD) (t : Fin cfg4.N) (p : Fin 5000) (k : Fin 128) (r : Fin 50000)
    (hr : r.val = t.val * 5000 + p.val) :
    (iblk4 V c 0 t : Vec Ideal S5000x128 .f32) (ix2 p k)
      = (V c (Pipeline.arrRef spec4 0) : S50000x128.Idx → EReal) (ix2 r k) := by
  obtain ⟨e0, e1, -⟩ := idx_facts4 t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 5000 + 1 * p.val = r.val; rw [e0, hr]; omega
  | ⟨1, _⟩ => show win4_0.index t (1 : Fin 2) * 128 + 1 * k.val = k.val; rw [e1]; omega

/-- The weights' block at every point is the weights. -/
theorem iblk4_1_apply (c : Dev nD) (t : Fin cfg4.N) (k q : Fin 128) :
    (iblk4 V c 1 t : Vec Ideal S128x128 .bf16) (ix2 k q)
      = (V c (Pipeline.arrRef spec4 1) : S128x128.Idx → EReal) (ix2 k q) := by
  obtain ⟨-, -, e2, e3, -⟩ := idx_facts4 t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 128 + 1 * k.val = k.val; rw [e2]; omega
  | ⟨1, _⟩ => show win4_1.index t (1 : Fin 2) * 128 + 1 * q.val = q.val; rw [e3]; omega

/-- Row `p` of the scaling column's block at point `t` is row `5000 t + p` of the column. -/
theorem iblk4_2_apply (c : Dev nD) (t : Fin cfg4.N) (p : Fin 5000) (r : Fin 50000)
    (hr : r.val = t.val * 5000 + p.val) :
    (iblk4 V c 2 t : Vec Ideal S5000x1 .f32) (ix2 p (0 : Fin 1))
      = (V c (Pipeline.arrRef spec4 2) : S50000x1.Idx → EReal) (ix2 r (0 : Fin 1)) := by
  obtain ⟨-, -, -, -, e4, e5, -⟩ := idx_facts4 t
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 5000 + 1 * p.val = r.val; rw [e4, hr]; omega
  | ⟨1, _⟩ => show win4_2.index t (1 : Fin 2) * 1 + 1 * 0 = 0; rw [e5]

/-- WHAT POINT `t` WRITES BACK is block `t` of `mmFn` of the three input arrays as the region finds them. -/
theorem flushed4_eq (c : Dev nD) (t : Fin cfg4.N) :
    (dat4 V c).flushed 3 t = ((cfg4.win 3).blk t).view.read (Elt Ideal)
      (mmFn (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero zero_offsets]
  simp only [View.ld_unit_zero (S := S5000x128) zero_offsets, View.ld_unit_zero (S := S128x128) zero_offsets,
    View.ld_unit_zero (S := S5000x1) zero_offsets]
  obtain ⟨-, -, -, -, -, -, e6, e7⟩ := idx_facts4 t
  funext j
  rw [View.read_apply]
  refine dense_tile4 (V c (Pipeline.arrRef spec4 0)) (V c (Pipeline.arrRef spec4 1)) (V c (Pipeline.arrRef spec4 2))
    (iblk4 V c 0 t) (iblk4 V c 1 t) (iblk4 V c 2 t) t.val
    (fun p k r hr => iblk4_0_apply V c t p k r hr) (fun k q => iblk4_1_apply V c t k q)
    (fun p r hr => iblk4_2_apply V c t p r hr) j (((cfg4.win 3).blk t).view.emb j) ?_ ?_
  · show win4_3.index t (0 : Fin 2) * 5000 + 1 * (j 0).val = t.val * 5000 + (j 0).val; rw [e6]; omega
  · show win4_3.index t (1 : Fin 2) * 128 + 1 * (j 1).val = (j 1).val; rw [e7]; omega

/-- An index of the output array is in point `t`'s block iff each coordinate is in the block's range on its axis. -/
theorem mem_blk4 (t : Fin cfg4.N) (i : S50000x128.Idx) :
    i ∈ ((cfg4.win 3).blk t).view.set ↔ ∀ a : Fin 2, win4_3.index t a * S5000x128.size a ≤ (i a).val
      ∧ (i a).val < win4_3.index t a * S5000x128.size a + S5000x128.size a := by
  show i ∈ ((View.whole main_v52).slice (win4_3.rect t)).set ↔ _
  rw [View.set_slice_whole, Rect.mem_set_unit]
  exact Iff.rfl

/-- Row `r` of the output lies in the block of point `r / 5000`: the ten blocks cover the array. -/
theorem cover4 (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  obtain ⟨t, ht⟩ : ∃ t : Fin cfg4.N, t.val = (i 0).val / 5000 :=
    ⟨⟨(i 0).val / 5000, by rw [show cfg4.N = 10 from N_4]; omega⟩, rfl⟩
  obtain ⟨-, -, -, -, -, -, e6, e7⟩ := idx_facts4 t
  refine ⟨t, flush4_3 t, ?_⟩
  rw [mem_blk4]
  intro a
  match a with
  | ⟨0, _⟩ =>
    show win4_3.index t (0 : Fin 2) * 5000 ≤ (i 0).val ∧ (i 0).val < win4_3.index t (0 : Fin 2) * 5000 + 5000
    rw [e6, ht]; omega
  | ⟨1, _⟩ =>
    show win4_3.index t (1 : Fin 2) * 128 ≤ (i 1).val ∧ (i 1).val < win4_3.index t (1 : Fin 2) * 128 + 128
    rw [e7]; omega

/-- THE OUTPUT ARRAY after region 4, whatever the buffers held when it was entered: `mmFn` of its three
    input arrays. -/
theorem reg_value_4 (c : Dev nD) :
    (dat4 (F := Ideal) V c).arrAt 3 cfg4.N
      = mmFn (V c (Pipeline.arrRef spec4 0)) (V c (Pipeline.arrRef spec4 1)) (V c (Pipeline.arrRef spec4 2)) :=
  (dat4 V c).arrAt_eq_of_cover 3 _ (fun t _ => flushed4_eq V c t) (cover4)

end Cert.KernelIdeal.Hand

end
-- ==== Proof.KI.ValReg5.lean ====
/-
  region 5 (the closing step of a layer) as ONE function of its three input arrays: after the region its output
  array holds, at every entry `(r, q)`, the aggregated feature scaled by node `r`'s factor, plus the bias of column
  `q`, or zero if that is larger (`brFn`). Each of the ten grid points writes the block of 5000 rows it computed from
  the same 5000 rows of the aggregate and of the scaling column and from the whole bias row; row `r` lies in the block
  of point `r / 5000`, so the ten blocks cover the array.
-/
import proofs.«156050_j29892972380736_2_alg».proof.Proof.KI.Reg5
import proofs.«156050_j29892972380736_2_alg».proof.Proof.KI.ValPay
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The printed index maps over the ten points: the aggregate, the scaling column and the output sit at block `t` of
    the rows; the bias row at its one block. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Row `p` of the aggregate's block at point `t` is row `5000 t + p` of the aggregate. -/
theorem iblk5_0_apply (c : Dev nD) (t : Fin cfg5.N) (p : Fin 5000) (q : Fin 128) (r : Fin 50000)
    (hr : r.val = t.val * 5000 + p.val) :
    (iblk5 V c 0 t : Vec Ideal S5000x128 .f32) (ix2 p q)
      = (V c (Pipeline.arrRef spec5 0) : S50000x128.Idx → EReal) (ix2 r q) := by
  obtain ⟨e0, e1, -⟩ := idx_facts5 t
  unfold iblk5
  rw [View.read_apply]
  show V c (Pipeline.arrRef spec5 0) _ = V c (Pipeline.arrRef spec5 0) _
  congr 1
  funext a
  apply Fin.ext
  match a with
  | ⟨0, _⟩ => show win5_0.index t (0 : Fin 2) * 5000 + 1 * p.val = r.val; rw [e0, hr]; omega
  | ⟨1, _⟩ => show win5_0.index t (1 : Fin 2) * 128 + 1 * q.val = q.val; rw [e1]; omega

/-- Row `p` of the scaling column's block at point `t` is row `5000 t + p` of the column. -/
theorem iblk5_1_apply (c : Dev nD) (t : Fin cfg5.N) (p : Fin 5000) (r : Fin 50000)
    (hr : r.val = t.val * 5000 + p.val) :
    (iblk5 V c 1 t : Vec Ideal S5000x1 .f32) (ix2 p (0 : Fin 1))
      = (V c (Pipeline.arrRef spec5 1) : S50000x1.Idx → EReal) (ix2 r (0 : Fin 1)) := by
  obtain ⟨-, -, e2, e3, -⟩ := idx_facts5 t
  unfold iblk5
  rw [View.read_apply]
  show V c (Pipeline.arrRef spec5 1) _ = V c (Pipeline.arrRef spec5 1) _
  congr 1
  funext a
  apply Fin.ext
  match a with
  | ⟨0, _⟩ => show win5_1.index t (0 : Fin 2) * 5000 + 1 * p.val = r.val; rw [e2, hr]; omega
  | ⟨1, _⟩ => show win5_1.index t (1 : Fin 2) * 1 + 1 * 0 = 0; rw [e3]

/-- The bias row's block at every point is the bias row. -/
theorem iblk5_2_apply (c : Dev nD) (t : Fin cfg5.N) (q : Fin 128) :
    (iblk5 V c 2 t : Vec Ideal S1x128 .f32) (ix2 (0 : Fin 1) q)
      = (V c (Pipeline.arrRef spec5 2) : S1x128.Idx → EReal) (ix2 (0 : Fin 1) q) := by
  obtain ⟨-, -, -, -, e4, e5, -⟩ := idx_facts5 t
  unfold iblk5
  rw [View.read_apply]
  show V c (Pipeline.arrRef spec5 2) _ = V c (Pipeline.arrRef spec5 2) _
  congr 1
  funext a
  apply Fin.ext
  match a with
  | ⟨0, _⟩ => show win5_2.index t (0 : Fin 2) * 1 + 1 * 0 = 0; rw [e4]
  | ⟨1, _⟩ => show win5_2.index t (1 : Fin 2) * 128 + 1 * q.val = q.val; rw [e5]; omega

/-- WHAT POINT `t` WRITES BACK is block `t` of `brFn` of the three input arrays as the region finds them. -/
theorem flushed5_eq (c : Dev nD) (t : Fin cfg5.N) :
    (dat5 V c).flushed 3 t = ((cfg5.win 3).blk t).view.read (Elt Ideal)
      (brFn (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero zero_offsets]
  simp only [View.ld_unit_zero (S := S5000x128) zero_offsets, View.ld_unit_zero (S := S5000x1) zero_offsets,
    View.ld_unit_zero (S := S1x128) zero_offsets]
  obtain ⟨-, -, -, -, -, -, e6, e7⟩ := idx_facts5 t
  funext j
  rw [View.read_apply]
  refine relu_tile5 (V c (Pipeline.arrRef spec5 0)) (V c (Pipeline.arrRef spec5 1)) (V c (Pipeline.arrRef spec5 2))
    (iblk5 V c 0 t) (iblk5 V c 1 t) (iblk5 V c 2 t) t.val
    (fun p q r hr => iblk5_0_apply V c t p q r hr) (fun p r hr => iblk5_1_apply V c t p r hr)
    (fun q => iblk5_2_apply V c t q) j (((cfg5.win 3).blk t).view.emb j) ?_ ?_
  · show win5_3.index t (0 : Fin 2) * 5000 + 1 * (j 0).val = t.val * 5000 + (j 0).val; rw [e6]; omega
  · show win5_3.index t (1 : Fin 2) * 128 + 1 * (j 1).val = (j 1).val; rw [e7]; omega

/-- An index of the output array is in point `t`'s block iff each coordinate is in the block's range on its axis. -/
theorem mem_blk5 (t : Fin cfg5.N) (i : S50000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v67).slice (win5_3.rect t)).set ↔ _
  rw [View.set_slice_whole, Rect.mem_set_unit]
  exact Iff.rfl

/-- Row `r` of the output lies in the block of point `r / 5000`: the ten blocks cover the array. -/
theorem cover5 (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  obtain ⟨t, ht⟩ : ∃ t : Fin cfg5.N, t.val = (i 0).val / 5000 :=
    ⟨⟨(i 0).val / 5000, by rw [show cfg5.N = 10 from N_5]; omega⟩, rfl⟩
  obtain ⟨-, -, -, -, -, -, e6, e7⟩ := idx_facts5 t
  refine ⟨t, flush5_3 t, ?_⟩
  rw [mem_blk5]
  intro a
  match a with
  | ⟨0, _⟩ =>
    show win5_3.index t (0 : Fin 2) * 5000 ≤ (i 0).val ∧ (i 0).val < win5_3.index t (0 : Fin 2) * 5000 + 5000
    rw [e6, ht]; omega
  | ⟨1, _⟩ =>
    show win5_3.index t (1 : Fin 2) * 128 ≤ (i 1).val ∧ (i 1).val < win5_3.index t (1 : Fin 2) * 128 + 128
    rw [e7]; omega

/-- THE OUTPUT ARRAY after region 5, whatever the buffers held when it was entered: `brFn` of its three input
    arrays. -/
theorem reg_value_5 (c : Dev nD) :
    (dat5 (F := Ideal) V c).arrAt 3 cfg5.N
      = brFn (V c (Pipeline.arrRef spec5 0)) (V c (Pipeline.arrRef spec5 1)) (V c (Pipeline.arrRef spec5 2)) :=
  (dat5 V c).arrAt_eq_of_cover 3 _ (fun t _ => flushed5_eq V c t) (cover5)

end Cert.KernelIdeal.Hand

end
-- ==== Proof.KI.ValReg6.lean ====
/-
  region 6 (the dense step of a layer) as ONE function of its three input arrays: after the region its output array
  holds, at every entry `(r, q)`, row `r` of the features times column `q` of the weights scaled by node `r`'s factor
  (`mmFn`). Each of the ten grid points writes the block of 5000 rows it computed from the same 5000 rows of the
  features and of the scaling column and from the whole weights; row `r` lies in the block of point `r / 5000`, so the
  ten blocks cover the array.
-/
import proofs.«156050_j29892972380736_2_alg».proof.Proof.KI.Reg6
import proofs.«156050_j29892972380736_2_alg».proof.Proof.KI.ValPay
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The printed index maps over the ten points: the features, the scaling column and the output sit at block `t` of
    the rows; the weights at their one block. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

/-- Row `p` of the features' block at point `t` is row `5000 t + p` of the features. -/
theorem iblk6_0_apply (c : Dev nD) (t : Fin cfg6.N) (p : Fin 5000) (k : Fin 128) (r : Fin 50000)
    (hr : r.val = t.val * 5000 + p.val) :
    (iblk6 V c 0 t : Vec Ideal S5000x128 .f32) (ix2 p k)
      = (V c (Pipeline.arrRef spec6 0) : S50000x128.Idx → EReal) (ix2 r k) := by
  obtain ⟨e0, e1, -⟩ := idx_facts6 t
  unfold iblk6
  rw [View.read_apply]
  show V c (Pipeline.arrRef spec6 0) _ = V c (Pipeline.arrRef spec6 0) _
  congr 1
  funext a
  apply Fin.ext
  match a with
  | ⟨0, _⟩ => show win6_0.index t (0 : Fin 2) * 5000 + 1 * p.val = r.val; rw [e0, hr]; omega
  | ⟨1, _⟩ => show win6_0.index t (1 : Fin 2) * 128 + 1 * k.val = k.val; rw [e1]; omega

/-- The weights' block at every point is the weights. -/
theorem iblk6_1_apply (c : Dev nD) (t : Fin cfg6.N) (k q : Fin 128) :
    (iblk6 V c 1 t : Vec Ideal S128x128 .bf16) (ix2 k q)
      = (V c (Pipeline.arrRef spec6 1) : S128x128.Idx → EReal) (ix2 k q) := by
  obtain ⟨-, -, e2, e3, -⟩ := idx_facts6 t
  unfold iblk6
  rw [View.read_apply]
  show V c (Pipeline.arrRef spec6 1) _ = V c (Pipeline.arrRef spec6 1) _
  congr 1
  funext a
  apply Fin.ext
  match a with
  | ⟨0, _⟩ => show win6_1.index t (0 : Fin 2) * 128 + 1 * k.val = k.val; rw [e2]; omega
  | ⟨1, _⟩ => show win6_1.index t (1 : Fin 2) * 128 + 1 * q.val = q.val; rw [e3]; omega

/-- Row `p` of the scaling column's block at point `t` is row `5000 t + p` of the column. -/
theorem iblk6_2_apply (c : Dev nD) (t : Fin cfg6.N) (p : Fin 5000) (r : Fin 50000)
    (hr : r.val = t.val * 5000 + p.val) :
    (iblk6 V c 2 t : Vec Ideal S5000x1 .f32) (ix2 p (0 : Fin 1))
      = (V c (Pipeline.arrRef spec6 2) : S50000x1.Idx → EReal) (ix2 r (0 : Fin 1)) := by
  obtain ⟨-, -, -, -, e4, e5, -⟩ := idx_facts6 t
  unfold iblk6
  rw [View.read_apply]
  show V c (Pipeline.arrRef spec6 2) _ = V c (Pipeline.arrRef spec6 2) _
  congr 1
  funext a
  apply Fin.ext
  match a with
  | ⟨0, _⟩ => show win6_2.index t (0 : Fin 2) * 5000 + 1 * p.val = r.val; rw [e4, hr]; omega
  | ⟨1, _⟩ => show win6_2.index t (1 : Fin 2) * 1 + 1 * 0 = 0; rw [e5]

/-- WHAT POINT `t` WRITES BACK is block `t` of `mmFn` of the three input arrays as the region finds them. -/
theorem flushed6_eq (c : Dev nD) (t : Fin cfg6.N) :
    (dat6 V c).flushed 3 t = ((cfg6.win 3).blk t).view.read (Elt Ideal)
      (mmFn (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero zero_offsets]
  simp only [View.ld_unit_zero (S := S5000x128) zero_offsets, View.ld_unit_zero (S := S128x128) zero_offsets,
    View.ld_unit_zero (S := S5000x1) zero_offsets]
  obtain ⟨-, -, -, -, -, -, e6, e7⟩ := idx_facts6 t
  funext j
  rw [View.read_apply]
  refine dense_tile6 (V c (Pipeline.arrRef spec6 0)) (V c (Pipeline.arrRef spec6 1)) (V c (Pipeline.arrRef spec6 2))
    (iblk6 V c 0 t) (iblk6 V c 1 t) (iblk6 V c 2 t) t.val
    (fun p k r hr => iblk6_0_apply V c t p k r hr) (fun k q => iblk6_1_apply V c t k q)
    (fun p r hr => iblk6_2_apply V c t p r hr) j (((cfg6.win 3).blk t).view.emb j) ?_ ?_
  · show win6_3.index t (0 : Fin 2) * 5000 + 1 * (j 0).val = t.val * 5000 + (j 0).val; rw [e6]; omega
  · show win6_3.index t (1 : Fin 2) * 128 + 1 * (j 1).val = (j 1).val; rw [e7]; omega

/-- An index of the output array is in point `t`'s block iff each coordinate is in the block's range on its axis. -/
theorem mem_blk6 (t : Fin cfg6.N) (i : S50000x128.Idx) :
    i ∈ ((cfg6.win 3).blk t).view.set ↔ ∀ a : Fin 2, win6_3.index t a * S5000x128.size a ≤ (i a).val
      ∧ (i a).val < win6_3.index t a * S5000x128.size a + S5000x128.size a := by
  show i ∈ ((View.whole main_v70).slice (win6_3.rect t)).set ↔ _
  rw [View.set_slice_whole, Rect.mem_set_unit]
  exact Iff.rfl

/-- Row `r` of the output lies in the block of point `r / 5000`: the ten blocks cover the array. -/
theorem cover6 (i : S50000x128.Idx) :
    ∃ t : Fin cfg6.N, (cfg6.win 3).flush t = true ∧ i ∈ ((cfg6.win 3).blk t).view.set := by
  have hi0 : (i 0).val < 50000 := (i 0).isLt
  have hi1 : (i 1).val < 128 := (i 1).isLt
  obtain ⟨t, ht⟩ : ∃ t : Fin cfg6.N, t.val = (i 0).val / 5000 :=
    ⟨⟨(i 0).val / 5000, by rw [show cfg6.N = 10 from N_6]; omega⟩, rfl⟩
  obtain ⟨-, -, -, -, -, -, e6, e7⟩ := idx_facts6 t
  refine ⟨t, flush6_3 t, ?_⟩
  rw [mem_blk6]
  intro a
  match a with
  | ⟨0, _⟩ =>
    show win6_3.index t (0 : Fin 2) * 5000 ≤ (i 0).val ∧ (i 0).val < win6_3.index t (0 : Fin 2) * 5000 + 5000
    rw [e6, ht]; omega
  | ⟨1, _⟩ =>
    show win6_3.index t (1 : Fin 2) * 128 ≤ (i 1).val ∧ (i 1).val < win6_3.index t (1 : Fin 2) * 128 + 128
    rw [e7]; omega

/-- THE OUTPUT ARRAY after region 6, whatever the buffers held when it was entered: `mmFn` of its three
    input arrays. -/
theorem reg_value_6 (c : Dev nD) :
    (dat6 (F := Ideal) V c).arrAt 3 cfg6.N
      = mmFn (V c (Pipeline.arrRef spec6 0)) (V c (Pipeline.arrRef spec6 1)) (V c (Pipeline.arrRef spec6 2)) :=
  (dat6 V c).arrAt_eq_of_cover 3 _ (fun t _ => flushed6_eq V c t) (cover6)

end Cert.KernelIdeal.Hand

end
-- ==== Proof.KI.ValReg7.lean ====
/-
  region 7 (the closing step of a layer) as ONE function of its three input arrays: after the region its output
  array holds, at every entry `(r, q)`, the aggregated feature scaled by node `r`'s factor, plus the bias of column
  `q`, or zero if that is larger (`brFn`). Each of the ten grid points writes the block of 5000 rows it computed from
  the same 5000 rows of the aggregate and of the scaling column and from the whole bias row; row `r` lies in the block
  of point `r / 5000`, so the ten blocks cover the array.
-/
import proofs.«156050_j29892972380736_2_alg».proof.Proof.KI.Reg7
import proofs.«156050_j29892972380736_2_alg».proof.Proof.KI.ValPay
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The printed index maps over the ten points: the aggregate, the scaling column and the output sit at block `t` of
    the rows; the bias row at its one block. -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- Row `p` of the aggregate's block at point `t` is row `5000 t + p` of the aggregate. -/
theorem iblk7_0_apply (c : Dev nD) (t : Fin cfg7.N) (p : Fin 5000) (q : Fin 128) (r : Fin 50000)
    (hr : r.val = t.val * 5000 + p.val) :
    (iblk7 V c 0 t : Vec Ideal S5000x128 .f32) (ix2 p q)
      = (V c (Pipeline.arrRef spec7 0) : S50000x128.Idx → EReal) (ix2 r q) := by
  obtain ⟨e0, e1, -⟩ := idx_facts7 t
  unfold iblk7
  rw [View.read_apply]
  show V c (Pipeline.arrRef spec7 0) _ = V c (Pipeline.arrRef spec7 0) _
  congr 1
  funext a
  apply Fin.ext
  match a with
  | ⟨0, _⟩ => show win7_0.index t (0 : Fin 2) * 5000 + 1 * p.val = r.val; rw [e0, hr]; omega
  | ⟨1, _⟩ => show win7_0.index t (1 : Fin 2) * 128 + 1 * q.val = q.val; rw [e1]; omega

/-- Row `p` of the scaling column's block at point `t` is row `5000 t + p` of the column. -/
theorem iblk7_1_apply (c : Dev nD) (t : Fin cfg7.N) (p : Fin 5000) (r : Fin 50000)
    (hr : r.val = t.val * 5000 + p.val) :
    (iblk7 V c 1 t : Vec Ideal S5000x1 .f32) (ix2 p (0 : Fin 1))
      = (V c (Pipeline.arrRef spec7 1) : S50000x1.Idx → EReal) (ix2 r (0 : Fin 1)) := by
  obtain ⟨-, -, e2, e3, -⟩ := idx_facts7 t
  unfold iblk7
  rw [View.read_apply]
  show V c (Pipeline.arrRef spec7 1) _ = V c (Pipeline.arrRef spec7 1) _
  congr 1
  funext a
  apply Fin.ext
  match a with
  | ⟨0, _⟩ => show win7_1.index t (0 : Fin 2) * 5000 + 1 * p.val = r.val; rw [e2, hr]; omega
  | ⟨1, _⟩ => show win7_1.index t (1 : Fin 2) * 1 + 1 * 0 = 0; rw [e3]

/-- The bias row's block at every point is the bias row. -/
theorem iblk7_2_apply (c : Dev nD) (t : Fin cfg7.N) (q : Fin 128) :
    (iblk7 V c 2 t : Vec Ideal S1x128 .f32) (ix2 (0 : Fin 1) q)
      = (V c (Pipeline.arrRef spec7 2) : S1x128.Idx → EReal) (ix2 (0 : Fin 1) q) := by
  obtain ⟨-, -, -, -, e4, e5, -⟩ := idx_facts7 t
  unfold iblk7
  rw [View.read_apply]
  show V c (Pipeline.arrRef spec7 2) _ = V c (Pipeline.arrRef spec7 2) _
  congr 1
  funext a
  apply Fin.ext
  match a with
  | ⟨0, _⟩ => show win7_2.index t (0 : Fin 2) * 1 + 1 * 0 = 0; rw [e4]
  | ⟨1, _⟩ => show win7_2.index t (1 : Fin 2) * 128 + 1 * q.val = q.val; rw [e5]; omega

/-- WHAT POINT `t` WRITES BACK is block `t` of `brFn` of the three input arrays as the region finds them. -/
theorem flushed7_eq (c : Dev nD) (t : Fin cfg7.N) :
    (dat7 V c).flushed 3 t = ((cfg7.win 3).blk t).view.read (Elt Ideal)
      (brFn (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero zero_offsets]
  simp only [View.ld_unit_zero (S := S5000x128) zero_offsets, View.ld_unit_zero (S := S5000x1) zero_offsets,
    View.ld_unit_zero (S := S1x128) zero_offsets]
  obtain ⟨-, -, -, -, -, -, e6, e7⟩ := idx_facts7 t
  funext j
  rw [View.read_apply]
  refine relu_tile7 (V c (Pipeline.arrRef spec7 0)) (V c (Pipeline.arrRef spec7 1)) (V c (Pipeline.arrRef spec7 2))
    (iblk7 V c 0 t) (iblk7 V c 1 t) (iblk7 V c 2 t) t.val
    (fun p q r hr => iblk7_0_apply V c t p q r hr) (fun p r hr => iblk7_1_apply V c t p r hr)
    (fun q => iblk7_2_apply V c t q) j (((cfg7.win 3).blk t).view.emb j) ?_ ?_
  · show win7_3.index t (0 : Fin 2) * 5000 + 1 * (j 0).val = t.val * 5000 + (j 0).val; rw [e6]; omega
  · show win7_3.index t (1 : Fin 2) * 128 + 1 * (j 1).val = (j 1).val; rw [e7]; omega

/-- An index of the output array is in point `t`'s block iff each coordinate is in the block's range on its axis. -/
theorem mem_blk7 (t : Fin cfg7.N) (i : S50000x128.Idx) :
    i ∈ ((cfg7.win 3).blk t).view.set ↔ ∀ a : Fin 2, win7_3.index t a * S5000x128.size a ≤ (i a).val
      ∧ (i a).val < win7_3.index t a * S5000x128.size a + S5000x128.size a := by
  show i ∈ ((View.whole main_v85).slice (win7_3.rect t)).set ↔ _
  rw [View.set_slice_whole, Rect.mem_set_unit]
  exact Iff.rfl

/-- Row `r` of the output lies in the block of point `r / 5000`: the ten blocks cover the array. -/
theorem cover7 (i : S50000x128.Idx) :
    ∃ t : Fin cfg7.N, (cfg7.win 3).flush t = true ∧ i ∈ ((cfg7.win 3).blk t).view.set := by
  have hi0 : (i 0).val < 50000 := (i 0).isLt
  have hi1 : (i 1).val < 128 := (i 1).isLt
  obtain ⟨t, ht⟩ : ∃ t : Fin cfg7.N, t.val = (i 0).val / 5000 :=
    ⟨⟨(i 0).val / 5000, by rw [show cfg7.N = 10 from N_7]; omega⟩, rfl⟩
  obtain ⟨-, -, -, -, -, -, e6, e7⟩ := idx_facts7 t
  refine ⟨t, flush7_3 t, ?_⟩
  rw [mem_blk7]
  intro a
  match a with
  | ⟨0, _⟩ =>
    show win7_3.index t (0 : Fin 2) * 5000 ≤ (i 0).val ∧ (i 0).val < win7_3.index t (0 : Fin 2) * 5000 + 5000
    rw [e6, ht]; omega
  | ⟨1, _⟩ =>
    show win7_3.index t (1 : Fin 2) * 128 ≤ (i 1).val ∧ (i 1).val < win7_3.index t (1 : Fin 2) * 128 + 128
    rw [e7]; omega

/-- THE OUTPUT ARRAY after region 7, whatever the buffers held when it was entered: `brFn` of its three input
    arrays. -/
theorem reg_value_7 (c : Dev nD) :
    (dat7 (F := Ideal) V c).arrAt 3 cfg7.N
      = brFn (V c (Pipeline.arrRef spec7 0)) (V c (Pipeline.arrRef spec7 1)) (V c (Pipeline.arrRef spec7 2)) :=
  (dat7 V c).arrAt_eq_of_cover 3 _ (fun t _ => flushed7_eq V c t) (cover7)

end Cert.KernelIdeal.Hand

end
-- ==== Proof.KI.ValReg8.lean ====
/-
  region 8 (the dense step of a layer) as ONE function of its three input arrays: after the region its output array
  holds, at every entry `(r, q)`, row `r` of the features times column `q` of the weights scaled by node `r`'s factor
  (`mmFn`). Each of the ten grid points writes the block of 5000 rows it computed from the same 5000 rows of the
  features and of the scaling column and from the whole weights; row `r` lies in the block of point `r / 5000`, so the
  ten blocks cover the array.
-/
import proofs.«156050_j29892972380736_2_alg».proof.Proof.KI.Reg8
import proofs.«156050_j29892972380736_2_alg».proof.Proof.KI.ValPay
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The printed index maps over the ten points: the features, the scaling column and the output sit at block `t` of
    the rows; the weights at their one block. -/
theorem idx_facts8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0 :=
  (by decide +kernel : ∀ t : Fin grid8.N, _)

/-- Row `p` of the features' block at point `t` is row `5000 t + p` of the features. -/
theorem iblk8_0_apply (c : Dev nD) (t : Fin cfg8.N) (p : Fin 5000) (k : Fin 128) (r : Fin 50000)
    (hr : r.val = t.val * 5000 + p.val) :
    (iblk8 V c 0 t : Vec Ideal S5000x128 .f32) (ix2 p k)
      = (V c (Pipeline.arrRef spec8 0) : S50000x128.Idx → EReal) (ix2 r k) := by
  obtain ⟨e0, e1, -⟩ := idx_facts8 t
  unfold iblk8
  rw [View.read_apply]
  show V c (Pipeline.arrRef spec8 0) _ = V c (Pipeline.arrRef spec8 0) _
  congr 1
  funext a
  apply Fin.ext
  match a with
  | ⟨0, _⟩ => show win8_0.index t (0 : Fin 2) * 5000 + 1 * p.val = r.val; rw [e0, hr]; omega
  | ⟨1, _⟩ => show win8_0.index t (1 : Fin 2) * 128 + 1 * k.val = k.val; rw [e1]; omega

/-- The weights' block at every point is the weights. -/
theorem iblk8_1_apply (c : Dev nD) (t : Fin cfg8.N) (k q : Fin 128) :
    (iblk8 V c 1 t : Vec Ideal S128x128 .bf16) (ix2 k q)
      = (V c (Pipeline.arrRef spec8 1) : S128x128.Idx → EReal) (ix2 k q) := by
  obtain ⟨-, -, e2, e3, -⟩ := idx_facts8 t
  unfold iblk8
  rw [View.read_apply]
  show V c (Pipeline.arrRef spec8 1) _ = V c (Pipeline.arrRef spec8 1) _
  congr 1
  funext a
  apply Fin.ext
  match a with
  | ⟨0, _⟩ => show win8_1.index t (0 : Fin 2) * 128 + 1 * k.val = k.val; rw [e2]; omega
  | ⟨1, _⟩ => show win8_1.index t (1 : Fin 2) * 128 + 1 * q.val = q.val; rw [e3]; omega

/-- Row `p` of the scaling column's block at point `t` is row `5000 t + p` of the column. -/
theorem iblk8_2_apply (c : Dev nD) (t : Fin cfg8.N) (p : Fin 5000) (r : Fin 50000)
    (hr : r.val = t.val * 5000 + p.val) :
    (iblk8 V c 2 t : Vec Ideal S5000x1 .f32) (ix2 p (0 : Fin 1))
      = (V c (Pipeline.arrRef spec8 2) : S50000x1.Idx → EReal) (ix2 r (0 : Fin 1)) := by
  obtain ⟨-, -, -, -, e4, e5, -⟩ := idx_facts8 t
  unfold iblk8
  rw [View.read_apply]
  show V c (Pipeline.arrRef spec8 2) _ = V c (Pipeline.arrRef spec8 2) _
  congr 1
  funext a
  apply Fin.ext
  match a with
  | ⟨0, _⟩ => show win8_2.index t (0 : Fin 2) * 5000 + 1 * p.val = r.val; rw [e4, hr]; omega
  | ⟨1, _⟩ => show win8_2.index t (1 : Fin 2) * 1 + 1 * 0 = 0; rw [e5]

/-- WHAT POINT `t` WRITES BACK is block `t` of `mmFn` of the three input arrays as the region finds them. -/
theorem flushed8_eq (c : Dev nD) (t : Fin cfg8.N) :
    (dat8 V c).flushed 3 t = ((cfg8.win 3).blk t).view.read (Elt Ideal)
      (mmFn (V c (Pipeline.arrRef spec8 0)) (V c (Pipeline.arrRef spec8 1)) (V c (Pipeline.arrRef spec8 2))) := by
  show (cfg8.win 3).cut (grid8.coords t) ((dat8 V c).after 3 t) = _
  rw [after8_3]
  unfold out8_3
  rw [View.canon_unit_zero zero_offsets]
  simp only [View.ld_unit_zero (S := S5000x128) zero_offsets, View.ld_unit_zero (S := S128x128) zero_offsets,
    View.ld_unit_zero (S := S5000x1) zero_offsets]
  obtain ⟨-, -, -, -, -, -, e6, e7⟩ := idx_facts8 t
  funext j
  rw [View.read_apply]
  refine dense_tile8 (V c (Pipeline.arrRef spec8 0)) (V c (Pipeline.arrRef spec8 1)) (V c (Pipeline.arrRef spec8 2))
    (iblk8 V c 0 t) (iblk8 V c 1 t) (iblk8 V c 2 t) t.val
    (fun p k r hr => iblk8_0_apply V c t p k r hr) (fun k q => iblk8_1_apply V c t k q)
    (fun p r hr => iblk8_2_apply V c t p r hr) j (((cfg8.win 3).blk t).view.emb j) ?_ ?_
  · show win8_3.index t (0 : Fin 2) * 5000 + 1 * (j 0).val = t.val * 5000 + (j 0).val; rw [e6]; omega
  · show win8_3.index t (1 : Fin 2) * 128 + 1 * (j 1).val = (j 1).val; rw [e7]; omega

/-- An index of the output array is in point `t`'s block iff each coordinate is in the block's range on its axis. -/
theorem mem_blk8 (t : Fin cfg8.N) (i : S50000x128.Idx) :
    i ∈ ((cfg8.win 3).blk t).view.set ↔ ∀ a : Fin 2, win8_3.index t a * S5000x128.size a ≤ (i a).val
      ∧ (i a).val < win8_3.index t a * S5000x128.size a + S5000x128.size a := by
  show i ∈ ((View.whole main_v88).slice (win8_3.rect t)).set ↔ _
  rw [View.set_slice_whole, Rect.mem_set_unit]
  exact Iff.rfl

/-- Row `r` of the output lies in the block of point `r / 5000`: the ten blocks cover the array. -/
theorem cover8 (i : S50000x128.Idx) :
    ∃ t : Fin cfg8.N, (cfg8.win 3).flush t = true ∧ i ∈ ((cfg8.win 3).blk t).view.set := by
  have hi0 : (i 0).val < 50000 := (i 0).isLt
  have hi1 : (i 1).val < 128 := (i 1).isLt
  obtain ⟨t, ht⟩ : ∃ t : Fin cfg8.N, t.val = (i 0).val / 5000 :=
    ⟨⟨(i 0).val / 5000, by rw [show cfg8.N = 10 from N_8]; omega⟩, rfl⟩
  obtain ⟨-, -, -, -, -, -, e6, e7⟩ := idx_facts8 t
  refine ⟨t, flush8_3 t, ?_⟩
  rw [mem_blk8]
  intro a
  match a with
  | ⟨0, _⟩ =>
    show win8_3.index t (0 : Fin 2) * 5000 ≤ (i 0).val ∧ (i 0).val < win8_3.index t (0 : Fin 2) * 5000 + 5000
    rw [e6, ht]; omega
  | ⟨1, _⟩ =>
    show win8_3.index t (1 : Fin 2) * 128 ≤ (i 1).val ∧ (i 1).val < win8_3.index t (1 : Fin 2) * 128 + 128
    rw [e7]; omega

/-- THE OUTPUT ARRAY after region 8, whatever the buffers held when it was entered: `mmFn` of its three
    input arrays. -/
theorem reg_value_8 (c : Dev nD) :
    (dat8 (F := Ideal) V c).arrAt 3 cfg8.N
      = mmFn (V c (Pipeline.arrRef spec8 0)) (V c (Pipeline.arrRef spec8 1)) (V c (Pipeline.arrRef spec8 2)) :=
  (dat8 V c).arrAt_eq_of_cover 3 _ (fun t _ => flushed8_eq V c t) (cover8)

end Cert.KernelIdeal.Hand

end
-- ==== Proof.KI.ValReg9.lean ====
/-
  region 9 (the closing step of a layer) as ONE function of its three input arrays: after the region its output
  array holds, at every entry `(r, q)`, the aggregated feature scaled by node `r`'s factor, plus the bias of column
  `q`, or zero if that is larger (`brFn`). Each of the ten grid points writes the block of 5000 rows it computed from
  the same 5000 rows of the aggregate and of the scaling column and from the whole bias row; row `r` lies in the block
  of point `r / 5000`, so the ten blocks cover the array.
-/
import proofs.«156050_j29892972380736_2_alg».proof.Proof.KI.Reg9
import proofs.«156050_j29892972380736_2_alg».proof.Proof.KI.ValPay
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The printed index maps over the ten points: the aggregate, the scaling column and the output sit at block `t` of
    the rows; the bias row at its one block. -/
theorem idx_facts9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- Row `p` of the aggregate's block at point `t` is row `5000 t + p` of the aggregate. -/
theorem iblk9_0_apply (c : Dev nD) (t : Fin cfg9.N) (p : Fin 5000) (q : Fin 128) (r : Fin 50000)
    (hr : r.val = t.val * 5000 + p.val) :
    (iblk9 V c 0 t : Vec Ideal S5000x128 .f32) (ix2 p q)
      = (V c (Pipeline.arrRef spec9 0) : S50000x128.Idx → EReal) (ix2 r q) := by
  obtain ⟨e0, e1, -⟩ := idx_facts9 t
  unfold iblk9
  rw [View.read_apply]
  show V c (Pipeline.arrRef spec9 0) _ = V c (Pipeline.arrRef spec9 0) _
  congr 1
  funext a
  apply Fin.ext
  match a with
  | ⟨0, _⟩ => show win9_0.index t (0 : Fin 2) * 5000 + 1 * p.val = r.val; rw [e0, hr]; omega
  | ⟨1, _⟩ => show win9_0.index t (1 : Fin 2) * 128 + 1 * q.val = q.val; rw [e1]; omega

/-- Row `p` of the scaling column's block at point `t` is row `5000 t + p` of the column. -/
theorem iblk9_1_apply (c : Dev nD) (t : Fin cfg9.N) (p : Fin 5000) (r : Fin 50000)
    (hr : r.val = t.val * 5000 + p.val) :
    (iblk9 V c 1 t : Vec Ideal S5000x1 .f32) (ix2 p (0 : Fin 1))
      = (V c (Pipeline.arrRef spec9 1) : S50000x1.Idx → EReal) (ix2 r (0 : Fin 1)) := by
  obtain ⟨-, -, e2, e3, -⟩ := idx_facts9 t
  unfold iblk9
  rw [View.read_apply]
  show V c (Pipeline.arrRef spec9 1) _ = V c (Pipeline.arrRef spec9 1) _
  congr 1
  funext a
  apply Fin.ext
  match a with
  | ⟨0, _⟩ => show win9_1.index t (0 : Fin 2) * 5000 + 1 * p.val = r.val; rw [e2, hr]; omega
  | ⟨1, _⟩ => show win9_1.index t (1 : Fin 2) * 1 + 1 * 0 = 0; rw [e3]

/-- The bias row's block at every point is the bias row. -/
theorem iblk9_2_apply (c : Dev nD) (t : Fin cfg9.N) (q : Fin 128) :
    (iblk9 V c 2 t : Vec Ideal S1x128 .f32) (ix2 (0 : Fin 1) q)
      = (V c (Pipeline.arrRef spec9 2) : S1x128.Idx → EReal) (ix2 (0 : Fin 1) q) := by
  obtain ⟨-, -, -, -, e4, e5, -⟩ := idx_facts9 t
  unfold iblk9
  rw [View.read_apply]
  show V c (Pipeline.arrRef spec9 2) _ = V c (Pipeline.arrRef spec9 2) _
  congr 1
  funext a
  apply Fin.ext
  match a with
  | ⟨0, _⟩ => show win9_2.index t (0 : Fin 2) * 1 + 1 * 0 = 0; rw [e4]
  | ⟨1, _⟩ => show win9_2.index t (1 : Fin 2) * 128 + 1 * q.val = q.val; rw [e5]; omega

/-- WHAT POINT `t` WRITES BACK is block `t` of `brFn` of the three input arrays as the region finds them. -/
theorem flushed9_eq (c : Dev nD) (t : Fin cfg9.N) :
    (dat9 V c).flushed 3 t = ((cfg9.win 3).blk t).view.read (Elt Ideal)
      (brFn (V c (Pipeline.arrRef spec9 0)) (V c (Pipeline.arrRef spec9 1)) (V c (Pipeline.arrRef spec9 2))) := by
  show (cfg9.win 3).cut (grid9.coords t) ((dat9 V c).after 3 t) = _
  rw [after9_3]
  unfold out9_3
  rw [View.canon_unit_zero zero_offsets]
  simp only [View.ld_unit_zero (S := S5000x128) zero_offsets, View.ld_unit_zero (S := S5000x1) zero_offsets,
    View.ld_unit_zero (S := S1x128) zero_offsets]
  obtain ⟨-, -, -, -, -, -, e6, e7⟩ := idx_facts9 t
  funext j
  rw [View.read_apply]
  refine relu_tile9 (V c (Pipeline.arrRef spec9 0)) (V c (Pipeline.arrRef spec9 1)) (V c (Pipeline.arrRef spec9 2))
    (iblk9 V c 0 t) (iblk9 V c 1 t) (iblk9 V c 2 t) t.val
    (fun p q r hr => iblk9_0_apply V c t p q r hr) (fun p r hr => iblk9_1_apply V c t p r hr)
    (fun q => iblk9_2_apply V c t q) j (((cfg9.win 3).blk t).view.emb j) ?_ ?_
  · show win9_3.index t (0 : Fin 2) * 5000 + 1 * (j 0).val = t.val * 5000 + (j 0).val; rw [e6]; omega
  · show win9_3.index t (1 : Fin 2) * 128 + 1 * (j 1).val = (j 1).val; rw [e7]; omega

/-- An index of the output array is in point `t`'s block iff each coordinate is in the block's range on its axis. -/
theorem mem_blk9 (t : Fin cfg9.N) (i : S50000x128.Idx) :
    i ∈ ((cfg9.win 3).blk t).view.set ↔ ∀ a : Fin 2, win9_3.index t a * S5000x128.size a ≤ (i a).val
      ∧ (i a).val < win9_3.index t a * S5000x128.size a + S5000x128.size a := by
  show i ∈ ((View.whole main_v103).slice (win9_3.rect t)).set ↔ _
  rw [View.set_slice_whole, Rect.mem_set_unit]
  exact Iff.rfl

/-- Row `r` of the output lies in the block of point `r / 5000`: the ten blocks cover the array. -/
theorem cover9 (i : S50000x128.Idx) :
    ∃ t : Fin cfg9.N, (cfg9.win 3).flush t = true ∧ i ∈ ((cfg9.win 3).blk t).view.set := by
  have hi0 : (i 0).val < 50000 := (i 0).isLt
  have hi1 : (i 1).val < 128 := (i 1).isLt
  obtain ⟨t, ht⟩ : ∃ t : Fin cfg9.N, t.val = (i 0).val / 5000 :=
    ⟨⟨(i 0).val / 5000, by rw [show cfg9.N = 10 from N_9]; omega⟩, rfl⟩
  obtain ⟨-, -, -, -, -, -, e6, e7⟩ := idx_facts9 t
  refine ⟨t, flush9_3 t, ?_⟩
  rw [mem_blk9]
  intro a
  match a with
  | ⟨0, _⟩ =>
    show win9_3.index t (0 : Fin 2) * 5000 ≤ (i 0).val ∧ (i 0).val < win9_3.index t (0 : Fin 2) * 5000 + 5000
    rw [e6, ht]; omega
  | ⟨1, _⟩ =>
    show win9_3.index t (1 : Fin 2) * 128 ≤ (i 1).val ∧ (i 1).val < win9_3.index t (1 : Fin 2) * 128 + 128
    rw [e7]; omega

/-- THE OUTPUT ARRAY after region 9, whatever the buffers held when it was entered: `brFn` of its three input
    arrays. -/
theorem reg_value_9 (c : Dev nD) :
    (dat9 (F := Ideal) V c).arrAt 3 cfg9.N
      = brFn (V c (Pipeline.arrRef spec9 0)) (V c (Pipeline.arrRef spec9 1)) (V c (Pipeline.arrRef spec9 2)) :=
  (dat9 V c).arrAt_eq_of_cover 3 _ (fun t _ => flushed9_eq V c t) (cover9)

end Cert.KernelIdeal.Hand

end
-- ==== Proof.KI.ValRun.lean ====
/- The kernel program's result as a function of its five argument arrays, at the ideal instance: the contents of every
   buffer a later item of @main reads, boundary by boundary along the run's fold. A stretch of host operations is read
   operation by operation from the contents it starts from; a region's output array is what its value theorem says of
   its three input arrays; every other buffer is carried unchanged. Five layers later, the last stretch lays the five
   layer outputs side by side and adds them up per graph. -/
import proofs.«156050_j29892972380736_2_alg».proof.Proof.KI.Run
import proofs.«156050_j29892972380736_2_alg».proof.Proof.KernelFn
import proofs.«156050_j29892972380736_2_alg».proof.Proof.KI.ValReg0
import proofs.«156050_j29892972380736_2_alg».proof.Proof.KI.ValReg1
import proofs.«156050_j29892972380736_2_alg».proof.Proof.KI.ValReg2
import proofs.«156050_j29892972380736_2_alg».proof.Proof.KI.ValReg3
import proofs.«156050_j29892972380736_2_alg».proof.Proof.KI.ValReg4
import proofs.«156050_j29892972380736_2_alg».proof.Proof.KI.ValReg5
import proofs.«156050_j29892972380736_2_alg».proof.Proof.KI.ValReg6
import proofs.«156050_j29892972380736_2_alg».proof.Proof.KI.ValReg7
import proofs.«156050_j29892972380736_2_alg».proof.Proof.KI.ValReg8
import proofs.«156050_j29892972380736_2_alg».proof.Proof.KI.ValReg9

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window BodyObligation cellOf)

variable (m : (ℓ : Loc nD τ sig) → Buf (Elt Ideal) ℓ) (ρ : Dev nD → PrngReg)

/-- The five argument arrays at launch on core c. -/
abbrev a0 (c : Dev nD) : FVec Ideal S50000x128 .f32 := m ((c : Thread nD τ).loc main_arg0)
abbrev a1 (c : Dev nD) : IVec S2x600000 32 := m ((c : Thread nD τ).loc main_arg1)
abbrev a2 (c : Dev nD) : IVec S50000 32 := m ((c : Thread nD τ).loc main_arg2)
abbrev a3 (c : Dev nD) : FVec Ideal S5x128x128 .f32 := m ((c : Thread nD τ).loc main_arg3)
abbrev a4 (c : Dev nD) : FVec Ideal S5x128 .f32 := m ((c : Thread nD τ).loc main_arg4)

/-! ## The arguments, carried to the items that read them -/

theorem W1_arg0 (c : Dev nD) : W1 m ρ c (Proc.devRef .tc main_arg0) = a0 m c :=
  (W1_of m ρ c main_arg0 (by decide)).trans rfl
theorem W1_arg4 (c : Dev nD) : W1 m ρ c (Proc.devRef .tc main_arg4) = a4 m c :=
  (W1_of m ρ c main_arg4 (by decide)).trans rfl
theorem W2_arg4 (c : Dev nD) : W2 m ρ c (Proc.devRef .tc main_arg4) = a4 m c :=
  (W2_of_ne m ρ c main_arg4 (by decide)).trans (W1_arg4 m ρ c)
theorem W3_arg4 (c : Dev nD) : W3 m ρ c (Proc.devRef .tc main_arg4) = a4 m c :=
  (W3_of m ρ c main_arg4 (by decide)).trans (W2_arg4 m ρ c)
theorem W4_arg4 (c : Dev nD) : W4 m ρ c (Proc.devRef .tc main_arg4) = a4 m c :=
  (W4_of_ne m ρ c main_arg4 (by decide)).trans (W3_arg4 m ρ c)
theorem W5_arg4 (c : Dev nD) : W5 m ρ c (Proc.devRef .tc main_arg4) = a4 m c :=
  (W5_of m ρ c main_arg4 (by decide)).trans (W4_arg4 m ρ c)
theorem W6_arg4 (c : Dev nD) : W6 m ρ c (Proc.devRef .tc main_arg4) = a4 m c :=
  (W6_of_ne m ρ c main_arg4 (by decide)).trans (W5_arg4 m ρ c)
theorem W7_arg4 (c : Dev nD) : W7 m ρ c (Proc.devRef .tc main_arg4) = a4 m c :=
  (W7_of m ρ c main_arg4 (by decide)).trans (W6_arg4 m ρ c)
theorem W8_arg4 (c : Dev nD) : W8 m ρ c (Proc.devRef .tc main_arg4) = a4 m c :=
  (W8_of_ne m ρ c main_arg4 (by decide)).trans (W7_arg4 m ρ c)
theorem W9_arg4 (c : Dev nD) : W9 m ρ c (Proc.devRef .tc main_arg4) = a4 m c :=
  (W9_of m ρ c main_arg4 (by decide)).trans (W8_arg4 m ρ c)
theorem W10_arg4 (c : Dev nD) : W10 m ρ c (Proc.devRef .tc main_arg4) = a4 m c :=
  (W10_of_ne m ρ c main_arg4 (by decide)).trans (W9_arg4 m ρ c)
theorem W11_arg4 (c : Dev nD) : W11 m ρ c (Proc.devRef .tc main_arg4) = a4 m c :=
  (W11_of m ρ c main_arg4 (by decide)).trans (W10_arg4 m ρ c)
theorem W12_arg4 (c : Dev nD) : W12 m ρ c (Proc.devRef .tc main_arg4) = a4 m c :=
  (W12_of_ne m ρ c main_arg4 (by decide)).trans (W11_arg4 m ρ c)
theorem W13_arg4 (c : Dev nD) : W13 m ρ c (Proc.devRef .tc main_arg4) = a4 m c :=
  (W13_of m ρ c main_arg4 (by decide)).trans (W12_arg4 m ρ c)
theorem W14_arg4 (c : Dev nD) : W14 m ρ c (Proc.devRef .tc main_arg4) = a4 m c :=
  (W14_of_ne m ρ c main_arg4 (by decide)).trans (W13_arg4 m ρ c)
theorem W15_arg4 (c : Dev nD) : W15 m ρ c (Proc.devRef .tc main_arg4) = a4 m c :=
  (W15_of m ρ c main_arg4 (by decide)).trans (W14_arg4 m ρ c)
theorem W16_arg4 (c : Dev nD) : W16 m ρ c (Proc.devRef .tc main_arg4) = a4 m c :=
  (W16_of_ne m ρ c main_arg4 (by decide)).trans (W15_arg4 m ρ c)
theorem W17_arg4 (c : Dev nD) : W17 m ρ c (Proc.devRef .tc main_arg4) = a4 m c :=
  (W17_of m ρ c main_arg4 (by decide)).trans (W16_arg4 m ρ c)
theorem W18_arg4 (c : Dev nD) : W18 m ρ c (Proc.devRef .tc main_arg4) = a4 m c :=
  (W18_of_ne m ρ c main_arg4 (by decide)).trans (W17_arg4 m ρ c)
theorem W1_arg2 (c : Dev nD) : W1 m ρ c (Proc.devRef .tc main_arg2) = a2 m c :=
  (W1_of m ρ c main_arg2 (by decide)).trans rfl
theorem W2_arg2 (c : Dev nD) : W2 m ρ c (Proc.devRef .tc main_arg2) = a2 m c :=
  (W2_of_ne m ρ c main_arg2 (by decide)).trans (W1_arg2 m ρ c)
theorem W3_arg2 (c : Dev nD) : W3 m ρ c (Proc.devRef .tc main_arg2) = a2 m c :=
  (W3_of m ρ c main_arg2 (by decide)).trans (W2_arg2 m ρ c)
theorem W4_arg2 (c : Dev nD) : W4 m ρ c (Proc.devRef .tc main_arg2) = a2 m c :=
  (W4_of_ne m ρ c main_arg2 (by decide)).trans (W3_arg2 m ρ c)
theorem W5_arg2 (c : Dev nD) : W5 m ρ c (Proc.devRef .tc main_arg2) = a2 m c :=
  (W5_of m ρ c main_arg2 (by decide)).trans (W4_arg2 m ρ c)
theorem W6_arg2 (c : Dev nD) : W6 m ρ c (Proc.devRef .tc main_arg2) = a2 m c :=
  (W6_of_ne m ρ c main_arg2 (by decide)).trans (W5_arg2 m ρ c)
theorem W7_arg2 (c : Dev nD) : W7 m ρ c (Proc.devRef .tc main_arg2) = a2 m c :=
  (W7_of m ρ c main_arg2 (by decide)).trans (W6_arg2 m ρ c)
theorem W8_arg2 (c : Dev nD) : W8 m ρ c (Proc.devRef .tc main_arg2) = a2 m c :=
  (W8_of_ne m ρ c main_arg2 (by decide)).trans (W7_arg2 m ρ c)
theorem W9_arg2 (c : Dev nD) : W9 m ρ c (Proc.devRef .tc main_arg2) = a2 m c :=
  (W9_of m ρ c main_arg2 (by decide)).trans (W8_arg2 m ρ c)
theorem W10_arg2 (c : Dev nD) : W10 m ρ c (Proc.devRef .tc main_arg2) = a2 m c :=
  (W10_of_ne m ρ c main_arg2 (by decide)).trans (W9_arg2 m ρ c)
theorem W11_arg2 (c : Dev nD) : W11 m ρ c (Proc.devRef .tc main_arg2) = a2 m c :=
  (W11_of m ρ c main_arg2 (by decide)).trans (W10_arg2 m ρ c)
theorem W12_arg2 (c : Dev nD) : W12 m ρ c (Proc.devRef .tc main_arg2) = a2 m c :=
  (W12_of_ne m ρ c main_arg2 (by decide)).trans (W11_arg2 m ρ c)
theorem W13_arg2 (c : Dev nD) : W13 m ρ c (Proc.devRef .tc main_arg2) = a2 m c :=
  (W13_of m ρ c main_arg2 (by decide)).trans (W12_arg2 m ρ c)
theorem W14_arg2 (c : Dev nD) : W14 m ρ c (Proc.devRef .tc main_arg2) = a2 m c :=
  (W14_of_ne m ρ c main_arg2 (by decide)).trans (W13_arg2 m ρ c)
theorem W15_arg2 (c : Dev nD) : W15 m ρ c (Proc.devRef .tc main_arg2) = a2 m c :=
  (W15_of m ρ c main_arg2 (by decide)).trans (W14_arg2 m ρ c)
theorem W16_arg2 (c : Dev nD) : W16 m ρ c (Proc.devRef .tc main_arg2) = a2 m c :=
  (W16_of_ne m ρ c main_arg2 (by decide)).trans (W15_arg2 m ρ c)
theorem W17_arg2 (c : Dev nD) : W17 m ρ c (Proc.devRef .tc main_arg2) = a2 m c :=
  (W17_of m ρ c main_arg2 (by decide)).trans (W16_arg2 m ρ c)
theorem W18_arg2 (c : Dev nD) : W18 m ρ c (Proc.devRef .tc main_arg2) = a2 m c :=
  (W18_of_ne m ρ c main_arg2 (by decide)).trans (W17_arg2 m ρ c)
theorem W19_arg2 (c : Dev nD) : W19 m ρ c (Proc.devRef .tc main_arg2) = a2 m c :=
  (W19_of m ρ c main_arg2 (by decide)).trans (W18_arg2 m ρ c)
theorem W20_arg2 (c : Dev nD) : W20 m ρ c (Proc.devRef .tc main_arg2) = a2 m c :=
  (W20_of_ne m ρ c main_arg2 (by decide)).trans (W19_arg2 m ρ c)

/-! ## The first stretch: the edge lists, the normalisers, the narrowed weights, the first layer's weights -/

theorem W1_v3 (c : Dev nD) : W1 m ρ c (Proc.devRef .tc main_v3) = srcV (a1 m c) := by
  show StableHlo.after hostOps0 (W0 m ρ c) (Proc.devRef .tc main_v3) = _
  after_results
  rfl
theorem W1_v6 (c : Dev nD) : W1 m ρ c (Proc.devRef .tc main_v6) = dstV (a1 m c) := by
  show StableHlo.after hostOps0 (W0 m ρ c) (Proc.devRef .tc main_v6) = _
  after_results
  rfl
theorem W1_v12 (c : Dev nD) : W1 m ρ c (Proc.devRef .tc main_v12) = dinvC (a1 m c) := by
  show StableHlo.after hostOps0 (W0 m ρ c) (Proc.devRef .tc main_v12) = _
  after_results
  rfl
theorem W1_v13 (c : Dev nD) : W1 m ρ c (Proc.devRef .tc main_v13) = wsN (a3 m c) := by
  show StableHlo.after hostOps0 (W0 m ρ c) (Proc.devRef .tc main_v13) = _
  after_results
  rfl
theorem W1_v15 (c : Dev nD) : W1 m ρ c (Proc.devRef .tc main_v15) = w0 (a3 m c) := by
  show StableHlo.after hostOps0 (W0 m ρ c) (Proc.devRef .tc main_v15) = _
  after_results
  rfl

/-! ## They are carried unchanged to the items that read them -/

theorem W2_v3 (c : Dev nD) : W2 m ρ c (Proc.devRef .tc main_v3) = srcV (a1 m c) :=
  (W2_of_ne m ρ c main_v3 (by decide)).trans (W1_v3 m ρ c)
theorem W3_v3 (c : Dev nD) : W3 m ρ c (Proc.devRef .tc main_v3) = srcV (a1 m c) :=
  (W3_of m ρ c main_v3 (by decide)).trans (W2_v3 m ρ c)
theorem W4_v3 (c : Dev nD) : W4 m ρ c (Proc.devRef .tc main_v3) = srcV (a1 m c) :=
  (W4_of_ne m ρ c main_v3 (by decide)).trans (W3_v3 m ρ c)
theorem W5_v3 (c : Dev nD) : W5 m ρ c (Proc.devRef .tc main_v3) = srcV (a1 m c) :=
  (W5_of m ρ c main_v3 (by decide)).trans (W4_v3 m ρ c)
theorem W6_v3 (c : Dev nD) : W6 m ρ c (Proc.devRef .tc main_v3) = srcV (a1 m c) :=
  (W6_of_ne m ρ c main_v3 (by decide)).trans (W5_v3 m ρ c)
theorem W7_v3 (c : Dev nD) : W7 m ρ c (Proc.devRef .tc main_v3) = srcV (a1 m c) :=
  (W7_of m ρ c main_v3 (by decide)).trans (W6_v3 m ρ c)
theorem W8_v3 (c : Dev nD) : W8 m ρ c (Proc.devRef .tc main_v3) = srcV (a1 m c) :=
  (W8_of_ne m ρ c main_v3 (by decide)).trans (W7_v3 m ρ c)
theorem W9_v3 (c : Dev nD) : W9 m ρ c (Proc.devRef .tc main_v3) = srcV (a1 m c) :=
  (W9_of m ρ c main_v3 (by decide)).trans (W8_v3 m ρ c)
theorem W10_v3 (c : Dev nD) : W10 m ρ c (Proc.devRef .tc main_v3) = srcV (a1 m c) :=
  (W10_of_ne m ρ c main_v3 (by decide)).trans (W9_v3 m ρ c)
theorem W11_v3 (c : Dev nD) : W11 m ρ c (Proc.devRef .tc main_v3) = srcV (a1 m c) :=
  (W11_of m ρ c main_v3 (by decide)).trans (W10_v3 m ρ c)
theorem W12_v3 (c : Dev nD) : W12 m ρ c (Proc.devRef .tc main_v3) = srcV (a1 m c) :=
  (W12_of_ne m ρ c main_v3 (by decide)).trans (W11_v3 m ρ c)
theorem W13_v3 (c : Dev nD) : W13 m ρ c (Proc.devRef .tc main_v3) = srcV (a1 m c) :=
  (W13_of m ρ c main_v3 (by decide)).trans (W12_v3 m ρ c)
theorem W14_v3 (c : Dev nD) : W14 m ρ c (Proc.devRef .tc main_v3) = srcV (a1 m c) :=
  (W14_of_ne m ρ c main_v3 (by decide)).trans (W13_v3 m ρ c)
theorem W15_v3 (c : Dev nD) : W15 m ρ c (Proc.devRef .tc main_v3) = srcV (a1 m c) :=
  (W15_of m ρ c main_v3 (by decide)).trans (W14_v3 m ρ c)
theorem W16_v3 (c : Dev nD) : W16 m ρ c (Proc.devRef .tc main_v3) = srcV (a1 m c) :=
  (W16_of_ne m ρ c main_v3 (by decide)).trans (W15_v3 m ρ c)
theorem W17_v3 (c : Dev nD) : W17 m ρ c (Proc.devRef .tc main_v3) = srcV (a1 m c) :=
  (W17_of m ρ c main_v3 (by decide)).trans (W16_v3 m ρ c)
theorem W18_v3 (c : Dev nD) : W18 m ρ c (Proc.devRef .tc main_v3) = srcV (a1 m c) :=
  (W18_of_ne m ρ c main_v3 (by decide)).trans (W17_v3 m ρ c)
theorem W2_v6 (c : Dev nD) : W2 m ρ c (Proc.devRef .tc main_v6) = dstV (a1 m c) :=
  (W2_of_ne m ρ c main_v6 (by decide)).trans (W1_v6 m ρ c)
theorem W3_v6 (c : Dev nD) : W3 m ρ c (Proc.devRef .tc main_v6) = dstV (a1 m c) :=
  (W3_of m ρ c main_v6 (by decide)).trans (W2_v6 m ρ c)
theorem W4_v6 (c : Dev nD) : W4 m ρ c (Proc.devRef .tc main_v6) = dstV (a1 m c) :=
  (W4_of_ne m ρ c main_v6 (by decide)).trans (W3_v6 m ρ c)
theorem W5_v6 (c : Dev nD) : W5 m ρ c (Proc.devRef .tc main_v6) = dstV (a1 m c) :=
  (W5_of m ρ c main_v6 (by decide)).trans (W4_v6 m ρ c)
theorem W6_v6 (c : Dev nD) : W6 m ρ c (Proc.devRef .tc main_v6) = dstV (a1 m c) :=
  (W6_of_ne m ρ c main_v6 (by decide)).trans (W5_v6 m ρ c)
theorem W7_v6 (c : Dev nD) : W7 m ρ c (Proc.devRef .tc main_v6) = dstV (a1 m c) :=
  (W7_of m ρ c main_v6 (by decide)).trans (W6_v6 m ρ c)
theorem W8_v6 (c : Dev nD) : W8 m ρ c (Proc.devRef .tc main_v6) = dstV (a1 m c) :=
  (W8_of_ne m ρ c main_v6 (by decide)).trans (W7_v6 m ρ c)
theorem W9_v6 (c : Dev nD) : W9 m ρ c (Proc.devRef .tc main_v6) = dstV (a1 m c) :=
  (W9_of m ρ c main_v6 (by decide)).trans (W8_v6 m ρ c)
theorem W10_v6 (c : Dev nD) : W10 m ρ c (Proc.devRef .tc main_v6) = dstV (a1 m c) :=
  (W10_of_ne m ρ c main_v6 (by decide)).trans (W9_v6 m ρ c)
theorem W11_v6 (c : Dev nD) : W11 m ρ c (Proc.devRef .tc main_v6) = dstV (a1 m c) :=
  (W11_of m ρ c main_v6 (by decide)).trans (W10_v6 m ρ c)
theorem W12_v6 (c : Dev nD) : W12 m ρ c (Proc.devRef .tc main_v6) = dstV (a1 m c) :=
  (W12_of_ne m ρ c main_v6 (by decide)).trans (W11_v6 m ρ c)
theorem W13_v6 (c : Dev nD) : W13 m ρ c (Proc.devRef .tc main_v6) = dstV (a1 m c) :=
  (W13_of m ρ c main_v6 (by decide)).trans (W12_v6 m ρ c)
theorem W14_v6 (c : Dev nD) : W14 m ρ c (Proc.devRef .tc main_v6) = dstV (a1 m c) :=
  (W14_of_ne m ρ c main_v6 (by decide)).trans (W13_v6 m ρ c)
theorem W15_v6 (c : Dev nD) : W15 m ρ c (Proc.devRef .tc main_v6) = dstV (a1 m c) :=
  (W15_of m ρ c main_v6 (by decide)).trans (W14_v6 m ρ c)
theorem W16_v6 (c : Dev nD) : W16 m ρ c (Proc.devRef .tc main_v6) = dstV (a1 m c) :=
  (W16_of_ne m ρ c main_v6 (by decide)).trans (W15_v6 m ρ c)
theorem W17_v6 (c : Dev nD) : W17 m ρ c (Proc.devRef .tc main_v6) = dstV (a1 m c) :=
  (W17_of m ρ c main_v6 (by decide)).trans (W16_v6 m ρ c)
theorem W18_v6 (c : Dev nD) : W18 m ρ c (Proc.devRef .tc main_v6) = dstV (a1 m c) :=
  (W18_of_ne m ρ c main_v6 (by decide)).trans (W17_v6 m ρ c)
theorem W2_v12 (c : Dev nD) : W2 m ρ c (Proc.devRef .tc main_v12) = dinvC (a1 m c) :=
  ((W2_arr m ρ c 2).trans (((dat0 (V1 m ρ) c).arrAt_in 2 rfl _).trans (A_eq0 (V1 m ρ) c 2))).trans (W1_v12 m ρ c)
theorem W3_v12 (c : Dev nD) : W3 m ρ c (Proc.devRef .tc main_v12) = dinvC (a1 m c) :=
  (W3_of m ρ c main_v12 (by decide)).trans (W2_v12 m ρ c)
theorem W4_v12 (c : Dev nD) : W4 m ρ c (Proc.devRef .tc main_v12) = dinvC (a1 m c) :=
  ((W4_arr m ρ c 1).trans (((dat1 (V3 m ρ) c).arrAt_in 1 rfl _).trans (A_eq1 (V3 m ρ) c 1))).trans (W3_v12 m ρ c)
theorem W5_v12 (c : Dev nD) : W5 m ρ c (Proc.devRef .tc main_v12) = dinvC (a1 m c) :=
  (W5_of m ρ c main_v12 (by decide)).trans (W4_v12 m ρ c)
theorem W6_v12 (c : Dev nD) : W6 m ρ c (Proc.devRef .tc main_v12) = dinvC (a1 m c) :=
  ((W6_arr m ρ c 2).trans (((dat2 (V5 m ρ) c).arrAt_in 2 rfl _).trans (A_eq2 (V5 m ρ) c 2))).trans (W5_v12 m ρ c)
theorem W7_v12 (c : Dev nD) : W7 m ρ c (Proc.devRef .tc main_v12) = dinvC (a1 m c) :=
  (W7_of m ρ c main_v12 (by decide)).trans (W6_v12 m ρ c)
theorem W8_v12 (c : Dev nD) : W8 m ρ c (Proc.devRef .tc main_v12) = dinvC (a1 m c) :=
  ((W8_arr m ρ c 1).trans (((dat3 (V7 m ρ) c).arrAt_in 1 rfl _).trans (A_eq3 (V7 m ρ) c 1))).trans (W7_v12 m ρ c)
theorem W9_v12 (c : Dev nD) : W9 m ρ c (Proc.devRef .tc main_v12) = dinvC (a1 m c) :=
  (W9_of m ρ c main_v12 (by decide)).trans (W8_v12 m ρ c)
theorem W10_v12 (c : Dev nD) : W10 m ρ c (Proc.devRef .tc main_v12) = dinvC (a1 m c) :=
  ((W10_arr m ρ c 2).trans (((dat4 (V9 m ρ) c).arrAt_in 2 rfl _).trans (A_eq4 (V9 m ρ) c 2))).trans (W9_v12 m ρ c)
theorem W11_v12 (c : Dev nD) : W11 m ρ c (Proc.devRef .tc main_v12) = dinvC (a1 m c) :=
  (W11_of m ρ c main_v12 (by decide)).trans (W10_v12 m ρ c)
theorem W12_v12 (c : Dev nD) : W12 m ρ c (Proc.devRef .tc main_v12) = dinvC (a1 m c) :=
  ((W12_arr m ρ c 1).trans (((dat5 (V11 m ρ) c).arrAt_in 1 rfl _).trans (A_eq5 (V11 m ρ) c 1))).trans (W11_v12 m ρ c)
theorem W13_v12 (c : Dev nD) : W13 m ρ c (Proc.devRef .tc main_v12) = dinvC (a1 m c) :=
  (W13_of m ρ c main_v12 (by decide)).trans (W12_v12 m ρ c)
theorem W14_v12 (c : Dev nD) : W14 m ρ c (Proc.devRef .tc main_v12) = dinvC (a1 m c) :=
  ((W14_arr m ρ c 2).trans (((dat6 (V13 m ρ) c).arrAt_in 2 rfl _).trans (A_eq6 (V13 m ρ) c 2))).trans (W13_v12 m ρ c)
theorem W15_v12 (c : Dev nD) : W15 m ρ c (Proc.devRef .tc main_v12) = dinvC (a1 m c) :=
  (W15_of m ρ c main_v12 (by decide)).trans (W14_v12 m ρ c)
theorem W16_v12 (c : Dev nD) : W16 m ρ c (Proc.devRef .tc main_v12) = dinvC (a1 m c) :=
  ((W16_arr m ρ c 1).trans (((dat7 (V15 m ρ) c).arrAt_in 1 rfl _).trans (A_eq7 (V15 m ρ) c 1))).trans (W15_v12 m ρ c)
theorem W17_v12 (c : Dev nD) : W17 m ρ c (Proc.devRef .tc main_v12) = dinvC (a1 m c) :=
  (W17_of m ρ c main_v12 (by decide)).trans (W16_v12 m ρ c)
theorem W18_v12 (c : Dev nD) : W18 m ρ c (Proc.devRef .tc main_v12) = dinvC (a1 m c) :=
  ((W18_arr m ρ c 2).trans (((dat8 (V17 m ρ) c).arrAt_in 2 rfl _).trans (A_eq8 (V17 m ρ) c 2))).trans (W17_v12 m ρ c)
theorem W19_v12 (c : Dev nD) : W19 m ρ c (Proc.devRef .tc main_v12) = dinvC (a1 m c) :=
  (W19_of m ρ c main_v12 (by decide)).trans (W18_v12 m ρ c)
theorem W2_v13 (c : Dev nD) : W2 m ρ c (Proc.devRef .tc main_v13) = wsN (a3 m c) :=
  (W2_of_ne m ρ c main_v13 (by decide)).trans (W1_v13 m ρ c)
theorem W3_v13 (c : Dev nD) : W3 m ρ c (Proc.devRef .tc main_v13) = wsN (a3 m c) :=
  (W3_of m ρ c main_v13 (by decide)).trans (W2_v13 m ρ c)
theorem W4_v13 (c : Dev nD) : W4 m ρ c (Proc.devRef .tc main_v13) = wsN (a3 m c) :=
  (W4_of_ne m ρ c main_v13 (by decide)).trans (W3_v13 m ρ c)
theorem W5_v13 (c : Dev nD) : W5 m ρ c (Proc.devRef .tc main_v13) = wsN (a3 m c) :=
  (W5_of m ρ c main_v13 (by decide)).trans (W4_v13 m ρ c)
theorem W6_v13 (c : Dev nD) : W6 m ρ c (Proc.devRef .tc main_v13) = wsN (a3 m c) :=
  (W6_of_ne m ρ c main_v13 (by decide)).trans (W5_v13 m ρ c)
theorem W7_v13 (c : Dev nD) : W7 m ρ c (Proc.devRef .tc main_v13) = wsN (a3 m c) :=
  (W7_of m ρ c main_v13 (by decide)).trans (W6_v13 m ρ c)
theorem W8_v13 (c : Dev nD) : W8 m ρ c (Proc.devRef .tc main_v13) = wsN (a3 m c) :=
  (W8_of_ne m ρ c main_v13 (by decide)).trans (W7_v13 m ρ c)
theorem W9_v13 (c : Dev nD) : W9 m ρ c (Proc.devRef .tc main_v13) = wsN (a3 m c) :=
  (W9_of m ρ c main_v13 (by decide)).trans (W8_v13 m ρ c)
theorem W10_v13 (c : Dev nD) : W10 m ρ c (Proc.devRef .tc main_v13) = wsN (a3 m c) :=
  (W10_of_ne m ρ c main_v13 (by decide)).trans (W9_v13 m ρ c)
theorem W11_v13 (c : Dev nD) : W11 m ρ c (Proc.devRef .tc main_v13) = wsN (a3 m c) :=
  (W11_of m ρ c main_v13 (by decide)).trans (W10_v13 m ρ c)
theorem W12_v13 (c : Dev nD) : W12 m ρ c (Proc.devRef .tc main_v13) = wsN (a3 m c) :=
  (W12_of_ne m ρ c main_v13 (by decide)).trans (W11_v13 m ρ c)
theorem W13_v13 (c : Dev nD) : W13 m ρ c (Proc.devRef .tc main_v13) = wsN (a3 m c) :=
  (W13_of m ρ c main_v13 (by decide)).trans (W12_v13 m ρ c)
theorem W14_v13 (c : Dev nD) : W14 m ρ c (Proc.devRef .tc main_v13) = wsN (a3 m c) :=
  (W14_of_ne m ρ c main_v13 (by decide)).trans (W13_v13 m ρ c)
theorem W15_v13 (c : Dev nD) : W15 m ρ c (Proc.devRef .tc main_v13) = wsN (a3 m c) :=
  (W15_of m ρ c main_v13 (by decide)).trans (W14_v13 m ρ c)
theorem W16_v13 (c : Dev nD) : W16 m ρ c (Proc.devRef .tc main_v13) = wsN (a3 m c) :=
  (W16_of_ne m ρ c main_v13 (by decide)).trans (W15_v13 m ρ c)

/-! ## Layer 1 -/

/-- The product region's output array at its exit. -/
theorem W2_v16 (c : Dev nD) : W2 m ρ c (Proc.devRef .tc main_v16) = mmFn (a0 m c) (w0 (a3 m c)) (dinvC (a1 m c)) :=
  (W2_arr m ρ c 3).trans ((reg_value_0 (V1 m ρ) c).trans (by
    show mmFn (W1 m ρ c (Proc.devRef .tc main_arg0)) (W1 m ρ c (Proc.devRef .tc main_v15)) (W1 m ρ c (Proc.devRef .tc main_v12)) = _
    rw [W1_arg0, W1_v15, W1_v12]))
set_option maxHeartbeats 4000000 in
theorem W3_v27 (c : Dev nD) : W3 m ρ c (Proc.devRef .tc main_v27) = aggK (a1 m c) (mmFn (a0 m c) (w0 (a3 m c)) (dinvC (a1 m c))) := by
  show StableHlo.after hostOps1 (W2 m ρ c) (Proc.devRef .tc main_v27) = _
  after_results
  rw [W2_v3, W2_v6, W2_v16]
  rfl
set_option maxHeartbeats 4000000 in
theorem W3_v30 (c : Dev nD) : W3 m ρ c (Proc.devRef .tc main_v30) = b0 (a4 m c) := by
  show StableHlo.after hostOps1 (W2 m ρ c) (Proc.devRef .tc main_v30) = _
  after_results
  rw [W2_arg4]
  rfl
/-- The bias region's output array at its exit: the layer's output. -/
theorem W4_v31 (c : Dev nD) : W4 m ρ c (Proc.devRef .tc main_v31) = h1 (a0 m c) (a1 m c) (a3 m c) (a4 m c) :=
  (W4_arr m ρ c 3).trans ((reg_value_1 (V3 m ρ) c).trans (by
    show brFn (W3 m ρ c (Proc.devRef .tc main_v27)) (W3 m ρ c (Proc.devRef .tc main_v12)) (W3 m ρ c (Proc.devRef .tc main_v30)) = _
    rw [W3_v27, W3_v12, W3_v30]
    rfl))
theorem W5_v31 (c : Dev nD) : W5 m ρ c (Proc.devRef .tc main_v31) = h1 (a0 m c) (a1 m c) (a3 m c) (a4 m c) :=
  (W5_of m ρ c main_v31 (by decide)).trans (W4_v31 m ρ c)
theorem W6_v31 (c : Dev nD) : W6 m ρ c (Proc.devRef .tc main_v31) = h1 (a0 m c) (a1 m c) (a3 m c) (a4 m c) :=
  ((W6_arr m ρ c 0).trans (((dat2 (V5 m ρ) c).arrAt_in 0 rfl _).trans (A_eq2 (V5 m ρ) c 0))).trans (W5_v31 m ρ c)
theorem W7_v31 (c : Dev nD) : W7 m ρ c (Proc.devRef .tc main_v31) = h1 (a0 m c) (a1 m c) (a3 m c) (a4 m c) :=
  (W7_of m ρ c main_v31 (by decide)).trans (W6_v31 m ρ c)
theorem W8_v31 (c : Dev nD) : W8 m ρ c (Proc.devRef .tc main_v31) = h1 (a0 m c) (a1 m c) (a3 m c) (a4 m c) :=
  (W8_of_ne m ρ c main_v31 (by decide)).trans (W7_v31 m ρ c)
theorem W9_v31 (c : Dev nD) : W9 m ρ c (Proc.devRef .tc main_v31) = h1 (a0 m c) (a1 m c) (a3 m c) (a4 m c) :=
  (W9_of m ρ c main_v31 (by decide)).trans (W8_v31 m ρ c)
theorem W10_v31 (c : Dev nD) : W10 m ρ c (Proc.devRef .tc main_v31) = h1 (a0 m c) (a1 m c) (a3 m c) (a4 m c) :=
  (W10_of_ne m ρ c main_v31 (by decide)).trans (W9_v31 m ρ c)
theorem W11_v31 (c : Dev nD) : W11 m ρ c (Proc.devRef .tc main_v31) = h1 (a0 m c) (a1 m c) (a3 m c) (a4 m c) :=
  (W11_of m ρ c main_v31 (by decide)).trans (W10_v31 m ρ c)
theorem W12_v31 (c : Dev nD) : W12 m ρ c (Proc.devRef .tc main_v31) = h1 (a0 m c) (a1 m c) (a3 m c) (a4 m c) :=
  (W12_of_ne m ρ c main_v31 (by decide)).trans (W11_v31 m ρ c)
theorem W13_v31 (c : Dev nD) : W13 m ρ c (Proc.devRef .tc main_v31) = h1 (a0 m c) (a1 m c) (a3 m c) (a4 m c) :=
  (W13_of m ρ c main_v31 (by decide)).trans (W12_v31 m ρ c)
theorem W14_v31 (c : Dev nD) : W14 m ρ c (Proc.devRef .tc main_v31) = h1 (a0 m c) (a1 m c) (a3 m c) (a4 m c) :=
  (W14_of_ne m ρ c main_v31 (by decide)).trans (W13_v31 m ρ c)
theorem W15_v31 (c : Dev nD) : W15 m ρ c (Proc.devRef .tc main_v31) = h1 (a0 m c) (a1 m c) (a3 m c) (a4 m c) :=
  (W15_of m ρ c main_v31 (by decide)).trans (W14_v31 m ρ c)
theorem W16_v31 (c : Dev nD) : W16 m ρ c (Proc.devRef .tc main_v31) = h1 (a0 m c) (a1 m c) (a3 m c) (a4 m c) :=
  (W16_of_ne m ρ c main_v31 (by decide)).trans (W15_v31 m ρ c)
theorem W17_v31 (c : Dev nD) : W17 m ρ c (Proc.devRef .tc main_v31) = h1 (a0 m c) (a1 m c) (a3 m c) (a4 m c) :=
  (W17_of m ρ c main_v31 (by decide)).trans (W16_v31 m ρ c)
theorem W18_v31 (c : Dev nD) : W18 m ρ c (Proc.devRef .tc main_v31) = h1 (a0 m c) (a1 m c) (a3 m c) (a4 m c) :=
  (W18_of_ne m ρ c main_v31 (by decide)).trans (W17_v31 m ρ c)
theorem W19_v31 (c : Dev nD) : W19 m ρ c (Proc.devRef .tc main_v31) = h1 (a0 m c) (a1 m c) (a3 m c) (a4 m c) :=
  (W19_of m ρ c main_v31 (by decide)).trans (W18_v31 m ρ c)
theorem W20_v31 (c : Dev nD) : W20 m ρ c (Proc.devRef .tc main_v31) = h1 (a0 m c) (a1 m c) (a3 m c) (a4 m c) :=
  (W20_of_ne m ρ c main_v31 (by decide)).trans (W19_v31 m ρ c)

/-! ## Layer 2 -/

theorem W5_v33 (c : Dev nD) : W5 m ρ c (Proc.devRef .tc main_v33) = w1 (a3 m c) := by
  show StableHlo.after hostOps2 (W4 m ρ c) (Proc.devRef .tc main_v33) = _
  after_results
  rw [W4_v13]
  rfl
/-- The product region's output array at its exit. -/
theorem W6_v34 (c : Dev nD) : W6 m ρ c (Proc.devRef .tc main_v34) = mmFn (h1 (a0 m c) (a1 m c) (a3 m c) (a4 m c)) (w1 (a3 m c)) (dinvC (a1 m c)) :=
  (W6_arr m ρ c 3).trans ((reg_value_2 (V5 m ρ) c).trans (by
    show mmFn (W5 m ρ c (Proc.devRef .tc main_v31)) (W5 m ρ c (Proc.devRef .tc main_v33)) (W5 m ρ c (Proc.devRef .tc main_v12)) = _
    rw [W5_v31, W5_v33, W5_v12]))
set_option maxHeartbeats 4000000 in
theorem W7_v45 (c : Dev nD) : W7 m ρ c (Proc.devRef .tc main_v45) = aggK (a1 m c) (mmFn (h1 (a0 m c) (a1 m c) (a3 m c) (a4 m c)) (w1 (a3 m c)) (dinvC (a1 m c))) := by
  show StableHlo.after hostOps3 (W6 m ρ c) (Proc.devRef .tc main_v45) = _
  after_results
  rw [W6_v3, W6_v6, W6_v34]
  rfl
set_option maxHeartbeats 4000000 in
theorem W7_v48 (c : Dev nD) : W7 m ρ c (Proc.devRef .tc main_v48) = b1 (a4 m c) := by
  show StableHlo.after hostOps3 (W6 m ρ c) (Proc.devRef .tc main_v48) = _
  after_results
  rw [W6_arg4]
  rfl
/-- The bias region's output array at its exit: the layer's output. -/
theorem W8_v49 (c : Dev nD) : W8 m ρ c (Proc.devRef .tc main_v49) = h2 (a0 m c) (a1 m c) (a3 m c) (a4 m c) :=
  (W8_arr m ρ c 3).trans ((reg_value_3 (V7 m ρ) c).trans (by
    show brFn (W7 m ρ c (Proc.devRef .tc main_v45)) (W7 m ρ c (Proc.devRef .tc main_v12)) (W7 m ρ c (Proc.devRef .tc main_v48)) = _
    rw [W7_v45, W7_v12, W7_v48]
    rfl))
theorem W9_v49 (c : Dev nD) : W9 m ρ c (Proc.devRef .tc main_v49) = h2 (a0 m c) (a1 m c) (a3 m c) (a4 m c) :=
  (W9_of m ρ c main_v49 (by decide)).trans (W8_v49 m ρ c)
theorem W10_v49 (c : Dev nD) : W10 m ρ c (Proc.devRef .tc main_v49) = h2 (a0 m c) (a1 m c) (a3 m c) (a4 m c) :=
  ((W10_arr m ρ c 0).trans (((dat4 (V9 m ρ) c).arrAt_in 0 rfl _).trans (A_eq4 (V9 m ρ) c 0))).trans (W9_v49 m ρ c)
theorem W11_v49 (c : Dev nD) : W11 m ρ c (Proc.devRef .tc main_v49) = h2 (a0 m c) (a1 m c) (a3 m c) (a4 m c) :=
  (W11_of m ρ c main_v49 (by decide)).trans (W10_v49 m ρ c)
theorem W12_v49 (c : Dev nD) : W12 m ρ c (Proc.devRef .tc main_v49) = h2 (a0 m c) (a1 m c) (a3 m c) (a4 m c) :=
  (W12_of_ne m ρ c main_v49 (by decide)).trans (W11_v49 m ρ c)
theorem W13_v49 (c : Dev nD) : W13 m ρ c (Proc.devRef .tc main_v49) = h2 (a0 m c) (a1 m c) (a3 m c) (a4 m c) :=
  (W13_of m ρ c main_v49 (by decide)).trans (W12_v49 m ρ c)
theorem W14_v49 (c : Dev nD) : W14 m ρ c (Proc.devRef .tc main_v49) = h2 (a0 m c) (a1 m c) (a3 m c) (a4 m c) :=
  (W14_of_ne m ρ c main_v49 (by decide)).trans (W13_v49 m ρ c)
theorem W15_v49 (c : Dev nD) : W15 m ρ c (Proc.devRef .tc main_v49) = h2 (a0 m c) (a1 m c) (a3 m c) (a4 m c) :=
  (W15_of m ρ c main_v49 (by decide)).trans (W14_v49 m ρ c)
theorem W16_v49 (c : Dev nD) : W16 m ρ c (Proc.devRef .tc main_v49) = h2 (a0 m c) (a1 m c) (a3 m c) (a4 m c) :=
  (W16_of_ne m ρ c main_v49 (by decide)).trans (W15_v49 m ρ c)
theorem W17_v49 (c : Dev nD) : W17 m ρ c (Proc.devRef .tc main_v49) = h2 (a0 m c) (a1 m c) (a3 m c) (a4 m c) :=
  (W17_of m ρ c main_v49 (by decide)).trans (W16_v49 m ρ c)
theorem W18_v49 (c : Dev nD) : W18 m ρ c (Proc.devRef .tc main_v49) = h2 (a0 m c) (a1 m c) (a3 m c) (a4 m c) :=
  (W18_of_ne m ρ c main_v49 (by decide)).trans (W17_v49 m ρ c)
theorem W19_v49 (c : Dev nD) : W19 m ρ c (Proc.devRef .tc main_v49) = h2 (a0 m c) (a1 m c) (a3 m c) (a4 m c) :=
  (W19_of m ρ c main_v49 (by decide)).trans (W18_v49 m ρ c)
theorem W20_v49 (c : Dev nD) : W20 m ρ c (Proc.devRef .tc main_v49) = h2 (a0 m c) (a1 m c) (a3 m c) (a4 m c) :=
  (W20_of_ne m ρ c main_v49 (by decide)).trans (W19_v49 m ρ c)

/-! ## Layer 3 -/

theorem W9_v51 (c : Dev nD) : W9 m ρ c (Proc.devRef .tc main_v51) = w2 (a3 m c) := by
  show StableHlo.after hostOps4 (W8 m ρ c) (Proc.devRef .tc main_v51) = _
  after_results
  rw [W8_v13]
  rfl
/-- The product region's output array at its exit. -/
theorem W10_v52 (c : Dev nD) : W10 m ρ c (Proc.devRef .tc main_v52) = mmFn (h2 (a0 m c) (a1 m c) (a3 m c) (a4 m c)) (w2 (a3 m c)) (dinvC (a1 m c)) :=
  (W10_arr m ρ c 3).trans ((reg_value_4 (V9 m ρ) c).trans (by
    show mmFn (W9 m ρ c (Proc.devRef .tc main_v49)) (W9 m ρ c (Proc.devRef .tc main_v51)) (W9 m ρ c (Proc.devRef .tc main_v12)) = _
    rw [W9_v49, W9_v51, W9_v12]))
set_option maxHeartbeats 4000000 in
theorem W11_v63 (c : Dev nD) : W11 m ρ c (Proc.devRef .tc main_v63) = aggK (a1 m c) (mmFn (h2 (a0 m c) (a1 m c) (a3 m c) (a4 m c)) (w2 (a3 m c)) (dinvC (a1 m c))) := by
  show StableHlo.after hostOps5 (W10 m ρ c) (Proc.devRef .tc main_v63) = _
  after_results
  rw [W10_v3, W10_v6, W10_v52]
  rfl
set_option maxHeartbeats 4000000 in
theorem W11_v66 (c : Dev nD) : W11 m ρ c (Proc.devRef .tc main_v66) = b2 (a4 m c) := by
  show StableHlo.after hostOps5 (W10 m ρ c) (Proc.devRef .tc main_v66) = _
  after_results
  rw [W10_arg4]
  rfl
/-- The bias region's output array at its exit: the layer's output. -/
theorem W12_v67 (c : Dev nD) : W12 m ρ c (Proc.devRef .tc main_v67) = h3 (a0 m c) (a1 m c) (a3 m c) (a4 m c) :=
  (W12_arr m ρ c 3).trans ((reg_value_5 (V11 m ρ) c).trans (by
    show brFn (W11 m ρ c (Proc.devRef .tc main_v63)) (W11 m ρ c (Proc.devRef .tc main_v12)) (W11 m ρ c (Proc.devRef .tc main_v66)) = _
    rw [W11_v63, W11_v12, W11_v66]
    rfl))
theorem W13_v67 (c : Dev nD) : W13 m ρ c (Proc.devRef .tc main_v67) = h3 (a0 m c) (a1 m c) (a3 m c) (a4 m c) :=
  (W13_of m ρ c main_v67 (by decide)).trans (W12_v67 m ρ c)
theorem W14_v67 (c : Dev nD) : W14 m ρ c (Proc.devRef .tc main_v67) = h3 (a0 m c) (a1 m c) (a3 m c) (a4 m c) :=
  ((W14_arr m ρ c 0).trans (((dat6 (V13 m ρ) c).arrAt_in 0 rfl _).trans (A_eq6 (V13 m ρ) c 0))).trans (W13_v67 m ρ c)
theorem W15_v67 (c : Dev nD) : W15 m ρ c (Proc.devRef .tc main_v67) = h3 (a0 m c) (a1 m c) (a3 m c) (a4 m c) :=
  (W15_of m ρ c main_v67 (by decide)).trans (W14_v67 m ρ c)
theorem W16_v67 (c : Dev nD) : W16 m ρ c (Proc.devRef .tc main_v67) = h3 (a0 m c) (a1 m c) (a3 m c) (a4 m c) :=
  (W16_of_ne m ρ c main_v67 (by decide)).trans (W15_v67 m ρ c)
theorem W17_v67 (c : Dev nD) : W17 m ρ c (Proc.devRef .tc main_v67) = h3 (a0 m c) (a1 m c) (a3 m c) (a4 m c) :=
  (W17_of m ρ c main_v67 (by decide)).trans (W16_v67 m ρ c)
theorem W18_v67 (c : Dev nD) : W18 m ρ c (Proc.devRef .tc main_v67) = h3 (a0 m c) (a1 m c) (a3 m c) (a4 m c) :=
  (W18_of_ne m ρ c main_v67 (by decide)).trans (W17_v67 m ρ c)
theorem W19_v67 (c : Dev nD) : W19 m ρ c (Proc.devRef .tc main_v67) = h3 (a0 m c) (a1 m c) (a3 m c) (a4 m c) :=
  (W19_of m ρ c main_v67 (by decide)).trans (W18_v67 m ρ c)
theorem W20_v67 (c : Dev nD) : W20 m ρ c (Proc.devRef .tc main_v67) = h3 (a0 m c) (a1 m c) (a3 m c) (a4 m c) :=
  (W20_of_ne m ρ c main_v67 (by decide)).trans (W19_v67 m ρ c)

/-! ## Layer 4 -/

theorem W13_v69 (c : Dev nD) : W13 m ρ c (Proc.devRef .tc main_v69) = w3 (a3 m c) := by
  show StableHlo.after hostOps6 (W12 m ρ c) (Proc.devRef .tc main_v69) = _
  after_results
  rw [W12_v13]
  rfl
/-- The product region's output array at its exit. -/
theorem W14_v70 (c : Dev nD) : W14 m ρ c (Proc.devRef .tc main_v70) = mmFn (h3 (a0 m c) (a1 m c) (a3 m c) (a4 m c)) (w3 (a3 m c)) (dinvC (a1 m c)) :=
  (W14_arr m ρ c 3).trans ((reg_value_6 (V13 m ρ) c).trans (by
    show mmFn (W13 m ρ c (Proc.devRef .tc main_v67)) (W13 m ρ c (Proc.devRef .tc main_v69)) (W13 m ρ c (Proc.devRef .tc main_v12)) = _
    rw [W13_v67, W13_v69, W13_v12]))
set_option maxHeartbeats 4000000 in
theorem W15_v81 (c : Dev nD) : W15 m ρ c (Proc.devRef .tc main_v81) = aggK (a1 m c) (mmFn (h3 (a0 m c) (a1 m c) (a3 m c) (a4 m c)) (w3 (a3 m c)) (dinvC (a1 m c))) := by
  show StableHlo.after hostOps7 (W14 m ρ c) (Proc.devRef .tc main_v81) = _
  after_results
  rw [W14_v3, W14_v6, W14_v70]
  rfl
set_option maxHeartbeats 4000000 in
theorem W15_v84 (c : Dev nD) : W15 m ρ c (Proc.devRef .tc main_v84) = b3 (a4 m c) := by
  show StableHlo.after hostOps7 (W14 m ρ c) (Proc.devRef .tc main_v84) = _
  after_results
  rw [W14_arg4]
  rfl
/-- The bias region's output array at its exit: the layer's output. -/
theorem W16_v85 (c : Dev nD) : W16 m ρ c (Proc.devRef .tc main_v85) = h4 (a0 m c) (a1 m c) (a3 m c) (a4 m c) :=
  (W16_arr m ρ c 3).trans ((reg_value_7 (V15 m ρ) c).trans (by
    show brFn (W15 m ρ c (Proc.devRef .tc main_v81)) (W15 m ρ c (Proc.devRef .tc main_v12)) (W15 m ρ c (Proc.devRef .tc main_v84)) = _
    rw [W15_v81, W15_v12, W15_v84]
    rfl))
theorem W17_v85 (c : Dev nD) : W17 m ρ c (Proc.devRef .tc main_v85) = h4 (a0 m c) (a1 m c) (a3 m c) (a4 m c) :=
  (W17_of m ρ c main_v85 (by decide)).trans (W16_v85 m ρ c)
theorem W18_v85 (c : Dev nD) : W18 m ρ c (Proc.devRef .tc main_v85) = h4 (a0 m c) (a1 m c) (a3 m c) (a4 m c) :=
  ((W18_arr m ρ c 0).trans (((dat8 (V17 m ρ) c).arrAt_in 0 rfl _).trans (A_eq8 (V17 m ρ) c 0))).trans (W17_v85 m ρ c)
theorem W19_v85 (c : Dev nD) : W19 m ρ c (Proc.devRef .tc main_v85) = h4 (a0 m c) (a1 m c) (a3 m c) (a4 m c) :=
  (W19_of m ρ c main_v85 (by decide)).trans (W18_v85 m ρ c)
theorem W20_v85 (c : Dev nD) : W20 m ρ c (Proc.devRef .tc main_v85) = h4 (a0 m c) (a1 m c) (a3 m c) (a4 m c) :=
  (W20_of_ne m ρ c main_v85 (by decide)).trans (W19_v85 m ρ c)

/-! ## Layer 5 -/

theorem W17_v87 (c : Dev nD) : W17 m ρ c (Proc.devRef .tc main_v87) = w4 (a3 m c) := by
  show StableHlo.after hostOps8 (W16 m ρ c) (Proc.devRef .tc main_v87) = _
  after_results
  rw [W16_v13]
  rfl
/-- The product region's output array at its exit. -/
theorem W18_v88 (c : Dev nD) : W18 m ρ c (Proc.devRef .tc main_v88) = mmFn (h4 (a0 m c) (a1 m c) (a3 m c) (a4 m c)) (w4 (a3 m c)) (dinvC (a1 m c)) :=
  (W18_arr m ρ c 3).trans ((reg_value_8 (V17 m ρ) c).trans (by
    show mmFn (W17 m ρ c (Proc.devRef .tc main_v85)) (W17 m ρ c (Proc.devRef .tc main_v87)) (W17 m ρ c (Proc.devRef .tc main_v12)) = _
    rw [W17_v85, W17_v87, W17_v12]))
set_option maxHeartbeats 4000000 in
theorem W19_v99 (c : Dev nD) : W19 m ρ c (Proc.devRef .tc main_v99) = aggK (a1 m c) (mmFn (h4 (a0 m c) (a1 m c) (a3 m c) (a4 m c)) (w4 (a3 m c)) (dinvC (a1 m c))) := by
  show StableHlo.after hostOps9 (W18 m ρ c) (Proc.devRef .tc main_v99) = _
  after_results
  rw [W18_v3, W18_v6, W18_v88]
  rfl
set_option maxHeartbeats 4000000 in
theorem W19_v102 (c : Dev nD) : W19 m ρ c (Proc.devRef .tc main_v102) = b4 (a4 m c) := by
  show StableHlo.after hostOps9 (W18 m ρ c) (Proc.devRef .tc main_v102) = _
  after_results
  rw [W18_arg4]
  rfl
/-- The bias region's output array at its exit: the layer's output. -/
theorem W20_v103 (c : Dev nD) : W20 m ρ c (Proc.devRef .tc main_v103) = h5 (a0 m c) (a1 m c) (a3 m c) (a4 m c) :=
  (W20_arr m ρ c 3).trans ((reg_value_9 (V19 m ρ) c).trans (by
    show brFn (W19 m ρ c (Proc.devRef .tc main_v99)) (W19 m ρ c (Proc.devRef .tc main_v12)) (W19 m ρ c (Proc.devRef .tc main_v102)) = _
    rw [W19_v99, W19_v12, W19_v102]
    rfl))

/-! ## The result -/

/-- THE RESULT: after the last stretch the result buffer holds the program's result function of the five argument
    arrays as launched. -/
theorem kernel_result (c : Dev nD) : W21 (F := Ideal) m ρ c (Proc.devRef .tc main_v107)
    = result (m ((c : Thread nD τ).loc main_arg0)) (m ((c : Thread nD τ).loc main_arg1)) (m ((c : Thread nD τ).loc main_arg2))
        (m ((c : Thread nD τ).loc main_arg3)) (m ((c : Thread nD τ).loc main_arg4)) := by
  show StableHlo.after hostOps10 (W20 m ρ c) (Proc.devRef .tc main_v107) = result (a0 m c) (a1 m c) (a2 m c) (a3 m c) (a4 m c)
  after_results
  dsimp only [Matrix.cons_val]
  rw [W20_v31, W20_v49, W20_v67, W20_v85, W20_v103, W20_arg2]
  rfl

end Cert.KernelIdeal.Hand

end
-- ==== Proof.LibGatherScatterRows.lean ====
/-
  Row gathers and row scatters read at an index: `stablehlo.gather` / `"stablehlo.scatter"` along axis 0 of a one- or
  two-axis operand with a column `[E, 1]` of start indices (collapsed / inserted axis 0, start index map `[0]`, index
  vector on axis 1, no batching axes). A gathered element is the operand's at the start index read signed and clamped
  into the rows (`clampRow`); an update lands on row `r` exactly when its scatter index, read signed, is `r`.
  Stated for arbitrary dimension-number records over literal shapes, the records' fields as hypotheses.
-/
import Idealize.ShloMosaic.Lib.ValueIdx

namespace Idealize.ShloMosaic.GatherScatterRows

open Idealize.ShloMosaic Idealize.ShloMosaic.ValueIdx

/-- A start index read signed and clamped into the rows `[0, N − 1]`. -/
def clampRow {w : Nat} (N : Nat) (v : BitVec w) : Nat := min v.toInt.toNat (N - 1)

/-- The clamped row is a row. -/
theorem clampRow_lt {w : Nat} {N : Nat} (hN : 0 < N) (v : BitVec w) : clampRow N v < N := by
  unfold clampRow; omega

/-- **A row gather of a two-axis operand, read at an index.** `stablehlo.gather` of an operand `[N, C]` at start
    indices `[E, 1]` with offset_dims `[1]`, collapsed_slice_dims `[0]`, start_index_map `[0]`, index_vector_dim 1 and
    no batching axes: result element `(e, k)` is the operand at row `idx[e, 0]` (read signed, clamped into
    `[0, N − 1]`) and column `k`. -/
theorem gather_rows2_apply {α : Type} {N C E w : Nat} (hN : 0 < N)
    (d : GatherDims ⟨2, ![N, C]⟩ ⟨2, ![E, 1]⟩ ⟨2, ![E, C]⟩)
    (ho : d.offsetDims = [1]) (hc : d.collapsedSliceDims = [0]) (hb : d.operandBatchingDims = [])
    (hsb : d.startIndicesBatchingDims = []) (hm : d.startIndexMap = [0]) (hv : d.indexVectorDim = 1)
    (x : (⟨2, ![N, C]⟩ : Shape).Idx → α) (idx : IVec ⟨2, ![E, 1]⟩ w) (y : (⟨2, ![E, C]⟩ : Shape).Idx) :
    Host.gather d x idx y = x (ix2 ⟨clampRow N (idx (ix2 (y 0) 0)), clampRow_lt hN _⟩ (y 1)) := by
  have hs0 : d.sliceSizes 0 = 1 := d.slice_collapsed 0 (by rw [hc]; exact List.mem_singleton.mpr rfl)
  obtain ⟨od, cd, ob, sb, sm, iv, ss, wf⟩ := d
  dsimp only at ho hc hb hsb hm hv hs0
  subst ho hc hb hsb hm hv
  unfold Host.gather
  congr 1
  funext a
  refine Fin.ext ?_
  match a with
  | ⟨0, _⟩ =>
    show GatherDims.start _ y idx 0 + GatherDims.batchCoord _ y 0 + GatherDims.offCoord _ y 0 = clampRow N _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![N, C]⟩) (si := ⟨2, ![E, 1]⟩) (t := ⟨2, ![E, C]⟩)
        ⟨[1], [0], [], [], [0], 1, ss, wf⟩ y ⟨List.idxOf (0 : Fin 2) [0],
          List.idxOf_lt_length_iff.2 (List.mem_singleton.mpr rfl)⟩ = ix2 (y 0) 0 := by
      funext b; refine Fin.ext ?_
      match b with
      | ⟨0, _⟩ => rfl
      | ⟨1, _⟩ => rfl
    show min (idx (GatherDims.siIdx (s := ⟨2, ![N, C]⟩) (si := ⟨2, ![E, 1]⟩) (t := ⟨2, ![E, C]⟩)
        ⟨[1], [0], [], [], [0], 1, ss, wf⟩ y ⟨List.idxOf (0 : Fin 2) [0], _⟩)).toInt.toNat (N - ss 0) = _
    rw [hsi, hs0]
    rfl
  | ⟨1, _⟩ =>
    show GatherDims.start _ y idx 1 + GatherDims.batchCoord _ y 1 + GatherDims.offCoord _ y 1 = (y 1).val
    rw [GatherDims.batchCoord_eq_zero _ _ _ List.not_mem_nil]
    unfold GatherDims.start
    rw [dif_neg (fun h => absurd (congrArg Fin.val (List.mem_singleton.mp h)) Nat.one_ne_zero)]
    unfold GatherDims.offCoord
    rw [dif_pos ((GatherDims.mem_sKept _ _).mpr
      ⟨fun h => absurd (congrArg Fin.val (List.mem_singleton.mp h)) Nat.one_ne_zero, List.not_mem_nil⟩)]
    simp only [Nat.zero_add]
    rfl

/-- **A row gather of a one-axis operand, read at an index.** `stablehlo.gather` of an operand `[N]` at start indices
    `[E, 1]` with offset_dims `[]`, collapsed_slice_dims `[0]`, start_index_map `[0]`, index_vector_dim 1 and no
    batching axes: result element `e` is the operand at `idx[e, 0]`, read signed and clamped into `[0, N − 1]`. -/
theorem gather_rows1_apply {α : Type} {N E w : Nat} (hN : 0 < N)
    (d : GatherDims ⟨1, ![N]⟩ ⟨2, ![E, 1]⟩ ⟨1, ![E]⟩)
    (ho : d.offsetDims = []) (hc : d.collapsedSliceDims = [0]) (hb : d.operandBatchingDims = [])
    (hsb : d.startIndicesBatchingDims = []) (hm : d.startIndexMap = [0]) (hv : d.indexVectorDim = 1)
    (x : (⟨1, ![N]⟩ : Shape).Idx → α) (idx : IVec ⟨2, ![E, 1]⟩ w) (y : (⟨1, ![E]⟩ : Shape).Idx) :
    Host.gather d x idx y = x (ix1 ⟨clampRow N (idx (ix2 (y 0) 0)), clampRow_lt hN _⟩) := by
  have hs0 : d.sliceSizes 0 = 1 := d.slice_collapsed 0 (by rw [hc]; exact List.mem_singleton.mpr rfl)
  obtain ⟨od, cd, ob, sb, sm, iv, ss, wf⟩ := d
  dsimp only at ho hc hb hsb hm hv hs0
  subst ho hc hb hsb hm hv
  unfold Host.gather
  congr 1
  funext a
  refine Fin.ext ?_
  match a with
  | ⟨0, _⟩ =>
    show GatherDims.start _ y idx 0 + GatherDims.batchCoord _ y 0 + GatherDims.offCoord _ y 0 = clampRow N _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨1, ![N]⟩) (si := ⟨2, ![E, 1]⟩) (t := ⟨1, ![E]⟩)
        ⟨[], [0], [], [], [0], 1, ss, wf⟩ y ⟨List.idxOf (0 : Fin 1) [0],
          List.idxOf_lt_length_iff.2 (List.mem_singleton.mpr rfl)⟩ = ix2 (y 0) 0 := by
      funext b; refine Fin.ext ?_
      match b with
      | ⟨0, _⟩ => rfl
      | ⟨1, _⟩ => rfl
    show min (idx (GatherDims.siIdx (s := ⟨1, ![N]⟩) (si := ⟨2, ![E, 1]⟩) (t := ⟨1, ![E]⟩)
        ⟨[], [0], [], [], [0], 1, ss, wf⟩ y ⟨List.idxOf (0 : Fin 1) [0], _⟩)).toInt.toNat (N - ss 0) = _
    rw [hsi, hs0]
    rfl

/-- An axis is kept exactly when it is not one of the removed axes. -/
theorem mem_kept {s : Shape} (axes : List (Fin s.rank)) (a : Fin s.rank) : a ∈ s.kept axes ↔ a ∉ axes := by
  simp [Shape.kept, List.mem_filter, List.mem_finRange]

/-- An axis of a two-axis shape is axis 0 or axis 1. -/
theorem axis2_cases {sz : Fin 2 → Nat} (a : Fin (Shape.rank ⟨2, sz⟩)) : a = 0 ∨ a = 1 := by
  rcases a with ⟨_ | _ | n, h⟩
  · exact Or.inl rfl
  · exact Or.inr rfl
  · exact absurd h (by show ¬ (n + 2 < 2); omega)

/-- **Where a row scatter of a two-axis operand lands.** For `stablehlo.scatter` into an operand `[N, C]` at scatter
    indices `[E, 1]` with updates `[E, C]`, update_window_dims `[1]`, inserted_window_dims `[0]`,
    scatter_dims_to_operand_dims `[0]` and index_vector_dim 1: update `(e, k)` lands at operand index `i` exactly
    when its scatter index `idx[e, 0]`, read signed, is `i`'s row (so it is a row: not negative, below `N`) and `k` is
    `i`'s column. -/
theorem scatter_rows2_resultIdx {N C E w : Nat}
    (d : ScatterDims ⟨2, ![N, C]⟩ ⟨2, ![E, 1]⟩ ⟨2, ![E, C]⟩)
    (hu : d.updateWindowDims = [1]) (hi : d.insertedWindowDims = [0])
    (hs : d.scatterDimsToOperandDims = [0]) (hv : d.indexVectorDim = 1)
    (idx : IVec ⟨2, ![E, 1]⟩ w) (j : (⟨2, ![E, C]⟩ : Shape).Idx) (i : (⟨2, ![N, C]⟩ : Shape).Idx) :
    d.resultIdx? j idx = some i ↔ ((idx (ix2 (j 0) 0)).toInt = ((i 0).val : Int) ∧ j 1 = i 1) := by
  obtain ⟨uw, iw, sd, iv, wf⟩ := d
  dsimp only at hu hi hs hv
  subst hu hi hs hv
  have hst0 : ScatterDims.start (s := ⟨2, ![N, C]⟩) (si := ⟨2, ![E, 1]⟩) (u := ⟨2, ![E, C]⟩) ⟨[1], [0], [0], 1, wf⟩ j idx 0 = (idx (ix2 (j 0) 0)).toInt := by
    unfold ScatterDims.start
    rw [dif_pos (List.mem_singleton.mpr rfl)]
    refine congrArg (fun q => (idx q).toInt) ?_
    funext b; refine Fin.ext ?_
    match b with
    | ⟨0, _⟩ => rfl
    | ⟨1, _⟩ => rfl
  have hst1 : ScatterDims.start (s := ⟨2, ![N, C]⟩) (si := ⟨2, ![E, 1]⟩) (u := ⟨2, ![E, C]⟩) ⟨[1], [0], [0], 1, wf⟩ j idx 1 = 0 := by
    unfold ScatterDims.start
    rw [dif_neg (fun h => absurd (congrArg Fin.val (List.mem_singleton.mp h)) Nat.one_ne_zero)]
  have hw0 : ScatterDims.window (s := ⟨2, ![N, C]⟩) (si := ⟨2, ![E, 1]⟩) (u := ⟨2, ![E, C]⟩) ⟨[1], [0], [0], 1, wf⟩ j 0 = 0 := by
    unfold ScatterDims.window
    rw [dif_neg (fun h => (mem_kept _ _).mp h (List.mem_singleton.mpr rfl))]
  have hw1 : ScatterDims.window (s := ⟨2, ![N, C]⟩) (si := ⟨2, ![E, 1]⟩) (u := ⟨2, ![E, C]⟩) ⟨[1], [0], [0], 1, wf⟩ j 1 = (j 1).val := by
    unfold ScatterDims.window
    rw [dif_pos ((mem_kept _ _).mpr (fun h => absurd (congrArg Fin.val (List.mem_singleton.mp h)) Nat.one_ne_zero))]
    rfl
  have hi0 : (i 0).val < N := (i 0).isLt
  have hi1 : (i 1).val < C := (i 1).isLt
  have hj1 : (j 1).val < C := (j 1).isLt
  unfold ScatterDims.resultIdx?
  constructor
  · intro h
    split at h
    · rename_i hall
      have h' := Option.some.inj h
      have e0 : (ScatterDims.start (s := ⟨2, ![N, C]⟩) (si := ⟨2, ![E, 1]⟩) (u := ⟨2, ![E, C]⟩) ⟨[1], [0], [0], 1, wf⟩ j idx 0 + (ScatterDims.window (s := ⟨2, ![N, C]⟩) (si := ⟨2, ![E, 1]⟩) (u := ⟨2, ![E, C]⟩) ⟨[1], [0], [0], 1, wf⟩ j 0 : Nat)).toNat = (i 0).val := congrArg Fin.val (congrFun h' 0)
      have e1 : (ScatterDims.start (s := ⟨2, ![N, C]⟩) (si := ⟨2, ![E, 1]⟩) (u := ⟨2, ![E, C]⟩) ⟨[1], [0], [0], 1, wf⟩ j idx 1 + (ScatterDims.window (s := ⟨2, ![N, C]⟩) (si := ⟨2, ![E, 1]⟩) (u := ⟨2, ![E, C]⟩) ⟨[1], [0], [0], 1, wf⟩ j 1 : Nat)).toNat = (i 1).val := congrArg Fin.val (congrFun h' 1)
      have c0 := (hall 0).1
      rw [hst0, hw0] at e0 c0
      rw [hst1, hw1] at e1
      refine ⟨by omega, Fin.ext (by omega)⟩
    · exact absurd h (by simp)
  · rintro ⟨h0, h1⟩
    have h1' : (j 1).val = (i 1).val := congrArg Fin.val h1
    have hall : ∀ a, 0 ≤ ScatterDims.start (s := ⟨2, ![N, C]⟩) (si := ⟨2, ![E, 1]⟩) (u := ⟨2, ![E, C]⟩) ⟨[1], [0], [0], 1, wf⟩ j idx a + (ScatterDims.window (s := ⟨2, ![N, C]⟩) (si := ⟨2, ![E, 1]⟩) (u := ⟨2, ![E, C]⟩) ⟨[1], [0], [0], 1, wf⟩ j a : Nat) ∧ ScatterDims.start (s := ⟨2, ![N, C]⟩) (si := ⟨2, ![E, 1]⟩) (u := ⟨2, ![E, C]⟩) ⟨[1], [0], [0], 1, wf⟩ j idx a + (ScatterDims.window (s := ⟨2, ![N, C]⟩) (si := ⟨2, ![E, 1]⟩) (u := ⟨2, ![E, C]⟩) ⟨[1], [0], [0], 1, wf⟩ j a : Nat) < ((⟨2, ![N, C]⟩ : Shape).size a : Nat) := by
      intro a
      rcases axis2_cases a with rfl | rfl
      · rw [hst0, hw0]
        show 0 ≤ (idx (ix2 (j 0) 0)).toInt + ((0 : Nat) : Int) ∧ (idx (ix2 (j 0) 0)).toInt + ((0 : Nat) : Int) < (N : Int)
        omega
      · rw [hst1, hw1]
        show 0 ≤ (0 : Int) + ((j 1).val : Int) ∧ (0 : Int) + ((j 1).val : Int) < (C : Int)
        omega
    rw [dif_pos hall]
    refine congrArg some (funext fun a => Fin.ext ?_)
    rcases axis2_cases a with rfl | rfl
    · dsimp only
      rw [hst0, hw0]
      omega
    · dsimp only
      rw [hst1, hw1]
      omega

/-- A one-axis shape's only axis is axis 0. -/
theorem axis1_cases {sz : Fin 1 → Nat} (a : Fin (Shape.rank ⟨1, sz⟩)) : a = 0 := by
  rcases a with ⟨_ | n, h⟩
  · rfl
  · exact absurd h (by show ¬ (n + 1 < 1); omega)

/-- **Where a row scatter of a one-axis operand lands.** For `stablehlo.scatter` into an operand `[N]` at scatter
    indices `[E, 1]` with updates `[E]`, update_window_dims `[]`, inserted_window_dims `[0]`,
    scatter_dims_to_operand_dims `[0]` and index_vector_dim 1: update `e` lands at operand index `i` exactly when its
    scatter index `idx[e, 0]`, read signed, is `i` (so it is an index: not negative, below `N`). -/
theorem scatter_rows1_resultIdx {N E w : Nat}
    (d : ScatterDims ⟨1, ![N]⟩ ⟨2, ![E, 1]⟩ ⟨1, ![E]⟩)
    (hu : d.updateWindowDims = []) (hi : d.insertedWindowDims = [0])
    (hs : d.scatterDimsToOperandDims = [0]) (hv : d.indexVectorDim = 1)
    (idx : IVec ⟨2, ![E, 1]⟩ w) (j : (⟨1, ![E]⟩ : Shape).Idx) (i : (⟨1, ![N]⟩ : Shape).Idx) :
    d.resultIdx? j idx = some i ↔ (idx (ix2 (j 0) 0)).toInt = ((i 0).val : Int) := by
  obtain ⟨uw, iw, sd, iv, wf⟩ := d
  dsimp only at hu hi hs hv
  subst hu hi hs hv
  have hst0 : ScatterDims.start (s := ⟨1, ![N]⟩) (si := ⟨2, ![E, 1]⟩) (u := ⟨1, ![E]⟩) ⟨[], [0], [0], 1, wf⟩ j idx 0 = (idx (ix2 (j 0) 0)).toInt := by
    unfold ScatterDims.start
    rw [dif_pos (List.mem_singleton.mpr rfl)]
    refine congrArg (fun q => (idx q).toInt) ?_
    funext b; refine Fin.ext ?_
    match b with
    | ⟨0, _⟩ => rfl
    | ⟨1, _⟩ => rfl
  have hw0 : ScatterDims.window (s := ⟨1, ![N]⟩) (si := ⟨2, ![E, 1]⟩) (u := ⟨1, ![E]⟩) ⟨[], [0], [0], 1, wf⟩ j 0 = 0 := by
    unfold ScatterDims.window
    rw [dif_neg (fun h => (mem_kept _ _).mp h (List.mem_singleton.mpr rfl))]
  have hi0 : (i 0).val < N := (i 0).isLt
  unfold ScatterDims.resultIdx?
  constructor
  · intro h
    split at h
    · rename_i hall
      have h' := Option.some.inj h
      have e0 : (ScatterDims.start (s := ⟨1, ![N]⟩) (si := ⟨2, ![E, 1]⟩) (u := ⟨1, ![E]⟩) ⟨[], [0], [0], 1, wf⟩ j idx 0 + (ScatterDims.window (s := ⟨1, ![N]⟩) (si := ⟨2, ![E, 1]⟩) (u := ⟨1, ![E]⟩) ⟨[], [0], [0], 1, wf⟩ j 0 : Nat)).toNat = (i 0).val := congrArg Fin.val (congrFun h' 0)
      have c0 := (hall 0).1
      rw [hst0, hw0] at e0 c0
      omega
    · exact absurd h (by simp)
  · intro h0
    have hall : ∀ a, 0 ≤ ScatterDims.start (s := ⟨1, ![N]⟩) (si := ⟨2, ![E, 1]⟩) (u := ⟨1, ![E]⟩) ⟨[], [0], [0], 1, wf⟩ j idx a + (ScatterDims.window (s := ⟨1, ![N]⟩) (si := ⟨2, ![E, 1]⟩) (u := ⟨1, ![E]⟩) ⟨[], [0], [0], 1, wf⟩ j a : Nat) ∧ ScatterDims.start (s := ⟨1, ![N]⟩) (si := ⟨2, ![E, 1]⟩) (u := ⟨1, ![E]⟩) ⟨[], [0], [0], 1, wf⟩ j idx a + (ScatterDims.window (s := ⟨1, ![N]⟩) (si := ⟨2, ![E, 1]⟩) (u := ⟨1, ![E]⟩) ⟨[], [0], [0], 1, wf⟩ j a : Nat) < ((⟨1, ![N]⟩ : Shape).size a : Nat) := by
      intro a
      obtain rfl := axis1_cases a
      rw [hst0, hw0]
      show 0 ≤ (idx (ix2 (j 0) 0)).toInt + ((0 : Nat) : Int) ∧ (idx (ix2 (j 0) 0)).toInt + ((0 : Nat) : Int) < (N : Int)
      omega
    rw [dif_pos hall]
    refine congrArg some (funext fun a => Fin.ext ?_)
    obtain rfl := axis1_cases a
    dsimp only
    rw [hst0, hw0]
    omega

end Idealize.ShloMosaic.GatherScatterRows
-- ==== Proof.EdgeSets.lean ====
/-
  The graph as the two programs see it, in the kernel function's own names: for an edge, the node row its source
  index reads (signed, clamped into the rows: what a gather does), the node row its target index reads the same way,
  and whether it ENDS in a given node (its target index, read signed, is that node: what a scatter asks; a target
  index outside the nodes ends nowhere). The normaliser of a node is the reciprocal square root of the number of edges
  ending in it.
-/
import proofs.«156050_j29892972380736_2_alg».proof.Proof.KernelFn
import proofs.«156050_j29892972380736_2_alg».proof.Proof.LibGatherScatterRows

noncomputable section

namespace Cert.KernelIdeal.Hand

open scoped BigOperators
open Cert.KernelIdeal Idealize.ShloMosaic Idealize.ShloMosaic.ValueIdx Idealize.ShloMosaic.GatherScatterRows

variable (x1 : IVec S2x600000 32)

/-- Edge `e`'s source row: its (wrapped) source index read signed and clamped into the rows. -/
def srow (e : Fin 650000) : Fin 50000 :=
  ⟨clampRow 50000 (srcB x1 (ix2 (n0 := 650000) (n1 := 1) e 0)), clampRow_lt (by norm_num) _⟩

/-- Edge `e`'s target row as a gather reads it: its target index read signed and clamped into the rows. -/
def drow (e : Fin 650000) : Fin 50000 :=
  ⟨clampRow 50000 (dstB x1 (ix2 (n0 := 650000) (n1 := 1) e 0)), clampRow_lt (by norm_num) _⟩

/-- Edge `e` ends in node `r`: its target index, read signed, is `r`. -/
def lands (r : Fin 50000) (e : Fin 650000) : Prop :=
  (dstB x1 (ix2 (n0 := 650000) (n1 := 1) e 0)).toInt = (r.val : Int)

/-- An edge that ends in a node has that node as its target row. -/
theorem drow_of_lands {r : Fin 50000} {e : Fin 650000} (h : lands x1 r e) : drow x1 e = r := by
  apply Fin.ext
  unfold lands at h
  show clampRow 50000 (dstB x1 (ix2 (n0 := 650000) (n1 := 1) e 0)) = r.val
  unfold clampRow
  rw [h]
  have := r.isLt
  simp only [Int.toNat_natCast]
  omega

open scoped Classical in
/-- A node's normaliser: the reciprocal square root of its degree, the count (from zero) of the edges ending in it. -/
def nrm (r : Fin 50000) : EReal := Ideal.rsqrt (0 + ∑ _e ∈ Finset.univ.filter (lands x1 r), (1 : EReal))

end Cert.KernelIdeal.Hand

end
-- ==== Proof.LibFibreSum.lean ====
/-
  Sums over the fibre of a row scatter.

  A row scatter adds update element (e, k) into operand entry (r, c) exactly when row e is sent to r and k = c.
  So the sum of the update elements landing on one entry is a sum over the rows sent to r alone, the column held
  fixed. This file states that re-indexing for any commutative sum, and its one-axis companion.
-/
import Idealize.ShloMosaic.Lib.ValueIdx
import Mathlib.Algebra.BigOperators.Group.Finset.Basic

namespace Idealize.ShloMosaic.FibreSum

open scoped BigOperators
open Idealize.ShloMosaic Idealize.ShloMosaic.ValueIdx

/-- **A sum over the pairs (row in a set, one fixed column) is the sum over the rows.** -/
theorem sum_filter_col {M : Type*} [AddCommMonoid M] {E C : Nat} (p : Fin E → Prop) [DecidablePred p] (c : Fin C)
    [DecidablePred fun j : (⟨2, ![E, C]⟩ : Shape).Idx => p (j 0) ∧ j 1 = c]
    (f : (⟨2, ![E, C]⟩ : Shape).Idx → M) :
    ∑ j ∈ Finset.univ.filter (fun j : (⟨2, ![E, C]⟩ : Shape).Idx => p (j 0) ∧ j 1 = c), f j
      = ∑ e ∈ Finset.univ.filter p, f (ix2 e c) := by
  symm
  refine Finset.sum_bij (fun e _ => ix2 e c) ?_ ?_ ?_ ?_
  · intro e he
    rw [Finset.mem_filter] at he ⊢
    exact ⟨Finset.mem_univ _, he.2, rfl⟩
  · intro a _ b _ h
    exact congrFun h 0
  · intro j hj
    rw [Finset.mem_filter] at hj
    obtain ⟨-, hp, hc⟩ := hj
    subst hc
    exact ⟨j 0, Finset.mem_filter.mpr ⟨Finset.mem_univ _, hp⟩, (eq_ix2 j).symm⟩
  · intro e _; rfl

/-- **A sum over a one-axis index set cut out by a condition on the coordinate is the sum over the coordinates.** -/
theorem sum_filter_vec {M : Type*} [AddCommMonoid M] {E : Nat} (p : Fin E → Prop) [DecidablePred p]
    [DecidablePred fun j : (⟨1, ![E]⟩ : Shape).Idx => p (j 0)]
    (f : (⟨1, ![E]⟩ : Shape).Idx → M) :
    ∑ j ∈ Finset.univ.filter (fun j : (⟨1, ![E]⟩ : Shape).Idx => p (j 0)), f j
      = ∑ e ∈ Finset.univ.filter p, f (ix1 e) := by
  symm
  refine Finset.sum_bij (fun e _ => ix1 e) ?_ ?_ ?_ ?_
  · intro e he
    rw [Finset.mem_filter] at he ⊢
    exact ⟨Finset.mem_univ _, he.2⟩
  · intro a _ b _ h
    exact congrFun h 0
  · intro j hj
    rw [Finset.mem_filter] at hj
    exact ⟨j 0, Finset.mem_filter.mpr ⟨Finset.mem_univ _, hj.2⟩, (eq_ix1 j).symm⟩
  · intro e _; rfl

end Idealize.ShloMosaic.FibreSum
-- ==== Proof.KLayerAt.lean ====
/-
  One layer of the kernel function read at an entry (node row r, feature column c).

  The aggregate there is, from zero, the sum over the edges ending in r of the product region's entry at the edge's
  source row and column c (a scatter-add adds an update row into the row its index names; a gather reads the row its
  clamped index names; widening the format changes nothing here). The product region's entry is the dot product of
  the source row of h with column c of w, scaled by the source row's normaliser; the bias region scales the
  aggregate by r's normaliser, adds the bias and clips at zero.
-/
import proofs.«156050_j29892972380736_2_alg».proof.Proof.EdgeSets
import proofs.«156050_j29892972380736_2_alg».proof.Proof.LibFibreSum
import proofs.«156050_j29892972380736_2_alg».proof.Proof.LibColumnLayout
import Idealize.ShloMosaic.PureOps.Ideal.Laws

noncomputable section

namespace Cert.KernelIdeal.Hand

open scoped BigOperators
open Cert.KernelIdeal Cert.KernelIdeal.Gen Idealize.ShloMosaic Idealize.ShloMosaic.ValueIdx
open Idealize.ShloMosaic.GatherScatterRows Idealize.ShloMosaic.FibreSum

variable (x1 : IVec S2x600000 32)

open scoped Classical in
/-- The aggregate at an entry: from zero, the sum over the edges ending in the entry's node of the product region's
    entry at the edge's source row, same column. -/
theorem aggK_apply (t : FVec Ideal S50000x128 .bf16) (r : Fin 50000) (c : Fin 128) :
    aggK x1 t (ix2 r c) = 0 + ∑ e ∈ Finset.univ.filter (lands x1 r), t (ix2 (srow x1 e) c) := by
  unfold aggK
  simp only [Host.scatterAdd, Ideal.hostScatterAdd_def, Ideal.hostScatterAdd]
  have hz : broadcastInDim S50000x128 ![] bcast_S_S50000x128 (constant (F := Ideal) S_ .f32 0x00000000#32) (ix2 r c) = 0 := by
    simp only [broadcastInDim, constant, Ideal.ofBits_def, Ideal.ofBits_zero_f32]
  have hf : ∀ j ∈ (Finset.univ : Finset S650000x128.Idx),
      (scatter_S50000x128_S650000x1_S650000x128_1_0_0_1.resultIdx? j (dstB x1) = some (ix2 r c)) ↔ (lands x1 r (j 0) ∧ j 1 = c) :=
    fun j _ => scatter_rows2_resultIdx (N := 50000) (C := 128) (E := 650000) scatter_S50000x128_S650000x1_S650000x128_1_0_0_1 rfl rfl rfl rfl (dstB x1) j (ix2 r c)
  have hg : ∀ e : Fin 650000, (extf .f32 (Host.gather gather_S50000x128_S650000x1_S650000x128_1_0_n_n_0_1_1128 t (srcB x1)) bitsLt_bf16_f32) (ix2 e c)
      = t (ix2 (srow x1 e) c) := fun e => by
    simp only [extf, Ideal.extf_def]
    exact gather_rows2_apply (N := 50000) (C := 128) (E := 650000) (by norm_num) gather_S50000x128_S650000x1_S650000x128_1_0_n_n_0_1_1128 rfl rfl rfl rfl rfl rfl t (srcB x1) (ix2 e c)
  rw [hz]
  refine congrArg (0 + ·) ?_
  refine (Finset.sum_congr (Finset.filter_congr hf) fun _ _ => rfl).trans ?_
  refine (sum_filter_col (lands x1 r) c _).trans ?_
  exact Finset.sum_congr rfl fun e _ => hg e

/-- The normaliser column at a row: the reciprocal square root of the row's degree. -/
theorem dinvC_apply (r : Fin 50000) (u : Fin 1) : dinvC x1 (ix2 r u) = Ideal.rsqrt (degV x1 (ix1 r)) := by
  unfold dinvC
  rw [Cert.Gcn.Layout.shapeCast_a_a1_apply]
  generalize degV x1 = d
  rfl

open scoped Classical in
/-- One layer of the kernel function at an entry. -/
theorem layerK_apply (h : FVec Ideal S50000x128 .f32) (w : FVec Ideal S128x128 .bf16) (b : FVec Ideal S1x128 .f32)
    (r : Fin 50000) (c : Fin 128) :
    layerK x1 h w b (ix2 r c)
      = max ((0 + ∑ e ∈ Finset.univ.filter (lands x1 r),
                (∑ k : Fin 128, h (ix2 (srow x1 e) k) * w (ix2 k c)) * Ideal.rsqrt (degV x1 (ix1 (srow x1 e))))
              * Ideal.rsqrt (degV x1 (ix1 r)) + b (ix2 0 c)) 0 := by
  have hm : ∀ e : Fin 650000, mmFn h w (dinvC x1) (ix2 (srow x1 e) c)
      = (∑ k : Fin 128, h (ix2 (srow x1 e) k) * w (ix2 k c)) * Ideal.rsqrt (degV x1 (ix1 (srow x1 e))) := fun e => by
    rw [← dinvC_apply x1 (srow x1 e) 0]
    generalize dinvC x1 = dv
    rfl
  have hl : layerK x1 h w b (ix2 r c)
      = max (aggK x1 (mmFn h w (dinvC x1)) (ix2 r c) * dinvC x1 (ix2 r 0) + b (ix2 0 c)) 0 := by
    unfold layerK
    generalize aggK x1 (mmFn h w (dinvC x1)) = ag
    generalize dinvC x1 = dv
    rfl
  rw [hl, aggK_apply, dinvC_apply]
  simp only [hm]

end Cert.KernelIdeal.Hand

end
-- ==== Proof.RefBridge.lean ====
/-
  The reference's index vectors and weights are, term for term, the ones the kernel function is written over: both
  programs slice the edge array, append the self-loops, wrap negative source indices and slice the weights by the same
  operations, and a change of float format is the identity at this instance, so each equation below holds by unfolding.
  One layer of the reference is named as a function of the incoming features, the weights and the bias vector; the
  reference's successive layers are that function of the previous layer's output.
-/
import proofs.«156050_j29892972380736_2_alg».proof.Proof.Gen.ReferenceIdeal.Read
import proofs.«156050_j29892972380736_2_alg».proof.Proof.KernelFn

noncomputable section

namespace Cert.Hand.RefBridge

open Cert.ReferenceIdeal Cert.ReferenceIdeal.Gen Cert.ReferenceIdeal.Read Idealize.ShloMosaic Idealize.ShloMosaic.ValueIdx
open Cert.KernelIdeal.Hand (srcV dstV srcB dstB degV dinvC wsN w0 w1 b0 aggK layerK mmFn brFn)

variable (x0 : FVec Ideal S50000x128 .f32) (x1 : IVec S2x600000 32) (x3 : FVec Ideal S5x128x128 .f32) (x4 : FVec Ideal S5x128 .f32)

theorem v3_eq : val_main_v3 (F := Ideal) x1 = srcV x1 := rfl
theorem v6_eq : val_main_v6 (F := Ideal) x1 = dstV x1 := rfl
theorem v46_eq : val_main_v46 (F := Ideal) x1 = dstB x1 := rfl
theorem v41_eq : val_main_v41 (F := Ideal) x1 = srcB x1 := rfl
theorem v22_eq : val_main_v22 (F := Ideal) x1 = srcB x1 := rfl
theorem v62_eq : val_main_v62 (F := Ideal) x1 = srcB x1 := rfl
theorem v28_eq : val_main_v28 (F := Ideal) x1 = val_main_v12 (F := Ideal) x1 := rfl
theorem v34_eq : val_main_v34 (F := Ideal) x3 = w0 x3 := rfl

/-- One layer of the reference, as a function of the incoming features, the layer's weights and its bias vector. -/
def layerR (h : FVec Ideal S50000x128 .f32) (w : FVec Ideal S128x128 .f32) (b : FVec Ideal S128 .f32) : FVec Ideal S50000x128 .f32 :=
  maximumf (addf (Host.scatterAdd scatter_S50000x128_S650000x1_S650000x128_1_0_0_1 (val_main_v45 (F := Ideal)) (val_main_v46 (F := Ideal) x1)
      (mulf (Host.gather gather_S50000x128_S650000x1_S650000x128_1_0_n_n_0_1_1128
          (Host.dotGeneral dot_S50000x128_S128x128_S50000x128_1_0_0_1_n_n none h w) (val_main_v41 (F := Ideal) x1))
        (val_main_v43 (F := Ideal) x1)))
    (broadcastInDim S50000x128 ![0, 1] bcast_S1x128_S50000x128_0_1 (broadcastInDim S1x128 ![1] bcast_S128_S1x128_1 b)))
    (val_main_call0_v0 (F := Ideal))

theorem h1_eq : val_main_v53 (F := Ideal) x0 x1 x3 x4 = layerR x1 x0 (val_main_v34 (F := Ideal) x3) (val_main_v49 (F := Ideal) x4) := rfl
theorem h2_eq : val_main_v74 (F := Ideal) x0 x1 x3 x4 = layerR x1 (val_main_v53 (F := Ideal) x0 x1 x3 x4) (val_main_v55 (F := Ideal) x3) (val_main_v70 (F := Ideal) x4) := rfl

end Cert.Hand.RefBridge

end
-- ==== Proof.RefDst.lean ====
/-
  The target-node vector of the reference: the 600000 given target indices followed by 0, 1, …, 49999 (the self-loops).
  Under the domain conjunct every given index is non-negative, and the appended ones are small naturals, so every
  entry is a non-negative word; wrapping negative entries by the node count therefore changes nothing, and the
  wrapped vector the reference feeds its degree count and its normaliser look-up IS the raw vector.
-/
import proofs.«156050_j29892972380736_2_alg».proof.Proof.Gen.ReferenceIdeal.Read
import proofs.«156050_j29892972380736_2_alg».proof.Proof.PreDst
import Idealize.ShloMosaic.Lib.Pipeline.Value
import Idealize.ShloMosaic.Lib.Affine

noncomputable section

namespace Cert.Hand.RefDst

open Cert.ReferenceIdeal Cert.ReferenceIdeal.Gen Cert.ReferenceIdeal.Read Idealize.ShloMosaic Idealize.ShloMosaic.ValueIdx

variable {F : FTy → Type} [FloatOps F] [Cert.Pre_finite_inputs.Facts]

/-- The reference's row 1 of the edge array is the vector the precondition speaks of. -/
theorem v5_eq (x1 : IVec S2x600000 32) : val_main_v5 (F := F) x1 = Cert.Hand.PreDst.dstRow x1 := rfl

/-- Every entry of the target-node vector is a non-negative word, when the given ones are. -/
theorem dst_nonneg (x1 : IVec S2x600000 32) (hpre : ∀ e, 0 ≤ (Cert.Hand.PreDst.dstRow x1 e).toInt) (i : S650000.Idx) :
    0 ≤ (val_main_v6 (F := F) x1 i).toInt := by
  unfold val_main_v6
  by_cases hlt : (i 0).val < 600000
  · have e := concatenate_pair_apply_left (t := S650000) (s₁ := S600000) (s₂ := S50000) (0 : Fin S650000.rank)
      (val_main_v5 (F := F) x1) (val_main_v0 (F := F)) concatenates_S600000_S50000_S650000_d0 i rfl
      (ix1 (n := 600000) ⟨(i 0).val, hlt⟩) (fun b => by match b with | ⟨0, _⟩ => rfl)
    rw [e, v5_eq]; exact hpre _
  · have hi : (i 0).val < 650000 := (i 0).isLt
    have hlt2 : (i 0).val - 600000 < 50000 := by omega
    have e := concatenate_pair_apply_right (t := S650000) (s₁ := S600000) (s₂ := S50000) (0 : Fin S650000.rank)
      (val_main_v5 (F := F) x1) (val_main_v0 (F := F)) concatenates_S600000_S50000_S650000_d0 i rfl rfl
      (ix1 (n := 50000) ⟨(i 0).val - 600000, hlt2⟩)
      (fun b hb => absurd (by match b with | ⟨0, _⟩ => rfl) hb)
      (by show (i 0).val - 600000 + 600000 = (i 0).val; omega)
    rw [e, val_main_v0_apply]
    have hn : (BitVec.ofNat 32 ((i 0).val - 600000)).toNat = (i 0).val - 600000 := by
      rw [BitVec.toNat_ofNat]; exact Nat.mod_eq_of_lt (by omega)
    unfold BitVec.toInt
    rw [hn]
    split <;> omega

/-- Wrapping the negative entries by the node count leaves the vector as it is. -/
theorem wrap_eq (x1 : IVec S2x600000 32) (hpre : ∀ e, 0 ≤ (Cert.Hand.PreDst.dstRow x1 e).toInt) :
    val_main_v12 (F := F) x1 = val_main_v6 (F := F) x1 := by
  funext i
  rw [val_main_v12_apply, val_main_v9_apply, val_main_v8_apply, val_main_c_apply]
  have h := dst_nonneg (F := F) x1 hpre i
  have hc : IntOp.cmpi .slt (val_main_v6 (F := F) x1 i) 0#32 ≠ 1#1 := by
    rw [Ne, IntOp.cmpi_slt]; simp; exact h
  exact if_neg hc

end Cert.Hand.RefDst

end
-- ==== Proof.Consts.lean ====
/-
  The float constants the two programs spell, as the extended reals their patterns denote: `1.0` is `1`
  (`+0.0` is `0` by the library).
-/
import Idealize.ShloMosaic.PureOps.Ideal

noncomputable section

namespace Cert.Hand.Consts

open Idealize.ShloMosaic

/-- `1.0`, the weight every edge adds to its target node's degree, denotes `1`. -/
theorem ofBits_one : Ideal.ofBits .f32 0x3F800000#32 = 1 := by
  simp [Ideal.ofBits, Ideal.ieee, -EReal.coe_mul]; norm_num

end Cert.Hand.Consts

end
-- ==== Proof.DegAt.lean ====
/-
  The degree of a node, read at the node: the degrees are a row scatter of the constant one, from zero, at the edges'
  target indices; an edge contributes to node r exactly when its target index, read signed, is r. So the degree of
  r is, from zero, the sum of one over the edges ending in r.
-/
import proofs.«156050_j29892972380736_2_alg».proof.Proof.EdgeSets
import proofs.«156050_j29892972380736_2_alg».proof.Proof.LibFibreSum
import proofs.«156050_j29892972380736_2_alg».proof.Proof.Consts
import Idealize.ShloMosaic.PureOps.Ideal.Laws

noncomputable section

namespace Cert.KernelIdeal.Hand

open scoped BigOperators
open Cert.KernelIdeal Cert.KernelIdeal.Gen Idealize.ShloMosaic Idealize.ShloMosaic.ValueIdx
open Idealize.ShloMosaic.GatherScatterRows Idealize.ShloMosaic.FibreSum

variable (x1 : IVec S2x600000 32)

open scoped Classical in
/-- The degree at a node: from zero, one for every edge ending in the node. -/
theorem degV_apply (r : Fin 50000) :
    degV x1 (ix1 (n := 50000) r) = 0 + ∑ _e ∈ Finset.univ.filter (lands x1 r), (1 : EReal) := by
  unfold degV
  simp only [Host.scatterAdd, Ideal.hostScatterAdd_def, Ideal.hostScatterAdd]
  have hz : broadcastInDim S50000 ![] bcast_S_S50000 (constant (F := Ideal) S_ .f32 0x00000000#32) (ix1 (n := 50000) r) = 0 := by
    simp only [broadcastInDim, constant, Ideal.ofBits_def, Ideal.ofBits_zero_f32]
  have hone : ∀ j : S650000.Idx,
      broadcastInDim S650000 ![] bcast_S_S650000 (constant (F := Ideal) S_ .f32 0x3F800000#32) j = 1 := fun j => by
    simp only [broadcastInDim, constant, Ideal.ofBits_def, Cert.Hand.Consts.ofBits_one]
  have hf : ∀ j ∈ (Finset.univ : Finset S650000.Idx),
      (scatter_S50000_S650000x1_S650000_n_0_0_1.resultIdx? j (dstB x1) = some (ix1 (n := 50000) r)) ↔ lands x1 r (j 0) :=
    fun j _ => scatter_rows1_resultIdx (N := 50000) (E := 650000) scatter_S50000_S650000x1_S650000_n_0_0_1 rfl rfl rfl rfl (dstB x1) j (ix1 (n := 50000) r)
  rw [hz]
  refine congrArg (0 + ·) ?_
  refine (Finset.sum_congr (Finset.filter_congr hf) fun j _ => hone j).trans ?_
  exact sum_filter_vec (lands x1 r) (fun _ => (1 : EReal))

end Cert.KernelIdeal.Hand

end
-- ==== Proof.RefNorm.lean ====
/-
  The reference's normalisers read at an entry, in the kernel function's names.

  Under the domain conjunct the reference's wrapped target vector is the raw one, so its degree count is the kernel
  function's degree vector, its normaliser at a node is the reciprocal square root of the number of edges ending there,
  and the per-edge factor it multiplies the gathered rows by is the product of the two end nodes' normalisers.
-/
import proofs.«156050_j29892972380736_2_alg».proof.Proof.RefBridge
import proofs.«156050_j29892972380736_2_alg».proof.Proof.RefDst
import proofs.«156050_j29892972380736_2_alg».proof.Proof.EdgeSets
import proofs.«156050_j29892972380736_2_alg».proof.Proof.DegAt
import proofs.«156050_j29892972380736_2_alg».proof.Proof.LibFibreSum
import proofs.«156050_j29892972380736_2_alg».proof.Proof.LibGatherScatterRows
import proofs.«156050_j29892972380736_2_alg».proof.Proof.Consts
import Idealize.ShloMosaic.PureOps.Ideal.Laws

noncomputable section

namespace Cert.Hand.RefLayerAt

open scoped BigOperators
open Cert.ReferenceIdeal Cert.ReferenceIdeal.Gen Cert.ReferenceIdeal.Read Idealize.ShloMosaic Idealize.ShloMosaic.ValueIdx
open Idealize.ShloMosaic.GatherScatterRows Idealize.ShloMosaic.FibreSum
open Cert.KernelIdeal.Hand (srcB dstB degV srow drow lands nrm drow_of_lands degV_apply)
open Cert.Hand.RefBridge (layerR)

variable [Cert.Pre_finite_inputs.Facts]

/-- Under the domain conjunct the reference's wrapped target column is the kernel function's target column. -/
theorem v13_eq (x1 : IVec S2x600000 32) (hpre : ∀ e, 0 ≤ (Cert.Hand.PreDst.dstRow x1 e).toInt) :
    val_main_v13 (F := Ideal) x1 = dstB x1 := by
  unfold val_main_v13
  rw [Cert.Hand.RefDst.wrap_eq x1 hpre]
  exact Cert.Hand.RefBridge.v46_eq x1

/-- The same column, as the reference spells it for its normaliser look-up. -/
theorem v29_eq (x1 : IVec S2x600000 32) (hpre : ∀ e, 0 ≤ (Cert.Hand.PreDst.dstRow x1 e).toInt) :
    val_main_v29 (F := Ideal) x1 = dstB x1 := by
  unfold val_main_v29
  rw [Cert.Hand.RefBridge.v28_eq x1, Cert.Hand.RefDst.wrap_eq x1 hpre]
  exact Cert.Hand.RefBridge.v46_eq x1

/-- The reference's degree vector is the kernel function's. -/
theorem deg_eq (x1 : IVec S2x600000 32) (hpre : ∀ e, 0 ≤ (Cert.Hand.PreDst.dstRow x1 e).toInt) :
    val_main_v15 (F := Ideal) x1 = degV x1 := by
  unfold val_main_v15
  rw [v13_eq x1 hpre]
  rfl

open scoped Classical in
/-- The reference's normaliser at a node. -/
theorem dinvR_apply (x1 : IVec S2x600000 32) (hpre : ∀ e, 0 ≤ (Cert.Hand.PreDst.dstRow x1 e).toInt) (r : Fin 50000) :
    val_main_v16 (F := Ideal) x1 (ix1 (n := 50000) r) = nrm x1 r := by
  rw [val_main_v16_apply, Ideal.hostUnary_rsqrt_def, deg_eq x1 hpre, degV_apply]
  rfl

open scoped Classical in
/-- The reference's per-edge factor: the product of the normalisers of the edge's two end rows. -/
theorem norm_apply (x1 : IVec S2x600000 32) (hpre : ∀ e, 0 ≤ (Cert.Hand.PreDst.dstRow x1 e).toInt) (e : Fin 650000) :
    val_main_v31 (F := Ideal) x1 (ix1 (n := 650000) e) = nrm x1 (srow x1 e) * nrm x1 (drow x1 e) := by
  rw [val_main_v31_apply, Ideal.mulf_def]
  have h23 : val_main_v23 (F := Ideal) x1 (ix1 (n := 650000) e) = nrm x1 (srow x1 e) := by
    unfold val_main_v23
    rw [Cert.Hand.RefBridge.v22_eq x1]
    exact (gather_rows1_apply (N := 50000) (E := 650000) (by norm_num) gather_S50000_S650000x1_S650000_n_0_n_n_0_1_1
      rfl rfl rfl rfl rfl rfl (val_main_v16 (F := Ideal) x1) (srcB x1) (ix1 (n := 650000) e)).trans (dinvR_apply x1 hpre (srow x1 e))
  have h30 : val_main_v30 (F := Ideal) x1 (ix1 (n := 650000) e) = nrm x1 (drow x1 e) := by
    unfold val_main_v30
    rw [v29_eq x1 hpre]
    exact (gather_rows1_apply (N := 50000) (E := 650000) (by norm_num) gather_S50000_S650000x1_S650000_n_0_n_n_0_1_1
      rfl rfl rfl rfl rfl rfl (val_main_v16 (F := Ideal) x1) (dstB x1) (ix1 (n := 650000) e)).trans (dinvR_apply x1 hpre (drow x1 e))
  rw [h23, h30]

end Cert.Hand.RefLayerAt

end
-- ==== Proof.RefLayerAt.lean ====
/-
  One layer of the reference read at an entry (r, c): from zero, the sum over the edges ending in node r of the edge's
  source row of  h · w  at column c, times the product of the normalisers of the edge's two end rows; plus the bias
  at c; clipped below at zero. The scatter-add collects exactly the updates whose target index, read signed, is r and
  whose column is c; the gathered row is the product's row at the edge's source row; the product at an entry is the
  sum over the shared axis; the bias vector and the per-edge factor are laid along the other axis unchanged.
-/
import proofs.«156050_j29892972380736_2_alg».proof.Proof.RefNorm

noncomputable section

namespace Cert.Hand.RefLayerAt

open scoped BigOperators
open Cert.ReferenceIdeal Cert.ReferenceIdeal.Gen Cert.ReferenceIdeal.Read Idealize.ShloMosaic Idealize.ShloMosaic.ValueIdx
open Idealize.ShloMosaic.GatherScatterRows Idealize.ShloMosaic.FibreSum
open Cert.KernelIdeal.Hand (srcB dstB degV srow drow lands nrm drow_of_lands degV_apply)
open Cert.Hand.RefBridge (layerR)

variable [Cert.Pre_finite_inputs.Facts]

/-- The product  h · w  at an entry: the sum over the shared axis. -/
theorem dot_apply (h : FVec Ideal S50000x128 .f32) (w : FVec Ideal S128x128 .f32) (r : Fin 50000) (c : Fin 128) :
    Host.dotGeneral dot_S50000x128_S128x128_S50000x128_1_0_0_1_n_n none h w (ix2 (n0 := 50000) (n1 := 128) r c)
      = ∑ k : Fin 128, h (ix2 (n0 := 50000) (n1 := 128) r k) * w (ix2 (n0 := 128) (n1 := 128) k c) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 (n0 := 50000) (n1 := 128) r c) ((ValueIdx.contrEquiv1 dot_S50000x128_S128x128_S50000x128_1_0_0_1_n_n 128 rfl rfl).symm k) = ix2 (n0 := 50000) (n1 := 128) r k := funext fun a => Fin.ext (by
    match a with
    | ⟨0, _⟩ => exact lhs_main_v35_0 _ _
    | ⟨1, _⟩ => exact (lhs_main_v35_1 _ _).trans hk)
  have er : dot_S50000x128_S128x128_S50000x128_1_0_0_1_n_n.rhsIdx (ix2 (n0 := 50000) (n1 := 128) r c) ((ValueIdx.contrEquiv1 dot_S50000x128_S128x128_S50000x128_1_0_0_1_n_n 128 rfl rfl).symm k) = ix2 (n0 := 128) (n1 := 128) k c := funext fun a => Fin.ext (by
    match a with
    | ⟨0, _⟩ => exact (rhs_main_v35_0 _ _).trans hk
    | ⟨1, _⟩ => exact rhs_main_v35_1 _ _)
  rw [el, er]

/-- The bias vector laid along the rows, at an entry: the vector's entry of the column. -/
theorem bias_apply (b : FVec Ideal S128 .f32) (r : Fin 50000) (c : Fin 128) :
    broadcastInDim S50000x128 ![0, 1] bcast_S1x128_S50000x128_0_1 (broadcastInDim S1x128 ![1] bcast_S128_S1x128_1 b)
      (ix2 (n0 := 50000) (n1 := 128) r c) = b (ix1 (n := 128) c) := by
  have e1 := broadcastInDim_apply _ bcast_S1x128_S50000x128_0_1 (broadcastInDim S1x128 ![1] bcast_S128_S1x128_1 b)
    (ix2 (n0 := 50000) (n1 := 128) r c) (idx_main_v51 (ix2 (n0 := 50000) (n1 := 128) r c)) (fun a => match a with
    | ⟨0, _⟩ => by show 0 = if (1 : Nat) = 1 then 0 else r.val; rw [if_pos rfl]
    | ⟨1, _⟩ => by show c.val = if (128 : Nat) = 1 then 0 else c.val; rw [if_neg (by decide)])
  have e2 := broadcastInDim_apply _ bcast_S128_S1x128_1 b (idx_main_v51 (ix2 (n0 := 50000) (n1 := 128) r c))
    (idx_main_v50 (idx_main_v51 (ix2 (n0 := 50000) (n1 := 128) r c))) (fun a => match a with
    | ⟨0, _⟩ => by show c.val = if (128 : Nat) = 1 then 0 else c.val; rw [if_neg (by decide)])
  rw [e1, e2]
  refine congrArg b (funext fun a => ?_)
  match a with
  | ⟨0, _⟩ => rfl

/-- The per-edge factor laid along the columns, at an entry. -/
theorem v43_at (x1 : IVec S2x600000 32) (e : Fin 650000) (c : Fin 128) :
    val_main_v43 (F := Ideal) x1 (ix2 (n0 := 650000) (n1 := 128) e c) = val_main_v31 (F := Ideal) x1 (ix1 (n := 650000) e) := by
  rw [val_main_v43_apply, val_main_v32_apply]
  refine congrArg (val_main_v31 (F := Ideal) x1) (funext fun a => ?_)
  match a with
  | ⟨0, _⟩ => rfl

open scoped Classical in
/-- One layer of the reference at an entry. -/
theorem layerR_apply (x1 : IVec S2x600000 32) (hpre : ∀ e, 0 ≤ (Cert.Hand.PreDst.dstRow x1 e).toInt)
    (h : FVec Ideal S50000x128 .f32) (w : FVec Ideal S128x128 .f32) (b : FVec Ideal S128 .f32) (r : Fin 50000) (c : Fin 128) :
    layerR x1 h w b (ix2 (n0 := 50000) (n1 := 128) r c)
      = max ((0 + ∑ e ∈ Finset.univ.filter (lands x1 r),
          (∑ k : Fin 128, h (ix2 (n0 := 50000) (n1 := 128) (srow x1 e) k) * w (ix2 (n0 := 128) (n1 := 128) k c))
            * (nrm x1 (srow x1 e) * nrm x1 (drow x1 e))) + b (ix1 (n := 128) c)) 0 := by
  unfold layerR
  show FloatOps.maximumf (FloatOps.addf (Host.scatterAdd scatter_S50000x128_S650000x1_S650000x128_1_0_0_1 (val_main_v45 (F := Ideal)) (val_main_v46 (F := Ideal) x1)
      (mulf (Host.gather gather_S50000x128_S650000x1_S650000x128_1_0_n_n_0_1_1128
          (Host.dotGeneral dot_S50000x128_S128x128_S50000x128_1_0_0_1_n_n none h w) (val_main_v41 (F := Ideal) x1))
        (val_main_v43 (F := Ideal) x1)) (ix2 (n0 := 50000) (n1 := 128) r c))
      (broadcastInDim S50000x128 ![0, 1] bcast_S1x128_S50000x128_0_1 (broadcastInDim S1x128 ![1] bcast_S128_S1x128_1 b) (ix2 (n0 := 50000) (n1 := 128) r c)))
    (val_main_call0_v0 (F := Ideal) (ix2 (n0 := 50000) (n1 := 128) r c)) = _
  rw [Ideal.maximumf_def, Ideal.addf_def, bias_apply b r c, val_main_call0_v0_apply, val_main_call0_cst_apply,
    Ideal.ofBits_def, Ideal.ofBits_zero_f32, Cert.Hand.RefBridge.v46_eq x1, Cert.Hand.RefBridge.v41_eq x1]
  simp only [Host.scatterAdd, Ideal.hostScatterAdd_def, Ideal.hostScatterAdd]
  have hz : val_main_v45 (F := Ideal) (ix2 (n0 := 50000) (n1 := 128) r c) = 0 := by
    rw [val_main_v45_apply, val_main_cst_8_apply, Ideal.ofBits_def, Ideal.ofBits_zero_f32]
  have hf : ∀ j ∈ (Finset.univ : Finset S650000x128.Idx),
      (scatter_S50000x128_S650000x1_S650000x128_1_0_0_1.resultIdx? j (dstB x1) = some (ix2 (n0 := 50000) (n1 := 128) r c)) ↔ (lands x1 r (j 0) ∧ j 1 = c) :=
    fun j _ => scatter_rows2_resultIdx (N := 50000) (C := 128) (E := 650000) scatter_S50000x128_S650000x1_S650000x128_1_0_0_1 rfl rfl rfl rfl (dstB x1) j (ix2 (n0 := 50000) (n1 := 128) r c)
  have hg : ∀ e : Fin 650000,
      (mulf (Host.gather gather_S50000x128_S650000x1_S650000x128_1_0_n_n_0_1_1128
          (Host.dotGeneral dot_S50000x128_S128x128_S50000x128_1_0_0_1_n_n none h w) (srcB x1))
        (val_main_v43 (F := Ideal) x1)) (ix2 (n0 := 650000) (n1 := 128) e c)
      = (∑ k : Fin 128, h (ix2 (n0 := 50000) (n1 := 128) (srow x1 e) k) * w (ix2 (n0 := 128) (n1 := 128) k c))
          * (nrm x1 (srow x1 e) * nrm x1 (drow x1 e)) := fun e => by
    show FloatOps.mulf (Host.gather gather_S50000x128_S650000x1_S650000x128_1_0_n_n_0_1_1128
          (Host.dotGeneral dot_S50000x128_S128x128_S50000x128_1_0_0_1_n_n none h w) (srcB x1) (ix2 (n0 := 650000) (n1 := 128) e c))
        (val_main_v43 (F := Ideal) x1 (ix2 (n0 := 650000) (n1 := 128) e c)) = _
    rw [Ideal.mulf_def, v43_at x1 e c, norm_apply x1 hpre e]
    refine congrArg (· * (nrm x1 (srow x1 e) * nrm x1 (drow x1 e))) ?_
    exact (gather_rows2_apply (N := 50000) (C := 128) (E := 650000) (by norm_num) gather_S50000x128_S650000x1_S650000x128_1_0_n_n_0_1_1128
      rfl rfl rfl rfl rfl rfl (Host.dotGeneral dot_S50000x128_S128x128_S50000x128_1_0_0_1_n_n none h w) (srcB x1)
      (ix2 (n0 := 650000) (n1 := 128) e c)).trans (dot_apply h w (srow x1 e) c)
  rw [hz]
  refine congrArg (fun s => max (0 + s + b (ix1 (n := 128) c)) 0) ?_
  refine (Finset.sum_congr (Finset.filter_congr hf) fun _ _ => rfl).trans ?_
  refine (sum_filter_col (lands x1 r) c _).trans ?_
  exact Finset.sum_congr rfl fun e _ => hg e

end Cert.Hand.RefLayerAt

end
-- ==== Proof.LibLayerLaw.lean ====
/-
  The one algebraic law that joins the two arrangements of a graph-convolution layer, on the extended reals.
  The reference normalises every edge's message by both end points' normalisers and adds the node's own row
  scaled by the square of its normaliser; the kernel pre-scales every row by its own normaliser once, sums the
  gathered pre-scaled rows, adds the node's own pre-scaled row and multiplies the whole by the receiving node's
  normaliser. The two agree because a factor `D` with `0 ≤ D < ⊤` distributes over sums of extended reals
  (multiplication by such a `D` never meets `⊤ + ⊥` differently on the two sides), and multiplication is
  commutative and associative. Nothing is asked of the summands: they may be infinite.
-/
import Mathlib.Data.EReal.Operations
import Mathlib.Data.EReal.Inv
import Mathlib.Algebra.BigOperators.Group.Finset.Basic

namespace Cert.Gcn

open scoped BigOperators

/-- A nonnegative finite factor distributes over a finite sum of extended reals. -/
theorem mul_sum_of_nonneg_of_ne_top {ι : Type*} (s : Finset ι) (f : ι → EReal) {D : EReal} (h0 : 0 ≤ D) (ht : D ≠ ⊤) :
    D * ∑ j ∈ s, f j = ∑ j ∈ s, D * f j := by
  classical
  induction s using Finset.induction_on with
  | empty => simp
  | insert a s ha ih =>
    rw [Finset.sum_insert ha, Finset.sum_insert ha, EReal.left_distrib_of_nonneg_of_ne_top h0 ht, ih]

/-- THE LAYER LAW. `t j` is the gathered row entry of edge `j`, `a j` the sending node's normaliser, `D` the
    receiving node's, `H` the node's own row entry, `B` the bias. Left: the kernel's arrangement. Right: the
    reference's. (Each side's sum starts from the zero the scatter accumulates into.) -/
theorem layer_law {ι : Type*} (s : Finset ι) (t a : ι → EReal) {D : EReal} (h0 : 0 ≤ D) (ht : D ≠ ⊤) (H B : EReal) :
    D * ((0 + ∑ j ∈ s, t j * a j) + H * D) + B = ((0 + ∑ j ∈ s, t j * (a j * D)) + H * (D * D)) + B := by
  rw [EReal.left_distrib_of_nonneg_of_ne_top h0 ht, zero_add, zero_add, mul_sum_of_nonneg_of_ne_top s _ h0 ht]
  congr 2
  · exact Finset.sum_congr rfl fun j _ => by rw [mul_comm D, mul_assoc]
  · rw [mul_comm D, mul_assoc]

/-- A real number's image is a nonnegative finite extended real when the number is nonnegative. -/
theorem coe_nonneg_ne_top {d : ℝ} (hd : 0 ≤ d) : (0 : EReal) ≤ (d : EReal) ∧ (d : EReal) ≠ ⊤ :=
  ⟨EReal.coe_nonneg.mpr hd, EReal.coe_ne_top d⟩

end Cert.Gcn
-- ==== Proof.LawLayer.lean ====
/-
  The algebra that joins the two arrangements of one graph-convolution layer, entry by entry, on the extended reals.

  Fix a node and a feature column. Let `S` be the set of edges that end in the node, `a j` the transformed feature of
  edge `j`'s source node in that column, `δs j` the source node's normaliser, `D` the node's own normaliser and `b` the
  bias. One program scales every source row by its normaliser, adds the rows up over `S` (starting from zero) and
  scales the sum by `D`; the other scales every edge's row by the product `δs j · D` and adds up. A factor that is
  non-negative and not `⊤` goes inside a finite sum of extended reals, whatever the terms are, so the two agree
  whenever `D` is such a factor; and when no edge ends in the node both sums are empty and both sides are `b`,
  whatever `D` is (even `⊤`, since `0 · ⊤ = 0`).

  The normaliser is the reciprocal square root of the node's degree, the number of edges that end in it: for a
  positive count it is a positive real, hence such a factor.
-/
import proofs.«156050_j29892972380736_2_alg».proof.Proof.LibLayerLaw
import Idealize.ShloMosaic.PureOps.Ideal

namespace Cert.Hand.Law

open scoped BigOperators
open Idealize.ShloMosaic

/-- One entry of a layer, the two arrangements: equal when the node's normaliser is a non-negative finite factor as
    soon as some edge ends in the node. -/
theorem layer_entry {ι : Type*} (S : Finset ι) (a δs : ι → EReal) (D b : EReal)
    (hD : S.Nonempty → 0 ≤ D ∧ D ≠ ⊤) :
    (0 + ∑ j ∈ S, a j * δs j) * D + b = (0 + ∑ j ∈ S, a j * (δs j * D)) + b := by
  rcases S.eq_empty_or_nonempty with rfl | hne
  · simp
  · obtain ⟨h0, ht⟩ := hD hne
    rw [zero_add, zero_add, mul_comm _ D, Cert.Gcn.mul_sum_of_nonneg_of_ne_top S _ h0 ht]
    refine congrArg (· + b) (Finset.sum_congr rfl fun j _ => ?_)
    rw [mul_comm D, mul_assoc]

/-- A sum of ones over a finite set is its number of elements. -/
theorem sum_ones {ι : Type*} (S : Finset ι) : (∑ _j ∈ S, (1 : EReal)) = ((S.card : ℝ) : EReal) := by
  induction S using Finset.cons_induction with
  | empty => simp
  | cons a s ha ih =>
    rw [Finset.sum_cons, ih, Finset.card_cons]
    push_cast
    rw [add_comm]

/-- The reciprocal square root of a positive count is a non-negative finite factor. -/
theorem rsqrt_count {ι : Type*} (S : Finset ι) (hS : S.Nonempty) :
    0 ≤ Ideal.rsqrt (0 + ∑ _j ∈ S, (1 : EReal)) ∧ Ideal.rsqrt (0 + ∑ _j ∈ S, (1 : EReal)) ≠ ⊤ := by
  have hc : (0 : ℝ) < (S.card : ℝ) := by exact_mod_cast Finset.card_pos.mpr hS
  rw [zero_add, sum_ones, Ideal.rsqrt_coe, if_neg (not_lt.mpr hc.le), if_neg hc.ne']
  exact Cert.Gcn.coe_nonneg_ne_top (inv_nonneg.mpr (Real.sqrt_nonneg _))

end Cert.Hand.Law
-- ==== Proof.LayerEq.lean ====
/-
  One layer of the kernel function IS one layer of the reference, as functions of the incoming features, the layer's
  weights and its bias (given as a row on one side, as a vector on the other).

  Entry by entry both are  max (… + b[c], 0)  over the same set S of edges ending in the node, with the same per-edge
  term a e = ⟨source row of h, column c of w⟩ and the same source normaliser; the kernel function scales the sum by the
  node's normaliser D afterwards, the reference scales every edge's term by (source normaliser · target normaliser)
  first. For an edge that ends in the node the target normaliser is D. A node's normaliser is the reciprocal square
  root of |S| (from zero, a one per edge), so when S is not empty it is a non-negative finite factor and goes inside the
  sum; when S is empty both sums are empty.
-/
import proofs.«156050_j29892972380736_2_alg».proof.Proof.KLayerAt
import proofs.«156050_j29892972380736_2_alg».proof.Proof.RefLayerAt
import proofs.«156050_j29892972380736_2_alg».proof.Proof.DegAt
import proofs.«156050_j29892972380736_2_alg».proof.Proof.LawLayer

noncomputable section

namespace Cert.Hand.LayerEq

variable [Cert.Pre_finite_inputs.Facts]

open scoped BigOperators
open Idealize.ShloMosaic Idealize.ShloMosaic.ValueIdx
open Cert.KernelIdeal.Hand (layerK layerK_apply degV_apply srow drow lands nrm drow_of_lands)
open Cert.Hand.RefBridge (layerR)

open scoped Classical in
theorem layer_eq (x1 : IVec Cert.KernelIdeal.S2x600000 32) (hpre : ∀ e, 0 ≤ (Cert.Hand.PreDst.dstRow x1 e).toInt)
    (h : FVec Ideal Cert.KernelIdeal.S50000x128 .f32) (w : FVec Ideal Cert.KernelIdeal.S128x128 .bf16)
    (bK : FVec Ideal Cert.KernelIdeal.S1x128 .f32) (bR : FVec Ideal Cert.ReferenceIdeal.S128 .f32)
    (hb : ∀ c : Fin 128, bK (ix2 (n0 := 1) (n1 := 128) 0 c) = bR (ix1 (n := 128) c)) :
    layerK x1 h w bK = layerR x1 h w bR := by
  funext i
  obtain ⟨r, c, rfl⟩ : ∃ (r : Fin 50000) (c : Fin 128), i = ix2 r c := ⟨i 0, i 1, eq_ix2 i⟩
  rw [layerK_apply, Cert.Hand.RefLayerAt.layerR_apply x1 hpre, hb c]
  simp only [degV_apply]
  refine congrArg (max · 0) ?_
  have hlaw := Cert.Hand.Law.layer_entry (Finset.univ.filter (lands x1 r))
    (fun e => ∑ k : Fin 128, h (ix2 (srow x1 e) k) * w (ix2 k c)) (fun e => nrm x1 (srow x1 e)) (nrm x1 r) (bR (ix1 c))
    (fun hne => Cert.Hand.Law.rsqrt_count _ hne)
  refine hlaw.trans ?_
  refine congrArg (· + bR (ix1 c)) (congrArg (0 + ·) (Finset.sum_congr rfl fun e he => ?_))
  rw [drow_of_lands x1 (Finset.mem_filter.mp he).2]

end Cert.Hand.LayerEq

end
-- ==== Proof.Pool.lean ====
/-
  The pooling law.

  The kernel program lays the five layers' outputs side by side into one array of 640 columns and adds its rows up,
  per graph, with ONE row scatter from zero. The reference adds up each layer's rows per graph (five row scatters
  from zero into 128 columns) and lays the five sums side by side. Both are, at entry (g, c),

      0 + ∑ over the nodes n of graph g,  (layer c / 128's output) (n, c % 128),

  because a row scatter adds update entry (n, k) into entry (g, c) exactly when node n's graph is g and k = c, and
  entry (·, c) of five arrays of 128 columns laid side by side is entry (·, c % 128) of array c / 128.
-/
import proofs.«156050_j29892972380736_2_alg».proof.Proof.KernelFn
import proofs.«156050_j29892972380736_2_alg».proof.Proof.Gen.ReferenceIdeal.Read
import proofs.«156050_j29892972380736_2_alg».proof.Proof.LibGatherScatterRows
import proofs.«156050_j29892972380736_2_alg».proof.Proof.LibFibreSum
import Idealize.ShloMosaic.Lib.Pipeline.Value
import Idealize.ShloMosaic.Lib.ValueIdx
import Idealize.ShloMosaic.PureOps.Ideal.Laws

noncomputable section

namespace Cert.Hand.Pool

open scoped BigOperators
open Idealize.ShloMosaic Idealize.ShloMosaic.ValueIdx
open Idealize.ShloMosaic.GatherScatterRows Idealize.ShloMosaic.FibreSum

/-! ## Five arrays of 128 columns laid side by side -/

/-- One of five, by number (numbers from 4 on name the fifth). -/
def sel5 {β : Type} (y1 y2 y3 y4 y5 : β) : Nat → β
  | 0 => y1
  | 1 => y2
  | 2 => y3
  | 3 => y4
  | _ => y5

/-- Choosing one of five images is the image of the choice. -/
theorem sel5_map {β γ : Type} (f : β → γ) (y1 y2 y3 y4 y5 : β) :
    ∀ k : Nat, sel5 (f y1) (f y2) (f y3) (f y4) (f y5) k = f (sel5 y1 y2 y3 y4 y5 k)
  | 0 => rfl
  | 1 => rfl
  | 2 => rfl
  | 3 => rfl
  | _ + 4 => rfl

/-- **Five arrays `[R, 128]` laid side by side, read at entry (r, c)**: array `c / 128` at (r, c % 128). -/
theorem cat5_apply {α : Type} {R : Nat} (y1 y2 y3 y4 y5 : (⟨2, ![R, 128]⟩ : Shape).Idx → α)
    (h : Shape.Concatenates (([⟨⟨2, ![R, 128]⟩, y1⟩, ⟨⟨2, ![R, 128]⟩, y2⟩, ⟨⟨2, ![R, 128]⟩, y3⟩, ⟨⟨2, ![R, 128]⟩, y4⟩,
      ⟨⟨2, ![R, 128]⟩, y5⟩] : List ((s : Shape) × (s.Idx → α))).map (·.1)) ⟨2, ![R, 640]⟩ 1)
    (r : Fin R) (c : Fin 640) :
    concatenate ⟨2, ![R, 640]⟩ 1 [⟨⟨2, ![R, 128]⟩, y1⟩, ⟨⟨2, ![R, 128]⟩, y2⟩, ⟨⟨2, ![R, 128]⟩, y3⟩, ⟨⟨2, ![R, 128]⟩, y4⟩,
        ⟨⟨2, ![R, 128]⟩, y5⟩] h (ix2 r c)
      = sel5 y1 y2 y3 y4 y5 (c.val / 128) (ix2 r (⟨c.val % 128, Nat.mod_lt _ (by decide)⟩ : Fin 128)) := by
  have hc := c.isLt
  have hoff : ∀ b : Fin (Shape.rank ⟨2, ![R, 128]⟩), b.cast (rfl : Shape.rank ⟨2, ![R, 128]⟩ = Shape.rank ⟨2, ![R, 640]⟩) ≠ 1 →
      ((ix2 r (⟨c.val % 128, Nat.mod_lt _ (by decide)⟩ : Fin 128)) b).val = ((ix2 r c) (b.cast rfl)).val := by
    intro b hb
    rcases axis2_cases b with rfl | rfl
    · rfl
    · exact absurd rfl hb
  obtain hk | hk | hk | hk | hk : c.val / 128 = 0 ∨ c.val / 128 = 1 ∨ c.val / 128 = 2 ∨ c.val / 128 = 3 ∨ c.val / 128 = 4 := by
    omega
  · rw [hk]
    exact concatenate_apply_piece 1 _ h (ix2 r c) 0 (by show (0 : Nat) < 5; decide) _ y1 rfl rfl 0 rfl _ hoff
      (by show 0 + c.val % 128 = c.val; omega)
  · rw [hk]
    exact concatenate_apply_piece 1 _ h (ix2 r c) 1 (by show (1 : Nat) < 5; decide) _ y2 rfl rfl 128 rfl _ hoff
      (by show 128 + c.val % 128 = c.val; omega)
  · rw [hk]
    exact concatenate_apply_piece 1 _ h (ix2 r c) 2 (by show (2 : Nat) < 5; decide) _ y3 rfl rfl 256 rfl _ hoff
      (by show 256 + c.val % 128 = c.val; omega)
  · rw [hk]
    exact concatenate_apply_piece 1 _ h (ix2 r c) 3 (by show (3 : Nat) < 5; decide) _ y4 rfl rfl 384 rfl _ hoff
      (by show 384 + c.val % 128 = c.val; omega)
  · rw [hk]
    exact concatenate_apply_piece 1 _ h (ix2 r c) 4 (by show (4 : Nat) < 5; decide) _ y5 rfl rfl 512 rfl _ hoff
      (by show 512 + c.val % 128 = c.val; omega)

/-! ## A row scatter from an array, read at an entry -/

open scoped Classical in
/-- **A row scatter-add read at entry (r, c)**: the operand's entry plus the sum, over the update rows whose
    scatter index read signed is `r`, of the update's entry in column `c`. -/
theorem scatterAdd_rows_apply {N C E : Nat} (d : ScatterDims ⟨2, ![N, C]⟩ ⟨2, ![E, 1]⟩ ⟨2, ![E, C]⟩)
    (hu : d.updateWindowDims = [1]) (hi : d.insertedWindowDims = [0])
    (hs : d.scatterDimsToOperandDims = [0]) (hv : d.indexVectorDim = 1)
    (z : FVec Ideal ⟨2, ![N, C]⟩ .f32) (idx : IVec ⟨2, ![E, 1]⟩ 32) (upd : FVec Ideal ⟨2, ![E, C]⟩ .f32)
    (r : Fin N) (c : Fin C) :
    Host.scatterAdd d z idx upd (ix2 r c)
      = z (ix2 r c) + ∑ e ∈ Finset.univ.filter (fun e : Fin E => (idx (ix2 e 0)).toInt = (r.val : Int)), upd (ix2 e c) := by
  simp only [Host.scatterAdd, Ideal.hostScatterAdd_def, Ideal.hostScatterAdd]
  have hf : ∀ j ∈ (Finset.univ : Finset (⟨2, ![E, C]⟩ : Shape).Idx),
      (d.resultIdx? j idx = some (ix2 r c)) ↔ ((idx (ix2 (j 0) 0)).toInt = (r.val : Int) ∧ j 1 = c) :=
    fun j _ => scatter_rows2_resultIdx d hu hi hs hv idx j (ix2 r c)
  refine congrArg (z (ix2 r c) + ·) ?_
  refine (Finset.sum_congr (Finset.filter_congr hf) fun _ _ => rfl).trans ?_
  exact sum_filter_col (fun e : Fin E => (idx (ix2 e 0)).toInt = (r.val : Int)) c upd

/-- The array of zeros, read anywhere. -/
theorem zeros_apply {t : Shape} (hb : (⟨0, ![]⟩ : Shape).BroadcastsInDim t (![] : Fin 0 → Fin t.rank)) (i : t.Idx) :
    broadcastInDim t ![] hb (constant (F := Ideal) ⟨0, ![]⟩ .f32 0x00000000#32) i = 0 := by
  simp only [broadcastInDim, constant, Ideal.ofBits_def, Ideal.ofBits_zero_f32]

/-- The graph numbers as a column, read at a node. -/
theorem column_apply {w : Nat} (hb : (⟨1, ![50000]⟩ : Shape).BroadcastsInDim ⟨2, ![50000, 1]⟩ (![0] : Fin 1 → Fin 2))
    (x : IVec ⟨1, ![50000]⟩ w) (n : Fin 50000) :
    broadcastInDim ⟨2, ![50000, 1]⟩ ![0] hb x (ix2 n 0) = x (ix1 n) :=
  broadcastInDim_apply _ hb x (ix2 n 0) (ix1 n) (fun a => match a with
    | ⟨0, _⟩ => by show n.val = if (50000 : Nat) = 1 then 0 else n.val; rw [if_neg (by decide)])

/-- Node `n` belongs to graph `g`: its graph number, read signed, is `g`. -/
def inGraph (x2 : IVec ⟨1, ![50000]⟩ 32) (g : Fin 512) (n : Fin 50000) : Prop := (x2 (ix1 n)).toInt = (g.val : Int)

/-! ## The two programs' pooling -/

section K
open Cert.KernelIdeal Cert.KernelIdeal.Gen

/-- The kernel program's pooling: one row scatter from zero of the five layers' outputs laid side by side. -/
def poolK (x2 : IVec S50000 32) (g1 g2 g3 g4 g5 : FVec Ideal S50000x128 .f32) : FVec Ideal S512x640 .f32 :=
  Host.scatterAdd scatter_S512x640_S50000x1_S50000x640_1_0_0_1
    (broadcastInDim S512x640 ![] bcast_S_S512x640 (constant (F := Ideal) S_ .f32 0x00000000#32))
    (broadcastInDim S50000x1 ![0] bcast_S50000_S50000x1_0 x2)
    (concatenate S50000x640 1 [⟨S50000x128, g1⟩, ⟨S50000x128, g2⟩, ⟨S50000x128, g3⟩, ⟨S50000x128, g4⟩, ⟨S50000x128, g5⟩]
      concatenates_S50000x128_S50000x128_S50000x128_S50000x128_S50000x128_S50000x640_d1)

/-- The kernel program's result is the pooling of its five layers' outputs. -/
theorem result_eq_poolK (x0 : FVec Ideal S50000x128 .f32) (x1 : IVec S2x600000 32) (x2 : IVec S50000 32)
    (x3 : FVec Ideal S5x128x128 .f32) (x4 : FVec Ideal S5x128 .f32) :
    Cert.KernelIdeal.Hand.result x0 x1 x2 x3 x4
      = poolK x2 (Cert.KernelIdeal.Hand.h1 x0 x1 x3 x4) (Cert.KernelIdeal.Hand.h2 x0 x1 x3 x4) (Cert.KernelIdeal.Hand.h3 x0 x1 x3 x4)
          (Cert.KernelIdeal.Hand.h4 x0 x1 x3 x4) (Cert.KernelIdeal.Hand.h5 x0 x1 x3 x4) := rfl

open scoped Classical in
/-- The kernel program's pooling at entry (g, c). -/
theorem poolK_apply (x2 : IVec S50000 32) (g1 g2 g3 g4 g5 : FVec Ideal S50000x128 .f32) (g : Fin 512) (c : Fin 640) :
    poolK x2 g1 g2 g3 g4 g5 (ix2 g c)
      = 0 + ∑ n ∈ Finset.univ.filter (inGraph x2 g),
          sel5 g1 g2 g3 g4 g5 (c.val / 128) (ix2 n (⟨c.val % 128, Nat.mod_lt _ (by decide)⟩ : Fin 128)) := by
  unfold poolK
  rw [scatterAdd_rows_apply (N := 512) (C := 640) (E := 50000) scatter_S512x640_S50000x1_S50000x640_1_0_0_1 rfl rfl rfl rfl,
    zeros_apply]
  refine congrArg (0 + ·) ?_
  refine (Finset.sum_congr (Finset.filter_congr fun n _ => ?_) fun n _ => ?_)
  · unfold inGraph
    rw [column_apply]
  · exact cat5_apply (R := 50000) g1 g2 g3 g4 g5 _ n c

end K

section R
open Cert.ReferenceIdeal Cert.ReferenceIdeal.Gen

/-- One layer's output added up per graph: a row scatter from zero. -/
def piece (x2 : IVec S50000 32) (y : FVec Ideal S50000x128 .f32) : FVec Ideal S512x128 .f32 :=
  Host.scatterAdd scatter_S512x128_S50000x1_S50000x128_1_0_0_1
    (broadcastInDim S512x128 ![] bcast_S_S512x128 (constant (F := Ideal) S_ .f32 0x00000000#32))
    (broadcastInDim S50000x1 ![0] bcast_S50000_S50000x1_0 x2) y

/-- The reference's pooling: the five layers' per-graph sums laid side by side. -/
def poolR (x2 : IVec S50000 32) (g1 g2 g3 g4 g5 : FVec Ideal S50000x128 .f32) : FVec Ideal S512x640 .f32 :=
  concatenate S512x640 1 [⟨S512x128, piece x2 g1⟩, ⟨S512x128, piece x2 g2⟩, ⟨S512x128, piece x2 g3⟩, ⟨S512x128, piece x2 g4⟩,
      ⟨S512x128, piece x2 g5⟩]
    concatenates_S512x128_S512x128_S512x128_S512x128_S512x128_S512x640_d1

/-- The reference's result is the pooling of its five layers' outputs. -/
theorem v153_eq_poolR (x0 : FVec Ideal S50000x128 .f32) (x1 : IVec S2x600000 32) (x2 : IVec S50000 32)
    (x3 : FVec Ideal S5x128x128 .f32) (x4 : FVec Ideal S5x128 .f32) :
    Cert.ReferenceIdeal.Read.val_main_v153 (F := Ideal) x0 x1 x2 x3 x4
      = poolR x2 (Cert.ReferenceIdeal.Read.val_main_v53 (F := Ideal) x0 x1 x3 x4) (Cert.ReferenceIdeal.Read.val_main_v74 (F := Ideal) x0 x1 x3 x4)
          (Cert.ReferenceIdeal.Read.val_main_v95 (F := Ideal) x0 x1 x3 x4) (Cert.ReferenceIdeal.Read.val_main_v116 (F := Ideal) x0 x1 x3 x4)
          (Cert.ReferenceIdeal.Read.val_main_v137 (F := Ideal) x0 x1 x3 x4) := rfl

open scoped Classical in
/-- One layer's per-graph sums at entry (g, k). -/
theorem piece_apply (x2 : IVec S50000 32) (y : FVec Ideal S50000x128 .f32) (g : Fin 512) (k : Fin 128) :
    piece x2 y (ix2 g k) = 0 + ∑ n ∈ Finset.univ.filter (inGraph x2 g), y (ix2 n k) := by
  unfold piece
  rw [scatterAdd_rows_apply (N := 512) (C := 128) (E := 50000) scatter_S512x128_S50000x1_S50000x128_1_0_0_1 rfl rfl rfl rfl,
    zeros_apply]
  refine congrArg (0 + ·) ?_
  refine (Finset.sum_congr (Finset.filter_congr fun n _ => ?_) fun n _ => rfl)
  unfold inGraph
  rw [column_apply]

open scoped Classical in
/-- The reference's pooling at entry (g, c). -/
theorem poolR_apply (x2 : IVec S50000 32) (g1 g2 g3 g4 g5 : FVec Ideal S50000x128 .f32) (g : Fin 512) (c : Fin 640) :
    poolR x2 g1 g2 g3 g4 g5 (ix2 g c)
      = 0 + ∑ n ∈ Finset.univ.filter (inGraph x2 g),
          sel5 g1 g2 g3 g4 g5 (c.val / 128) (ix2 n (⟨c.val % 128, Nat.mod_lt _ (by decide)⟩ : Fin 128)) := by
  unfold poolR
  rw [cat5_apply (R := 512) (piece x2 g1) (piece x2 g2) (piece x2 g3) (piece x2 g4) (piece x2 g5) _ g c,
    sel5_map (piece x2) g1 g2 g3 g4 g5 (c.val / 128), piece_apply]

end R

/-! ## The law -/

/-- **The pooling law**: one row scatter of the five outputs laid side by side is the five row scatters laid side
    by side. -/
theorem pool_eq (x2 : IVec Cert.KernelIdeal.S50000 32) (g1 g2 g3 g4 g5 : FVec Ideal Cert.KernelIdeal.S50000x128 .f32) :
    poolK x2 g1 g2 g3 g4 g5 = poolR x2 g1 g2 g3 g4 g5 := by
  funext i
  rw [eq_ix2 i]
  exact (poolK_apply x2 g1 g2 g3 g4 g5 (i 0) (i 1)).trans (poolR_apply x2 g1 g2 g3 g4 g5 (i 0) (i 1)).symm

end Cert.Hand.Pool

end
-- ==== Proof.ResultEq.lean ====
/-
  The kernel function's result is the reference's, under the domain conjunct.

  The two programs' five layers agree one after the other (each layer is one function of the previous layer's output
  on both sides, with the same weights — a change of float format is the identity here — and the same bias, read as a
  row or as a vector); the per-graph sums of the five outputs agree by the pooling law.
-/
import proofs.«156050_j29892972380736_2_alg».proof.Proof.LayerEq
import proofs.«156050_j29892972380736_2_alg».proof.Proof.Pool
import Idealize.ShloMosaic.Lib.ValueLayout

noncomputable section

namespace Cert.Hand.ResultEq

variable [Cert.Pre_finite_inputs.Facts]

open Idealize.ShloMosaic Idealize.ShloMosaic.ValueIdx
open Cert.ReferenceIdeal.Read
open Cert.Hand.RefBridge (layerR h1_eq h2_eq)
open Cert.KernelIdeal.Hand (layerK result h1 h2 h3 h4 h5 w0 w1 w2 w3 w4 b0 b1 b2 b3 b4)

variable (x0 : FVec Ideal Cert.KernelIdeal.S50000x128 .f32) (x1 : IVec Cert.KernelIdeal.S2x600000 32) (x2 : IVec Cert.KernelIdeal.S50000 32)
  (x3 : FVec Ideal Cert.KernelIdeal.S5x128x128 .f32) (x4 : FVec Ideal Cert.KernelIdeal.S5x128 .f32)

theorem h3_eq : val_main_v95 (F := Ideal) x0 x1 x3 x4 = layerR x1 (val_main_v74 (F := Ideal) x0 x1 x3 x4) (val_main_v76 (F := Ideal) x3) (val_main_v91 (F := Ideal) x4) := rfl
theorem h4_eq : val_main_v116 (F := Ideal) x0 x1 x3 x4 = layerR x1 (val_main_v95 (F := Ideal) x0 x1 x3 x4) (val_main_v97 (F := Ideal) x3) (val_main_v112 (F := Ideal) x4) := rfl
theorem h5_eq : val_main_v137 (F := Ideal) x0 x1 x3 x4 = layerR x1 (val_main_v116 (F := Ideal) x0 x1 x3 x4) (val_main_v118 (F := Ideal) x3) (val_main_v133 (F := Ideal) x4) := rfl

theorem wk0 : val_main_v34 (F := Ideal) x3 = w0 x3 := rfl
theorem wk1 : val_main_v55 (F := Ideal) x3 = w1 x3 := rfl
theorem wk2 : val_main_v76 (F := Ideal) x3 = w2 x3 := rfl
theorem wk3 : val_main_v97 (F := Ideal) x3 = w3 x3 := rfl
theorem wk4 : val_main_v118 (F := Ideal) x3 = w4 x3 := rfl

/-- A bias row of the kernel function is the reference's bias vector laid as a row. -/
theorem bk0 (c : Fin 128) : b0 x4 (ix2 (n0 := 1) (n1 := 128) 0 c) = val_main_v49 (F := Ideal) x4 (ix1 (n := 128) c) :=
  ValueIdx.shapeCast_a_1a_apply (val_main_v49 (F := Ideal) x4) _ 0 c
theorem bk1 (c : Fin 128) : b1 x4 (ix2 (n0 := 1) (n1 := 128) 0 c) = val_main_v70 (F := Ideal) x4 (ix1 (n := 128) c) :=
  ValueIdx.shapeCast_a_1a_apply (val_main_v70 (F := Ideal) x4) _ 0 c
theorem bk2 (c : Fin 128) : b2 x4 (ix2 (n0 := 1) (n1 := 128) 0 c) = val_main_v91 (F := Ideal) x4 (ix1 (n := 128) c) :=
  ValueIdx.shapeCast_a_1a_apply (val_main_v91 (F := Ideal) x4) _ 0 c
theorem bk3 (c : Fin 128) : b3 x4 (ix2 (n0 := 1) (n1 := 128) 0 c) = val_main_v112 (F := Ideal) x4 (ix1 (n := 128) c) :=
  ValueIdx.shapeCast_a_1a_apply (val_main_v112 (F := Ideal) x4) _ 0 c
theorem bk4 (c : Fin 128) : b4 x4 (ix2 (n0 := 1) (n1 := 128) 0 c) = val_main_v133 (F := Ideal) x4 (ix1 (n := 128) c) :=
  ValueIdx.shapeCast_a_1a_apply (val_main_v133 (F := Ideal) x4) _ 0 c

variable (hpre : ∀ e, 0 ≤ (Cert.Hand.PreDst.dstRow x1 e).toInt)
include hpre

theorem e1 : h1 x0 x1 x3 x4 = val_main_v53 (F := Ideal) x0 x1 x3 x4 :=
  (Cert.Hand.LayerEq.layer_eq x1 hpre x0 (w0 x3) (b0 x4) (val_main_v49 (F := Ideal) x4) (bk0 x4)).trans (h1_eq x0 x1 x3 x4).symm
theorem e2 : h2 x0 x1 x3 x4 = val_main_v74 (F := Ideal) x0 x1 x3 x4 := by
  unfold h2; rw [e1 x0 x1 x3 x4 hpre]
  exact (Cert.Hand.LayerEq.layer_eq x1 hpre _ (w1 x3) (b1 x4) (val_main_v70 (F := Ideal) x4) (bk1 x4)).trans (h2_eq x0 x1 x3 x4).symm
theorem e3 : h3 x0 x1 x3 x4 = val_main_v95 (F := Ideal) x0 x1 x3 x4 := by
  unfold h3; rw [e2 x0 x1 x3 x4 hpre]
  exact (Cert.Hand.LayerEq.layer_eq x1 hpre _ (w2 x3) (b2 x4) (val_main_v91 (F := Ideal) x4) (bk2 x4)).trans (h3_eq x0 x1 x3 x4).symm
theorem e4 : h4 x0 x1 x3 x4 = val_main_v116 (F := Ideal) x0 x1 x3 x4 := by
  unfold h4; rw [e3 x0 x1 x3 x4 hpre]
  exact (Cert.Hand.LayerEq.layer_eq x1 hpre _ (w3 x3) (b3 x4) (val_main_v112 (F := Ideal) x4) (bk3 x4)).trans (h4_eq x0 x1 x3 x4).symm
theorem e5 : h5 x0 x1 x3 x4 = val_main_v137 (F := Ideal) x0 x1 x3 x4 := by
  unfold h5; rw [e4 x0 x1 x3 x4 hpre]
  exact (Cert.Hand.LayerEq.layer_eq x1 hpre _ (w4 x3) (b4 x4) (val_main_v133 (F := Ideal) x4) (bk4 x4)).trans (h5_eq x0 x1 x3 x4).symm

/-- THE BRIDGE: the kernel function's result is the reference's result term. -/
theorem result_eq : result x0 x1 x2 x3 x4 = val_main_v153 (F := Ideal) x0 x1 x2 x3 x4 := by
  rw [Cert.Hand.Pool.result_eq_poolK, Cert.Hand.Pool.v153_eq_poolR, e1 x0 x1 x3 x4 hpre, e2 x0 x1 x3 x4 hpre, e3 x0 x1 x3 x4 hpre,
    e4 x0 x1 x3 x4 hpre, e5 x0 x1 x3 x4 hpre]
  exact Cert.Hand.Pool.pool_eq x2 _ _ _ _ _

end Cert.Hand.ResultEq

end
-- ==== Proof.lean ====
/- The proof of `Cert.Claim` (proofs.«156050_j29892972380736_2_alg».proof.Defs), conjunct by conjunct.

   frame_Kernel, frame_KernelIdeal: the kernel program is the same text read at the machine's floats and at the exact
   values; its @main is 21 segments (11 stretches of host operations, 10 pipelined kernel regions), and the run over
   them terminates with every buffer outside the regions' scoped memory at the fold of the segments' effects from the
   launch memory. No host operation and no region writes an argument array, so the five arguments end as launched.

   frame_ReferenceIdeal: the reference is host operations only; its run ends with the arguments as launched.

   preserves_Kernel_KernelIdeal: the idealization rewrote no operation; there is nothing to preserve.

   algebraic_KernelIdeal_ReferenceIdeal: at the exact values the kernel program's result buffer ends holding `result`
   of the five argument arrays — five graph-convolution layers, each a row-scaled product `(h · W) · d` (a region), a
   gather along the edges and a sum at their target nodes (host operations), and `max (a · d + b) 0` (a region), then the
   per-graph sum of the five layers' outputs side by side. The reference's result buffer ends holding its own composed
   term of its arguments. The two terms are one function of the arguments wherever every target-node index of the edge
   list is a non-negative word, which the precondition's domain conjunct gives; the two programs' arguments agree. -/
import proofs.«156050_j29892972380736_2_alg».proof.Defs
import proofs.«156050_j29892972380736_2_alg».proof.Proof.Gen.Kernel
import proofs.«156050_j29892972380736_2_alg».proof.Proof.Gen.KernelIdeal
import proofs.«156050_j29892972380736_2_alg».proof.Proof.Gen.ReferenceIdeal
import proofs.«156050_j29892972380736_2_alg».proof.Proof.Gen.Pre_finite_inputs
import proofs.«156050_j29892972380736_2_alg».proof.Proof.Gen.ReferenceIdeal.Run
import proofs.«156050_j29892972380736_2_alg».proof.Proof.Gen.ReferenceIdeal.Read
import proofs.«156050_j29892972380736_2_alg».proof.Proof.KB.Run
import proofs.«156050_j29892972380736_2_alg».proof.Proof.KI.Run
import proofs.«156050_j29892972380736_2_alg».proof.Proof.KernelFn
import proofs.«156050_j29892972380736_2_alg».proof.Proof.PreDst
import proofs.«156050_j29892972380736_2_alg».proof.Proof.KI.ValRun
import proofs.«156050_j29892972380736_2_alg».proof.Proof.ResultEq

noncomputable section

namespace Cert.Proof

open Idealize.ShloMosaic Idealize.SL.Sem

/-- The kernel program at the machine's floats runs and leaves its arguments as launched: the run over its segments. -/
theorem frame_k : Cert.frame_Kernel := fun m ρ _ => Cert.Kernel.Hand.frame (F := Bits) m ρ

/-- The same at the exact values. -/
theorem frame_ki : Cert.frame_KernelIdeal := fun m ρ _ => Cert.KernelIdeal.Hand.frame (F := Ideal) m ρ

/-- The reference runs and leaves its arguments as launched: its run of host operations, the result's conjunct dropped. -/
theorem frame_ri : Cert.frame_ReferenceIdeal := fun m ρ _ =>
  (θ_run Cert.ReferenceIdeal.defs _ _).mono (fun _ h c => (h c).2) (Cert.ReferenceIdeal.Value.run (F := Ideal) m ρ)

open Cert.KernelIdeal Cert.KernelIdeal.Hand in
/-- At the exact values both programs end with the result buffer at `result` of the kernel program's arguments: the
    kernel program by its run read stretch by stretch and region by region (`kernel_result`), the reference by its
    composed term, which is the same function of the agreeing arguments under the domain conjunct (`result_eq`). -/
theorem algebraic : Cert.algebraic_KernelIdeal_ReferenceIdeal := by
  intro m ρ m' ρ' hpre hagree
  refine ⟨fun c => result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)), ?_, ?_⟩
  · exact (θ_run Cert.KernelIdeal.defs _ _).mono (fun r h c =>
      ⟨(h c _ (mem_uc main_v107 (by decide))).trans (kernel_result m ρ c),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c)⟩)
      (run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v153_eq, (hagree c).1, (hagree c).2.1, (hagree c).2.2.1, (hagree c).2.2.2.1,
      (hagree c).2.2.2.2]
    exact (Cert.Hand.ResultEq.result_eq _ _ _ _ _
      (fun e => (Cert.Hand.PreDst.dstRow_range _ _ _ _ _ (hpre c) e).1)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
